-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_arg13 : FVec F S64 .f32) (main_v48 : IVec S_ 1) (main_v49 : FVec F S4x128x64 .f32) (main_v50 : FVec F S4x128x64 .f32) : IVec S_ 1 :=
  let main_v51 : IVec S4x128x64 1 := cmpf .olt main_v49 main_v50
  let main_c_19 : IVec S_ 1 := constantI S_ 1 1#1
  let main_v52 : IVec S_ 1 := (fun x v => Host.reduce IntOp.andi x v reducesTo_S4x128x64_S_d0_1_2 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S4x128x64 .f32) (main_arg12 : FVec F S64 .f32) (main_arg13 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S4x128x64 .f32 := Host.absf main_arg11
  let main_cst_18 : FVec F S_ .f32 := constant S_ .f32 0x7F800000#32
  let main_v50 : FVec F S4x128x64 .f32 := broadcastInDim S4x128x64 ![] bcast_S_S4x128x64 main_cst_18
  fn_part3 (F := F) main_arg12 main_arg13 main_v48 main_v49 main_v50

def fn_part1 {F : FTy → Type} [FloatOps F] (main_arg5 : FVec F S128 .f32) (main_arg6 : FVec F S128 .f32) (main_arg7 : FVec F S4x128x128 .f32) (main_arg8 : FVec F S128 .f32) (main_arg9 : FVec F S128 .f32) (main_arg10 : FVec F S128 .f32) (main_arg11 : FVec F S4x128x64 .f32) (main_arg12 : FVec F S64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x128x128 .f32 := Host.absf main_arg7
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x600000 32) (main_arg2 : FVec F S600000 .f32) (main_arg3 : FVec F S4x128x128 .f32) (main_arg4 : FVec F S128 .f32) (main_arg5 : FVec F S128 .f32) (main_arg6 : FVec F S128 .f32) (main_arg7 : FVec F S4x128x128 .f32) (main_arg8 : FVec F S128 .f32) (main_arg9 : FVec F S128 .f32) (main_arg10 : FVec F S128 .f32) (main_arg11 : FVec F S4x128x64 .f32) (main_arg12 : FVec F S64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S1x128 : Shape := ⟨2, ![1, 128]⟩
abbrev S160x128 : Shape := ⟨2, ![160, 128]⟩
abbrev S5000x128 : Shape := ⟨2, ![5000, 128]⟩
abbrev S8x128 : Shape := ⟨2, ![8, 128]⟩
abbrev S1x128x128 : Shape := ⟨3, ![1, 128, 128]⟩
abbrev S128x128 : Shape := ⟨2, ![128, 128]⟩
abbrev S6x128 : Shape := ⟨2, ![6, 128]⟩
abbrev S20x8x128 : Shape := ⟨3, ![20, 8, 128]⟩
abbrev S20x1x128 : Shape := ⟨3, ![20, 1, 128]⟩
abbrev S20x128 : Shape := ⟨2, ![20, 128]⟩
abbrev S1x64 : Shape := ⟨2, ![1, 64]⟩
abbrev S100000x64 : Shape := ⟨2, ![100000, 64]⟩
abbrev S160x64 : Shape := ⟨2, ![160, 64]⟩
abbrev S5000x64 : Shape := ⟨2, ![5000, 64]⟩
abbrev S8x64 : Shape := ⟨2, ![8, 64]⟩
abbrev S1x128x64 : Shape := ⟨3, ![1, 128, 64]⟩
abbrev S128x64 : Shape := ⟨2, ![128, 64]⟩
abbrev S6x64 : Shape := ⟨2, ![6, 64]⟩
abbrev S20x8x64 : Shape := ⟨3, ![20, 8, 64]⟩
abbrev S20x1x64 : Shape := ⟨3, ![20, 1, 64]⟩
abbrev S20x64 : Shape := ⟨2, ![20, 64]⟩

abbrev nBuf : Space → Nat
  | .hbm => 283
  | .vmem => 66
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S4x128x128, .f32⟩
  | 4 => ⟨S128, .f32⟩
  | 5 => ⟨S128, .f32⟩
  | 6 => ⟨S128, .f32⟩
  | 7 => ⟨S4x128x128, .f32⟩
  | 8 => ⟨S128, .f32⟩
  | 9 => ⟨S128, .f32⟩
  | 10 => ⟨S128, .f32⟩
  | 11 => ⟨S4x128x64, .f32⟩
  | 12 => ⟨S64, .f32⟩
  | 13 => ⟨S64, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S100000, .f32⟩
  | 20 => ⟨S600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000, .f32⟩
  | 52 => ⟨S600000, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S600000x1, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S600000x128, .f32⟩
  | 81 => ⟨S_, .f32⟩
  | 82 => ⟨S100000x128, .f32⟩
  | 83 => ⟨S600000x1, .i32⟩
  | 84 => ⟨S100000x128, .f32⟩
  | 85 => ⟨S600000x1, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S600000x128, .f32⟩
  | 96 => ⟨S600000x128, .f32⟩
  | 97 => ⟨S_, .f32⟩
  | 98 => ⟨S100000x128, .f32⟩
  | 99 => ⟨S600000x1, .i32⟩
  | 100 => ⟨S100000x128, .f32⟩
  | 101 => ⟨S1x128, .f32⟩
  | 102 => ⟨S100000x128, .f32⟩
  | 103 => ⟨S160x128, .f32⟩
  | 104 => ⟨S20x8x128, .f32⟩
  | 105 => ⟨S20x1x128, .f32⟩
  | 106 => ⟨S20x128, .f32⟩
  | 107 => ⟨S_, .f32⟩
  | 108 => ⟨S128, .f32⟩
  | 109 => ⟨S20x1x128, .f32⟩
  | 110 => ⟨S20x128, .f32⟩
  | 111 => ⟨S_, .f32⟩
  | 112 => ⟨S128, .f32⟩
  | 113 => ⟨S_, .f32⟩
  | 114 => ⟨S128, .f32⟩
  | 115 => ⟨S128, .f32⟩
  | 116 => ⟨S_, .f32⟩
  | 117 => ⟨S128, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S100000x128, .f32⟩
  | 1 => ⟨S600000x1, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S600000x128, .f32⟩
  | 12 => ⟨S600000x128, .f32⟩
  | 13 => ⟨S_, .f32⟩
  | 14 => ⟨S100000x128, .f32⟩
  | 15 => ⟨S600000x1, .i32⟩
  | 16 => ⟨S100000x128, .f32⟩
  | 17 => ⟨S600000x1, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S600000x128, .f32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S600000x1, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x128, .f32⟩
  | 44 => ⟨S600000x128, .f32⟩
  | 45 => ⟨S_, .f32⟩
  | 46 => ⟨S100000x128, .f32⟩
  | 47 => ⟨S600000x1, .i32⟩
  | 48 => ⟨S100000x128, .f32⟩
  | 49 => ⟨S1x128, .f32⟩
  | 50 => ⟨S100000x128, .f32⟩
  | 51 => ⟨S160x128, .f32⟩
  | 52 => ⟨S20x8x128, .f32⟩
  | 53 => ⟨S20x1x128, .f32⟩
  | 54 => ⟨S20x128, .f32⟩
  | 55 => ⟨S_, .f32⟩
  | 56 => ⟨S128, .f32⟩
  | 57 => ⟨S20x1x128, .f32⟩
  | 58 => ⟨S20x128, .f32⟩
  | 59 => ⟨S_, .f32⟩
  | 60 => ⟨S128, .f32⟩
  | 61 => ⟨S_, .f32⟩
  | 62 => ⟨S128, .f32⟩
  | 63 => ⟨S128, .f32⟩
  | 64 => ⟨S_, .f32⟩
  | 65 => ⟨S128, .f32⟩
  | 66 => ⟨S128, .f32⟩
  | 67 => ⟨S128, .f32⟩
  | 68 => ⟨S128, .f32⟩
  | 69 => ⟨S_, .f32⟩
  | 70 => ⟨S128, .f32⟩
  | 71 => ⟨S128, .f32⟩
  | 72 => ⟨S1x128, .f32⟩
  | 73 => ⟨S1x128, .f32⟩
  | 74 => ⟨S1x128, .f32⟩
  | 75 => ⟨S1x128, .f32⟩
  | 76 => ⟨S100000x128, .f32⟩
  | 77 => ⟨S600000x1, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S600000x128, .f32⟩
  | 88 => ⟨S600000x128, .f32⟩
  | 89 => ⟨S_, .f32⟩
  | 90 => ⟨S100000x128, .f32⟩
  | 91 => ⟨S600000x1, .i32⟩
  | 92 => ⟨S100000x128, .f32⟩
  | 93 => ⟨S600000x1, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S600000x1, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S_, .f32⟩
  | 126 => ⟨S64, .f32⟩
  | 127 => ⟨S1x64, .f32⟩
  | _ => ⟨S100000x128, .f32⟩

abbrev hbmTy0_2 (i : Nat) : BufTy := match i % 128 with
  | 0 => ⟨S100000x64, .f32⟩
  | 1 => ⟨S160x64, .f32⟩
  | 2 => ⟨S20x8x64, .f32⟩
  | 3 => ⟨S20x1x64, .f32⟩
  | 4 => ⟨S20x64, .f32⟩
  | 5 => ⟨S_, .f32⟩
  | 6 => ⟨S64, .f32⟩
  | 7 => ⟨S20x1x64, .f32⟩
  | 8 => ⟨S20x64, .f32⟩
  | 9 => ⟨S_, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S64, .f32⟩
  | 19 => ⟨S_, .f32⟩
  | 20 => ⟨S64, .f32⟩
  | 21 => ⟨S64, .f32⟩
  | 22 => ⟨S1x64, .f32⟩
  | 23 => ⟨S1x64, .f32⟩
  | 24 => ⟨S1x64, .f32⟩
  | 25 => ⟨S1x64, .f32⟩
  | 26 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S4x128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S8x128, .f32⟩
  | .local _ .vmem, ⟨13, _⟩ => ⟨S8x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S4x128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S8x128, .f32⟩
  | .local _ .vmem, ⟨35, _⟩ => ⟨S8x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S4x128x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S8x64, .f32⟩
  | .local _ .vmem, ⟨57, _⟩ => ⟨S8x64, .f32⟩
  | .local _ .vmem, ⟨58, _⟩ => ⟨S5000x64, .f32⟩
  | .local _ .vmem, ⟨59, _⟩ => ⟨S5000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69_0 : Ref sig .tc := ⟨.hbm, 102, rfl⟩
abbrev main_v69_1 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_cst_17 : Ref sig .tc := ⟨.hbm, 113, rfl⟩
abbrev main_v77 : Ref sig .tc := ⟨.hbm, 114, rfl⟩
abbrev main_v78 : Ref sig .tc := ⟨.hbm, 115, rfl⟩
abbrev main_cst_18 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_20 : Ref sig .tc := ⟨.hbm, 130, rfl⟩
abbrev main_v91 : Ref sig .tc := ⟨.hbm, 131, rfl⟩
abbrev main_v92 : Ref sig .tc := ⟨.hbm, 132, rfl⟩
abbrev main_c_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_23 : Ref sig .tc := ⟨.hbm, 146, rfl⟩
abbrev main_v104 : Ref sig .tc := ⟨.hbm, 147, rfl⟩
abbrev main_v105 : Ref sig .tc := ⟨.hbm, 148, rfl⟩
abbrev main_c_24 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_25 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_26 : Ref sig .tc := ⟨.hbm, 162, rfl⟩
abbrev main_v117 : Ref sig .tc := ⟨.hbm, 163, rfl⟩
abbrev main_v118 : Ref sig .tc := ⟨.hbm, 164, rfl⟩
abbrev main_c_27 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_28 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130_0 : Ref sig .tc := ⟨.hbm, 178, rfl⟩
abbrev main_v130_1 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_29 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_30 : Ref sig .tc := ⟨.hbm, 187, rfl⟩
abbrev main_v137 : Ref sig .tc := ⟨.hbm, 188, rfl⟩
abbrev main_cst_31 : Ref sig .tc := ⟨.hbm, 189, rfl⟩
abbrev main_v138 : Ref sig .tc := ⟨.hbm, 190, rfl⟩
abbrev main_v139 : Ref sig .tc := ⟨.hbm, 191, rfl⟩
abbrev main_cst_32 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_33 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_c_34 : Ref sig .tc := ⟨.hbm, 206, rfl⟩
abbrev main_v152 : Ref sig .tc := ⟨.hbm, 207, rfl⟩
abbrev main_v153 : Ref sig .tc := ⟨.hbm, 208, rfl⟩
abbrev main_c_35 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_36 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_37 : Ref sig .tc := ⟨.hbm, 222, rfl⟩
abbrev main_v165 : Ref sig .tc := ⟨.hbm, 223, rfl⟩
abbrev main_v166 : Ref sig .tc := ⟨.hbm, 224, rfl⟩
abbrev main_c_38 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_39 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_c_40 : Ref sig .tc := ⟨.hbm, 238, rfl⟩
abbrev main_v178 : Ref sig .tc := ⟨.hbm, 239, rfl⟩
abbrev main_v179 : Ref sig .tc := ⟨.hbm, 240, rfl⟩
abbrev main_c_41 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_cst_42 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_43 : Ref sig .tc := ⟨.hbm, 253, rfl⟩
abbrev main_v190 : Ref sig .tc := ⟨.hbm, 254, rfl⟩
abbrev main_v191 : Ref sig .tc := ⟨.hbm, 255, rfl⟩
abbrev main_v192_0 : Ref sig .tc := ⟨.hbm, 256, rfl⟩
abbrev main_v192_1 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_44 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_cst_45 : Ref sig .tc := ⟨.hbm, 265, rfl⟩
abbrev main_v199 : Ref sig .tc := ⟨.hbm, 266, rfl⟩
abbrev main_cst_46 : Ref sig .tc := ⟨.hbm, 267, rfl⟩
abbrev main_v200 : Ref sig .tc := ⟨.hbm, 268, rfl⟩
abbrev main_v201 : Ref sig .tc := ⟨.hbm, 269, rfl⟩
abbrev main_cst_47 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_cst_48 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg6_1 : Ref sig .tc := ⟨.vmem, 55, rfl⟩
abbrev cc4_stg7_0 : Ref sig .tc := ⟨.vmem, 56, rfl⟩
abbrev cc4_stg7_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem5_0 : DmaSem sig := 53
abbrev cc4_sem6_0 : DmaSem sig := 54
abbrev cc4_sem6_1 : DmaSem sig := 55
abbrev cc4_sem7_0 : DmaSem sig := 56
abbrev cc4_sem7_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem5_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S4x128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S5000x128_S5000x128 : S5000x128.ShapeCasts S5000x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S8x128_S1x128_0_0 : ∀ a, (![0, 0] : Fin 2 → Nat) a + S1x128.size a ≤ S8x128.size a
  inb_S8x128_S1x128_1_0 : ∀ a, (![1, 0] : Fin 2 → Nat) a + S1x128.size a ≤ S8x128.size a
  inb_S8x128_S6x128_2_0 : ∀ a, (![2, 0] : Fin 2 → Nat) a + S6x128.size a ≤ S8x128.size a
  h_S6x128 : 0 < S6x128.numel
  shapeCasts_S160x128_S20x8x128 : S160x128.ShapeCasts S20x8x128
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  h_S_ : 0 < S_.numel
  slices_S20x8x128_S20x1x128_0_1_0 : S20x8x128.Slices ![0, 1, 0] S20x1x128
  bcast_S_S128 : S_.BroadcastsInDim S128 (![] : Fin 0 → Fin S128.rank)
  bcast_S_S64 : S_.BroadcastsInDim S64 (![] : Fin 0 → Fin S64.rank)
  shapeCasts_S64_S1x64 : S64.ShapeCasts S1x64
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  inb_S4x128x64_S1x128x64_1_0_0 : ∀ a, (![1, 0, 0] : Fin 3 → Nat) a + S1x128x64.size a ≤ S4x128x64.size a
  inb_S4x128x64_S1x128x64_2_0_0 : ∀ a, (![2, 0, 0] : Fin 3 → Nat) a + S1x128x64.size a ≤ S4x128x64.size a
  inb_S4x128x64_S1x128x64_3_0_0 : ∀ a, (![3, 0, 0] : Fin 3 → Nat) a + S1x128x64.size a ≤ S4x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  inb_S8x64_S1x64_0_0 : ∀ a, (![0, 0] : Fin 2 → Nat) a + S1x64.size a ≤ S8x64.size a
  inb_S8x64_S1x64_1_0 : ∀ a, (![1, 0] : Fin 2 → Nat) a + S1x64.size a ≤ S8x64.size a
  inb_S8x64_S6x64_2_0 : ∀ a, (![2, 0] : Fin 2 → Nat) a + S6x64.size a ≤ S8x64.size a
  h_S6x64 : 0 < S6x64.numel
  shapeCasts_S160x64_S20x8x64 : S160x64.ShapeCasts S20x8x64
  slices_S20x8x64_S20x1x64_0_0_0 : S20x8x64.Slices ![0, 0, 0] S20x1x64
  shapeCasts_S20x1x64_S20x64 : S20x1x64.ShapeCasts S20x64
  reducesTo_S20x64_S64_d0 : S20x64.ReducesTo [0] S64
  slices_S20x8x64_S20x1x64_0_1_0 : S20x8x64.Slices ![0, 1, 0] S20x1x64
  shapeCasts_S5000x64_S5000x64 : S5000x64.ShapeCasts S5000x64
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S160x128.size a
  hwx0_7 : ∀ i : grid0.Coords, EltTy.bits .f32 = 32 ∨ (Rect.block (s := S160x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x128x128.size a ≤ S4x128x128.size a
  hwx2_4 : ∀ i : grid2.Coords, EltTy.bits .f32 = 32 ∨ (Rect.block (s := S4x128x128) S4x128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S160x128.size a
  hwx2_7 : ∀ i : grid2.Coords, EltTy.bits .f32 = 32 ∨ (Rect.block (s := S160x128) S8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4x128x64.size a ≤ S4x128x64.size a
  hwx4_4 : ∀ i : grid4.Coords, EltTy.bits .f32 = 32 ∨ (Rect.block (s := S4x128x64) S4x128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x64.size a ≤ S160x64.size a
  hwx4_7 : ∀ i : grid4.Coords, EltTy.bits .f32 = 32 ∨ (Rect.block (s := S160x64) S8x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v69_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v69_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v115) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v128) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S4x128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v129) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v130_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v130_1) S8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v130_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v146) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v147) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v148) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v149) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v150) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v150) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v163) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v176) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v189) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S4x128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v191) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v192_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v192_1) S8x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v192_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v208) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v209) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v210) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v211) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v212) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S4x128x128 : Shape := ⟨3, ![4, 128, 128]⟩
abbrev S128 : Shape := ⟨1, ![128]⟩
abbrev S4x128x64 : Shape := ⟨3, ![4, 128, 64]⟩
abbrev S64 : Shape := ⟨1, ![64]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S1x128x128 : Shape := ⟨3, ![1, 128, 128]⟩
abbrev S128x128 : Shape := ⟨2, ![128, 128]⟩
abbrev S600000x128 : Shape := ⟨2, ![600000, 128]⟩
abbrev S1x128 : Shape := ⟨2, ![1, 128]⟩
abbrev S1x128x64 : Shape := ⟨3, ![1, 128, 64]⟩
abbrev S128x64 : Shape := ⟨2, ![128, 64]⟩
abbrev S100000x64 : Shape := ⟨2, ![100000, 64]⟩
abbrev S1x64 : Shape := ⟨2, ![1, 64]⟩

abbrev nBuf : Space → Nat
  | .hbm => 362
  | .vmem => 0
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S4x128x128, .f32⟩
  | 4 => ⟨S128, .f32⟩
  | 5 => ⟨S128, .f32⟩
  | 6 => ⟨S128, .f32⟩
  | 7 => ⟨S4x128x128, .f32⟩
  | 8 => ⟨S128, .f32⟩
  | 9 => ⟨S128, .f32⟩
  | 10 => ⟨S128, .f32⟩
  | 11 => ⟨S4x128x64, .f32⟩
  | 12 => ⟨S64, .f32⟩
  | 13 => ⟨S64, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S100000, .f32⟩
  | 20 => ⟨S600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000, .f32⟩
  | 52 => ⟨S600000, .f32⟩
  | 53 => ⟨S1x128x128, .f32⟩
  | 54 => ⟨S128x128, .f32⟩
  | 55 => ⟨S100000x128, .f32⟩
  | 56 => ⟨S600000x1, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S600000x128, .f32⟩
  | 68 => ⟨S_, .f32⟩
  | 69 => ⟨S100000x128, .f32⟩
  | 70 => ⟨S600000x1, .i32⟩
  | 71 => ⟨S100000x128, .f32⟩
  | 72 => ⟨S1x128x128, .f32⟩
  | 73 => ⟨S128x128, .f32⟩
  | 74 => ⟨S100000x128, .f32⟩
  | 75 => ⟨S100000x128, .f32⟩
  | 76 => ⟨S600000x1, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x128, .f32⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S1x128x128, .f32⟩
  | 93 => ⟨S128x128, .f32⟩
  | 94 => ⟨S100000x128, .f32⟩
  | 95 => ⟨S100000x128, .f32⟩
  | 96 => ⟨S600000x1, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S600000x128, .f32⟩
  | 107 => ⟨S600000x128, .f32⟩
  | 108 => ⟨S_, .f32⟩
  | 109 => ⟨S100000x128, .f32⟩
  | 110 => ⟨S600000x1, .i32⟩
  | 111 => ⟨S100000x128, .f32⟩
  | 112 => ⟨S1x128x128, .f32⟩
  | 113 => ⟨S128x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S600000x1, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x128, .f32⟩
  | 43 => ⟨S600000x128, .f32⟩
  | 44 => ⟨S_, .f32⟩
  | 45 => ⟨S100000x128, .f32⟩
  | 46 => ⟨S600000x1, .i32⟩
  | 47 => ⟨S100000x128, .f32⟩
  | 48 => ⟨S1x128x128, .f32⟩
  | 49 => ⟨S128x128, .f32⟩
  | 50 => ⟨S100000x128, .f32⟩
  | 51 => ⟨S100000x128, .f32⟩
  | 52 => ⟨S600000x1, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S1x128x128, .f32⟩
  | 69 => ⟨S128x128, .f32⟩
  | 70 => ⟨S100000x128, .f32⟩
  | 71 => ⟨S100000x128, .f32⟩
  | 72 => ⟨S600000x1, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S600000x128, .f32⟩
  | 83 => ⟨S600000x128, .f32⟩
  | 84 => ⟨S_, .f32⟩
  | 85 => ⟨S100000x128, .f32⟩
  | 86 => ⟨S600000x1, .i32⟩
  | 87 => ⟨S100000x128, .f32⟩
  | 88 => ⟨S1x128x128, .f32⟩
  | 89 => ⟨S128x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S128, .f32⟩
  | 106 => ⟨S_, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S128, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S_, .f32⟩
  | 127 => ⟨S100000x128, .f32⟩
  | _ => ⟨S100000x128, .f32⟩

abbrev hbmTy0_2 (i : Nat) : BufTy := match i % 128 with
  | 0 => ⟨S100000x128, .i1⟩
  | 1 => ⟨S_, .f32⟩
  | 2 => ⟨S100000x128, .f32⟩
  | 3 => ⟨S100000x128, .f32⟩
  | 4 => ⟨S100000x128, .f32⟩
  | 5 => ⟨S1x128x64, .f32⟩
  | 6 => ⟨S128x64, .f32⟩
  | 7 => ⟨S100000x64, .f32⟩
  | 8 => ⟨S600000x1, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x128, .f32⟩
  | 19 => ⟨S600000x128, .f32⟩
  | 20 => ⟨S_, .f32⟩
  | 21 => ⟨S100000x128, .f32⟩
  | 22 => ⟨S600000x1, .i32⟩
  | 23 => ⟨S100000x128, .f32⟩
  | 24 => ⟨S1x128x64, .f32⟩
  | 25 => ⟨S128x64, .f32⟩
  | 26 => ⟨S100000x64, .f32⟩
  | 27 => ⟨S100000x64, .f32⟩
  | 28 => ⟨S600000x1, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x128, .f32⟩
  | 39 => ⟨S600000x128, .f32⟩
  | 40 => ⟨S_, .f32⟩
  | 41 => ⟨S100000x128, .f32⟩
  | 42 => ⟨S600000x1, .i32⟩
  | 43 => ⟨S100000x128, .f32⟩
  | 44 => ⟨S1x128x64, .f32⟩
  | 45 => ⟨S128x64, .f32⟩
  | 46 => ⟨S100000x64, .f32⟩
  | 47 => ⟨S100000x64, .f32⟩
  | 48 => ⟨S600000x1, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x128, .f32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S1x128x64, .f32⟩
  | 65 => ⟨S128x64, .f32⟩
  | 66 => ⟨S100000x64, .f32⟩
  | 67 => ⟨S100000x64, .f32⟩
  | 68 => ⟨S_, .f32⟩
  | 69 => ⟨S64, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S64, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S_, .f32⟩
  | 100 => ⟨S100000x64, .f32⟩
  | 101 => ⟨S100000x64, .i1⟩
  | 102 => ⟨S_, .f32⟩
  | 103 => ⟨S100000x64, .f32⟩
  | 104 => ⟨S100000x64, .f32⟩
  | 105 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_20 : Ref sig .tc := ⟨.hbm, 149, rfl⟩
abbrev main_call1_cst : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_21 : Ref sig .tc := ⟨.hbm, 161, rfl⟩
abbrev main_v116 : Ref sig .tc := ⟨.hbm, 162, rfl⟩
abbrev main_v117 : Ref sig .tc := ⟨.hbm, 163, rfl⟩
abbrev main_c_22 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_23 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_24 : Ref sig .tc := ⟨.hbm, 181, rfl⟩
abbrev main_v133 : Ref sig .tc := ⟨.hbm, 182, rfl⟩
abbrev main_v134 : Ref sig .tc := ⟨.hbm, 183, rfl⟩
abbrev main_c_25 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_26 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_27 : Ref sig .tc := ⟨.hbm, 201, rfl⟩
abbrev main_v150 : Ref sig .tc := ⟨.hbm, 202, rfl⟩
abbrev main_v151 : Ref sig .tc := ⟨.hbm, 203, rfl⟩
abbrev main_c_28 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_29 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_cst_30 : Ref sig .tc := ⟨.hbm, 223, rfl⟩
abbrev main_v169 : Ref sig .tc := ⟨.hbm, 224, rfl⟩
abbrev main_cst_31 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_32 : Ref sig .tc := ⟨.hbm, 232, rfl⟩
abbrev main_v176 : Ref sig .tc := ⟨.hbm, 233, rfl⟩
abbrev main_cst_33 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_34 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_35 : Ref sig .tc := ⟨.hbm, 253, rfl⟩
abbrev main_call2_cst : Ref sig .tc := ⟨.hbm, 254, rfl⟩
abbrev main_call2_v0 : Ref sig .tc := ⟨.hbm, 255, rfl⟩
abbrev main_call2_v1 : Ref sig .tc := ⟨.hbm, 256, rfl⟩
abbrev main_call2_v2 : Ref sig .tc := ⟨.hbm, 257, rfl⟩
abbrev main_call2_v3 : Ref sig .tc := ⟨.hbm, 258, rfl⟩
abbrev main_call2_v4 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_c_36 : Ref sig .tc := ⟨.hbm, 265, rfl⟩
abbrev main_v199 : Ref sig .tc := ⟨.hbm, 266, rfl⟩
abbrev main_v200 : Ref sig .tc := ⟨.hbm, 267, rfl⟩
abbrev main_c_37 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_cst_38 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_c_39 : Ref sig .tc := ⟨.hbm, 285, rfl⟩
abbrev main_v216 : Ref sig .tc := ⟨.hbm, 286, rfl⟩
abbrev main_v217 : Ref sig .tc := ⟨.hbm, 287, rfl⟩
abbrev main_c_40 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_41 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_c_42 : Ref sig .tc := ⟨.hbm, 305, rfl⟩
abbrev main_v233 : Ref sig .tc := ⟨.hbm, 306, rfl⟩
abbrev main_v234 : Ref sig .tc := ⟨.hbm, 307, rfl⟩
abbrev main_c_43 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_cst_44 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_cst_45 : Ref sig .tc := ⟨.hbm, 324, rfl⟩
abbrev main_v249 : Ref sig .tc := ⟨.hbm, 325, rfl⟩
abbrev main_cst_46 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_cst_47 : Ref sig .tc := ⟨.hbm, 333, rfl⟩
abbrev main_v256 : Ref sig .tc := ⟨.hbm, 334, rfl⟩
abbrev main_cst_48 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_cst_49 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_cst_50 : Ref sig .tc := ⟨.hbm, 354, rfl⟩
abbrev main_call3_cst : Ref sig .tc := ⟨.hbm, 355, rfl⟩
abbrev main_call3_v0 : Ref sig .tc := ⟨.hbm, 356, rfl⟩
abbrev main_call3_v1 : Ref sig .tc := ⟨.hbm, 357, rfl⟩
abbrev main_call3_v2 : Ref sig .tc := ⟨.hbm, 358, rfl⟩
abbrev main_call3_v3 : Ref sig .tc := ⟨.hbm, 359, rfl⟩
abbrev main_call3_v4 : Ref sig .tc := ⟨.hbm, 360, rfl⟩
abbrev main_v274 : Ref sig .tc := ⟨.hbm, 361, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  bcast_S_S600000 : S_.BroadcastsInDim S600000 (![] : Fin 0 → Fin S600000.rank)
  slices_S4x128x128_S1x128x128_0_0_0 : S4x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S4x128x64_S1x128x64_0_0_0 : S4x128x64.Slices ![0, 0, 0] S1x128x64
  shapeCasts_S1x128x64_S128x64 : S1x128x64.ShapeCasts S128x64
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x64_S100000x64_1_0_0_1_n_n_wf : DotDims.WF S100000x128 S128x64 S100000x64 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefOps0.lean ====
/- Window 0 of the reference program's @main: its host operations as a list, in order — each outlined function's
   body written at its call site over that call's buffers —, the references the window writes, and that the window
   of @main is this list run in order. -/
import proofs.«167710_j39049842655736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 62 operations, in order. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.unary main_v3 main_v5 (broadcastInDim S600000x1 ![0] bcast_S600000_S600000x1_0 : (⟨S600000, .i32⟩ : BufTy).Contents (Elt F) → (⟨S600000x1, .i32⟩ : BufTy).Contents (Elt F)),
    StableHlo.ternary main_v4 main_v5 main_arg2 main_v6 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.binary main_v6 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_1 (constant S_ .f32 0x2B8CBCCC#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v6 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S100000 ![] bcast_S_S100000),
    StableHlo.TRef.ternary (.of main_v8) (.of main_v11) main_call0.v1 main_call0.v2 select,
    StableHlo.nullary main_c (constantI S_ 32 0#32),
    StableHlo.unary main_c main_v13 (broadcastInDim S600000 ![] bcast_S_S600000 : (⟨S_, .i32⟩ : BufTy).Contents (Elt F) → (⟨S600000, .i32⟩ : BufTy).Contents (Elt F)),
    StableHlo.binary main_v1 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 100000#32),
    StableHlo.unary main_c_3 main_v15 (broadcastInDim S600000 ![] bcast_S_S600000 : (⟨S_, .i32⟩ : BufTy).Contents (Elt F) → (⟨S600000, .i32⟩ : BufTy).Contents (Elt F)),
    StableHlo.binary main_v1 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_v12 main_v18 main_v19 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v19 main_arg2 main_v20 (mulf : (⟨S600000, .f32⟩ : BufTy).Contents (Elt F) → (⟨S600000, .f32⟩ : BufTy).Contents (Elt F) → (⟨S600000, .f32⟩ : BufTy).Contents (Elt F)),
    StableHlo.nullary main_c_4 (constantI S_ 32 0#32),
    StableHlo.unary main_c_4 main_v21 (broadcastInDim S600000 ![] bcast_S_S600000 : (⟨S_, .i32⟩ : BufTy).Contents (Elt F) → (⟨S600000, .i32⟩ : BufTy).Contents (Elt F)),
    StableHlo.binary main_v3 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 100000#32),
    StableHlo.unary main_c_5 main_v23 (broadcastInDim S600000 ![] bcast_S_S600000 : (⟨S_, .i32⟩ : BufTy).Contents (Elt F) → (⟨S600000, .i32⟩ : BufTy).Contents (Elt F)),
    StableHlo.binary main_v3 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v12 main_v26 main_v27 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v20 main_v27 main_v28 (mulf : (⟨S600000, .f32⟩ : BufTy).Contents (Elt F) → (⟨S600000, .f32⟩ : BufTy).Contents (Elt F) → (⟨S600000, .f32⟩ : BufTy).Contents (Elt F)),
    StableHlo.unary main_arg3 main_v29 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v29 main_v30 rfl shapeCasts_S1x128x128_S128x128,
    StableHlo.binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v28 main_v32 (broadcastInDim S600000x1 ![0] bcast_S600000_S600000x1_0 : (⟨S600000, .f32⟩ : BufTy).Contents (Elt F) → (⟨S600000x1, .f32⟩ : BufTy).Contents (Elt F)),
    StableHlo.nullary main_c_6 (constantI S_ 32 0#32),
    StableHlo.unary main_c_6 main_v33 (broadcastInDim S600000 ![] bcast_S_S600000 : (⟨S_, .i32⟩ : BufTy).Contents (Elt F) → (⟨S600000, .i32⟩ : BufTy).Contents (Elt F)),
    StableHlo.binary main_v1 main_v33 main_v34 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 100000#32),
    StableHlo.unary main_c_7 main_v35 (broadcastInDim S600000 ![] bcast_S_S600000 : (⟨S_, .i32⟩ : BufTy).Contents (Elt F) → (⟨S600000, .i32⟩ : BufTy).Contents (Elt F)),
    StableHlo.binary main_v1 main_v35 main_v36 (addi : (⟨S600000, .i32⟩ : BufTy).Contents (Elt F) → (⟨S600000, .i32⟩ : BufTy).Contents (Elt F) → (⟨S600000, .i32⟩ : BufTy).Contents (Elt F)),
    StableHlo.ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v37 main_v38 (broadcastInDim S600000x1 ![0] bcast_S600000_S600000x1_0 : (⟨S600000, .i32⟩ : BufTy).Contents (Elt F) → (⟨S600000x1, .i32⟩ : BufTy).Contents (Elt F)),
    StableHlo.binary main_arg0 main_v38 main_v39 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v32 main_v40 (broadcastInDim S600000x128 ![0, 1] bcast_S600000x1_S600000x128_0_1 : (⟨S600000x1, .f32⟩ : BufTy).Contents (Elt F) → (⟨S600000x128, .f32⟩ : BufTy).Contents (Elt F)),
    StableHlo.binary main_v40 main_v39 main_v41 (mulf : (⟨S600000x128, .f32⟩ : BufTy).Contents (Elt F) → (⟨S600000x128, .f32⟩ : BufTy).Contents (Elt F) → (⟨S600000x128, .f32⟩ : BufTy).Contents (Elt F)),
    StableHlo.nullary main_cst_8 (constant S_ .f32 0x00000000#32),
    StableHlo.unary main_cst_8 main_v42 (broadcastInDim S100000x128 ![] bcast_S_S100000x128 : (⟨S_, .f32⟩ : BufTy).Contents (Elt F) → (⟨S100000x128, .f32⟩ : BufTy).Contents (Elt F)),
    StableHlo.unary main_v3 main_v43 (broadcastInDim S600000x1 ![0] bcast_S600000_S600000x1_0 : (⟨S600000, .i32⟩ : BufTy).Contents (Elt F) → (⟨S600000x1, .i32⟩ : BufTy).Contents (Elt F)),
    StableHlo.ternary main_v42 main_v43 main_v41 main_v44 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg3 main_v45 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v31 main_v47 main_v48 (addf : (⟨S100000x128, .f32⟩ : BufTy).Contents (Elt F) → (⟨S100000x128, .f32⟩ : BufTy).Contents (Elt F) → (⟨S100000x128, .f32⟩ : BufTy).Contents (Elt F)) ]

/-- Every reference the window writes. -/
abbrev writes0 : List (Ref sig .tc) :=
  [ main_v0, main_v1, main_v2, main_v3, main_cst, main_v4, main_v5, main_v6, main_cst_0, main_v7, main_v8, main_cst_1, main_v9, main_v10, main_v11, main_cst_2, main_call0.v0.ref, main_call0.v1.ref, main_call0.v2.ref, main_c, main_v13, main_v14, main_c_3, main_v15, main_v16, main_v17, main_v18, main_v19, main_v20, main_c_4, main_v21, main_v22, main_c_5, main_v23, main_v24, main_v25, main_v26, main_v27, main_v28, main_v29, main_v30, main_v31, main_v32, main_c_6, main_v33, main_v34, main_c_7, main_v35, main_v36, main_v37, main_v38, main_v39, main_v40, main_v41, main_cst_8, main_v42, main_v43, main_v44, main_v45, main_v46, main_v47, main_v48 ]

set_option maxRecDepth 4096 in
set_option maxHeartbeats 4000000 in
/-- The window is its operations run in order. -/
theorem part0_eq (d : Dev nD) : main_part0 (F := F) d = seq ops0 := by
  simp only [main_part0, fn_where.body, seq, bind_assoc, pure_bind]
  rfl

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub ..⟩

theorem ops0_fresh : (ops0 : List (HloOp τ sig (Elt F))).Forall fun op => op.fresh = ∅ := by
  simp only [List.Forall]; repeat' constructor

set_option maxRecDepth 4096 in
theorem ops0_writes : (ops0 : List (HloOp τ sig (Elt F))).Forall fun op => op.writes ⊆ (writes0.map (Proc.devRef (τ := τ) .tc)).toFinset := by
  simp only [List.Forall, nullary_writes, unary_writes, binary_writes, ternary_writes, quaternary_writes, reshape_writes,
    Finset.singleton_subset_iff, List.mem_toFinset]
  repeat' apply And.intro
  all_goals exact List.mem_map_of_mem (by decide)

end Cert.ReferenceIdeal.RefRun

end
-- ==== Proof.RefOps1.lean ====
/- Window 1 of the reference program's @main: its host operations as a list, in order — each outlined function's
   body written at its call site over that call's buffers —, the references the window writes, and that the window
   of @main is this list run in order. -/
import proofs.«167710_j39049842655736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops1 : List (HloOp τ sig (Elt F)) :=
  [ StableHlo.unary main_v28 main_v49 (broadcastInDim S600000x1 ![0] bcast_S600000_S600000x1_0 : (⟨S600000, .f32⟩ : BufTy).Contents (Elt F) → (⟨S600000x1, .f32⟩ : BufTy).Contents (Elt F)),
    StableHlo.nullary main_c_9 (constantI S_ 32 0#32),
    StableHlo.unary main_c_9 main_v50 (broadcastInDim S600000 ![] bcast_S_S600000 : (⟨S_, .i32⟩ : BufTy).Contents (Elt F) → (⟨S600000, .i32⟩ : BufTy).Contents (Elt F)),
    StableHlo.binary main_v1 main_v50 main_v51 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 100000#32),
    StableHlo.unary main_c_10 main_v52 (broadcastInDim S600000 ![] bcast_S_S600000 : (⟨S_, .i32⟩ : BufTy).Contents (Elt F) → (⟨S600000, .i32⟩ : BufTy).Contents (Elt F)),
    StableHlo.binary main_v1 main_v52 main_v53 (addi : (⟨S600000, .i32⟩ : BufTy).Contents (Elt F) → (⟨S600000, .i32⟩ : BufTy).Contents (Elt F) → (⟨S600000, .i32⟩ : BufTy).Contents (Elt F)),
    StableHlo.ternary main_v51 main_v53 main_v1 main_v54 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v54 main_v55 (broadcastInDim S600000x1 ![0] bcast_S600000_S600000x1_0 : (⟨S600000, .i32⟩ : BufTy).Contents (Elt F) → (⟨S600000x1, .i32⟩ : BufTy).Contents (Elt F)),
    StableHlo.binary main_v44 main_v55 main_v56 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v49 main_v57 (broadcastInDim S600000x128 ![0, 1] bcast_S600000x1_S600000x128_0_1 : (⟨S600000x1, .f32⟩ : BufTy).Contents (Elt F) → (⟨S600000x128, .f32⟩ : BufTy).Contents (Elt F)),
    StableHlo.binary main_v57 main_v56 main_v58 (mulf : (⟨S600000x128, .f32⟩ : BufTy).Contents (Elt F) → (⟨S600000x128, .f32⟩ : BufTy).Contents (Elt F) → (⟨S600000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v3 main_v60 (broadcastInDim S600000x1 ![0] bcast_S600000_S600000x1_0 : (⟨S600000, .i32⟩ : BufTy).Contents (Elt F) → (⟨S600000x1, .i32⟩ : BufTy).Contents (Elt F)),
    StableHlo.ternary main_v59 main_v60 main_v58 main_v61 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg3 main_v62 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v62 main_v63 rfl shapeCasts_S1x128x128_S128x128,
    StableHlo.binary main_v61 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v48 main_v64 main_v65 (addf : (⟨S100000x128, .f32⟩ : BufTy).Contents (Elt F) → (⟨S100000x128, .f32⟩ : BufTy).Contents (Elt F) → (⟨S100000x128, .f32⟩ : BufTy).Contents (Elt F)),
    StableHlo.unary main_v28 main_v66 (broadcastInDim S600000x1 ![0] bcast_S600000_S600000x1_0 : (⟨S600000, .f32⟩ : BufTy).Contents (Elt F) → (⟨S600000x1, .f32⟩ : BufTy).Contents (Elt F)),
    StableHlo.nullary main_c_12 (constantI S_ 32 0#32),
    StableHlo.unary main_c_12 main_v67 (broadcastInDim S600000 ![] bcast_S_S600000 : (⟨S_, .i32⟩ : BufTy).Contents (Elt F) → (⟨S600000, .i32⟩ : BufTy).Contents (Elt F)),
    StableHlo.binary main_v1 main_v67 main_v68 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v69 (broadcastInDim S600000 ![] bcast_S_S600000 : (⟨S_, .i32⟩ : BufTy).Contents (Elt F) → (⟨S600000, .i32⟩ : BufTy).Contents (Elt F)),
    StableHlo.binary main_v1 main_v69 main_v70 (addi : (⟨S600000, .i32⟩ : BufTy).Contents (Elt F) → (⟨S600000, .i32⟩ : BufTy).Contents (Elt F) → (⟨S600000, .i32⟩ : BufTy).Contents (Elt F)),
    StableHlo.ternary main_v68 main_v70 main_v1 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v71 main_v72 (broadcastInDim S600000x1 ![0] bcast_S600000_S600000x1_0 : (⟨S600000, .i32⟩ : BufTy).Contents (Elt F) → (⟨S600000x1, .i32⟩ : BufTy).Contents (Elt F)),
    StableHlo.binary main_v61 main_v72 main_v73 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v66 main_v74 (broadcastInDim S600000x128 ![0, 1] bcast_S600000x1_S600000x128_0_1 : (⟨S600000x1, .f32⟩ : BufTy).Contents (Elt F) → (⟨S600000x128, .f32⟩ : BufTy).Contents (Elt F)),
    StableHlo.binary main_v74 main_v73 main_v75 (mulf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v76 (broadcastInDim S100000x128 ![] bcast_S_S100000x128 : (⟨S_, .f32⟩ : BufTy).Contents (Elt F) → (⟨S100000x128, .f32⟩ : BufTy).Contents (Elt F)),
    StableHlo.unary main_v3 main_v77 (broadcastInDim S600000x1 ![0] bcast_S600000_S600000x1_0 : (⟨S600000, .i32⟩ : BufTy).Contents (Elt F) → (⟨S600000x1, .i32⟩ : BufTy).Contents (Elt F)),
    StableHlo.ternary main_v76 main_v77 main_v75 main_v78 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg3 main_v79 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v79 main_v80 rfl shapeCasts_S1x128x128_S128x128,
    StableHlo.binary main_v78 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v65 main_v81 main_v82 (addf : (⟨S100000x128, .f32⟩ : BufTy).Contents (Elt F) → (⟨S100000x128, .f32⟩ : BufTy).Contents (Elt F) → (⟨S100000x128, .f32⟩ : BufTy).Contents (Elt F)),
    StableHlo.unary main_arg4 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v84 main_v85 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v85 main_cst_15 main_v86 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v90 main_v91 (subf : (⟨S100000x128, .f32⟩ : BufTy).Contents (Elt F) → (⟨S100000x128, .f32⟩ : BufTy).Contents (Elt F) → (⟨S100000x128, .f32⟩ : BufTy).Contents (Elt F)),
    StableHlo.binary main_v91 main_v91 main_v92 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v92 main_cst_17 main_v93 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v94 (broadcastInDim S128 ![] bcast_S_S128 : (⟨S_, .f32⟩ : BufTy).Contents (Elt F) → (⟨S128, .f32⟩ : BufTy).Contents (Elt F)),
    StableHlo.binary main_v93 main_v94 main_v95 (Host.divf : (⟨S128, .f32⟩ : BufTy).Contents (Elt F) → (⟨S128, .f32⟩ : BufTy).Contents (Elt F) → (⟨S128, .f32⟩ : BufTy).Contents (Elt F)),
    StableHlo.unary main_v88 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v97 main_v98 (subf : (⟨S100000x128, .f32⟩ : BufTy).Contents (Elt F) → (⟨S100000x128, .f32⟩ : BufTy).Contents (Elt F) → (⟨S100000x128, .f32⟩ : BufTy).Contents (Elt F)) ]

/-- Every reference the window writes. -/
abbrev writes1 : List (Ref sig .tc) :=
  [ main_v49, main_c_9, main_v50, main_v51, main_c_10, main_v52, main_v53, main_v54, main_v55, main_v56, main_v57, main_v58, main_cst_11, main_v59, main_v60, main_v61, main_v62, main_v63, main_v64, main_v65, main_v66, main_c_12, main_v67, main_v68, main_c_13, main_v69, main_v70, main_v71, main_v72, main_v73, main_v74, main_v75, main_cst_14, main_v76, main_v77, main_v78, main_v79, main_v80, main_v81, main_v82, main_v83, main_v84, main_v85, main_cst_15, main_v86, main_cst_16, main_v87, main_v88, main_v89, main_v90, main_v91, main_v92, main_cst_17, main_v93, main_cst_18, main_v94, main_v95, main_v96, main_v97, main_v98 ]

set_option maxRecDepth 4096 in
set_option maxHeartbeats 4000000 in
/-- The window is its operations run in order. -/
theorem part1_eq (d : Dev nD) : main_part1 (F := F) d = seq ops1 := by
  simp only [main_part1, seq, bind_assoc, pure_bind]
  rfl

theorem ops1_sub : (ops1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub ..⟩

theorem ops1_fresh : (ops1 : List (HloOp τ sig (Elt F))).Forall fun op => op.fresh = ∅ := by
  simp only [List.Forall]; repeat' constructor

set_option maxRecDepth 4096 in
theorem ops1_writes : (ops1 : List (HloOp τ sig (Elt F))).Forall fun op => op.writes ⊆ (writes1.map (Proc.devRef (τ := τ) .tc)).toFinset := by
  simp only [List.Forall, nullary_writes, unary_writes, binary_writes, ternary_writes, quaternary_writes, reshape_writes,
    Finset.singleton_subset_iff, List.mem_toFinset]
  repeat' apply And.intro
  all_goals exact List.mem_map_of_mem (by decide)

end Cert.ReferenceIdeal.RefRun

end
-- ==== Proof.RefOps2.lean ====
/- Window 2 of the reference program's @main: its host operations as a list, in order — each outlined function's
   body written at its call site over that call's buffers —, the references the window writes, and that the window
   of @main is this list run in order. -/
import proofs.«167710_j39049842655736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 66 operations, in order. -/
abbrev ops2 : List (HloOp τ sig (Elt F)) :=
  [ StableHlo.nullary main_cst_19 (constant S_ .f32 0x3727C5AC#32),
    StableHlo.unary main_cst_19 main_v99 (broadcastInDim S128 ![] bcast_S_S128 : (⟨S_, .f32⟩ : BufTy).Contents (Elt F) → (⟨S128, .f32⟩ : BufTy).Contents (Elt F)),
    StableHlo.binary main_v95 main_v99 main_v100 (addf : (⟨S128, .f32⟩ : BufTy).Contents (Elt F) → (⟨S128, .f32⟩ : BufTy).Contents (Elt F) → (⟨S128, .f32⟩ : BufTy).Contents (Elt F)),
    StableHlo.unary main_v100 main_v101 (Host.rsqrt : (⟨S128, .f32⟩ : BufTy).Contents (Elt F) → (⟨S128, .f32⟩ : BufTy).Contents (Elt F)),
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_arg5 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg6 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v109 main_v110 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v110) main_call1.v0 main_call1.v1 (cmpf .oge),
    StableHlo.TRef.unary (.of main_cst_20) main_call1.v2 id,
    StableHlo.TRef.unary main_call1.v2 main_call1.v3 (broadcastInDim S100000x128 ![] bcast_S_S100000x128),
    StableHlo.TRef.binary main_call1.v3 (.of main_v110) main_call1.v4 mulf,
    StableHlo.TRef.ternary main_call1.v1 (.of main_v110) main_call1.v4 main_call1.call0.v0 select,
    StableHlo.unary main_arg7 main_v112 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v28 main_v115 (broadcastInDim S600000x1 ![0] bcast_S600000_S600000x1_0 : (⟨S600000, .f32⟩ : BufTy).Contents (Elt F) → (⟨S600000x1, .f32⟩ : BufTy).Contents (Elt F)),
    StableHlo.nullary main_c_21 (constantI S_ 32 0#32),
    StableHlo.unary main_c_21 main_v116 (broadcastInDim S600000 ![] bcast_S_S600000 : (⟨S_, .i32⟩ : BufTy).Contents (Elt F) → (⟨S600000, .i32⟩ : BufTy).Contents (Elt F)),
    StableHlo.binary main_v1 main_v116 main_v117 (cmpi .slt : (⟨S600000, .i32⟩ : BufTy).Contents (Elt F) → (⟨S600000, .i32⟩ : BufTy).Contents (Elt F) → (⟨S600000, .i1⟩ : BufTy).Contents (Elt F)),
    StableHlo.nullary main_c_22 (constantI S_ 32 100000#32),
    StableHlo.unary main_c_22 main_v118 (broadcastInDim S600000 ![] bcast_S_S600000 : (⟨S_, .i32⟩ : BufTy).Contents (Elt F) → (⟨S600000, .i32⟩ : BufTy).Contents (Elt F)),
    StableHlo.binary main_v1 main_v118 main_v119 (addi : (⟨S600000, .i32⟩ : BufTy).Contents (Elt F) → (⟨S600000, .i32⟩ : BufTy).Contents (Elt F) → (⟨S600000, .i32⟩ : BufTy).Contents (Elt F)),
    StableHlo.ternary main_v117 main_v119 main_v1 main_v120 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v120 main_v121 (broadcastInDim S600000x1 ![0] bcast_S600000_S600000x1_0 : (⟨S600000, .i32⟩ : BufTy).Contents (Elt F) → (⟨S600000x1, .i32⟩ : BufTy).Contents (Elt F)),
    StableHlo.binary main_v111 main_v121 main_v122 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v115 main_v123 (broadcastInDim S600000x128 ![0, 1] bcast_S600000x1_S600000x128_0_1 : (⟨S600000x1, .f32⟩ : BufTy).Contents (Elt F) → (⟨S600000x128, .f32⟩ : BufTy).Contents (Elt F)),
    StableHlo.binary main_v123 main_v122 main_v124 (mulf : (⟨S600000x128, .f32⟩ : BufTy).Contents (Elt F) → (⟨S600000x128, .f32⟩ : BufTy).Contents (Elt F) → (⟨S600000x128, .f32⟩ : BufTy).Contents (Elt F)),
    StableHlo.nullary main_cst_23 (constant S_ .f32 0x00000000#32),
    StableHlo.unary main_cst_23 main_v125 (broadcastInDim S100000x128 ![] bcast_S_S100000x128 : (⟨S_, .f32⟩ : BufTy).Contents (Elt F) → (⟨S100000x128, .f32⟩ : BufTy).Contents (Elt F)),
    StableHlo.unary main_v3 main_v126 (broadcastInDim S600000x1 ![0] bcast_S600000_S600000x1_0 : (⟨S600000, .i32⟩ : BufTy).Contents (Elt F) → (⟨S600000x1, .i32⟩ : BufTy).Contents (Elt F)),
    StableHlo.ternary main_v125 main_v126 main_v124 main_v127 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg7 main_v128 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v114 main_v130 main_v131 (addf : (⟨S100000x128, .f32⟩ : BufTy).Contents (Elt F) → (⟨S100000x128, .f32⟩ : BufTy).Contents (Elt F) → (⟨S100000x128, .f32⟩ : BufTy).Contents (Elt F)),
    StableHlo.unary main_v28 main_v132 (broadcastInDim S600000x1 ![0] bcast_S600000_S600000x1_0 : (⟨S600000, .f32⟩ : BufTy).Contents (Elt F) → (⟨S600000x1, .f32⟩ : BufTy).Contents (Elt F)),
    StableHlo.nullary main_c_24 (constantI S_ 32 0#32),
    StableHlo.unary main_c_24 main_v133 (broadcastInDim S600000 ![] bcast_S_S600000 : (⟨S_, .i32⟩ : BufTy).Contents (Elt F) → (⟨S600000, .i32⟩ : BufTy).Contents (Elt F)),
    StableHlo.binary main_v1 main_v133 main_v134 (cmpi .slt : (⟨S600000, .i32⟩ : BufTy).Contents (Elt F) → (⟨S600000, .i32⟩ : BufTy).Contents (Elt F) → (⟨S600000, .i1⟩ : BufTy).Contents (Elt F)),
    StableHlo.nullary main_c_25 (constantI S_ 32 100000#32),
    StableHlo.unary main_c_25 main_v135 (broadcastInDim S600000 ![] bcast_S_S600000 : (⟨S_, .i32⟩ : BufTy).Contents (Elt F) → (⟨S600000, .i32⟩ : BufTy).Contents (Elt F)),
    StableHlo.binary main_v1 main_v135 main_v136 (addi : (⟨S600000, .i32⟩ : BufTy).Contents (Elt F) → (⟨S600000, .i32⟩ : BufTy).Contents (Elt F) → (⟨S600000, .i32⟩ : BufTy).Contents (Elt F)),
    StableHlo.ternary main_v134 main_v136 main_v1 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v137 main_v138 (broadcastInDim S600000x1 ![0] bcast_S600000_S600000x1_0 : (⟨S600000, .i32⟩ : BufTy).Contents (Elt F) → (⟨S600000x1, .i32⟩ : BufTy).Contents (Elt F)),
    StableHlo.binary main_v127 main_v138 main_v139 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v132 main_v140 (broadcastInDim S600000x128 ![0, 1] bcast_S600000x1_S600000x128_0_1 : (⟨S600000x1, .f32⟩ : BufTy).Contents (Elt F) → (⟨S600000x128, .f32⟩ : BufTy).Contents (Elt F)),
    StableHlo.binary main_v140 main_v139 main_v141 (mulf : (⟨S600000x128, .f32⟩ : BufTy).Contents (Elt F) → (⟨S600000x128, .f32⟩ : BufTy).Contents (Elt F) → (⟨S600000x128, .f32⟩ : BufTy).Contents (Elt F)),
    StableHlo.nullary main_cst_26 (constant S_ .f32 0x00000000#32),
    StableHlo.unary main_cst_26 main_v142 (broadcastInDim S100000x128 ![] bcast_S_S100000x128 : (⟨S_, .f32⟩ : BufTy).Contents (Elt F) → (⟨S100000x128, .f32⟩ : BufTy).Contents (Elt F)),
    StableHlo.unary main_v3 main_v143 (broadcastInDim S600000x1 ![0] bcast_S600000_S600000x1_0 : (⟨S600000, .i32⟩ : BufTy).Contents (Elt F) → (⟨S600000x1, .i32⟩ : BufTy).Contents (Elt F)),
    StableHlo.ternary main_v142 main_v143 main_v141 main_v144 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg7 main_v145 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v145 main_v146 rfl shapeCasts_S1x128x128_S128x128,
    StableHlo.binary main_v144 main_v146 main_v147 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v131 main_v147 main_v148 (addf : (⟨S100000x128, .f32⟩ : BufTy).Contents (Elt F) → (⟨S100000x128, .f32⟩ : BufTy).Contents (Elt F) → (⟨S100000x128, .f32⟩ : BufTy).Contents (Elt F)),
    StableHlo.unary main_v28 main_v149 (broadcastInDim S600000x1 ![0] bcast_S600000_S600000x1_0 : (⟨S600000, .f32⟩ : BufTy).Contents (Elt F) → (⟨S600000x1, .f32⟩ : BufTy).Contents (Elt F)),
    StableHlo.nullary main_c_27 (constantI S_ 32 0#32) ]

/-- Every reference the window writes. -/
abbrev writes2 : List (Ref sig .tc) :=
  [ main_cst_19, main_v99, main_v100, main_v101, main_v102, main_v103, main_v104, main_v105, main_v106, main_v107, main_v108, main_v109, main_v110, main_cst_20, main_call1.cst.ref, main_call1.v0.ref, main_call1.v1.ref, main_call1.v2.ref, main_call1.v3.ref, main_call1.v4.ref, main_call1.call0.v0.ref, main_v112, main_v113, main_v114, main_v115, main_c_21, main_v116, main_v117, main_c_22, main_v118, main_v119, main_v120, main_v121, main_v122, main_v123, main_v124, main_cst_23, main_v125, main_v126, main_v127, main_v128, main_v129, main_v130, main_v131, main_v132, main_c_24, main_v133, main_v134, main_c_25, main_v135, main_v136, main_v137, main_v138, main_v139, main_v140, main_v141, main_cst_26, main_v142, main_v143, main_v144, main_v145, main_v146, main_v147, main_v148, main_v149, main_c_27 ]

set_option maxRecDepth 4096 in
set_option maxHeartbeats 4000000 in
/-- The window is its operations run in order. -/
theorem part2_eq (d : Dev nD) : main_part2 (F := F) d = seq ops2 := by
  simp only [main_part2, fn_leaky_relu.body, fn_where_0.body, seq, bind_assoc, pure_bind]
  rfl

theorem ops2_sub : (ops2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub ..⟩

theorem ops2_fresh : (ops2 : List (HloOp τ sig (Elt F))).Forall fun op => op.fresh = ∅ := by
  simp only [List.Forall]; repeat' constructor

set_option maxRecDepth 4096 in
theorem ops2_writes : (ops2 : List (HloOp τ sig (Elt F))).Forall fun op => op.writes ⊆ (writes2.map (Proc.devRef (τ := τ) .tc)).toFinset := by
  simp only [List.Forall, nullary_writes, unary_writes, binary_writes, ternary_writes, quaternary_writes, reshape_writes,
    Finset.singleton_subset_iff, List.mem_toFinset]
  repeat' apply And.intro
  all_goals exact List.mem_map_of_mem (by decide)

end Cert.ReferenceIdeal.RefRun

end
-- ==== Proof.RefOps3.lean ====
/- Window 3 of the reference program's @main: its host operations as a list, in order — each outlined function's
   body written at its call site over that call's buffers —, the references the window writes, and that the window
   of @main is this list run in order. -/
import proofs.«167710_j39049842655736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 66 operations, in order. -/
abbrev ops3 : List (HloOp τ sig (Elt F)) :=
  [ StableHlo.unary main_c_27 main_v150 (broadcastInDim S600000 ![] bcast_S_S600000 : (⟨S_, .i32⟩ : BufTy).Contents (Elt F) → (⟨S600000, .i32⟩ : BufTy).Contents (Elt F)),
    StableHlo.binary main_v1 main_v150 main_v151 (cmpi .slt : (⟨S600000, .i32⟩ : BufTy).Contents (Elt F) → (⟨S600000, .i32⟩ : BufTy).Contents (Elt F) → (⟨S600000, .i1⟩ : BufTy).Contents (Elt F)),
    StableHlo.nullary main_c_28 (constantI S_ 32 100000#32),
    StableHlo.unary main_c_28 main_v152 (broadcastInDim S600000 ![] bcast_S_S600000 : (⟨S_, .i32⟩ : BufTy).Contents (Elt F) → (⟨S600000, .i32⟩ : BufTy).Contents (Elt F)),
    StableHlo.binary main_v1 main_v152 main_v153 (addi : (⟨S600000, .i32⟩ : BufTy).Contents (Elt F) → (⟨S600000, .i32⟩ : BufTy).Contents (Elt F) → (⟨S600000, .i32⟩ : BufTy).Contents (Elt F)),
    StableHlo.ternary main_v151 main_v153 main_v1 main_v154 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v154 main_v155 (broadcastInDim S600000x1 ![0] bcast_S600000_S600000x1_0 : (⟨S600000, .i32⟩ : BufTy).Contents (Elt F) → (⟨S600000x1, .i32⟩ : BufTy).Contents (Elt F)),
    StableHlo.binary main_v144 main_v155 main_v156 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v149 main_v157 (broadcastInDim S600000x128 ![0, 1] bcast_S600000x1_S600000x128_0_1 : (⟨S600000x1, .f32⟩ : BufTy).Contents (Elt F) → (⟨S600000x128, .f32⟩ : BufTy).Contents (Elt F)),
    StableHlo.binary main_v157 main_v156 main_v158 (mulf : (⟨S600000x128, .f32⟩ : BufTy).Contents (Elt F) → (⟨S600000x128, .f32⟩ : BufTy).Contents (Elt F) → (⟨S600000x128, .f32⟩ : BufTy).Contents (Elt F)),
    StableHlo.nullary main_cst_29 (constant S_ .f32 0x00000000#32),
    StableHlo.unary main_cst_29 main_v159 (broadcastInDim S100000x128 ![] bcast_S_S100000x128 : (⟨S_, .f32⟩ : BufTy).Contents (Elt F) → (⟨S100000x128, .f32⟩ : BufTy).Contents (Elt F)),
    StableHlo.unary main_v3 main_v160 (broadcastInDim S600000x1 ![0] bcast_S600000_S600000x1_0 : (⟨S600000, .i32⟩ : BufTy).Contents (Elt F) → (⟨S600000x1, .i32⟩ : BufTy).Contents (Elt F)),
    StableHlo.ternary main_v159 main_v160 main_v158 main_v161 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg7 main_v162 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v162 main_v163 rfl shapeCasts_S1x128x128_S128x128,
    StableHlo.binary main_v161 main_v163 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v148 main_v164 main_v165 (addf : (⟨S100000x128, .f32⟩ : BufTy).Contents (Elt F) → (⟨S100000x128, .f32⟩ : BufTy).Contents (Elt F) → (⟨S100000x128, .f32⟩ : BufTy).Contents (Elt F)),
    StableHlo.unary main_arg8 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v167 main_v168 (addf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x00000000#32),
    StableHlo.binary main_v168 main_cst_30 main_v169 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v170 (broadcastInDim S128 ![] bcast_S_S128 : (⟨S_, .f32⟩ : BufTy).Contents (Elt F) → (⟨S128, .f32⟩ : BufTy).Contents (Elt F)),
    StableHlo.binary main_v169 main_v170 main_v171 (Host.divf : (⟨S128, .f32⟩ : BufTy).Contents (Elt F) → (⟨S128, .f32⟩ : BufTy).Contents (Elt F) → (⟨S128, .f32⟩ : BufTy).Contents (Elt F)),
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v173 main_v174 (subf : (⟨S100000x128, .f32⟩ : BufTy).Contents (Elt F) → (⟨S100000x128, .f32⟩ : BufTy).Contents (Elt F) → (⟨S100000x128, .f32⟩ : BufTy).Contents (Elt F)),
    StableHlo.binary main_v174 main_v174 main_v175 (mulf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x00000000#32),
    StableHlo.binary main_v175 main_cst_32 main_v176 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_33 (constant S_ .f32 0x47C35000#32),
    StableHlo.unary main_cst_33 main_v177 (broadcastInDim S128 ![] bcast_S_S128 : (⟨S_, .f32⟩ : BufTy).Contents (Elt F) → (⟨S128, .f32⟩ : BufTy).Contents (Elt F)),
    StableHlo.binary main_v176 main_v177 main_v178 (Host.divf : (⟨S128, .f32⟩ : BufTy).Contents (Elt F) → (⟨S128, .f32⟩ : BufTy).Contents (Elt F) → (⟨S128, .f32⟩ : BufTy).Contents (Elt F)),
    StableHlo.unary main_v171 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v180 main_v181 (subf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3727C5AC#32),
    StableHlo.unary main_cst_34 main_v182 (broadcastInDim S128 ![] bcast_S_S128 : (⟨S_, .f32⟩ : BufTy).Contents (Elt F) → (⟨S128, .f32⟩ : BufTy).Contents (Elt F)),
    StableHlo.binary main_v178 main_v182 main_v183 (addf : (⟨S128, .f32⟩ : BufTy).Contents (Elt F) → (⟨S128, .f32⟩ : BufTy).Contents (Elt F) → (⟨S128, .f32⟩ : BufTy).Contents (Elt F)),
    StableHlo.unary main_v183 main_v184 (Host.rsqrt : (⟨S128, .f32⟩ : BufTy).Contents (Elt F) → (⟨S128, .f32⟩ : BufTy).Contents (Elt F)),
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v181 main_v186 main_v187 (mulf : (⟨S100000x128, .f32⟩ : BufTy).Contents (Elt F) → (⟨S100000x128, .f32⟩ : BufTy).Contents (Elt F) → (⟨S100000x128, .f32⟩ : BufTy).Contents (Elt F)),
    StableHlo.unary main_arg9 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v187 main_v189 main_v190 (mulf : (⟨S100000x128, .f32⟩ : BufTy).Contents (Elt F) → (⟨S100000x128, .f32⟩ : BufTy).Contents (Elt F) → (⟨S100000x128, .f32⟩ : BufTy).Contents (Elt F)),
    StableHlo.unary main_arg10 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v192 main_v193 (addf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v193) main_call2.v0 main_call2.v1 (cmpf .oge),
    StableHlo.TRef.unary (.of main_cst_35) main_call2.v2 id,
    StableHlo.TRef.unary main_call2.v2 main_call2.v3 (broadcastInDim S100000x128 ![] bcast_S_S100000x128),
    StableHlo.TRef.binary main_call2.v3 (.of main_v193) main_call2.v4 mulf,
    StableHlo.TRef.ternary main_call2.v1 (.of main_v193) main_call2.v4 main_call2.call0.v0 select,
    StableHlo.unary main_arg11 main_v195 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v195 main_v196 rfl shapeCasts_S1x128x64_S128x64,
    StableHlo.binary main_v194 main_v196 main_v197 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v28 main_v198 (broadcastInDim S600000x1 ![0] bcast_S600000_S600000x1_0 : (⟨S600000, .f32⟩ : BufTy).Contents (Elt F) → (⟨S600000x1, .f32⟩ : BufTy).Contents (Elt F)),
    StableHlo.nullary main_c_36 (constantI S_ 32 0#32),
    StableHlo.unary main_c_36 main_v199 (broadcastInDim S600000 ![] bcast_S_S600000 : (⟨S_, .i32⟩ : BufTy).Contents (Elt F) → (⟨S600000, .i32⟩ : BufTy).Contents (Elt F)),
    StableHlo.binary main_v1 main_v199 main_v200 (cmpi .slt : (⟨S600000, .i32⟩ : BufTy).Contents (Elt F) → (⟨S600000, .i32⟩ : BufTy).Contents (Elt F) → (⟨S600000, .i1⟩ : BufTy).Contents (Elt F)) ]

/-- Every reference the window writes. -/
abbrev writes3 : List (Ref sig .tc) :=
  [ main_v150, main_v151, main_c_28, main_v152, main_v153, main_v154, main_v155, main_v156, main_v157, main_v158, main_cst_29, main_v159, main_v160, main_v161, main_v162, main_v163, main_v164, main_v165, main_v166, main_v167, main_v168, main_cst_30, main_v169, main_cst_31, main_v170, main_v171, main_v172, main_v173, main_v174, main_v175, main_cst_32, main_v176, main_cst_33, main_v177, main_v178, main_v179, main_v180, main_v181, main_cst_34, main_v182, main_v183, main_v184, main_v185, main_v186, main_v187, main_v188, main_v189, main_v190, main_v191, main_v192, main_v193, main_cst_35, main_call2.cst.ref, main_call2.v0.ref, main_call2.v1.ref, main_call2.v2.ref, main_call2.v3.ref, main_call2.v4.ref, main_call2.call0.v0.ref, main_v195, main_v196, main_v197, main_v198, main_c_36, main_v199, main_v200 ]

set_option maxRecDepth 4096 in
set_option maxHeartbeats 4000000 in
/-- The window is its operations run in order. -/
theorem part3_eq (d : Dev nD) : main_part3 (F := F) d = seq ops3 := by
  simp only [main_part3, fn_leaky_relu.body, fn_where_0.body, seq, bind_assoc, pure_bind]
  rfl

theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., nullary_bufs_sub .., unary_bufs_sub .., binary_bufs_sub ..⟩

theorem ops3_fresh : (ops3 : List (HloOp τ sig (Elt F))).Forall fun op => op.fresh = ∅ := by
  simp only [List.Forall]; repeat' constructor

set_option maxRecDepth 4096 in
theorem ops3_writes : (ops3 : List (HloOp τ sig (Elt F))).Forall fun op => op.writes ⊆ (writes3.map (Proc.devRef (τ := τ) .tc)).toFinset := by
  simp only [List.Forall, nullary_writes, unary_writes, binary_writes, ternary_writes, quaternary_writes, reshape_writes,
    Finset.singleton_subset_iff, List.mem_toFinset]
  repeat' apply And.intro
  all_goals exact List.mem_map_of_mem (by decide)

end Cert.ReferenceIdeal.RefRun

end
-- ==== Proof.RefOps4.lean ====
/- Window 4 of the reference program's @main: its host operations as a list, in order — each outlined function's
   body written at its call site over that call's buffers —, the references the window writes, and that the window
   of @main is this list run in order. -/
import proofs.«167710_j39049842655736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops4 : List (HloOp τ sig (Elt F)) :=
  [ StableHlo.nullary main_c_37 (constantI S_ 32 100000#32),
    StableHlo.unary main_c_37 main_v201 (broadcastInDim S600000 ![] bcast_S_S600000 : (⟨S_, .i32⟩ : BufTy).Contents (Elt F) → (⟨S600000, .i32⟩ : BufTy).Contents (Elt F)),
    StableHlo.binary main_v1 main_v201 main_v202 (addi : (⟨S600000, .i32⟩ : BufTy).Contents (Elt F) → (⟨S600000, .i32⟩ : BufTy).Contents (Elt F) → (⟨S600000, .i32⟩ : BufTy).Contents (Elt F)),
    StableHlo.ternary main_v200 main_v202 main_v1 main_v203 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v203 main_v204 (broadcastInDim S600000x1 ![0] bcast_S600000_S600000x1_0 : (⟨S600000, .i32⟩ : BufTy).Contents (Elt F) → (⟨S600000x1, .i32⟩ : BufTy).Contents (Elt F)),
    StableHlo.binary main_v194 main_v204 main_v205 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v198 main_v206 (broadcastInDim S600000x128 ![0, 1] bcast_S600000x1_S600000x128_0_1 : (⟨S600000x1, .f32⟩ : BufTy).Contents (Elt F) → (⟨S600000x128, .f32⟩ : BufTy).Contents (Elt F)),
    StableHlo.binary main_v206 main_v205 main_v207 (mulf : (⟨S600000x128, .f32⟩ : BufTy).Contents (Elt F) → (⟨S600000x128, .f32⟩ : BufTy).Contents (Elt F) → (⟨S600000x128, .f32⟩ : BufTy).Contents (Elt F)),
    StableHlo.nullary main_cst_38 (constant S_ .f32 0x00000000#32),
    StableHlo.unary main_cst_38 main_v208 (broadcastInDim S100000x128 ![] bcast_S_S100000x128 : (⟨S_, .f32⟩ : BufTy).Contents (Elt F) → (⟨S100000x128, .f32⟩ : BufTy).Contents (Elt F)),
    StableHlo.unary main_v3 main_v209 (broadcastInDim S600000x1 ![0] bcast_S600000_S600000x1_0 : (⟨S600000, .i32⟩ : BufTy).Contents (Elt F) → (⟨S600000x1, .i32⟩ : BufTy).Contents (Elt F)),
    StableHlo.ternary main_v208 main_v209 main_v207 main_v210 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg11 main_v211 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v211 main_v212 rfl shapeCasts_S1x128x64_S128x64,
    StableHlo.binary main_v210 main_v212 main_v213 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v197 main_v213 main_v214 (addf : (⟨S100000x64, .f32⟩ : BufTy).Contents (Elt F) → (⟨S100000x64, .f32⟩ : BufTy).Contents (Elt F) → (⟨S100000x64, .f32⟩ : BufTy).Contents (Elt F)),
    StableHlo.unary main_v28 main_v215 (broadcastInDim S600000x1 ![0] bcast_S600000_S600000x1_0 : (⟨S600000, .f32⟩ : BufTy).Contents (Elt F) → (⟨S600000x1, .f32⟩ : BufTy).Contents (Elt F)),
    StableHlo.nullary main_c_39 (constantI S_ 32 0#32),
    StableHlo.unary main_c_39 main_v216 (broadcastInDim S600000 ![] bcast_S_S600000 : (⟨S_, .i32⟩ : BufTy).Contents (Elt F) → (⟨S600000, .i32⟩ : BufTy).Contents (Elt F)),
    StableHlo.binary main_v1 main_v216 main_v217 (cmpi .slt : (⟨S600000, .i32⟩ : BufTy).Contents (Elt F) → (⟨S600000, .i32⟩ : BufTy).Contents (Elt F) → (⟨S600000, .i1⟩ : BufTy).Contents (Elt F)),
    StableHlo.nullary main_c_40 (constantI S_ 32 100000#32),
    StableHlo.unary main_c_40 main_v218 (broadcastInDim S600000 ![] bcast_S_S600000 : (⟨S_, .i32⟩ : BufTy).Contents (Elt F) → (⟨S600000, .i32⟩ : BufTy).Contents (Elt F)),
    StableHlo.binary main_v1 main_v218 main_v219 (addi : (⟨S600000, .i32⟩ : BufTy).Contents (Elt F) → (⟨S600000, .i32⟩ : BufTy).Contents (Elt F) → (⟨S600000, .i32⟩ : BufTy).Contents (Elt F)),
    StableHlo.ternary main_v217 main_v219 main_v1 main_v220 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v220 main_v221 (broadcastInDim S600000x1 ![0] bcast_S600000_S600000x1_0 : (⟨S600000, .i32⟩ : BufTy).Contents (Elt F) → (⟨S600000x1, .i32⟩ : BufTy).Contents (Elt F)),
    StableHlo.binary main_v210 main_v221 main_v222 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v215 main_v223 (broadcastInDim S600000x128 ![0, 1] bcast_S600000x1_S600000x128_0_1 : (⟨S600000x1, .f32⟩ : BufTy).Contents (Elt F) → (⟨S600000x128, .f32⟩ : BufTy).Contents (Elt F)),
    StableHlo.binary main_v223 main_v222 main_v224 (mulf : (⟨S600000x128, .f32⟩ : BufTy).Contents (Elt F) → (⟨S600000x128, .f32⟩ : BufTy).Contents (Elt F) → (⟨S600000x128, .f32⟩ : BufTy).Contents (Elt F)),
    StableHlo.nullary main_cst_41 (constant S_ .f32 0x00000000#32),
    StableHlo.unary main_cst_41 main_v225 (broadcastInDim S100000x128 ![] bcast_S_S100000x128 : (⟨S_, .f32⟩ : BufTy).Contents (Elt F) → (⟨S100000x128, .f32⟩ : BufTy).Contents (Elt F)),
    StableHlo.unary main_v3 main_v226 (broadcastInDim S600000x1 ![0] bcast_S600000_S600000x1_0 : (⟨S600000, .i32⟩ : BufTy).Contents (Elt F) → (⟨S600000x1, .i32⟩ : BufTy).Contents (Elt F)),
    StableHlo.ternary main_v225 main_v226 main_v224 main_v227 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg11 main_v228 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v228 main_v229 rfl shapeCasts_S1x128x64_S128x64,
    StableHlo.binary main_v227 main_v229 main_v230 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v214 main_v230 main_v231 (addf : (⟨S100000x64, .f32⟩ : BufTy).Contents (Elt F) → (⟨S100000x64, .f32⟩ : BufTy).Contents (Elt F) → (⟨S100000x64, .f32⟩ : BufTy).Contents (Elt F)),
    StableHlo.unary main_v28 main_v232 (broadcastInDim S600000x1 ![0] bcast_S600000_S600000x1_0 : (⟨S600000, .f32⟩ : BufTy).Contents (Elt F) → (⟨S600000x1, .f32⟩ : BufTy).Contents (Elt F)),
    StableHlo.nullary main_c_42 (constantI S_ 32 0#32),
    StableHlo.unary main_c_42 main_v233 (broadcastInDim S600000 ![] bcast_S_S600000 : (⟨S_, .i32⟩ : BufTy).Contents (Elt F) → (⟨S600000, .i32⟩ : BufTy).Contents (Elt F)),
    StableHlo.binary main_v1 main_v233 main_v234 (cmpi .slt : (⟨S600000, .i32⟩ : BufTy).Contents (Elt F) → (⟨S600000, .i32⟩ : BufTy).Contents (Elt F) → (⟨S600000, .i1⟩ : BufTy).Contents (Elt F)),
    StableHlo.nullary main_c_43 (constantI S_ 32 100000#32),
    StableHlo.unary main_c_43 main_v235 (broadcastInDim S600000 ![] bcast_S_S600000 : (⟨S_, .i32⟩ : BufTy).Contents (Elt F) → (⟨S600000, .i32⟩ : BufTy).Contents (Elt F)),
    StableHlo.binary main_v1 main_v235 main_v236 (addi : (⟨S600000, .i32⟩ : BufTy).Contents (Elt F) → (⟨S600000, .i32⟩ : BufTy).Contents (Elt F) → (⟨S600000, .i32⟩ : BufTy).Contents (Elt F)),
    StableHlo.ternary main_v234 main_v236 main_v1 main_v237 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v237 main_v238 (broadcastInDim S600000x1 ![0] bcast_S600000_S600000x1_0 : (⟨S600000, .i32⟩ : BufTy).Contents (Elt F) → (⟨S600000x1, .i32⟩ : BufTy).Contents (Elt F)),
    StableHlo.binary main_v227 main_v238 main_v239 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v232 main_v240 (broadcastInDim S600000x128 ![0, 1] bcast_S600000x1_S600000x128_0_1 : (⟨S600000x1, .f32⟩ : BufTy).Contents (Elt F) → (⟨S600000x128, .f32⟩ : BufTy).Contents (Elt F)),
    StableHlo.binary main_v240 main_v239 main_v241 (mulf : (⟨S600000x128, .f32⟩ : BufTy).Contents (Elt F) → (⟨S600000x128, .f32⟩ : BufTy).Contents (Elt F) → (⟨S600000x128, .f32⟩ : BufTy).Contents (Elt F)),
    StableHlo.nullary main_cst_44 (constant S_ .f32 0x00000000#32),
    StableHlo.unary main_cst_44 main_v242 (broadcastInDim S100000x128 ![] bcast_S_S100000x128 : (⟨S_, .f32⟩ : BufTy).Contents (Elt F) → (⟨S100000x128, .f32⟩ : BufTy).Contents (Elt F)),
    StableHlo.unary main_v3 main_v243 (broadcastInDim S600000x1 ![0] bcast_S600000_S600000x1_0 : (⟨S600000, .i32⟩ : BufTy).Contents (Elt F) → (⟨S600000x1, .i32⟩ : BufTy).Contents (Elt F)),
    StableHlo.ternary main_v242 main_v243 main_v241 main_v244 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg11 main_v245 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v245 main_v246 rfl shapeCasts_S1x128x64_S128x64,
    StableHlo.binary main_v244 main_v246 main_v247 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v231 main_v247 main_v248 (addf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x00000000#32),
    StableHlo.binary main_v248 main_cst_45 main_v249 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_46 (constant S_ .f32 0x47C35000#32),
    StableHlo.unary main_cst_46 main_v250 (broadcastInDim S64 ![] bcast_S_S64 : (⟨S_, .f32⟩ : BufTy).Contents (Elt F) → (⟨S64, .f32⟩ : BufTy).Contents (Elt F)) ]

/-- Every reference the window writes. -/
abbrev writes4 : List (Ref sig .tc) :=
  [ main_c_37, main_v201, main_v202, main_v203, main_v204, main_v205, main_v206, main_v207, main_cst_38, main_v208, main_v209, main_v210, main_v211, main_v212, main_v213, main_v214, main_v215, main_c_39, main_v216, main_v217, main_c_40, main_v218, main_v219, main_v220, main_v221, main_v222, main_v223, main_v224, main_cst_41, main_v225, main_v226, main_v227, main_v228, main_v229, main_v230, main_v231, main_v232, main_c_42, main_v233, main_v234, main_c_43, main_v235, main_v236, main_v237, main_v238, main_v239, main_v240, main_v241, main_cst_44, main_v242, main_v243, main_v244, main_v245, main_v246, main_v247, main_v248, main_cst_45, main_v249, main_cst_46, main_v250 ]

set_option maxRecDepth 4096 in
set_option maxHeartbeats 4000000 in
/-- The window is its operations run in order. -/
theorem part4_eq (d : Dev nD) : main_part4 (F := F) d = seq ops4 := by
  simp only [main_part4, seq, bind_assoc, pure_bind]
  rfl

theorem ops4_sub : (ops4 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., binary_bufs_sub .., nullary_bufs_sub .., unary_bufs_sub ..⟩

theorem ops4_fresh : (ops4 : List (HloOp τ sig (Elt F))).Forall fun op => op.fresh = ∅ := by
  simp only [List.Forall]; repeat' constructor

set_option maxRecDepth 4096 in
theorem ops4_writes : (ops4 : List (HloOp τ sig (Elt F))).Forall fun op => op.writes ⊆ (writes4.map (Proc.devRef (τ := τ) .tc)).toFinset := by
  simp only [List.Forall, nullary_writes, unary_writes, binary_writes, ternary_writes, quaternary_writes, reshape_writes,
    Finset.singleton_subset_iff, List.mem_toFinset]
  repeat' apply And.intro
  all_goals exact List.mem_map_of_mem (by decide)

end Cert.ReferenceIdeal.RefRun

end
-- ==== Proof.RefOps5.lean ====
/- Window 5 of the reference program's @main: its host operations as a list, in order — each outlined function's
   body written at its call site over that call's buffers —, the references the window writes, and that the window
   of @main is this list run in order. -/
import proofs.«167710_j39049842655736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 34 operations, in order. -/
abbrev ops5 : List (HloOp τ sig (Elt F)) :=
  [ StableHlo.binary main_v249 main_v250 main_v251 (Host.divf : (⟨S64, .f32⟩ : BufTy).Contents (Elt F) → (⟨S64, .f32⟩ : BufTy).Contents (Elt F) → (⟨S64, .f32⟩ : BufTy).Contents (Elt F)),
    StableHlo.unary main_v251 main_v252 (broadcastInDim S1x64 ![1] bcast_S64_S1x64_1 : (⟨S64, .f32⟩ : BufTy).Contents (Elt F) → (⟨S1x64, .f32⟩ : BufTy).Contents (Elt F)),
    StableHlo.unary main_v252 main_v253 (broadcastInDim S100000x64 ![0, 1] bcast_S1x64_S100000x64_0_1 : (⟨S1x64, .f32⟩ : BufTy).Contents (Elt F) → (⟨S100000x64, .f32⟩ : BufTy).Contents (Elt F)),
    StableHlo.binary main_v248 main_v253 main_v254 (subf : (⟨S100000x64, .f32⟩ : BufTy).Contents (Elt F) → (⟨S100000x64, .f32⟩ : BufTy).Contents (Elt F) → (⟨S100000x64, .f32⟩ : BufTy).Contents (Elt F)),
    StableHlo.binary main_v254 main_v254 main_v255 (mulf : (⟨S100000x64, .f32⟩ : BufTy).Contents (Elt F) → (⟨S100000x64, .f32⟩ : BufTy).Contents (Elt F) → (⟨S100000x64, .f32⟩ : BufTy).Contents (Elt F)),
    StableHlo.nullary main_cst_47 (constant S_ .f32 0x00000000#32),
    StableHlo.binary main_v255 main_cst_47 main_v256 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_48 (constant S_ .f32 0x47C35000#32),
    StableHlo.unary main_cst_48 main_v257 (broadcastInDim S64 ![] bcast_S_S64 : (⟨S_, .f32⟩ : BufTy).Contents (Elt F) → (⟨S64, .f32⟩ : BufTy).Contents (Elt F)),
    StableHlo.binary main_v256 main_v257 main_v258 (Host.divf : (⟨S64, .f32⟩ : BufTy).Contents (Elt F) → (⟨S64, .f32⟩ : BufTy).Contents (Elt F) → (⟨S64, .f32⟩ : BufTy).Contents (Elt F)),
    StableHlo.unary main_v251 main_v259 (broadcastInDim S1x64 ![1] bcast_S64_S1x64_1 : (⟨S64, .f32⟩ : BufTy).Contents (Elt F) → (⟨S1x64, .f32⟩ : BufTy).Contents (Elt F)),
    StableHlo.unary main_v259 main_v260 (broadcastInDim S100000x64 ![0, 1] bcast_S1x64_S100000x64_0_1 : (⟨S1x64, .f32⟩ : BufTy).Contents (Elt F) → (⟨S100000x64, .f32⟩ : BufTy).Contents (Elt F)),
    StableHlo.binary main_v248 main_v260 main_v261 (subf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3727C5AC#32),
    StableHlo.unary main_cst_49 main_v262 (broadcastInDim S64 ![] bcast_S_S64 : (⟨S_, .f32⟩ : BufTy).Contents (Elt F) → (⟨S64, .f32⟩ : BufTy).Contents (Elt F)),
    StableHlo.binary main_v258 main_v262 main_v263 (addf : (⟨S64, .f32⟩ : BufTy).Contents (Elt F) → (⟨S64, .f32⟩ : BufTy).Contents (Elt F) → (⟨S64, .f32⟩ : BufTy).Contents (Elt F)),
    StableHlo.unary main_v263 main_v264 (Host.rsqrt : (⟨S64, .f32⟩ : BufTy).Contents (Elt F) → (⟨S64, .f32⟩ : BufTy).Contents (Elt F)),
    StableHlo.unary main_v264 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S100000x64 ![0, 1] bcast_S1x64_S100000x64_0_1 : (⟨S1x64, .f32⟩ : BufTy).Contents (Elt F) → (⟨S100000x64, .f32⟩ : BufTy).Contents (Elt F)),
    StableHlo.binary main_v261 main_v266 main_v267 (mulf : (⟨S100000x64, .f32⟩ : BufTy).Contents (Elt F) → (⟨S100000x64, .f32⟩ : BufTy).Contents (Elt F) → (⟨S100000x64, .f32⟩ : BufTy).Contents (Elt F)),
    StableHlo.unary main_arg12 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S100000x64 ![0, 1] bcast_S1x64_S100000x64_0_1 : (⟨S1x64, .f32⟩ : BufTy).Contents (Elt F) → (⟨S100000x64, .f32⟩ : BufTy).Contents (Elt F)),
    StableHlo.binary main_v267 main_v269 main_v270 (mulf : (⟨S100000x64, .f32⟩ : BufTy).Contents (Elt F) → (⟨S100000x64, .f32⟩ : BufTy).Contents (Elt F) → (⟨S100000x64, .f32⟩ : BufTy).Contents (Elt F)),
    StableHlo.unary main_arg13 main_v271 (broadcastInDim S1x64 ![1] bcast_S64_S1x64_1 : (⟨S64, .f32⟩ : BufTy).Contents (Elt F) → (⟨S1x64, .f32⟩ : BufTy).Contents (Elt F)),
    StableHlo.unary main_v271 main_v272 (broadcastInDim S100000x64 ![0, 1] bcast_S1x64_S100000x64_0_1 : (⟨S1x64, .f32⟩ : BufTy).Contents (Elt F) → (⟨S100000x64, .f32⟩ : BufTy).Contents (Elt F)),
    StableHlo.binary main_v270 main_v272 main_v273 (addf : (⟨S100000x64, .f32⟩ : BufTy).Contents (Elt F) → (⟨S100000x64, .f32⟩ : BufTy).Contents (Elt F) → (⟨S100000x64, .f32⟩ : BufTy).Contents (Elt F)),
    StableHlo.nullary main_cst_50 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v273) main_call3.v0 main_call3.v1 (cmpf .oge),
    StableHlo.TRef.unary (.of main_cst_50) main_call3.v2 id,
    StableHlo.TRef.unary main_call3.v2 main_call3.v3 (broadcastInDim S100000x64 ![] bcast_S_S100000x64),
    StableHlo.TRef.binary main_call3.v3 (.of main_v273) main_call3.v4 mulf,
    StableHlo.TRef.ternary main_call3.v1 (.of main_v273) main_call3.v4 main_call3.call0.v0 select ]

/-- Every reference the window writes. -/
abbrev writes5 : List (Ref sig .tc) :=
  [ main_v251, main_v252, main_v253, main_v254, main_v255, main_cst_47, main_v256, main_cst_48, main_v257, main_v258, main_v259, main_v260, main_v261, main_cst_49, main_v262, main_v263, main_v264, main_v265, main_v266, main_v267, main_v268, main_v269, main_v270, main_v271, main_v272, main_v273, main_cst_50, main_call3.cst.ref, main_call3.v0.ref, main_call3.v1.ref, main_call3.v2.ref, main_call3.v3.ref, main_call3.v4.ref, main_call3.call0.v0.ref ]

set_option maxRecDepth 4096 in
set_option maxHeartbeats 4000000 in
/-- The window is its operations run in order. -/
theorem part5_eq (d : Dev nD) : main_part5 (F := F) d = seq ops5 := by
  simp only [main_part5, fn_leaky_relu_1.body, fn_where_2.body, seq, bind_assoc, pure_bind]

theorem ops5_sub : (ops5 : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem ops5_fresh : (ops5 : List (HloOp τ sig (Elt F))).Forall fun op => op.fresh = ∅ := by
  simp only [List.Forall]; repeat' constructor

set_option maxRecDepth 4096 in
theorem ops5_writes : (ops5 : List (HloOp τ sig (Elt F))).Forall fun op => op.writes ⊆ (writes5.map (Proc.devRef (τ := τ) .tc)).toFinset := by
  simp only [List.Forall, nullary_writes, unary_writes, binary_writes, ternary_writes, quaternary_writes, reshape_writes,
    Finset.singleton_subset_iff, List.mem_toFinset]
  repeat' apply And.intro
  all_goals exact List.mem_map_of_mem (by decide)

end Cert.ReferenceIdeal.RefRun

end
-- ==== Proof.RefRun.lean ====
/- The reference program's run. Its @main is the six windows' operations in order; a straight line of host operations
   runs to the fold of their results over the launch contents (the library's run of a list of operations), and a buffer
   no operation writes keeps its launch contents: the fourteen argument arrays end as they began. -/
import proofs.«167710_j39049842655736_2_alg».proof.Proof.RefOps0
import proofs.«167710_j39049842655736_2_alg».proof.Proof.RefOps1
import proofs.«167710_j39049842655736_2_alg».proof.Proof.RefOps2
import proofs.«167710_j39049842655736_2_alg».proof.Proof.RefOps3
import proofs.«167710_j39049842655736_2_alg».proof.Proof.RefOps4
import proofs.«167710_j39049842655736_2_alg».proof.Proof.RefOps5
import proofs.«167710_j39049842655736_2_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's operations: the six windows', in order. -/
abbrev ops : List (HloOp τ sig (Elt F)) := ops0 ++ (ops1 ++ (ops2 ++ (ops3 ++ (ops4 ++ ops5))))

/-- @main is its operations run in order: window by window. -/
theorem main_eq (c : Dev nD) : main (F := F) c = seq ops := by
  rw [seq_append, seq_append, seq_append, seq_append, seq_append, ← part0_eq c, ← part1_eq c, ← part2_eq c, ← part3_eq c,
    ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) ∨ op ∈ (ops5 : List (HloOp τ sig (Elt F))) := by
  simpa only [List.mem_append] using h

theorem ops_sub : (ops : List (HloOp τ sig (Elt F))).Forall fun op => op.bufs ⊆ tcRefs τ sig := by
  rw [List.forall_iff_forall_mem]
  intro op h
  rcases mem_ops h with h | h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h

theorem ops_fresh : ∀ op ∈ (ops : List (HloOp τ sig (Elt F))), op.fresh = ∅ := by
  intro op h
  rcases mem_ops h with h | h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h

/-- Every weakly fair execution of the reference's @main terminates with each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A reference none of the six windows writes holds, after @main, what it held before. -/
theorem keep {r : Ref sig .tc} (h0 : r ∉ writes0) (h1 : r ∉ writes1) (h2 : r ∉ writes2) (h3 : r ∉ writes3) (h4 : r ∉ writes4)
    (h5 : r ∉ writes5) (V : Valuation τ sig (Elt F)) : after ops V (Proc.devRef .tc r) = V (Proc.devRef .tc r) := by
  rw [after_append, after_append, after_append, after_append, after_append,
    after_of_writes_sub ops5 _ ops5_writes h5, after_of_writes_sub ops4 _ ops4_writes h4, after_of_writes_sub ops3 _ ops3_writes h3,
    after_of_writes_sub ops2 _ ops2_writes h2, after_of_writes_sub ops1 _ ops1_writes h1, after_of_writes_sub ops0 _ ops0_writes h0]

theorem keep_arg0 (V : Valuation τ sig (Elt F)) : after ops V (Proc.devRef .tc main_arg0) = V (Proc.devRef .tc main_arg0) :=
  keep (by decide) (by decide) (by decide) (by decide) (by decide) (by decide) V
theorem keep_arg1 (V : Valuation τ sig (Elt F)) : after ops V (Proc.devRef .tc main_arg1) = V (Proc.devRef .tc main_arg1) :=
  keep (by decide) (by decide) (by decide) (by decide) (by decide) (by decide) V
theorem keep_arg2 (V : Valuation τ sig (Elt F)) : after ops V (Proc.devRef .tc main_arg2) = V (Proc.devRef .tc main_arg2) :=
  keep (by decide) (by decide) (by decide) (by decide) (by decide) (by decide) V
theorem keep_arg3 (V : Valuation τ sig (Elt F)) : after ops V (Proc.devRef .tc main_arg3) = V (Proc.devRef .tc main_arg3) :=
  keep (by decide) (by decide) (by decide) (by decide) (by decide) (by decide) V
theorem keep_arg4 (V : Valuation τ sig (Elt F)) : after ops V (Proc.devRef .tc main_arg4) = V (Proc.devRef .tc main_arg4) :=
  keep (by decide) (by decide) (by decide) (by decide) (by decide) (by decide) V
theorem keep_arg5 (V : Valuation τ sig (Elt F)) : after ops V (Proc.devRef .tc main_arg5) = V (Proc.devRef .tc main_arg5) :=
  keep (by decide) (by decide) (by decide) (by decide) (by decide) (by decide) V
theorem keep_arg6 (V : Valuation τ sig (Elt F)) : after ops V (Proc.devRef .tc main_arg6) = V (Proc.devRef .tc main_arg6) :=
  keep (by decide) (by decide) (by decide) (by decide) (by decide) (by decide) V
theorem keep_arg7 (V : Valuation τ sig (Elt F)) : after ops V (Proc.devRef .tc main_arg7) = V (Proc.devRef .tc main_arg7) :=
  keep (by decide) (by decide) (by decide) (by decide) (by decide) (by decide) V
theorem keep_arg8 (V : Valuation τ sig (Elt F)) : after ops V (Proc.devRef .tc main_arg8) = V (Proc.devRef .tc main_arg8) :=
  keep (by decide) (by decide) (by decide) (by decide) (by decide) (by decide) V
theorem keep_arg9 (V : Valuation τ sig (Elt F)) : after ops V (Proc.devRef .tc main_arg9) = V (Proc.devRef .tc main_arg9) :=
  keep (by decide) (by decide) (by decide) (by decide) (by decide) (by decide) V
theorem keep_arg10 (V : Valuation τ sig (Elt F)) : after ops V (Proc.devRef .tc main_arg10) = V (Proc.devRef .tc main_arg10) :=
  keep (by decide) (by decide) (by decide) (by decide) (by decide) (by decide) V
theorem keep_arg11 (V : Valuation τ sig (Elt F)) : after ops V (Proc.devRef .tc main_arg11) = V (Proc.devRef .tc main_arg11) :=
  keep (by decide) (by decide) (by decide) (by decide) (by decide) (by decide) V
theorem keep_arg12 (V : Valuation τ sig (Elt F)) : after ops V (Proc.devRef .tc main_arg12) = V (Proc.devRef .tc main_arg12) :=
  keep (by decide) (by decide) (by decide) (by decide) (by decide) (by decide) V
theorem keep_arg13 (V : Valuation τ sig (Elt F)) : after ops V (Proc.devRef .tc main_arg13) = V (Proc.devRef .tc main_arg13) :=
  keep (by decide) (by decide) (by decide) (by decide) (by decide) (by decide) V

/-- The reference runs to the end, and its argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_arg0).trans (keep_arg0 _),
     (h c main_arg1).trans (keep_arg1 _),
     (h c main_arg2).trans (keep_arg2 _),
     (h c main_arg3).trans (keep_arg3 _),
     (h c main_arg4).trans (keep_arg4 _),
     (h c main_arg5).trans (keep_arg5 _),
     (h c main_arg6).trans (keep_arg6 _),
     (h c main_arg7).trans (keep_arg7 _),
     (h c main_arg8).trans (keep_arg8 _),
     (h c main_arg9).trans (keep_arg9 _),
     (h c main_arg10).trans (keep_arg10 _),
     (h c main_arg11).trans (keep_arg11 _),
     (h c main_arg12).trans (keep_arg12 _),
     (h c main_arg13).trans (keep_arg13 _)⟩) (run_main m ρ)

end Cert.ReferenceIdeal.RefRun

end
-- ==== Proof.Terms.lean ====
/- The reference network as a composition of named array functions, each written with the host operations the program
   itself applies: edge normalisation, one propagation step, the partial sums of a layer's linear map, the batch
   statistics, the affine normalisation and the rectifier; a layer is their composition, the network three layers. -/
import proofs.«167710_j39049842655736_2_alg».proof.Proof.Gen.ReferenceIdeal

noncomputable section

namespace Cert.ReferenceIdeal.T

open Cert.ReferenceIdeal Cert.ReferenceIdeal.Gen Idealize.ShloMosaic

variable {F : FTy → Type} [FloatOps F]

/-- The edges' source node indices: row 0 of the edge list. -/
def srcT (a1 : IVec S2x600000 32) : IVec S600000 32 :=
  (shapeCast S600000 (((extractStridedSlice S1x600000 ![0, 0] · slices_S2x600000_S1x600000_0_0)) a1) shapeCasts_S1x600000_S600000)

/-- The edges' target node indices: row 1 of the edge list. -/
def dstT (a1 : IVec S2x600000 32) : IVec S600000 32 :=
  (shapeCast S600000 (((extractStridedSlice S1x600000 ![1, 0] · slices_S2x600000_S1x600000_1_0)) a1) shapeCasts_S1x600000_S600000)

/-- A negative node index counts from the end: N is added to it. -/
def wrapT (idx : IVec S600000 32) : IVec S600000 32 :=
  ((select) ((cmpi .slt) idx ((broadcastInDim S600000 ![] bcast_S_S600000) (constantI S_ 32 0#32))) ((addi) idx ((broadcastInDim S600000 ![] bcast_S_S600000) (constantI S_ 32 100000#32))) idx)

/-- Each node's weighted in-degree: the sum of the weights of the edges that point at it. -/
def degT (dst : IVec S600000 32) (a2 : FVec F S600000 .f32) : FVec F S100000 .f32 :=
  (((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) dst) a2)

/-- The inverse square root of the degree (floored away from zero), and 0 where the degree is not positive. -/
def disT (dst : IVec S600000 32) (a2 : FVec F S600000 .f32) : FVec F S100000 .f32 :=
  (select ((cmpf .ogt : (⟨S100000, .f32⟩ : BufTy).Contents (Elt F) → (⟨S100000, .f32⟩ : BufTy).Contents (Elt F) → (⟨S100000, .i1⟩ : BufTy).Contents (Elt F)) (degT dst a2) ((broadcastInDim S100000 ![] bcast_S_S100000 : (⟨S_, .f32⟩ : BufTy).Contents (Elt F) → (⟨S100000, .f32⟩ : BufTy).Contents (Elt F)) (constant S_ .f32 0x00000000#32))) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (degT dst a2) ((broadcastInDim S100000 ![] bcast_S_S100000 : (⟨S_, .f32⟩ : BufTy).Contents (Elt F) → (⟨S100000, .f32⟩ : BufTy).Contents (Elt F)) (constant S_ .f32 0x2B8CBCCC#32)))) ((broadcastInDim S100000 ![] bcast_S_S100000) (id (constant S_ .f32 0x00000000#32))))

/-- The symmetric normalisation of the edge weights: weight times the inverse-root degrees of both ends. -/
def normT (src : IVec S600000 32) (dst : IVec S600000 32) (a2 : FVec F S600000 .f32) : FVec F S600000 .f32 :=
  ((mulf : (⟨S600000, .f32⟩ : BufTy).Contents (Elt F) → (⟨S600000, .f32⟩ : BufTy).Contents (Elt F) → (⟨S600000, .f32⟩ : BufTy).Contents (Elt F)) ((mulf : (⟨S600000, .f32⟩ : BufTy).Contents (Elt F) → (⟨S600000, .f32⟩ : BufTy).Contents (Elt F) → (⟨S600000, .f32⟩ : BufTy).Contents (Elt F)) (((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)) (disT dst a2) ((broadcastInDim S600000x1 ![0] bcast_S600000_S600000x1_0 : (⟨S600000, .i32⟩ : BufTy).Contents (Elt F) → (⟨S600000x1, .i32⟩ : BufTy).Contents (Elt F)) (wrapT src))) a2) (((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)) (disT dst a2) ((broadcastInDim S600000x1 ![0] bcast_S600000_S600000x1_0 : (⟨S600000, .i32⟩ : BufTy).Contents (Elt F) → (⟨S600000x1, .i32⟩ : BufTy).Contents (Elt F)) (wrapT dst))))

/-- One propagation step: every node sums, over the edges pointing at it, the edge's coefficient times the source node's feature row. -/
def hopT (src : IVec S600000 32) (dst : IVec S600000 32) (nrm : FVec F S600000 .f32) (h : FVec F S100000x128 .f32) : FVec F S100000x128 .f32 :=
  (((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) dst) ((mulf : (⟨S600000x128, .f32⟩ : BufTy).Contents (Elt F) → (⟨S600000x128, .f32⟩ : BufTy).Contents (Elt F) → (⟨S600000x128, .f32⟩ : BufTy).Contents (Elt F)) ((broadcastInDim S600000x128 ![0, 1] bcast_S600000x1_S600000x128_0_1 : (⟨S600000x1, .f32⟩ : BufTy).Contents (Elt F) → (⟨S600000x128, .f32⟩ : BufTy).Contents (Elt F)) ((broadcastInDim S600000x1 ![0] bcast_S600000_S600000x1_0 : (⟨S600000, .f32⟩ : BufTy).Contents (Elt F) → (⟨S600000x1, .f32⟩ : BufTy).Contents (Elt F)) nrm)) (((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) h ((broadcastInDim S600000x1 ![0] bcast_S600000_S600000x1_0 : (⟨S600000, .i32⟩ : BufTy).Contents (Elt F) → (⟨S600000x1, .i32⟩ : BufTy).Contents (Elt F)) (wrapT src)))))

/-- The first term of the layer's linear map: the features times weight matrix 0. -/
def dot0T (x : FVec F S100000x128 .f32) (W : FVec F S4x128x128 .f32) : FVec F S100000x128 .f32 :=
  (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x (shapeCast S128x128 (((extractStridedSlice S1x128x128 ![0, 0, 0] · slices_S4x128x128_S1x128x128_0_0_0) : (⟨S4x128x128, .f32⟩ : BufTy).Contents (Elt F) → (⟨S1x128x128, .f32⟩ : BufTy).Contents (Elt F)) W) shapeCasts_S1x128x128_S128x128))

/-- The running sum plus the once-propagated features times weight matrix 1. -/
def dotAdd1T (acc : FVec F S100000x128 .f32) (h : FVec F S100000x128 .f32) (W : FVec F S4x128x128 .f32) : FVec F S100000x128 .f32 :=
  ((addf : (⟨S100000x128, .f32⟩ : BufTy).Contents (Elt F) → (⟨S100000x128, .f32⟩ : BufTy).Contents (Elt F) → (⟨S100000x128, .f32⟩ : BufTy).Contents (Elt F)) acc (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) h (shapeCast S128x128 (((extractStridedSlice S1x128x128 ![1, 0, 0] · slices_S4x128x128_S1x128x128_1_0_0) : (⟨S4x128x128, .f32⟩ : BufTy).Contents (Elt F) → (⟨S1x128x128, .f32⟩ : BufTy).Contents (Elt F)) W) shapeCasts_S1x128x128_S128x128)))

/-- … plus the twice-propagated features times weight matrix 2. -/
def dotAdd2T (acc : FVec F S100000x128 .f32) (h : FVec F S100000x128 .f32) (W : FVec F S4x128x128 .f32) : FVec F S100000x128 .f32 :=
  ((addf : (⟨S100000x128, .f32⟩ : BufTy).Contents (Elt F) → (⟨S100000x128, .f32⟩ : BufTy).Contents (Elt F) → (⟨S100000x128, .f32⟩ : BufTy).Contents (Elt F)) acc (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) h (shapeCast S128x128 (((extractStridedSlice S1x128x128 ![2, 0, 0] · slices_S4x128x128_S1x128x128_2_0_0) : (⟨S4x128x128, .f32⟩ : BufTy).Contents (Elt F) → (⟨S1x128x128, .f32⟩ : BufTy).Contents (Elt F)) W) shapeCasts_S1x128x128_S128x128)))

/-- … plus the thrice-propagated features times weight matrix 3, plus the bias row. -/
def dotAdd3bT (acc : FVec F S100000x128 .f32) (h : FVec F S100000x128 .f32) (W : FVec F S4x128x128 .f32) (b : FVec F S128 .f32) : FVec F S100000x128 .f32 :=
  ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) acc (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) h (shapeCast S128x128 (((extractStridedSlice S1x128x128 ![3, 0, 0] · slices_S4x128x128_S1x128x128_3_0_0) : (⟨S4x128x128, .f32⟩ : BufTy).Contents (Elt F) → (⟨S1x128x128, .f32⟩ : BufTy).Contents (Elt F)) W) shapeCasts_S1x128x128_S128x128))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The column means over the nodes. -/
def meanT (o : FVec F S100000x128 .f32) : FVec F S128 .f32 :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) o (constant S_ .f32 0x00000000#32)) ((broadcastInDim S128 ![] bcast_S_S128 : (⟨S_, .f32⟩ : BufTy).Contents (Elt F) → (⟨S128, .f32⟩ : BufTy).Contents (Elt F)) (constant S_ .f32 0x47C35000#32)))

/-- The column means of the squared deviations from the column mean. -/
def varT (o : FVec F S100000x128 .f32) : FVec F S128 .f32 :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) o ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (meanT o)))) ((subf : (⟨S100000x128, .f32⟩ : BufTy).Contents (Elt F) → (⟨S100000x128, .f32⟩ : BufTy).Contents (Elt F) → (⟨S100000x128, .f32⟩ : BufTy).Contents (Elt F)) o ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) (meanT o))))) (constant S_ .f32 0x00000000#32)) ((broadcastInDim S128 ![] bcast_S_S128 : (⟨S_, .f32⟩ : BufTy).Contents (Elt F) → (⟨S128, .f32⟩ : BufTy).Contents (Elt F)) (constant S_ .f32 0x47C35000#32)))

/-- Centre by mu, scale by the inverse root of vr plus the offset, then by g, and shift by be — column by column. -/
def affineT (o : FVec F S100000x128 .f32) (mu : FVec F S128 .f32) (vr : FVec F S128 .f32) (g : FVec F S128 .f32) (be : FVec F S128 .f32) : FVec F S100000x128 .f32 :=
  ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) o ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) vr ((broadcastInDim S128 ![] bcast_S_S128 : (⟨S_, .f32⟩ : BufTy).Contents (Elt F) → (⟨S128, .f32⟩ : BufTy).Contents (Elt F)) (constant S_ .f32 0x3727C5AC#32))))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) be)))

/-- Batch normalisation with the batch's own mean and variance. -/
def bnT (o : FVec F S100000x128 .f32) (g : FVec F S128 .f32) (be : FVec F S128 .f32) : FVec F S100000x128 .f32 :=
  affineT o (meanT o) (varT o) g be

/-- The leaky rectifier: z where z ≥ 0, the slope times z elsewhere. -/
def lreluT (z : FVec F S100000x128 .f32) : FVec F S100000x128 .f32 :=
  (select ((cmpf .oge) z ((broadcastInDim S100000x128 ![] bcast_S_S100000x128) (constant S_ .f32 0x00000000#32))) z (mulf ((broadcastInDim S100000x128 ![] bcast_S_S100000x128) (id (constant S_ .f32 0x3C23D70A#32))) z))

/-- The output layer's first term (64 columns). -/
def dot0U (x : FVec F S100000x128 .f32) (W : FVec F S4x128x64 .f32) : FVec F S100000x64 .f32 :=
  (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) x (shapeCast S128x64 (((extractStridedSlice S1x128x64 ![0, 0, 0] · slices_S4x128x64_S1x128x64_0_0_0) : (⟨S4x128x64, .f32⟩ : BufTy).Contents (Elt F) → (⟨S1x128x64, .f32⟩ : BufTy).Contents (Elt F)) W) shapeCasts_S1x128x64_S128x64))

/-- The output layer's running sum, hop 1. -/
def dotAdd1U (acc : FVec F S100000x64 .f32) (h : FVec F S100000x128 .f32) (W : FVec F S4x128x64 .f32) : FVec F S100000x64 .f32 :=
  ((addf : (⟨S100000x64, .f32⟩ : BufTy).Contents (Elt F) → (⟨S100000x64, .f32⟩ : BufTy).Contents (Elt F) → (⟨S100000x64, .f32⟩ : BufTy).Contents (Elt F)) acc (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) h (shapeCast S128x64 (((extractStridedSlice S1x128x64 ![1, 0, 0] · slices_S4x128x64_S1x128x64_1_0_0) : (⟨S4x128x64, .f32⟩ : BufTy).Contents (Elt F) → (⟨S1x128x64, .f32⟩ : BufTy).Contents (Elt F)) W) shapeCasts_S1x128x64_S128x64)))

/-- The output layer's running sum, hop 2. -/
def dotAdd2U (acc : FVec F S100000x64 .f32) (h : FVec F S100000x128 .f32) (W : FVec F S4x128x64 .f32) : FVec F S100000x64 .f32 :=
  ((addf : (⟨S100000x64, .f32⟩ : BufTy).Contents (Elt F) → (⟨S100000x64, .f32⟩ : BufTy).Contents (Elt F) → (⟨S100000x64, .f32⟩ : BufTy).Contents (Elt F)) acc (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) h (shapeCast S128x64 (((extractStridedSlice S1x128x64 ![2, 0, 0] · slices_S4x128x64_S1x128x64_2_0_0) : (⟨S4x128x64, .f32⟩ : BufTy).Contents (Elt F) → (⟨S1x128x64, .f32⟩ : BufTy).Contents (Elt F)) W) shapeCasts_S1x128x64_S128x64)))

/-- The output layer's running sum, hop 3 (this layer has no bias). -/
def dotAdd3U (acc : FVec F S100000x64 .f32) (h : FVec F S100000x128 .f32) (W : FVec F S4x128x64 .f32) : FVec F S100000x64 .f32 :=
  ((addf : (⟨S100000x64, .f32⟩ : BufTy).Contents (Elt F) → (⟨S100000x64, .f32⟩ : BufTy).Contents (Elt F) → (⟨S100000x64, .f32⟩ : BufTy).Contents (Elt F)) acc (((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) h (shapeCast S128x64 (((extractStridedSlice S1x128x64 ![3, 0, 0] · slices_S4x128x64_S1x128x64_3_0_0) : (⟨S4x128x64, .f32⟩ : BufTy).Contents (Elt F) → (⟨S1x128x64, .f32⟩ : BufTy).Contents (Elt F)) W) shapeCasts_S1x128x64_S128x64)))

/-- The column means (64 columns). -/
def meanU (o : FVec F S100000x64 .f32) : FVec F S64 .f32 :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) o (constant S_ .f32 0x00000000#32)) ((broadcastInDim S64 ![] bcast_S_S64 : (⟨S_, .f32⟩ : BufTy).Contents (Elt F) → (⟨S64, .f32⟩ : BufTy).Contents (Elt F)) (constant S_ .f32 0x47C35000#32)))

/-- The column variances (64 columns). -/
def varU (o : FVec F S100000x64 .f32) : FVec F S64 .f32 :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) o ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) (meanU o)))) ((subf : (⟨S100000x64, .f32⟩ : BufTy).Contents (Elt F) → (⟨S100000x64, .f32⟩ : BufTy).Contents (Elt F) → (⟨S100000x64, .f32⟩ : BufTy).Contents (Elt F)) o ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) (meanU o))))) (constant S_ .f32 0x00000000#32)) ((broadcastInDim S64 ![] bcast_S_S64 : (⟨S_, .f32⟩ : BufTy).Contents (Elt F) → (⟨S64, .f32⟩ : BufTy).Contents (Elt F)) (constant S_ .f32 0x47C35000#32)))

/-- The affine normalisation (64 columns). -/
def affineU (o : FVec F S100000x64 .f32) (mu : FVec F S64 .f32) (vr : FVec F S64 .f32) (g : FVec F S64 .f32) (be : FVec F S64 .f32) : FVec F S100000x64 .f32 :=
  ((addf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((mulf : (⟨S100000x64, .f32⟩ : BufTy).Contents (Elt F) → (⟨S100000x64, .f32⟩ : BufTy).Contents (Elt F) → (⟨S100000x64, .f32⟩ : BufTy).Contents (Elt F)) ((subf : (⟨S100000x64, .f32⟩ : BufTy).Contents (Elt F) → (⟨S100000x64, .f32⟩ : BufTy).Contents (Elt F) → (⟨S100000x64, .f32⟩ : BufTy).Contents (Elt F)) o ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) mu))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) vr ((broadcastInDim S64 ![] bcast_S_S64 : (⟨S_, .f32⟩ : BufTy).Contents (Elt F) → (⟨S64, .f32⟩ : BufTy).Contents (Elt F)) (constant S_ .f32 0x3727C5AC#32))))))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) g))) ((broadcastInDim S100000x64 ![0, 1] bcast_S1x64_S100000x64_0_1 : (⟨S1x64, .f32⟩ : BufTy).Contents (Elt F) → (⟨S100000x64, .f32⟩ : BufTy).Contents (Elt F)) ((broadcastInDim S1x64 ![1] bcast_S64_S1x64_1 : (⟨S64, .f32⟩ : BufTy).Contents (Elt F) → (⟨S1x64, .f32⟩ : BufTy).Contents (Elt F)) be)))

/-- Batch normalisation (64 columns). -/
def bnU (o : FVec F S100000x64 .f32) (g : FVec F S64 .f32) (be : FVec F S64 .f32) : FVec F S100000x64 .f32 :=
  affineU o (meanU o) (varU o) g be

/-- The leaky rectifier (64 columns). -/
def lreluU (z : FVec F S100000x64 .f32) : FVec F S100000x64 .f32 :=
  (select ((cmpf .oge) z ((broadcastInDim S100000x64 ![] bcast_S_S100000x64) (constant S_ .f32 0x00000000#32))) z (mulf ((broadcastInDim S100000x64 ![] bcast_S_S100000x64) (id (constant S_ .f32 0x3C23D70A#32))) z))

/-- A hidden layer: the four-term linear map of the features and their three propagations, normalised and rectified. -/
def layerT (src dst : IVec S600000 32) (nrm : FVec F S600000 .f32) (x : FVec F S100000x128 .f32) (W : FVec F S4x128x128 .f32) (b g be : FVec F S128 .f32) : FVec F S100000x128 .f32 :=
  lreluT (bnT (dotAdd3bT (dotAdd2T (dotAdd1T (dot0T x W) (hopT src dst nrm x) W) (hopT src dst nrm (hopT src dst nrm x)) W) (hopT src dst nrm (hopT src dst nrm (hopT src dst nrm x))) W b) g be)

/-- The output layer: the same with 64 output columns and no bias. -/
def layerU (src dst : IVec S600000 32) (nrm : FVec F S600000 .f32) (x : FVec F S100000x128 .f32) (W : FVec F S4x128x64 .f32) (g be : FVec F S64 .f32) : FVec F S100000x64 .f32 :=
  lreluU (bnU (dotAdd3U (dotAdd2U (dotAdd1U (dot0U x W) (hopT src dst nrm x) W) (hopT src dst nrm (hopT src dst nrm x)) W) (hopT src dst nrm (hopT src dst nrm (hopT src dst nrm x))) W) g be)

/-- The whole network on its fourteen arguments. -/
def refOut (a0 : FVec F S100000x128 .f32) (a1 : IVec S2x600000 32) (a2 : FVec F S600000 .f32) (a3 : FVec F S4x128x128 .f32) (a4 a5 a6 : FVec F S128 .f32)
    (a7 : FVec F S4x128x128 .f32) (a8 a9 a10 : FVec F S128 .f32) (a11 : FVec F S4x128x64 .f32) (a12 a13 : FVec F S64 .f32) : FVec F S100000x64 .f32 :=
  layerU (srcT a1) (dstT a1) (normT (srcT a1) (dstT a1) a2)
    (layerT (srcT a1) (dstT a1) (normT (srcT a1) (dstT a1) a2)
      (layerT (srcT a1) (dstT a1) (normT (srcT a1) (dstT a1) a2) a0 a3 a4 a5 a6) a7 a8 a9 a10) a11 a12 a13

end Cert.ReferenceIdeal.T

end
-- ==== Proof.RefChunksA.lean ====
/- The edge lists and the normalised edge weights: the operations of @main that compute it, cut where a named value is complete; each piece, run from any
   contents, leaves its value at the named function of the values it reads, and leaves every reference it does not write alone. -/
import proofs.«167710_j39049842655736_2_alg».proof.Proof.Terms
import proofs.«167710_j39049842655736_2_alg».proof.Proof.Gen.ReferenceIdeal
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 1 to 4 of @main, ending at main_v3. -/
def C0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- The references these operations write. -/
abbrev Wr0 : List (Ref sig .tc) := [ main_v0, main_v1, main_v2, main_v3 ]

theorem C0_writes : (C0 : List (HloOp τ sig (Elt F))).Forall fun op => op.writes ⊆ (Wr0.map (Proc.devRef (τ := τ) .tc)).toFinset := by
  unfold C0
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep0 (S : Valuation τ sig (Elt F)) {r : Ref sig .tc} (h : r ∉ Wr0) :
    after (C0 (F := F)) S (no_index (Proc.devRef .tc r)) = S (Proc.devRef .tc r) :=
  after_of_writes_sub C0 S C0_writes h

theorem c0_src (S : Valuation τ sig (Elt F)) : after (C0 (F := F)) S (no_index (Proc.devRef .tc main_v1)) = T.srcT (S (Proc.devRef .tc main_arg1)) := by
  unfold C0 T.srcT
  after_results_simp <;> rfl

theorem c0_dst (S : Valuation τ sig (Elt F)) : after (C0 (F := F)) S (no_index (Proc.devRef .tc main_v3)) = T.dstT (S (Proc.devRef .tc main_arg1)) := by
  unfold C0 T.dstT
  after_results_simp <;> rfl

/-- Operations 5 to 39 of @main, ending at main_v28. -/
def C1 : List (HloOp τ sig (Elt F)) :=
  [ StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.unary main_v3 main_v5 (broadcastInDim S600000x1 ![0] bcast_S600000_S600000x1_0 : (⟨S600000, .i32⟩ : BufTy).Contents (Elt F) → (⟨S600000x1, .i32⟩ : BufTy).Contents (Elt F)),
    StableHlo.ternary main_v4 main_v5 main_arg2 main_v6 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.binary main_v6 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_1 (constant S_ .f32 0x2B8CBCCC#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v6 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S100000 ![] bcast_S_S100000),
    StableHlo.TRef.ternary (.of main_v8) (.of main_v11) main_call0.v1 main_call0.v2 select,
    StableHlo.nullary main_c (constantI S_ 32 0#32),
    StableHlo.unary main_c main_v13 (broadcastInDim S600000 ![] bcast_S_S600000 : (⟨S_, .i32⟩ : BufTy).Contents (Elt F) → (⟨S600000, .i32⟩ : BufTy).Contents (Elt F)),
    StableHlo.binary main_v1 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 100000#32),
    StableHlo.unary main_c_3 main_v15 (broadcastInDim S600000 ![] bcast_S_S600000 : (⟨S_, .i32⟩ : BufTy).Contents (Elt F) → (⟨S600000, .i32⟩ : BufTy).Contents (Elt F)),
    StableHlo.binary main_v1 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_v12 main_v18 main_v19 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v19 main_arg2 main_v20 (mulf : (⟨S600000, .f32⟩ : BufTy).Contents (Elt F) → (⟨S600000, .f32⟩ : BufTy).Contents (Elt F) → (⟨S600000, .f32⟩ : BufTy).Contents (Elt F)),
    StableHlo.nullary main_c_4 (constantI S_ 32 0#32),
    StableHlo.unary main_c_4 main_v21 (broadcastInDim S600000 ![] bcast_S_S600000 : (⟨S_, .i32⟩ : BufTy).Contents (Elt F) → (⟨S600000, .i32⟩ : BufTy).Contents (Elt F)),
    StableHlo.binary main_v3 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 100000#32),
    StableHlo.unary main_c_5 main_v23 (broadcastInDim S600000 ![] bcast_S_S600000 : (⟨S_, .i32⟩ : BufTy).Contents (Elt F) → (⟨S600000, .i32⟩ : BufTy).Contents (Elt F)),
    StableHlo.binary main_v3 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v12 main_v26 main_v27 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v20 main_v27 main_v28 (mulf : (⟨S600000, .f32⟩ : BufTy).Contents (Elt F) → (⟨S600000, .f32⟩ : BufTy).Contents (Elt F) → (⟨S600000, .f32⟩ : BufTy).Contents (Elt F)) ]

/-- The references these operations write. -/
abbrev Wr1 : List (Ref sig .tc) := [ main_cst, main_v4, main_v5, main_v6, main_cst_0, main_v7, main_v8, main_cst_1, main_v9, main_v10, main_v11, main_cst_2, main_call0.v0.ref, main_call0.v1.ref, main_call0.v2.ref, main_c, main_v13, main_v14, main_c_3, main_v15, main_v16, main_v17, main_v18, main_v19, main_v20, main_c_4, main_v21, main_v22, main_c_5, main_v23, main_v24, main_v25, main_v26, main_v27, main_v28 ]

theorem C1_writes : (C1 : List (HloOp τ sig (Elt F))).Forall fun op => op.writes ⊆ (Wr1.map (Proc.devRef (τ := τ) .tc)).toFinset := by
  unfold C1
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep1 (S : Valuation τ sig (Elt F)) {r : Ref sig .tc} (h : r ∉ Wr1) :
    after (C1 (F := F)) S (no_index (Proc.devRef .tc r)) = S (Proc.devRef .tc r) :=
  after_of_writes_sub C1 S C1_writes h

set_option maxRecDepth 8192 in
theorem c1_eq (S : Valuation τ sig (Elt F)) : after (C1 (F := F)) S (no_index (Proc.devRef .tc main_v28)) = T.normT (S (Proc.devRef .tc main_v1)) (S (Proc.devRef .tc main_v3)) (S (Proc.devRef .tc main_arg2)) := by
  unfold C1 T.normT T.disT T.degT T.wrapT
  after_results_simp <;> rfl

end Cert.ReferenceIdeal.RefRead

end
-- ==== Proof.RefChunks1.lean ====
/- The first hidden layer: the operations of @main that compute it, cut where a named value is complete; each piece, run from any
   contents, leaves its value at the named function of the values it reads, and leaves every reference it does not write alone. -/
import proofs.«167710_j39049842655736_2_alg».proof.Proof.Terms
import proofs.«167710_j39049842655736_2_alg».proof.Proof.Gen.ReferenceIdeal
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 40 to 42 of @main, ending at main_v31. -/
def C2 : List (HloOp τ sig (Elt F)) :=
  [ StableHlo.unary main_arg3 main_v29 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v29 main_v30 rfl shapeCasts_S1x128x128_S128x128,
    StableHlo.binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The references these operations write. -/
abbrev Wr2 : List (Ref sig .tc) := [ main_v29, main_v30, main_v31 ]

theorem C2_writes : (C2 : List (HloOp τ sig (Elt F))).Forall fun op => op.writes ⊆ (Wr2.map (Proc.devRef (τ := τ) .tc)).toFinset := by
  unfold C2
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep2 (S : Valuation τ sig (Elt F)) {r : Ref sig .tc} (h : r ∉ Wr2) :
    after (C2 (F := F)) S (no_index (Proc.devRef .tc r)) = S (Proc.devRef .tc r) :=
  after_of_writes_sub C2 S C2_writes h

set_option maxRecDepth 8192 in
theorem c2_eq (S : Valuation τ sig (Elt F)) : after (C2 (F := F)) S (no_index (Proc.devRef .tc main_v31)) = T.dot0T (S (Proc.devRef .tc main_arg0)) (S (Proc.devRef .tc main_arg3)) := by
  unfold C2 T.dot0T
  after_results_simp <;> rfl

/-- Operations 43 to 58 of @main, ending at main_v44. -/
def C3 : List (HloOp τ sig (Elt F)) :=
  [ StableHlo.unary main_v28 main_v32 (broadcastInDim S600000x1 ![0] bcast_S600000_S600000x1_0 : (⟨S600000, .f32⟩ : BufTy).Contents (Elt F) → (⟨S600000x1, .f32⟩ : BufTy).Contents (Elt F)),
    StableHlo.nullary main_c_6 (constantI S_ 32 0#32),
    StableHlo.unary main_c_6 main_v33 (broadcastInDim S600000 ![] bcast_S_S600000 : (⟨S_, .i32⟩ : BufTy).Contents (Elt F) → (⟨S600000, .i32⟩ : BufTy).Contents (Elt F)),
    StableHlo.binary main_v1 main_v33 main_v34 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 100000#32),
    StableHlo.unary main_c_7 main_v35 (broadcastInDim S600000 ![] bcast_S_S600000 : (⟨S_, .i32⟩ : BufTy).Contents (Elt F) → (⟨S600000, .i32⟩ : BufTy).Contents (Elt F)),
    StableHlo.binary main_v1 main_v35 main_v36 (addi : (⟨S600000, .i32⟩ : BufTy).Contents (Elt F) → (⟨S600000, .i32⟩ : BufTy).Contents (Elt F) → (⟨S600000, .i32⟩ : BufTy).Contents (Elt F)),
    StableHlo.ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v37 main_v38 (broadcastInDim S600000x1 ![0] bcast_S600000_S600000x1_0 : (⟨S600000, .i32⟩ : BufTy).Contents (Elt F) → (⟨S600000x1, .i32⟩ : BufTy).Contents (Elt F)),
    StableHlo.binary main_arg0 main_v38 main_v39 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v32 main_v40 (broadcastInDim S600000x128 ![0, 1] bcast_S600000x1_S600000x128_0_1 : (⟨S600000x1, .f32⟩ : BufTy).Contents (Elt F) → (⟨S600000x128, .f32⟩ : BufTy).Contents (Elt F)),
    StableHlo.binary main_v40 main_v39 main_v41 (mulf : (⟨S600000x128, .f32⟩ : BufTy).Contents (Elt F) → (⟨S600000x128, .f32⟩ : BufTy).Contents (Elt F) → (⟨S600000x128, .f32⟩ : BufTy).Contents (Elt F)),
    StableHlo.nullary main_cst_8 (constant S_ .f32 0x00000000#32),
    StableHlo.unary main_cst_8 main_v42 (broadcastInDim S100000x128 ![] bcast_S_S100000x128 : (⟨S_, .f32⟩ : BufTy).Contents (Elt F) → (⟨S100000x128, .f32⟩ : BufTy).Contents (Elt F)),
    StableHlo.unary main_v3 main_v43 (broadcastInDim S600000x1 ![0] bcast_S600000_S600000x1_0 : (⟨S600000, .i32⟩ : BufTy).Contents (Elt F) → (⟨S600000x1, .i32⟩ : BufTy).Contents (Elt F)),
    StableHlo.ternary main_v42 main_v43 main_v41 main_v44 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr3 : List (Ref sig .tc) := [ main_v32, main_c_6, main_v33, main_v34, main_c_7, main_v35, main_v36, main_v37, main_v38, main_v39, main_v40, main_v41, main_cst_8, main_v42, main_v43, main_v44 ]

theorem C3_writes : (C3 : List (HloOp τ sig (Elt F))).Forall fun op => op.writes ⊆ (Wr3.map (Proc.devRef (τ := τ) .tc)).toFinset := by
  unfold C3
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep3 (S : Valuation τ sig (Elt F)) {r : Ref sig .tc} (h : r ∉ Wr3) :
    after (C3 (F := F)) S (no_index (Proc.devRef .tc r)) = S (Proc.devRef .tc r) :=
  after_of_writes_sub C3 S C3_writes h

set_option maxRecDepth 8192 in
theorem c3_eq (S : Valuation τ sig (Elt F)) : after (C3 (F := F)) S (no_index (Proc.devRef .tc main_v44)) = T.hopT (S (Proc.devRef .tc main_v1)) (S (Proc.devRef .tc main_v3)) (S (Proc.devRef .tc main_v28)) (S (Proc.devRef .tc main_arg0)) := by
  unfold C3 T.hopT T.wrapT
  after_results_simp <;> rfl

/-- Operations 59 to 62 of @main, ending at main_v48. -/
def C4 : List (HloOp τ sig (Elt F)) :=
  [ StableHlo.unary main_arg3 main_v45 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v45 main_v46 rfl shapeCasts_S1x128x128_S128x128,
    StableHlo.binary main_v44 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v31 main_v47 main_v48 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr4 : List (Ref sig .tc) := [ main_v45, main_v46, main_v47, main_v48 ]

theorem C4_writes : (C4 : List (HloOp τ sig (Elt F))).Forall fun op => op.writes ⊆ (Wr4.map (Proc.devRef (τ := τ) .tc)).toFinset := by
  unfold C4
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep4 (S : Valuation τ sig (Elt F)) {r : Ref sig .tc} (h : r ∉ Wr4) :
    after (C4 (F := F)) S (no_index (Proc.devRef .tc r)) = S (Proc.devRef .tc r) :=
  after_of_writes_sub C4 S C4_writes h

set_option maxRecDepth 8192 in
theorem c4_eq (S : Valuation τ sig (Elt F)) : after (C4 (F := F)) S (no_index (Proc.devRef .tc main_v48)) = T.dotAdd1T (S (Proc.devRef .tc main_v31)) (S (Proc.devRef .tc main_v44)) (S (Proc.devRef .tc main_arg3)) := by
  unfold C4 T.dotAdd1T
  after_results_simp <;> rfl

/-- Operations 63 to 78 of @main, ending at main_v61. -/
def C5 : List (HloOp τ sig (Elt F)) :=
  [ StableHlo.unary main_v28 main_v49 (broadcastInDim S600000x1 ![0] bcast_S600000_S600000x1_0 : (⟨S600000, .f32⟩ : BufTy).Contents (Elt F) → (⟨S600000x1, .f32⟩ : BufTy).Contents (Elt F)),
    StableHlo.nullary main_c_9 (constantI S_ 32 0#32),
    StableHlo.unary main_c_9 main_v50 (broadcastInDim S600000 ![] bcast_S_S600000 : (⟨S_, .i32⟩ : BufTy).Contents (Elt F) → (⟨S600000, .i32⟩ : BufTy).Contents (Elt F)),
    StableHlo.binary main_v1 main_v50 main_v51 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 100000#32),
    StableHlo.unary main_c_10 main_v52 (broadcastInDim S600000 ![] bcast_S_S600000 : (⟨S_, .i32⟩ : BufTy).Contents (Elt F) → (⟨S600000, .i32⟩ : BufTy).Contents (Elt F)),
    StableHlo.binary main_v1 main_v52 main_v53 (addi : (⟨S600000, .i32⟩ : BufTy).Contents (Elt F) → (⟨S600000, .i32⟩ : BufTy).Contents (Elt F) → (⟨S600000, .i32⟩ : BufTy).Contents (Elt F)),
    StableHlo.ternary main_v51 main_v53 main_v1 main_v54 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v54 main_v55 (broadcastInDim S600000x1 ![0] bcast_S600000_S600000x1_0 : (⟨S600000, .i32⟩ : BufTy).Contents (Elt F) → (⟨S600000x1, .i32⟩ : BufTy).Contents (Elt F)),
    StableHlo.binary main_v44 main_v55 main_v56 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v49 main_v57 (broadcastInDim S600000x128 ![0, 1] bcast_S600000x1_S600000x128_0_1 : (⟨S600000x1, .f32⟩ : BufTy).Contents (Elt F) → (⟨S600000x128, .f32⟩ : BufTy).Contents (Elt F)),
    StableHlo.binary main_v57 main_v56 main_v58 (mulf : (⟨S600000x128, .f32⟩ : BufTy).Contents (Elt F) → (⟨S600000x128, .f32⟩ : BufTy).Contents (Elt F) → (⟨S600000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v3 main_v60 (broadcastInDim S600000x1 ![0] bcast_S600000_S600000x1_0 : (⟨S600000, .i32⟩ : BufTy).Contents (Elt F) → (⟨S600000x1, .i32⟩ : BufTy).Contents (Elt F)),
    StableHlo.ternary main_v59 main_v60 main_v58 main_v61 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr5 : List (Ref sig .tc) := [ main_v49, main_c_9, main_v50, main_v51, main_c_10, main_v52, main_v53, main_v54, main_v55, main_v56, main_v57, main_v58, main_cst_11, main_v59, main_v60, main_v61 ]

theorem C5_writes : (C5 : List (HloOp τ sig (Elt F))).Forall fun op => op.writes ⊆ (Wr5.map (Proc.devRef (τ := τ) .tc)).toFinset := by
  unfold C5
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep5 (S : Valuation τ sig (Elt F)) {r : Ref sig .tc} (h : r ∉ Wr5) :
    after (C5 (F := F)) S (no_index (Proc.devRef .tc r)) = S (Proc.devRef .tc r) :=
  after_of_writes_sub C5 S C5_writes h

set_option maxRecDepth 8192 in
theorem c5_eq (S : Valuation τ sig (Elt F)) : after (C5 (F := F)) S (no_index (Proc.devRef .tc main_v61)) = T.hopT (S (Proc.devRef .tc main_v1)) (S (Proc.devRef .tc main_v3)) (S (Proc.devRef .tc main_v28)) (S (Proc.devRef .tc main_v44)) := by
  unfold C5 T.hopT T.wrapT
  after_results_simp <;> rfl

/-- Operations 79 to 82 of @main, ending at main_v65. -/
def C6 : List (HloOp τ sig (Elt F)) :=
  [ StableHlo.unary main_arg3 main_v62 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v62 main_v63 rfl shapeCasts_S1x128x128_S128x128,
    StableHlo.binary main_v61 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v48 main_v64 main_v65 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr6 : List (Ref sig .tc) := [ main_v62, main_v63, main_v64, main_v65 ]

theorem C6_writes : (C6 : List (HloOp τ sig (Elt F))).Forall fun op => op.writes ⊆ (Wr6.map (Proc.devRef (τ := τ) .tc)).toFinset := by
  unfold C6
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep6 (S : Valuation τ sig (Elt F)) {r : Ref sig .tc} (h : r ∉ Wr6) :
    after (C6 (F := F)) S (no_index (Proc.devRef .tc r)) = S (Proc.devRef .tc r) :=
  after_of_writes_sub C6 S C6_writes h

set_option maxRecDepth 8192 in
theorem c6_eq (S : Valuation τ sig (Elt F)) : after (C6 (F := F)) S (no_index (Proc.devRef .tc main_v65)) = T.dotAdd2T (S (Proc.devRef .tc main_v48)) (S (Proc.devRef .tc main_v61)) (S (Proc.devRef .tc main_arg3)) := by
  unfold C6 T.dotAdd2T
  after_results_simp <;> rfl

/-- Operations 83 to 98 of @main, ending at main_v78. -/
def C7 : List (HloOp τ sig (Elt F)) :=
  [ StableHlo.unary main_v28 main_v66 (broadcastInDim S600000x1 ![0] bcast_S600000_S600000x1_0 : (⟨S600000, .f32⟩ : BufTy).Contents (Elt F) → (⟨S600000x1, .f32⟩ : BufTy).Contents (Elt F)),
    StableHlo.nullary main_c_12 (constantI S_ 32 0#32),
    StableHlo.unary main_c_12 main_v67 (broadcastInDim S600000 ![] bcast_S_S600000 : (⟨S_, .i32⟩ : BufTy).Contents (Elt F) → (⟨S600000, .i32⟩ : BufTy).Contents (Elt F)),
    StableHlo.binary main_v1 main_v67 main_v68 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v69 (broadcastInDim S600000 ![] bcast_S_S600000 : (⟨S_, .i32⟩ : BufTy).Contents (Elt F) → (⟨S600000, .i32⟩ : BufTy).Contents (Elt F)),
    StableHlo.binary main_v1 main_v69 main_v70 (addi : (⟨S600000, .i32⟩ : BufTy).Contents (Elt F) → (⟨S600000, .i32⟩ : BufTy).Contents (Elt F) → (⟨S600000, .i32⟩ : BufTy).Contents (Elt F)),
    StableHlo.ternary main_v68 main_v70 main_v1 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v71 main_v72 (broadcastInDim S600000x1 ![0] bcast_S600000_S600000x1_0 : (⟨S600000, .i32⟩ : BufTy).Contents (Elt F) → (⟨S600000x1, .i32⟩ : BufTy).Contents (Elt F)),
    StableHlo.binary main_v61 main_v72 main_v73 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v66 main_v74 (broadcastInDim S600000x128 ![0, 1] bcast_S600000x1_S600000x128_0_1 : (⟨S600000x1, .f32⟩ : BufTy).Contents (Elt F) → (⟨S600000x128, .f32⟩ : BufTy).Contents (Elt F)),
    StableHlo.binary main_v74 main_v73 main_v75 (mulf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v76 (broadcastInDim S100000x128 ![] bcast_S_S100000x128 : (⟨S_, .f32⟩ : BufTy).Contents (Elt F) → (⟨S100000x128, .f32⟩ : BufTy).Contents (Elt F)),
    StableHlo.unary main_v3 main_v77 (broadcastInDim S600000x1 ![0] bcast_S600000_S600000x1_0 : (⟨S600000, .i32⟩ : BufTy).Contents (Elt F) → (⟨S600000x1, .i32⟩ : BufTy).Contents (Elt F)),
    StableHlo.ternary main_v76 main_v77 main_v75 main_v78 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr7 : List (Ref sig .tc) := [ main_v66, main_c_12, main_v67, main_v68, main_c_13, main_v69, main_v70, main_v71, main_v72, main_v73, main_v74, main_v75, main_cst_14, main_v76, main_v77, main_v78 ]

theorem C7_writes : (C7 : List (HloOp τ sig (Elt F))).Forall fun op => op.writes ⊆ (Wr7.map (Proc.devRef (τ := τ) .tc)).toFinset := by
  unfold C7
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep7 (S : Valuation τ sig (Elt F)) {r : Ref sig .tc} (h : r ∉ Wr7) :
    after (C7 (F := F)) S (no_index (Proc.devRef .tc r)) = S (Proc.devRef .tc r) :=
  after_of_writes_sub C7 S C7_writes h

set_option maxRecDepth 8192 in
theorem c7_eq (S : Valuation τ sig (Elt F)) : after (C7 (F := F)) S (no_index (Proc.devRef .tc main_v78)) = T.hopT (S (Proc.devRef .tc main_v1)) (S (Proc.devRef .tc main_v3)) (S (Proc.devRef .tc main_v28)) (S (Proc.devRef .tc main_v61)) := by
  unfold C7 T.hopT T.wrapT
  after_results_simp <;> rfl

/-- Operations 99 to 105 of @main, ending at main_v85. -/
def C8 : List (HloOp τ sig (Elt F)) :=
  [ StableHlo.unary main_arg3 main_v79 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v79 main_v80 rfl shapeCasts_S1x128x128_S128x128,
    StableHlo.binary main_v78 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v65 main_v81 main_v82 (addf : (⟨S100000x128, .f32⟩ : BufTy).Contents (Elt F) → (⟨S100000x128, .f32⟩ : BufTy).Contents (Elt F) → (⟨S100000x128, .f32⟩ : BufTy).Contents (Elt F)),
    StableHlo.unary main_arg4 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v84 main_v85 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr8 : List (Ref sig .tc) := [ main_v79, main_v80, main_v81, main_v82, main_v83, main_v84, main_v85 ]

theorem C8_writes : (C8 : List (HloOp τ sig (Elt F))).Forall fun op => op.writes ⊆ (Wr8.map (Proc.devRef (τ := τ) .tc)).toFinset := by
  unfold C8
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep8 (S : Valuation τ sig (Elt F)) {r : Ref sig .tc} (h : r ∉ Wr8) :
    after (C8 (F := F)) S (no_index (Proc.devRef .tc r)) = S (Proc.devRef .tc r) :=
  after_of_writes_sub C8 S C8_writes h

set_option maxRecDepth 8192 in
theorem c8_eq (S : Valuation τ sig (Elt F)) : after (C8 (F := F)) S (no_index (Proc.devRef .tc main_v85)) = T.dotAdd3bT (S (Proc.devRef .tc main_v65)) (S (Proc.devRef .tc main_v78)) (S (Proc.devRef .tc main_arg3)) (S (Proc.devRef .tc main_arg4)) := by
  unfold C8 T.dotAdd3bT
  after_results_simp <;> rfl

/-- Operations 106 to 135 of @main, ending at main_v110. -/
def C9 : List (HloOp τ sig (Elt F)) :=
  [ StableHlo.nullary main_cst_15 (constant S_ .f32 0x00000000#32),
    StableHlo.binary main_v85 main_cst_15 main_v86 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v90 main_v91 (subf : (⟨S100000x128, .f32⟩ : BufTy).Contents (Elt F) → (⟨S100000x128, .f32⟩ : BufTy).Contents (Elt F) → (⟨S100000x128, .f32⟩ : BufTy).Contents (Elt F)),
    StableHlo.binary main_v91 main_v91 main_v92 (mulf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.binary main_v92 main_cst_17 main_v93 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_18 (constant S_ .f32 0x47C35000#32),
    StableHlo.unary main_cst_18 main_v94 (broadcastInDim S128 ![] bcast_S_S128 : (⟨S_, .f32⟩ : BufTy).Contents (Elt F) → (⟨S128, .f32⟩ : BufTy).Contents (Elt F)),
    StableHlo.binary main_v93 main_v94 main_v95 (Host.divf : (⟨S128, .f32⟩ : BufTy).Contents (Elt F) → (⟨S128, .f32⟩ : BufTy).Contents (Elt F) → (⟨S128, .f32⟩ : BufTy).Contents (Elt F)),
    StableHlo.unary main_v88 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v97 main_v98 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v99 (broadcastInDim S128 ![] bcast_S_S128 : (⟨S_, .f32⟩ : BufTy).Contents (Elt F) → (⟨S128, .f32⟩ : BufTy).Contents (Elt F)),
    StableHlo.binary main_v95 main_v99 main_v100 (addf : (⟨S128, .f32⟩ : BufTy).Contents (Elt F) → (⟨S128, .f32⟩ : BufTy).Contents (Elt F) → (⟨S128, .f32⟩ : BufTy).Contents (Elt F)),
    StableHlo.unary main_v100 main_v101 (Host.rsqrt : (⟨S128, .f32⟩ : BufTy).Contents (Elt F) → (⟨S128, .f32⟩ : BufTy).Contents (Elt F)),
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_arg5 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg6 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v109 main_v110 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr9 : List (Ref sig .tc) := [ main_cst_15, main_v86, main_cst_16, main_v87, main_v88, main_v89, main_v90, main_v91, main_v92, main_cst_17, main_v93, main_cst_18, main_v94, main_v95, main_v96, main_v97, main_v98, main_cst_19, main_v99, main_v100, main_v101, main_v102, main_v103, main_v104, main_v105, main_v106, main_v107, main_v108, main_v109, main_v110 ]

theorem C9_writes : (C9 : List (HloOp τ sig (Elt F))).Forall fun op => op.writes ⊆ (Wr9.map (Proc.devRef (τ := τ) .tc)).toFinset := by
  unfold C9
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep9 (S : Valuation τ sig (Elt F)) {r : Ref sig .tc} (h : r ∉ Wr9) :
    after (C9 (F := F)) S (no_index (Proc.devRef .tc r)) = S (Proc.devRef .tc r) :=
  after_of_writes_sub C9 S C9_writes h

set_option maxRecDepth 8192 in
theorem c9_eq (S : Valuation τ sig (Elt F)) : after (C9 (F := F)) S (no_index (Proc.devRef .tc main_v110)) = T.bnT (S (Proc.devRef .tc main_v85)) (S (Proc.devRef .tc main_arg5)) (S (Proc.devRef .tc main_arg6)) := by
  unfold C9 T.bnT T.affineT T.varT T.meanT
  after_results_simp <;> rfl

/-- Operations 136 to 143 of @main, ending at main_v111. -/
def C10 : List (HloOp τ sig (Elt F)) :=
  [ StableHlo.nullary main_cst_20 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v110) main_call1.v0 main_call1.v1 (cmpf .oge),
    StableHlo.TRef.unary (.of main_cst_20) main_call1.v2 id,
    StableHlo.TRef.unary main_call1.v2 main_call1.v3 (broadcastInDim S100000x128 ![] bcast_S_S100000x128),
    StableHlo.TRef.binary main_call1.v3 (.of main_v110) main_call1.v4 mulf,
    StableHlo.TRef.ternary main_call1.v1 (.of main_v110) main_call1.v4 main_call1.call0.v0 select ]

/-- The references these operations write. -/
abbrev Wr10 : List (Ref sig .tc) := [ main_cst_20, main_call1.cst.ref, main_call1.v0.ref, main_call1.v1.ref, main_call1.v2.ref, main_call1.v3.ref, main_call1.v4.ref, main_call1.call0.v0.ref ]

theorem C10_writes : (C10 : List (HloOp τ sig (Elt F))).Forall fun op => op.writes ⊆ (Wr10.map (Proc.devRef (τ := τ) .tc)).toFinset := by
  unfold C10
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep10 (S : Valuation τ sig (Elt F)) {r : Ref sig .tc} (h : r ∉ Wr10) :
    after (C10 (F := F)) S (no_index (Proc.devRef .tc r)) = S (Proc.devRef .tc r) :=
  after_of_writes_sub C10 S C10_writes h

set_option maxRecDepth 8192 in
theorem c10_eq (S : Valuation τ sig (Elt F)) : after (C10 (F := F)) S (no_index (Proc.devRef .tc main_v111)) = T.lreluT (S (Proc.devRef .tc main_v110)) := by
  unfold C10 T.lreluT
  after_results_simp <;> rfl

end Cert.ReferenceIdeal.RefRead

end
-- ==== Proof.RefChunks2.lean ====
/- The second hidden layer: the operations of @main that compute it, cut where a named value is complete; each piece, run from any
   contents, leaves its value at the named function of the values it reads, and leaves every reference it does not write alone. -/
import proofs.«167710_j39049842655736_2_alg».proof.Proof.Terms
import proofs.«167710_j39049842655736_2_alg».proof.Proof.Gen.ReferenceIdeal
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 144 to 146 of @main, ending at main_v114. -/
def C11 : List (HloOp τ sig (Elt F)) :=
  [ StableHlo.unary main_arg7 main_v112 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v112 main_v113 rfl shapeCasts_S1x128x128_S128x128,
    StableHlo.binary main_v111 main_v113 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The references these operations write. -/
abbrev Wr11 : List (Ref sig .tc) := [ main_v112, main_v113, main_v114 ]

theorem C11_writes : (C11 : List (HloOp τ sig (Elt F))).Forall fun op => op.writes ⊆ (Wr11.map (Proc.devRef (τ := τ) .tc)).toFinset := by
  unfold C11
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep11 (S : Valuation τ sig (Elt F)) {r : Ref sig .tc} (h : r ∉ Wr11) :
    after (C11 (F := F)) S (no_index (Proc.devRef .tc r)) = S (Proc.devRef .tc r) :=
  after_of_writes_sub C11 S C11_writes h

set_option maxRecDepth 8192 in
theorem c11_eq (S : Valuation τ sig (Elt F)) : after (C11 (F := F)) S (no_index (Proc.devRef .tc main_v114)) = T.dot0T (S (Proc.devRef .tc main_v111)) (S (Proc.devRef .tc main_arg7)) := by
  unfold C11 T.dot0T
  after_results_simp <;> rfl

/-- Operations 147 to 162 of @main, ending at main_v127. -/
def C12 : List (HloOp τ sig (Elt F)) :=
  [ StableHlo.unary main_v28 main_v115 (broadcastInDim S600000x1 ![0] bcast_S600000_S600000x1_0 : (⟨S600000, .f32⟩ : BufTy).Contents (Elt F) → (⟨S600000x1, .f32⟩ : BufTy).Contents (Elt F)),
    StableHlo.nullary main_c_21 (constantI S_ 32 0#32),
    StableHlo.unary main_c_21 main_v116 (broadcastInDim S600000 ![] bcast_S_S600000 : (⟨S_, .i32⟩ : BufTy).Contents (Elt F) → (⟨S600000, .i32⟩ : BufTy).Contents (Elt F)),
    StableHlo.binary main_v1 main_v116 main_v117 (cmpi .slt : (⟨S600000, .i32⟩ : BufTy).Contents (Elt F) → (⟨S600000, .i32⟩ : BufTy).Contents (Elt F) → (⟨S600000, .i1⟩ : BufTy).Contents (Elt F)),
    StableHlo.nullary main_c_22 (constantI S_ 32 100000#32),
    StableHlo.unary main_c_22 main_v118 (broadcastInDim S600000 ![] bcast_S_S600000 : (⟨S_, .i32⟩ : BufTy).Contents (Elt F) → (⟨S600000, .i32⟩ : BufTy).Contents (Elt F)),
    StableHlo.binary main_v1 main_v118 main_v119 (addi : (⟨S600000, .i32⟩ : BufTy).Contents (Elt F) → (⟨S600000, .i32⟩ : BufTy).Contents (Elt F) → (⟨S600000, .i32⟩ : BufTy).Contents (Elt F)),
    StableHlo.ternary main_v117 main_v119 main_v1 main_v120 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v120 main_v121 (broadcastInDim S600000x1 ![0] bcast_S600000_S600000x1_0 : (⟨S600000, .i32⟩ : BufTy).Contents (Elt F) → (⟨S600000x1, .i32⟩ : BufTy).Contents (Elt F)),
    StableHlo.binary main_v111 main_v121 main_v122 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v115 main_v123 (broadcastInDim S600000x128 ![0, 1] bcast_S600000x1_S600000x128_0_1 : (⟨S600000x1, .f32⟩ : BufTy).Contents (Elt F) → (⟨S600000x128, .f32⟩ : BufTy).Contents (Elt F)),
    StableHlo.binary main_v123 main_v122 main_v124 (mulf : (⟨S600000x128, .f32⟩ : BufTy).Contents (Elt F) → (⟨S600000x128, .f32⟩ : BufTy).Contents (Elt F) → (⟨S600000x128, .f32⟩ : BufTy).Contents (Elt F)),
    StableHlo.nullary main_cst_23 (constant S_ .f32 0x00000000#32),
    StableHlo.unary main_cst_23 main_v125 (broadcastInDim S100000x128 ![] bcast_S_S100000x128 : (⟨S_, .f32⟩ : BufTy).Contents (Elt F) → (⟨S100000x128, .f32⟩ : BufTy).Contents (Elt F)),
    StableHlo.unary main_v3 main_v126 (broadcastInDim S600000x1 ![0] bcast_S600000_S600000x1_0 : (⟨S600000, .i32⟩ : BufTy).Contents (Elt F) → (⟨S600000x1, .i32⟩ : BufTy).Contents (Elt F)),
    StableHlo.ternary main_v125 main_v126 main_v124 main_v127 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr12 : List (Ref sig .tc) := [ main_v115, main_c_21, main_v116, main_v117, main_c_22, main_v118, main_v119, main_v120, main_v121, main_v122, main_v123, main_v124, main_cst_23, main_v125, main_v126, main_v127 ]

theorem C12_writes : (C12 : List (HloOp τ sig (Elt F))).Forall fun op => op.writes ⊆ (Wr12.map (Proc.devRef (τ := τ) .tc)).toFinset := by
  unfold C12
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep12 (S : Valuation τ sig (Elt F)) {r : Ref sig .tc} (h : r ∉ Wr12) :
    after (C12 (F := F)) S (no_index (Proc.devRef .tc r)) = S (Proc.devRef .tc r) :=
  after_of_writes_sub C12 S C12_writes h

set_option maxRecDepth 8192 in
theorem c12_eq (S : Valuation τ sig (Elt F)) : after (C12 (F := F)) S (no_index (Proc.devRef .tc main_v127)) = T.hopT (S (Proc.devRef .tc main_v1)) (S (Proc.devRef .tc main_v3)) (S (Proc.devRef .tc main_v28)) (S (Proc.devRef .tc main_v111)) := by
  unfold C12 T.hopT T.wrapT
  after_results_simp <;> rfl

/-- Operations 163 to 166 of @main, ending at main_v131. -/
def C13 : List (HloOp τ sig (Elt F)) :=
  [ StableHlo.unary main_arg7 main_v128 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v128 main_v129 rfl shapeCasts_S1x128x128_S128x128,
    StableHlo.binary main_v127 main_v129 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v114 main_v130 main_v131 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr13 : List (Ref sig .tc) := [ main_v128, main_v129, main_v130, main_v131 ]

theorem C13_writes : (C13 : List (HloOp τ sig (Elt F))).Forall fun op => op.writes ⊆ (Wr13.map (Proc.devRef (τ := τ) .tc)).toFinset := by
  unfold C13
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep13 (S : Valuation τ sig (Elt F)) {r : Ref sig .tc} (h : r ∉ Wr13) :
    after (C13 (F := F)) S (no_index (Proc.devRef .tc r)) = S (Proc.devRef .tc r) :=
  after_of_writes_sub C13 S C13_writes h

set_option maxRecDepth 8192 in
theorem c13_eq (S : Valuation τ sig (Elt F)) : after (C13 (F := F)) S (no_index (Proc.devRef .tc main_v131)) = T.dotAdd1T (S (Proc.devRef .tc main_v114)) (S (Proc.devRef .tc main_v127)) (S (Proc.devRef .tc main_arg7)) := by
  unfold C13 T.dotAdd1T
  after_results_simp <;> rfl

/-- Operations 167 to 182 of @main, ending at main_v144. -/
def C14 : List (HloOp τ sig (Elt F)) :=
  [ StableHlo.unary main_v28 main_v132 (broadcastInDim S600000x1 ![0] bcast_S600000_S600000x1_0 : (⟨S600000, .f32⟩ : BufTy).Contents (Elt F) → (⟨S600000x1, .f32⟩ : BufTy).Contents (Elt F)),
    StableHlo.nullary main_c_24 (constantI S_ 32 0#32),
    StableHlo.unary main_c_24 main_v133 (broadcastInDim S600000 ![] bcast_S_S600000 : (⟨S_, .i32⟩ : BufTy).Contents (Elt F) → (⟨S600000, .i32⟩ : BufTy).Contents (Elt F)),
    StableHlo.binary main_v1 main_v133 main_v134 (cmpi .slt : (⟨S600000, .i32⟩ : BufTy).Contents (Elt F) → (⟨S600000, .i32⟩ : BufTy).Contents (Elt F) → (⟨S600000, .i1⟩ : BufTy).Contents (Elt F)),
    StableHlo.nullary main_c_25 (constantI S_ 32 100000#32),
    StableHlo.unary main_c_25 main_v135 (broadcastInDim S600000 ![] bcast_S_S600000 : (⟨S_, .i32⟩ : BufTy).Contents (Elt F) → (⟨S600000, .i32⟩ : BufTy).Contents (Elt F)),
    StableHlo.binary main_v1 main_v135 main_v136 (addi : (⟨S600000, .i32⟩ : BufTy).Contents (Elt F) → (⟨S600000, .i32⟩ : BufTy).Contents (Elt F) → (⟨S600000, .i32⟩ : BufTy).Contents (Elt F)),
    StableHlo.ternary main_v134 main_v136 main_v1 main_v137 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v137 main_v138 (broadcastInDim S600000x1 ![0] bcast_S600000_S600000x1_0 : (⟨S600000, .i32⟩ : BufTy).Contents (Elt F) → (⟨S600000x1, .i32⟩ : BufTy).Contents (Elt F)),
    StableHlo.binary main_v127 main_v138 main_v139 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v132 main_v140 (broadcastInDim S600000x128 ![0, 1] bcast_S600000x1_S600000x128_0_1 : (⟨S600000x1, .f32⟩ : BufTy).Contents (Elt F) → (⟨S600000x128, .f32⟩ : BufTy).Contents (Elt F)),
    StableHlo.binary main_v140 main_v139 main_v141 (mulf : (⟨S600000x128, .f32⟩ : BufTy).Contents (Elt F) → (⟨S600000x128, .f32⟩ : BufTy).Contents (Elt F) → (⟨S600000x128, .f32⟩ : BufTy).Contents (Elt F)),
    StableHlo.nullary main_cst_26 (constant S_ .f32 0x00000000#32),
    StableHlo.unary main_cst_26 main_v142 (broadcastInDim S100000x128 ![] bcast_S_S100000x128 : (⟨S_, .f32⟩ : BufTy).Contents (Elt F) → (⟨S100000x128, .f32⟩ : BufTy).Contents (Elt F)),
    StableHlo.unary main_v3 main_v143 (broadcastInDim S600000x1 ![0] bcast_S600000_S600000x1_0 : (⟨S600000, .i32⟩ : BufTy).Contents (Elt F) → (⟨S600000x1, .i32⟩ : BufTy).Contents (Elt F)),
    StableHlo.ternary main_v142 main_v143 main_v141 main_v144 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr14 : List (Ref sig .tc) := [ main_v132, main_c_24, main_v133, main_v134, main_c_25, main_v135, main_v136, main_v137, main_v138, main_v139, main_v140, main_v141, main_cst_26, main_v142, main_v143, main_v144 ]

theorem C14_writes : (C14 : List (HloOp τ sig (Elt F))).Forall fun op => op.writes ⊆ (Wr14.map (Proc.devRef (τ := τ) .tc)).toFinset := by
  unfold C14
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep14 (S : Valuation τ sig (Elt F)) {r : Ref sig .tc} (h : r ∉ Wr14) :
    after (C14 (F := F)) S (no_index (Proc.devRef .tc r)) = S (Proc.devRef .tc r) :=
  after_of_writes_sub C14 S C14_writes h

set_option maxRecDepth 8192 in
theorem c14_eq (S : Valuation τ sig (Elt F)) : after (C14 (F := F)) S (no_index (Proc.devRef .tc main_v144)) = T.hopT (S (Proc.devRef .tc main_v1)) (S (Proc.devRef .tc main_v3)) (S (Proc.devRef .tc main_v28)) (S (Proc.devRef .tc main_v127)) := by
  unfold C14 T.hopT T.wrapT
  after_results_simp <;> rfl

/-- Operations 183 to 186 of @main, ending at main_v148. -/
def C15 : List (HloOp τ sig (Elt F)) :=
  [ StableHlo.unary main_arg7 main_v145 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v145 main_v146 rfl shapeCasts_S1x128x128_S128x128,
    StableHlo.binary main_v144 main_v146 main_v147 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v131 main_v147 main_v148 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr15 : List (Ref sig .tc) := [ main_v145, main_v146, main_v147, main_v148 ]

theorem C15_writes : (C15 : List (HloOp τ sig (Elt F))).Forall fun op => op.writes ⊆ (Wr15.map (Proc.devRef (τ := τ) .tc)).toFinset := by
  unfold C15
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep15 (S : Valuation τ sig (Elt F)) {r : Ref sig .tc} (h : r ∉ Wr15) :
    after (C15 (F := F)) S (no_index (Proc.devRef .tc r)) = S (Proc.devRef .tc r) :=
  after_of_writes_sub C15 S C15_writes h

set_option maxRecDepth 8192 in
theorem c15_eq (S : Valuation τ sig (Elt F)) : after (C15 (F := F)) S (no_index (Proc.devRef .tc main_v148)) = T.dotAdd2T (S (Proc.devRef .tc main_v131)) (S (Proc.devRef .tc main_v144)) (S (Proc.devRef .tc main_arg7)) := by
  unfold C15 T.dotAdd2T
  after_results_simp <;> rfl

/-- Operations 187 to 202 of @main, ending at main_v161. -/
def C16 : List (HloOp τ sig (Elt F)) :=
  [ StableHlo.unary main_v28 main_v149 (broadcastInDim S600000x1 ![0] bcast_S600000_S600000x1_0 : (⟨S600000, .f32⟩ : BufTy).Contents (Elt F) → (⟨S600000x1, .f32⟩ : BufTy).Contents (Elt F)),
    StableHlo.nullary main_c_27 (constantI S_ 32 0#32),
    StableHlo.unary main_c_27 main_v150 (broadcastInDim S600000 ![] bcast_S_S600000 : (⟨S_, .i32⟩ : BufTy).Contents (Elt F) → (⟨S600000, .i32⟩ : BufTy).Contents (Elt F)),
    StableHlo.binary main_v1 main_v150 main_v151 (cmpi .slt : (⟨S600000, .i32⟩ : BufTy).Contents (Elt F) → (⟨S600000, .i32⟩ : BufTy).Contents (Elt F) → (⟨S600000, .i1⟩ : BufTy).Contents (Elt F)),
    StableHlo.nullary main_c_28 (constantI S_ 32 100000#32),
    StableHlo.unary main_c_28 main_v152 (broadcastInDim S600000 ![] bcast_S_S600000 : (⟨S_, .i32⟩ : BufTy).Contents (Elt F) → (⟨S600000, .i32⟩ : BufTy).Contents (Elt F)),
    StableHlo.binary main_v1 main_v152 main_v153 (addi : (⟨S600000, .i32⟩ : BufTy).Contents (Elt F) → (⟨S600000, .i32⟩ : BufTy).Contents (Elt F) → (⟨S600000, .i32⟩ : BufTy).Contents (Elt F)),
    StableHlo.ternary main_v151 main_v153 main_v1 main_v154 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v154 main_v155 (broadcastInDim S600000x1 ![0] bcast_S600000_S600000x1_0 : (⟨S600000, .i32⟩ : BufTy).Contents (Elt F) → (⟨S600000x1, .i32⟩ : BufTy).Contents (Elt F)),
    StableHlo.binary main_v144 main_v155 main_v156 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v149 main_v157 (broadcastInDim S600000x128 ![0, 1] bcast_S600000x1_S600000x128_0_1 : (⟨S600000x1, .f32⟩ : BufTy).Contents (Elt F) → (⟨S600000x128, .f32⟩ : BufTy).Contents (Elt F)),
    StableHlo.binary main_v157 main_v156 main_v158 (mulf : (⟨S600000x128, .f32⟩ : BufTy).Contents (Elt F) → (⟨S600000x128, .f32⟩ : BufTy).Contents (Elt F) → (⟨S600000x128, .f32⟩ : BufTy).Contents (Elt F)),
    StableHlo.nullary main_cst_29 (constant S_ .f32 0x00000000#32),
    StableHlo.unary main_cst_29 main_v159 (broadcastInDim S100000x128 ![] bcast_S_S100000x128 : (⟨S_, .f32⟩ : BufTy).Contents (Elt F) → (⟨S100000x128, .f32⟩ : BufTy).Contents (Elt F)),
    StableHlo.unary main_v3 main_v160 (broadcastInDim S600000x1 ![0] bcast_S600000_S600000x1_0 : (⟨S600000, .i32⟩ : BufTy).Contents (Elt F) → (⟨S600000x1, .i32⟩ : BufTy).Contents (Elt F)),
    StableHlo.ternary main_v159 main_v160 main_v158 main_v161 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr16 : List (Ref sig .tc) := [ main_v149, main_c_27, main_v150, main_v151, main_c_28, main_v152, main_v153, main_v154, main_v155, main_v156, main_v157, main_v158, main_cst_29, main_v159, main_v160, main_v161 ]

theorem C16_writes : (C16 : List (HloOp τ sig (Elt F))).Forall fun op => op.writes ⊆ (Wr16.map (Proc.devRef (τ := τ) .tc)).toFinset := by
  unfold C16
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep16 (S : Valuation τ sig (Elt F)) {r : Ref sig .tc} (h : r ∉ Wr16) :
    after (C16 (F := F)) S (no_index (Proc.devRef .tc r)) = S (Proc.devRef .tc r) :=
  after_of_writes_sub C16 S C16_writes h

set_option maxRecDepth 8192 in
theorem c16_eq (S : Valuation τ sig (Elt F)) : after (C16 (F := F)) S (no_index (Proc.devRef .tc main_v161)) = T.hopT (S (Proc.devRef .tc main_v1)) (S (Proc.devRef .tc main_v3)) (S (Proc.devRef .tc main_v28)) (S (Proc.devRef .tc main_v144)) := by
  unfold C16 T.hopT T.wrapT
  after_results_simp <;> rfl

/-- Operations 203 to 209 of @main, ending at main_v168. -/
def C17 : List (HloOp τ sig (Elt F)) :=
  [ StableHlo.unary main_arg7 main_v162 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v162 main_v163 rfl shapeCasts_S1x128x128_S128x128,
    StableHlo.binary main_v161 main_v163 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v148 main_v164 main_v165 (addf : (⟨S100000x128, .f32⟩ : BufTy).Contents (Elt F) → (⟨S100000x128, .f32⟩ : BufTy).Contents (Elt F) → (⟨S100000x128, .f32⟩ : BufTy).Contents (Elt F)),
    StableHlo.unary main_arg8 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v167 main_v168 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr17 : List (Ref sig .tc) := [ main_v162, main_v163, main_v164, main_v165, main_v166, main_v167, main_v168 ]

theorem C17_writes : (C17 : List (HloOp τ sig (Elt F))).Forall fun op => op.writes ⊆ (Wr17.map (Proc.devRef (τ := τ) .tc)).toFinset := by
  unfold C17
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep17 (S : Valuation τ sig (Elt F)) {r : Ref sig .tc} (h : r ∉ Wr17) :
    after (C17 (F := F)) S (no_index (Proc.devRef .tc r)) = S (Proc.devRef .tc r) :=
  after_of_writes_sub C17 S C17_writes h

set_option maxRecDepth 8192 in
theorem c17_eq (S : Valuation τ sig (Elt F)) : after (C17 (F := F)) S (no_index (Proc.devRef .tc main_v168)) = T.dotAdd3bT (S (Proc.devRef .tc main_v148)) (S (Proc.devRef .tc main_v161)) (S (Proc.devRef .tc main_arg7)) (S (Proc.devRef .tc main_arg8)) := by
  unfold C17 T.dotAdd3bT
  after_results_simp <;> rfl

/-- Operations 210 to 239 of @main, ending at main_v193. -/
def C18 : List (HloOp τ sig (Elt F)) :=
  [ StableHlo.nullary main_cst_30 (constant S_ .f32 0x00000000#32),
    StableHlo.binary main_v168 main_cst_30 main_v169 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v170 (broadcastInDim S128 ![] bcast_S_S128 : (⟨S_, .f32⟩ : BufTy).Contents (Elt F) → (⟨S128, .f32⟩ : BufTy).Contents (Elt F)),
    StableHlo.binary main_v169 main_v170 main_v171 (Host.divf : (⟨S128, .f32⟩ : BufTy).Contents (Elt F) → (⟨S128, .f32⟩ : BufTy).Contents (Elt F) → (⟨S128, .f32⟩ : BufTy).Contents (Elt F)),
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v173 main_v174 (subf : (⟨S100000x128, .f32⟩ : BufTy).Contents (Elt F) → (⟨S100000x128, .f32⟩ : BufTy).Contents (Elt F) → (⟨S100000x128, .f32⟩ : BufTy).Contents (Elt F)),
    StableHlo.binary main_v174 main_v174 main_v175 (mulf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x00000000#32),
    StableHlo.binary main_v175 main_cst_32 main_v176 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_33 (constant S_ .f32 0x47C35000#32),
    StableHlo.unary main_cst_33 main_v177 (broadcastInDim S128 ![] bcast_S_S128 : (⟨S_, .f32⟩ : BufTy).Contents (Elt F) → (⟨S128, .f32⟩ : BufTy).Contents (Elt F)),
    StableHlo.binary main_v176 main_v177 main_v178 (Host.divf : (⟨S128, .f32⟩ : BufTy).Contents (Elt F) → (⟨S128, .f32⟩ : BufTy).Contents (Elt F) → (⟨S128, .f32⟩ : BufTy).Contents (Elt F)),
    StableHlo.unary main_v171 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v180 main_v181 (subf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3727C5AC#32),
    StableHlo.unary main_cst_34 main_v182 (broadcastInDim S128 ![] bcast_S_S128 : (⟨S_, .f32⟩ : BufTy).Contents (Elt F) → (⟨S128, .f32⟩ : BufTy).Contents (Elt F)),
    StableHlo.binary main_v178 main_v182 main_v183 (addf : (⟨S128, .f32⟩ : BufTy).Contents (Elt F) → (⟨S128, .f32⟩ : BufTy).Contents (Elt F) → (⟨S128, .f32⟩ : BufTy).Contents (Elt F)),
    StableHlo.unary main_v183 main_v184 (Host.rsqrt : (⟨S128, .f32⟩ : BufTy).Contents (Elt F) → (⟨S128, .f32⟩ : BufTy).Contents (Elt F)),
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v181 main_v186 main_v187 (mulf : (⟨S100000x128, .f32⟩ : BufTy).Contents (Elt F) → (⟨S100000x128, .f32⟩ : BufTy).Contents (Elt F) → (⟨S100000x128, .f32⟩ : BufTy).Contents (Elt F)),
    StableHlo.unary main_arg9 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v187 main_v189 main_v190 (mulf : (⟨S100000x128, .f32⟩ : BufTy).Contents (Elt F) → (⟨S100000x128, .f32⟩ : BufTy).Contents (Elt F) → (⟨S100000x128, .f32⟩ : BufTy).Contents (Elt F)),
    StableHlo.unary main_arg10 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v192 main_v193 (addf : (⟨S100000x128, .f32⟩ : BufTy).Contents (Elt F) → (⟨S100000x128, .f32⟩ : BufTy).Contents (Elt F) → (⟨S100000x128, .f32⟩ : BufTy).Contents (Elt F)) ]

/-- The references these operations write. -/
abbrev Wr18 : List (Ref sig .tc) := [ main_cst_30, main_v169, main_cst_31, main_v170, main_v171, main_v172, main_v173, main_v174, main_v175, main_cst_32, main_v176, main_cst_33, main_v177, main_v178, main_v179, main_v180, main_v181, main_cst_34, main_v182, main_v183, main_v184, main_v185, main_v186, main_v187, main_v188, main_v189, main_v190, main_v191, main_v192, main_v193 ]

theorem C18_writes : (C18 : List (HloOp τ sig (Elt F))).Forall fun op => op.writes ⊆ (Wr18.map (Proc.devRef (τ := τ) .tc)).toFinset := by
  unfold C18
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep18 (S : Valuation τ sig (Elt F)) {r : Ref sig .tc} (h : r ∉ Wr18) :
    after (C18 (F := F)) S (no_index (Proc.devRef .tc r)) = S (Proc.devRef .tc r) :=
  after_of_writes_sub C18 S C18_writes h

set_option maxRecDepth 8192 in
theorem c18_eq (S : Valuation τ sig (Elt F)) : after (C18 (F := F)) S (no_index (Proc.devRef .tc main_v193)) = T.bnT (S (Proc.devRef .tc main_v168)) (S (Proc.devRef .tc main_arg9)) (S (Proc.devRef .tc main_arg10)) := by
  unfold C18 T.bnT T.affineT T.varT T.meanT
  after_results_simp <;> rfl

/-- Operations 240 to 247 of @main, ending at main_v194. -/
def C19 : List (HloOp τ sig (Elt F)) :=
  [ StableHlo.nullary main_cst_35 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v193) main_call2.v0 main_call2.v1 (cmpf .oge),
    StableHlo.TRef.unary (.of main_cst_35) main_call2.v2 id,
    StableHlo.TRef.unary main_call2.v2 main_call2.v3 (broadcastInDim S100000x128 ![] bcast_S_S100000x128),
    StableHlo.TRef.binary main_call2.v3 (.of main_v193) main_call2.v4 mulf,
    StableHlo.TRef.ternary main_call2.v1 (.of main_v193) main_call2.v4 main_call2.call0.v0 select ]

/-- The references these operations write. -/
abbrev Wr19 : List (Ref sig .tc) := [ main_cst_35, main_call2.cst.ref, main_call2.v0.ref, main_call2.v1.ref, main_call2.v2.ref, main_call2.v3.ref, main_call2.v4.ref, main_call2.call0.v0.ref ]

theorem C19_writes : (C19 : List (HloOp τ sig (Elt F))).Forall fun op => op.writes ⊆ (Wr19.map (Proc.devRef (τ := τ) .tc)).toFinset := by
  unfold C19
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep19 (S : Valuation τ sig (Elt F)) {r : Ref sig .tc} (h : r ∉ Wr19) :
    after (C19 (F := F)) S (no_index (Proc.devRef .tc r)) = S (Proc.devRef .tc r) :=
  after_of_writes_sub C19 S C19_writes h

set_option maxRecDepth 8192 in
theorem c19_eq (S : Valuation τ sig (Elt F)) : after (C19 (F := F)) S (no_index (Proc.devRef .tc main_v194)) = T.lreluT (S (Proc.devRef .tc main_v193)) := by
  unfold C19 T.lreluT
  after_results_simp <;> rfl

end Cert.ReferenceIdeal.RefRead

end
-- ==== Proof.RefChunks3.lean ====
/- The output layer: the operations of @main that compute it, cut where a named value is complete; each piece, run from any
   contents, leaves its value at the named function of the values it reads, and leaves every reference it does not write alone. -/
import proofs.«167710_j39049842655736_2_alg».proof.Proof.Terms
import proofs.«167710_j39049842655736_2_alg».proof.Proof.Gen.ReferenceIdeal
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 248 to 250 of @main, ending at main_v197. -/
def C20 : List (HloOp τ sig (Elt F)) :=
  [ StableHlo.unary main_arg11 main_v195 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v195 main_v196 rfl shapeCasts_S1x128x64_S128x64,
    StableHlo.binary main_v194 main_v196 main_v197 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The references these operations write. -/
abbrev Wr20 : List (Ref sig .tc) := [ main_v195, main_v196, main_v197 ]

theorem C20_writes : (C20 : List (HloOp τ sig (Elt F))).Forall fun op => op.writes ⊆ (Wr20.map (Proc.devRef (τ := τ) .tc)).toFinset := by
  unfold C20
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep20 (S : Valuation τ sig (Elt F)) {r : Ref sig .tc} (h : r ∉ Wr20) :
    after (C20 (F := F)) S (no_index (Proc.devRef .tc r)) = S (Proc.devRef .tc r) :=
  after_of_writes_sub C20 S C20_writes h

set_option maxRecDepth 8192 in
theorem c20_eq (S : Valuation τ sig (Elt F)) : after (C20 (F := F)) S (no_index (Proc.devRef .tc main_v197)) = T.dot0U (S (Proc.devRef .tc main_v194)) (S (Proc.devRef .tc main_arg11)) := by
  unfold C20 T.dot0U
  after_results_simp <;> rfl

/-- Operations 251 to 266 of @main, ending at main_v210. -/
def C21 : List (HloOp τ sig (Elt F)) :=
  [ StableHlo.unary main_v28 main_v198 (broadcastInDim S600000x1 ![0] bcast_S600000_S600000x1_0 : (⟨S600000, .f32⟩ : BufTy).Contents (Elt F) → (⟨S600000x1, .f32⟩ : BufTy).Contents (Elt F)),
    StableHlo.nullary main_c_36 (constantI S_ 32 0#32),
    StableHlo.unary main_c_36 main_v199 (broadcastInDim S600000 ![] bcast_S_S600000 : (⟨S_, .i32⟩ : BufTy).Contents (Elt F) → (⟨S600000, .i32⟩ : BufTy).Contents (Elt F)),
    StableHlo.binary main_v1 main_v199 main_v200 (cmpi .slt : (⟨S600000, .i32⟩ : BufTy).Contents (Elt F) → (⟨S600000, .i32⟩ : BufTy).Contents (Elt F) → (⟨S600000, .i1⟩ : BufTy).Contents (Elt F)),
    StableHlo.nullary main_c_37 (constantI S_ 32 100000#32),
    StableHlo.unary main_c_37 main_v201 (broadcastInDim S600000 ![] bcast_S_S600000 : (⟨S_, .i32⟩ : BufTy).Contents (Elt F) → (⟨S600000, .i32⟩ : BufTy).Contents (Elt F)),
    StableHlo.binary main_v1 main_v201 main_v202 (addi : (⟨S600000, .i32⟩ : BufTy).Contents (Elt F) → (⟨S600000, .i32⟩ : BufTy).Contents (Elt F) → (⟨S600000, .i32⟩ : BufTy).Contents (Elt F)),
    StableHlo.ternary main_v200 main_v202 main_v1 main_v203 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v203 main_v204 (broadcastInDim S600000x1 ![0] bcast_S600000_S600000x1_0 : (⟨S600000, .i32⟩ : BufTy).Contents (Elt F) → (⟨S600000x1, .i32⟩ : BufTy).Contents (Elt F)),
    StableHlo.binary main_v194 main_v204 main_v205 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v198 main_v206 (broadcastInDim S600000x128 ![0, 1] bcast_S600000x1_S600000x128_0_1 : (⟨S600000x1, .f32⟩ : BufTy).Contents (Elt F) → (⟨S600000x128, .f32⟩ : BufTy).Contents (Elt F)),
    StableHlo.binary main_v206 main_v205 main_v207 (mulf : (⟨S600000x128, .f32⟩ : BufTy).Contents (Elt F) → (⟨S600000x128, .f32⟩ : BufTy).Contents (Elt F) → (⟨S600000x128, .f32⟩ : BufTy).Contents (Elt F)),
    StableHlo.nullary main_cst_38 (constant S_ .f32 0x00000000#32),
    StableHlo.unary main_cst_38 main_v208 (broadcastInDim S100000x128 ![] bcast_S_S100000x128 : (⟨S_, .f32⟩ : BufTy).Contents (Elt F) → (⟨S100000x128, .f32⟩ : BufTy).Contents (Elt F)),
    StableHlo.unary main_v3 main_v209 (broadcastInDim S600000x1 ![0] bcast_S600000_S600000x1_0 : (⟨S600000, .i32⟩ : BufTy).Contents (Elt F) → (⟨S600000x1, .i32⟩ : BufTy).Contents (Elt F)),
    StableHlo.ternary main_v208 main_v209 main_v207 main_v210 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr21 : List (Ref sig .tc) := [ main_v198, main_c_36, main_v199, main_v200, main_c_37, main_v201, main_v202, main_v203, main_v204, main_v205, main_v206, main_v207, main_cst_38, main_v208, main_v209, main_v210 ]

theorem C21_writes : (C21 : List (HloOp τ sig (Elt F))).Forall fun op => op.writes ⊆ (Wr21.map (Proc.devRef (τ := τ) .tc)).toFinset := by
  unfold C21
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep21 (S : Valuation τ sig (Elt F)) {r : Ref sig .tc} (h : r ∉ Wr21) :
    after (C21 (F := F)) S (no_index (Proc.devRef .tc r)) = S (Proc.devRef .tc r) :=
  after_of_writes_sub C21 S C21_writes h

set_option maxRecDepth 8192 in
theorem c21_eq (S : Valuation τ sig (Elt F)) : after (C21 (F := F)) S (no_index (Proc.devRef .tc main_v210)) = T.hopT (S (Proc.devRef .tc main_v1)) (S (Proc.devRef .tc main_v3)) (S (Proc.devRef .tc main_v28)) (S (Proc.devRef .tc main_v194)) := by
  unfold C21 T.hopT T.wrapT
  after_results_simp <;> rfl

/-- Operations 267 to 270 of @main, ending at main_v214. -/
def C22 : List (HloOp τ sig (Elt F)) :=
  [ StableHlo.unary main_arg11 main_v211 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v211 main_v212 rfl shapeCasts_S1x128x64_S128x64,
    StableHlo.binary main_v210 main_v212 main_v213 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v197 main_v213 main_v214 (addf : (⟨S100000x64, .f32⟩ : BufTy).Contents (Elt F) → (⟨S100000x64, .f32⟩ : BufTy).Contents (Elt F) → (⟨S100000x64, .f32⟩ : BufTy).Contents (Elt F)) ]

/-- The references these operations write. -/
abbrev Wr22 : List (Ref sig .tc) := [ main_v211, main_v212, main_v213, main_v214 ]

theorem C22_writes : (C22 : List (HloOp τ sig (Elt F))).Forall fun op => op.writes ⊆ (Wr22.map (Proc.devRef (τ := τ) .tc)).toFinset := by
  unfold C22
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep22 (S : Valuation τ sig (Elt F)) {r : Ref sig .tc} (h : r ∉ Wr22) :
    after (C22 (F := F)) S (no_index (Proc.devRef .tc r)) = S (Proc.devRef .tc r) :=
  after_of_writes_sub C22 S C22_writes h

set_option maxRecDepth 8192 in
theorem c22_eq (S : Valuation τ sig (Elt F)) : after (C22 (F := F)) S (no_index (Proc.devRef .tc main_v214)) = T.dotAdd1U (S (Proc.devRef .tc main_v197)) (S (Proc.devRef .tc main_v210)) (S (Proc.devRef .tc main_arg11)) := by
  unfold C22 T.dotAdd1U
  after_results_simp <;> rfl

/-- Operations 271 to 286 of @main, ending at main_v227. -/
def C23 : List (HloOp τ sig (Elt F)) :=
  [ StableHlo.unary main_v28 main_v215 (broadcastInDim S600000x1 ![0] bcast_S600000_S600000x1_0 : (⟨S600000, .f32⟩ : BufTy).Contents (Elt F) → (⟨S600000x1, .f32⟩ : BufTy).Contents (Elt F)),
    StableHlo.nullary main_c_39 (constantI S_ 32 0#32),
    StableHlo.unary main_c_39 main_v216 (broadcastInDim S600000 ![] bcast_S_S600000 : (⟨S_, .i32⟩ : BufTy).Contents (Elt F) → (⟨S600000, .i32⟩ : BufTy).Contents (Elt F)),
    StableHlo.binary main_v1 main_v216 main_v217 (cmpi .slt : (⟨S600000, .i32⟩ : BufTy).Contents (Elt F) → (⟨S600000, .i32⟩ : BufTy).Contents (Elt F) → (⟨S600000, .i1⟩ : BufTy).Contents (Elt F)),
    StableHlo.nullary main_c_40 (constantI S_ 32 100000#32),
    StableHlo.unary main_c_40 main_v218 (broadcastInDim S600000 ![] bcast_S_S600000 : (⟨S_, .i32⟩ : BufTy).Contents (Elt F) → (⟨S600000, .i32⟩ : BufTy).Contents (Elt F)),
    StableHlo.binary main_v1 main_v218 main_v219 (addi : (⟨S600000, .i32⟩ : BufTy).Contents (Elt F) → (⟨S600000, .i32⟩ : BufTy).Contents (Elt F) → (⟨S600000, .i32⟩ : BufTy).Contents (Elt F)),
    StableHlo.ternary main_v217 main_v219 main_v1 main_v220 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v220 main_v221 (broadcastInDim S600000x1 ![0] bcast_S600000_S600000x1_0 : (⟨S600000, .i32⟩ : BufTy).Contents (Elt F) → (⟨S600000x1, .i32⟩ : BufTy).Contents (Elt F)),
    StableHlo.binary main_v210 main_v221 main_v222 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v215 main_v223 (broadcastInDim S600000x128 ![0, 1] bcast_S600000x1_S600000x128_0_1 : (⟨S600000x1, .f32⟩ : BufTy).Contents (Elt F) → (⟨S600000x128, .f32⟩ : BufTy).Contents (Elt F)),
    StableHlo.binary main_v223 main_v222 main_v224 (mulf : (⟨S600000x128, .f32⟩ : BufTy).Contents (Elt F) → (⟨S600000x128, .f32⟩ : BufTy).Contents (Elt F) → (⟨S600000x128, .f32⟩ : BufTy).Contents (Elt F)),
    StableHlo.nullary main_cst_41 (constant S_ .f32 0x00000000#32),
    StableHlo.unary main_cst_41 main_v225 (broadcastInDim S100000x128 ![] bcast_S_S100000x128 : (⟨S_, .f32⟩ : BufTy).Contents (Elt F) → (⟨S100000x128, .f32⟩ : BufTy).Contents (Elt F)),
    StableHlo.unary main_v3 main_v226 (broadcastInDim S600000x1 ![0] bcast_S600000_S600000x1_0 : (⟨S600000, .i32⟩ : BufTy).Contents (Elt F) → (⟨S600000x1, .i32⟩ : BufTy).Contents (Elt F)),
    StableHlo.ternary main_v225 main_v226 main_v224 main_v227 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr23 : List (Ref sig .tc) := [ main_v215, main_c_39, main_v216, main_v217, main_c_40, main_v218, main_v219, main_v220, main_v221, main_v222, main_v223, main_v224, main_cst_41, main_v225, main_v226, main_v227 ]

theorem C23_writes : (C23 : List (HloOp τ sig (Elt F))).Forall fun op => op.writes ⊆ (Wr23.map (Proc.devRef (τ := τ) .tc)).toFinset := by
  unfold C23
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep23 (S : Valuation τ sig (Elt F)) {r : Ref sig .tc} (h : r ∉ Wr23) :
    after (C23 (F := F)) S (no_index (Proc.devRef .tc r)) = S (Proc.devRef .tc r) :=
  after_of_writes_sub C23 S C23_writes h

set_option maxRecDepth 8192 in
theorem c23_eq (S : Valuation τ sig (Elt F)) : after (C23 (F := F)) S (no_index (Proc.devRef .tc main_v227)) = T.hopT (S (Proc.devRef .tc main_v1)) (S (Proc.devRef .tc main_v3)) (S (Proc.devRef .tc main_v28)) (S (Proc.devRef .tc main_v210)) := by
  unfold C23 T.hopT T.wrapT
  after_results_simp <;> rfl

/-- Operations 287 to 290 of @main, ending at main_v231. -/
def C24 : List (HloOp τ sig (Elt F)) :=
  [ StableHlo.unary main_arg11 main_v228 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v228 main_v229 rfl shapeCasts_S1x128x64_S128x64,
    StableHlo.binary main_v227 main_v229 main_v230 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v214 main_v230 main_v231 (addf : (⟨S100000x64, .f32⟩ : BufTy).Contents (Elt F) → (⟨S100000x64, .f32⟩ : BufTy).Contents (Elt F) → (⟨S100000x64, .f32⟩ : BufTy).Contents (Elt F)) ]

/-- The references these operations write. -/
abbrev Wr24 : List (Ref sig .tc) := [ main_v228, main_v229, main_v230, main_v231 ]

theorem C24_writes : (C24 : List (HloOp τ sig (Elt F))).Forall fun op => op.writes ⊆ (Wr24.map (Proc.devRef (τ := τ) .tc)).toFinset := by
  unfold C24
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep24 (S : Valuation τ sig (Elt F)) {r : Ref sig .tc} (h : r ∉ Wr24) :
    after (C24 (F := F)) S (no_index (Proc.devRef .tc r)) = S (Proc.devRef .tc r) :=
  after_of_writes_sub C24 S C24_writes h

set_option maxRecDepth 8192 in
theorem c24_eq (S : Valuation τ sig (Elt F)) : after (C24 (F := F)) S (no_index (Proc.devRef .tc main_v231)) = T.dotAdd2U (S (Proc.devRef .tc main_v214)) (S (Proc.devRef .tc main_v227)) (S (Proc.devRef .tc main_arg11)) := by
  unfold C24 T.dotAdd2U
  after_results_simp <;> rfl

/-- Operations 291 to 306 of @main, ending at main_v244. -/
def C25 : List (HloOp τ sig (Elt F)) :=
  [ StableHlo.unary main_v28 main_v232 (broadcastInDim S600000x1 ![0] bcast_S600000_S600000x1_0 : (⟨S600000, .f32⟩ : BufTy).Contents (Elt F) → (⟨S600000x1, .f32⟩ : BufTy).Contents (Elt F)),
    StableHlo.nullary main_c_42 (constantI S_ 32 0#32),
    StableHlo.unary main_c_42 main_v233 (broadcastInDim S600000 ![] bcast_S_S600000 : (⟨S_, .i32⟩ : BufTy).Contents (Elt F) → (⟨S600000, .i32⟩ : BufTy).Contents (Elt F)),
    StableHlo.binary main_v1 main_v233 main_v234 (cmpi .slt : (⟨S600000, .i32⟩ : BufTy).Contents (Elt F) → (⟨S600000, .i32⟩ : BufTy).Contents (Elt F) → (⟨S600000, .i1⟩ : BufTy).Contents (Elt F)),
    StableHlo.nullary main_c_43 (constantI S_ 32 100000#32),
    StableHlo.unary main_c_43 main_v235 (broadcastInDim S600000 ![] bcast_S_S600000 : (⟨S_, .i32⟩ : BufTy).Contents (Elt F) → (⟨S600000, .i32⟩ : BufTy).Contents (Elt F)),
    StableHlo.binary main_v1 main_v235 main_v236 (addi : (⟨S600000, .i32⟩ : BufTy).Contents (Elt F) → (⟨S600000, .i32⟩ : BufTy).Contents (Elt F) → (⟨S600000, .i32⟩ : BufTy).Contents (Elt F)),
    StableHlo.ternary main_v234 main_v236 main_v1 main_v237 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v237 main_v238 (broadcastInDim S600000x1 ![0] bcast_S600000_S600000x1_0 : (⟨S600000, .i32⟩ : BufTy).Contents (Elt F) → (⟨S600000x1, .i32⟩ : BufTy).Contents (Elt F)),
    StableHlo.binary main_v227 main_v238 main_v239 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v232 main_v240 (broadcastInDim S600000x128 ![0, 1] bcast_S600000x1_S600000x128_0_1 : (⟨S600000x1, .f32⟩ : BufTy).Contents (Elt F) → (⟨S600000x128, .f32⟩ : BufTy).Contents (Elt F)),
    StableHlo.binary main_v240 main_v239 main_v241 (mulf : (⟨S600000x128, .f32⟩ : BufTy).Contents (Elt F) → (⟨S600000x128, .f32⟩ : BufTy).Contents (Elt F) → (⟨S600000x128, .f32⟩ : BufTy).Contents (Elt F)),
    StableHlo.nullary main_cst_44 (constant S_ .f32 0x00000000#32),
    StableHlo.unary main_cst_44 main_v242 (broadcastInDim S100000x128 ![] bcast_S_S100000x128 : (⟨S_, .f32⟩ : BufTy).Contents (Elt F) → (⟨S100000x128, .f32⟩ : BufTy).Contents (Elt F)),
    StableHlo.unary main_v3 main_v243 (broadcastInDim S600000x1 ![0] bcast_S600000_S600000x1_0 : (⟨S600000, .i32⟩ : BufTy).Contents (Elt F) → (⟨S600000x1, .i32⟩ : BufTy).Contents (Elt F)),
    StableHlo.ternary main_v242 main_v243 main_v241 main_v244 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- The references these operations write. -/
abbrev Wr25 : List (Ref sig .tc) := [ main_v232, main_c_42, main_v233, main_v234, main_c_43, main_v235, main_v236, main_v237, main_v238, main_v239, main_v240, main_v241, main_cst_44, main_v242, main_v243, main_v244 ]

theorem C25_writes : (C25 : List (HloOp τ sig (Elt F))).Forall fun op => op.writes ⊆ (Wr25.map (Proc.devRef (τ := τ) .tc)).toFinset := by
  unfold C25
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep25 (S : Valuation τ sig (Elt F)) {r : Ref sig .tc} (h : r ∉ Wr25) :
    after (C25 (F := F)) S (no_index (Proc.devRef .tc r)) = S (Proc.devRef .tc r) :=
  after_of_writes_sub C25 S C25_writes h

set_option maxRecDepth 8192 in
theorem c25_eq (S : Valuation τ sig (Elt F)) : after (C25 (F := F)) S (no_index (Proc.devRef .tc main_v244)) = T.hopT (S (Proc.devRef .tc main_v1)) (S (Proc.devRef .tc main_v3)) (S (Proc.devRef .tc main_v28)) (S (Proc.devRef .tc main_v227)) := by
  unfold C25 T.hopT T.wrapT
  after_results_simp <;> rfl

/-- Operations 307 to 310 of @main, ending at main_v248. -/
def C26 : List (HloOp τ sig (Elt F)) :=
  [ StableHlo.unary main_arg11 main_v245 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v245 main_v246 rfl shapeCasts_S1x128x64_S128x64,
    StableHlo.binary main_v244 main_v246 main_v247 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v231 main_v247 main_v248 (addf : (⟨S100000x64, .f32⟩ : BufTy).Contents (Elt F) → (⟨S100000x64, .f32⟩ : BufTy).Contents (Elt F) → (⟨S100000x64, .f32⟩ : BufTy).Contents (Elt F)) ]

/-- The references these operations write. -/
abbrev Wr26 : List (Ref sig .tc) := [ main_v245, main_v246, main_v247, main_v248 ]

theorem C26_writes : (C26 : List (HloOp τ sig (Elt F))).Forall fun op => op.writes ⊆ (Wr26.map (Proc.devRef (τ := τ) .tc)).toFinset := by
  unfold C26
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep26 (S : Valuation τ sig (Elt F)) {r : Ref sig .tc} (h : r ∉ Wr26) :
    after (C26 (F := F)) S (no_index (Proc.devRef .tc r)) = S (Proc.devRef .tc r) :=
  after_of_writes_sub C26 S C26_writes h

set_option maxRecDepth 8192 in
theorem c26_eq (S : Valuation τ sig (Elt F)) : after (C26 (F := F)) S (no_index (Proc.devRef .tc main_v248)) = T.dotAdd3U (S (Proc.devRef .tc main_v231)) (S (Proc.devRef .tc main_v244)) (S (Proc.devRef .tc main_arg11)) := by
  unfold C26 T.dotAdd3U
  after_results_simp <;> rfl

/-- Operations 311 to 340 of @main, ending at main_v273. -/
def C27 : List (HloOp τ sig (Elt F)) :=
  [ StableHlo.nullary main_cst_45 (constant S_ .f32 0x00000000#32),
    StableHlo.binary main_v248 main_cst_45 main_v249 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_46 (constant S_ .f32 0x47C35000#32),
    StableHlo.unary main_cst_46 main_v250 (broadcastInDim S64 ![] bcast_S_S64 : (⟨S_, .f32⟩ : BufTy).Contents (Elt F) → (⟨S64, .f32⟩ : BufTy).Contents (Elt F)),
    StableHlo.binary main_v249 main_v250 main_v251 (Host.divf : (⟨S64, .f32⟩ : BufTy).Contents (Elt F) → (⟨S64, .f32⟩ : BufTy).Contents (Elt F) → (⟨S64, .f32⟩ : BufTy).Contents (Elt F)),
    StableHlo.unary main_v251 main_v252 (broadcastInDim S1x64 ![1] bcast_S64_S1x64_1 : (⟨S64, .f32⟩ : BufTy).Contents (Elt F) → (⟨S1x64, .f32⟩ : BufTy).Contents (Elt F)),
    StableHlo.unary main_v252 main_v253 (broadcastInDim S100000x64 ![0, 1] bcast_S1x64_S100000x64_0_1 : (⟨S1x64, .f32⟩ : BufTy).Contents (Elt F) → (⟨S100000x64, .f32⟩ : BufTy).Contents (Elt F)),
    StableHlo.binary main_v248 main_v253 main_v254 (subf : (⟨S100000x64, .f32⟩ : BufTy).Contents (Elt F) → (⟨S100000x64, .f32⟩ : BufTy).Contents (Elt F) → (⟨S100000x64, .f32⟩ : BufTy).Contents (Elt F)),
    StableHlo.binary main_v254 main_v254 main_v255 (mulf : (⟨S100000x64, .f32⟩ : BufTy).Contents (Elt F) → (⟨S100000x64, .f32⟩ : BufTy).Contents (Elt F) → (⟨S100000x64, .f32⟩ : BufTy).Contents (Elt F)),
    StableHlo.nullary main_cst_47 (constant S_ .f32 0x00000000#32),
    StableHlo.binary main_v255 main_cst_47 main_v256 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_48 (constant S_ .f32 0x47C35000#32),
    StableHlo.unary main_cst_48 main_v257 (broadcastInDim S64 ![] bcast_S_S64 : (⟨S_, .f32⟩ : BufTy).Contents (Elt F) → (⟨S64, .f32⟩ : BufTy).Contents (Elt F)),
    StableHlo.binary main_v256 main_v257 main_v258 (Host.divf : (⟨S64, .f32⟩ : BufTy).Contents (Elt F) → (⟨S64, .f32⟩ : BufTy).Contents (Elt F) → (⟨S64, .f32⟩ : BufTy).Contents (Elt F)),
    StableHlo.unary main_v251 main_v259 (broadcastInDim S1x64 ![1] bcast_S64_S1x64_1 : (⟨S64, .f32⟩ : BufTy).Contents (Elt F) → (⟨S1x64, .f32⟩ : BufTy).Contents (Elt F)),
    StableHlo.unary main_v259 main_v260 (broadcastInDim S100000x64 ![0, 1] bcast_S1x64_S100000x64_0_1 : (⟨S1x64, .f32⟩ : BufTy).Contents (Elt F) → (⟨S100000x64, .f32⟩ : BufTy).Contents (Elt F)),
    StableHlo.binary main_v248 main_v260 main_v261 (subf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3727C5AC#32),
    StableHlo.unary main_cst_49 main_v262 (broadcastInDim S64 ![] bcast_S_S64 : (⟨S_, .f32⟩ : BufTy).Contents (Elt F) → (⟨S64, .f32⟩ : BufTy).Contents (Elt F)),
    StableHlo.binary main_v258 main_v262 main_v263 (addf : (⟨S64, .f32⟩ : BufTy).Contents (Elt F) → (⟨S64, .f32⟩ : BufTy).Contents (Elt F) → (⟨S64, .f32⟩ : BufTy).Contents (Elt F)),
    StableHlo.unary main_v263 main_v264 (Host.rsqrt : (⟨S64, .f32⟩ : BufTy).Contents (Elt F) → (⟨S64, .f32⟩ : BufTy).Contents (Elt F)),
    StableHlo.unary main_v264 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S100000x64 ![0, 1] bcast_S1x64_S100000x64_0_1 : (⟨S1x64, .f32⟩ : BufTy).Contents (Elt F) → (⟨S100000x64, .f32⟩ : BufTy).Contents (Elt F)),
    StableHlo.binary main_v261 main_v266 main_v267 (mulf : (⟨S100000x64, .f32⟩ : BufTy).Contents (Elt F) → (⟨S100000x64, .f32⟩ : BufTy).Contents (Elt F) → (⟨S100000x64, .f32⟩ : BufTy).Contents (Elt F)),
    StableHlo.unary main_arg12 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S100000x64 ![0, 1] bcast_S1x64_S100000x64_0_1 : (⟨S1x64, .f32⟩ : BufTy).Contents (Elt F) → (⟨S100000x64, .f32⟩ : BufTy).Contents (Elt F)),
    StableHlo.binary main_v267 main_v269 main_v270 (mulf : (⟨S100000x64, .f32⟩ : BufTy).Contents (Elt F) → (⟨S100000x64, .f32⟩ : BufTy).Contents (Elt F) → (⟨S100000x64, .f32⟩ : BufTy).Contents (Elt F)),
    StableHlo.unary main_arg13 main_v271 (broadcastInDim S1x64 ![1] bcast_S64_S1x64_1 : (⟨S64, .f32⟩ : BufTy).Contents (Elt F) → (⟨S1x64, .f32⟩ : BufTy).Contents (Elt F)),
    StableHlo.unary main_v271 main_v272 (broadcastInDim S100000x64 ![0, 1] bcast_S1x64_S100000x64_0_1 : (⟨S1x64, .f32⟩ : BufTy).Contents (Elt F) → (⟨S100000x64, .f32⟩ : BufTy).Contents (Elt F)),
    StableHlo.binary main_v270 main_v272 main_v273 (addf : (⟨S100000x64, .f32⟩ : BufTy).Contents (Elt F) → (⟨S100000x64, .f32⟩ : BufTy).Contents (Elt F) → (⟨S100000x64, .f32⟩ : BufTy).Contents (Elt F)) ]

/-- The references these operations write. -/
abbrev Wr27 : List (Ref sig .tc) := [ main_cst_45, main_v249, main_cst_46, main_v250, main_v251, main_v252, main_v253, main_v254, main_v255, main_cst_47, main_v256, main_cst_48, main_v257, main_v258, main_v259, main_v260, main_v261, main_cst_49, main_v262, main_v263, main_v264, main_v265, main_v266, main_v267, main_v268, main_v269, main_v270, main_v271, main_v272, main_v273 ]

theorem C27_writes : (C27 : List (HloOp τ sig (Elt F))).Forall fun op => op.writes ⊆ (Wr27.map (Proc.devRef (τ := τ) .tc)).toFinset := by
  unfold C27
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep27 (S : Valuation τ sig (Elt F)) {r : Ref sig .tc} (h : r ∉ Wr27) :
    after (C27 (F := F)) S (no_index (Proc.devRef .tc r)) = S (Proc.devRef .tc r) :=
  after_of_writes_sub C27 S C27_writes h

set_option maxRecDepth 8192 in
theorem c27_eq (S : Valuation τ sig (Elt F)) : after (C27 (F := F)) S (no_index (Proc.devRef .tc main_v273)) = T.bnU (S (Proc.devRef .tc main_v248)) (S (Proc.devRef .tc main_arg12)) (S (Proc.devRef .tc main_arg13)) := by
  unfold C27 T.bnU T.affineU T.varU T.meanU
  after_results_simp <;> rfl

/-- Operations 341 to 348 of @main, ending at main_v274. -/
def C28 : List (HloOp τ sig (Elt F)) :=
  [ StableHlo.nullary main_cst_50 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v273) main_call3.v0 main_call3.v1 (cmpf .oge),
    StableHlo.TRef.unary (.of main_cst_50) main_call3.v2 id,
    StableHlo.TRef.unary main_call3.v2 main_call3.v3 (broadcastInDim S100000x64 ![] bcast_S_S100000x64),
    StableHlo.TRef.binary main_call3.v3 (.of main_v273) main_call3.v4 mulf,
    StableHlo.TRef.ternary main_call3.v1 (.of main_v273) main_call3.v4 main_call3.call0.v0 select ]

/-- The references these operations write. -/
abbrev Wr28 : List (Ref sig .tc) := [ main_cst_50, main_call3.cst.ref, main_call3.v0.ref, main_call3.v1.ref, main_call3.v2.ref, main_call3.v3.ref, main_call3.v4.ref, main_call3.call0.v0.ref ]

theorem C28_writes : (C28 : List (HloOp τ sig (Elt F))).Forall fun op => op.writes ⊆ (Wr28.map (Proc.devRef (τ := τ) .tc)).toFinset := by
  unfold C28
  simp only [List.Forall, nullary_writes, unary_writes, binary_writes, ternary_writes, quaternary_writes, reshape_writes,
    Finset.singleton_subset_iff, List.mem_toFinset]
  repeat' apply And.intro
  all_goals exact List.mem_map_of_mem (by decide)

/-- A reference these operations do not write keeps its contents. -/
theorem keep28 (S : Valuation τ sig (Elt F)) {r : Ref sig .tc} (h : r ∉ Wr28) :
    after (C28 (F := F)) S (no_index (Proc.devRef .tc r)) = S (Proc.devRef .tc r) :=
  after_of_writes_sub C28 S C28_writes h

set_option maxRecDepth 8192 in
theorem c28_eq (S : Valuation τ sig (Elt F)) : after (C28 (F := F)) S (no_index (Proc.devRef .tc main_v274)) = T.lreluU (S (Proc.devRef .tc main_v273)) := by
  unfold C28 T.lreluU
  after_results_simp <;> rfl

end Cert.ReferenceIdeal.RefRead

end
-- ==== Proof.RefRead.lean ====
/- The reference's result as the network function of its arguments. @main's operations are the pieces of the four chunk
   modules in order; the fold over them is the pieces' folds composed; each piece's value is its named function of the
   values it reads, and a reference a piece does not write passes through it: so the result buffer ends at the three
   layers' composition applied to the launch contents of the fourteen arguments. -/
import proofs.«167710_j39049842655736_2_alg».proof.Proof.RefRun
import proofs.«167710_j39049842655736_2_alg».proof.Proof.RefChunksA
import proofs.«167710_j39049842655736_2_alg».proof.Proof.RefChunks1
import proofs.«167710_j39049842655736_2_alg».proof.Proof.RefChunks2
import proofs.«167710_j39049842655736_2_alg».proof.Proof.RefChunks3

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- @main's operations are the pieces, in order. -/
theorem ops_split : (RefRun.ops : List (HloOp τ sig (Elt F))) = C0 ++ (C1 ++ (C2 ++ (C3 ++ (C4 ++ (C5 ++ (C6 ++ (C7 ++ (C8 ++ (C9 ++ (C10 ++ (C11 ++ (C12 ++ (C13 ++ (C14 ++ (C15 ++ (C16 ++ (C17 ++ (C18 ++ (C19 ++ (C20 ++ (C21 ++ (C22 ++ (C23 ++ (C24 ++ (C25 ++ (C26 ++ (C27 ++ (C28)))))))))))))))))))))))))))) := rfl

set_option maxRecDepth 8192 in
set_option maxHeartbeats 2000000 in
/-- The result buffer after @main, from any contents: the network function of the argument buffers' contents. -/
theorem out_eq (V : Valuation τ sig (Elt F)) :
    after RefRun.ops V (Proc.devRef .tc main_v274)
      = T.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split]
  simp only [RefRun.after_append]
  unfold T.refOut T.layerU T.layerT
  simp (disch := decide) only [c0_src, c0_dst, c1_eq, c2_eq, c3_eq, c4_eq, c5_eq, c6_eq, c7_eq, c8_eq, c9_eq, c10_eq, c11_eq, c12_eq, c13_eq, c14_eq, c15_eq, c16_eq, c17_eq, c18_eq, c19_eq, c20_eq, c21_eq, c22_eq, c23_eq, c24_eq, c25_eq, c26_eq, c27_eq, c28_eq,
    keep0, keep1, keep2, keep3, keep4, keep5, keep6, keep7, keep8, keep9, keep10, keep11, keep12, keep13, keep14, keep15, keep16, keep17, keep18, keep19, keep20, keep21, keep22, keep23, keep24, keep25, keep26, keep27, keep28]

/-- Every weakly fair execution of the reference terminates with its result at the network function of its arguments,
    and the arguments unchanged. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v274) = T.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_v274).trans (out_eq _),
     (h c main_arg0).trans (RefRun.keep_arg0 _),
     (h c main_arg1).trans (RefRun.keep_arg1 _),
     (h c main_arg2).trans (RefRun.keep_arg2 _),
     (h c main_arg3).trans (RefRun.keep_arg3 _),
     (h c main_arg4).trans (RefRun.keep_arg4 _),
     (h c main_arg5).trans (RefRun.keep_arg5 _),
     (h c main_arg6).trans (RefRun.keep_arg6 _),
     (h c main_arg7).trans (RefRun.keep_arg7 _),
     (h c main_arg8).trans (RefRun.keep_arg8 _),
     (h c main_arg9).trans (RefRun.keep_arg9 _),
     (h c main_arg10).trans (RefRun.keep_arg10 _),
     (h c main_arg11).trans (RefRun.keep_arg11 _),
     (h c main_arg12).trans (RefRun.keep_arg12 _),
     (h c main_arg13).trans (RefRun.keep_arg13 _)⟩) (RefRun.run_main m ρ)

end Cert.ReferenceIdeal.RefRead

end
-- ==== Proof.KRun.lean ====
/- The idealized kernel's run with its result named. @main is fourteen segments — eight stretches of host operations and
   six kernel regions —; the launch over the segments ends with every unscoped buffer at the last boundary's contents,
   so the result buffer holds what the last region's write-backs left there and the argument arrays what they were
   launched with. -/
import proofs.«167710_j39049842655736_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates with the result buffer at the last
    boundary's contents and the arguments unchanged. -/
theorem run_value : θ_run defs (onTc (τ := τ) (main (F := F))) ⟨m, fun _ => 0, ρ⟩ (fun r => ∀ c : Dev nD,
      r.2.mem ((c.tc : Thread nD τ).loc main_v212) = W14 m ρ c (Proc.devRef .tc main_v212)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v212 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.KRun

end
-- ==== Proof.AfterLib.lean ====
/- The fold of two lines of host operations run one after the other is the second's fold over the first's. -/
import Idealize.ShloMosaic.Lib.StableHlo.Run

namespace Cert.AfterLib

open Idealize.ShloMosaic Idealize.ShloMosaic.StableHlo

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterLib
-- ==== Proof.KTerms.lean ====
/- The host-side glue of the kernel program that the reference does not have: vectors passed to a kernel as one-row
   matrices, and the batch statistics finished from the per-tile partial sums a kernel leaves. -/
import proofs.«167710_j39049842655736_2_alg».proof.Proof.Gen.KernelIdeal

noncomputable section

namespace Cert.KernelIdeal.KT

open Cert.KernelIdeal Cert.KernelIdeal.Gen Idealize.ShloMosaic

variable {F : FTy → Type} [FloatOps F]

/-- A vector as a one-row matrix. -/
def rowT (b : FVec F S128 .f32) : FVec F S1x128 .f32 :=
  (shapeCast S1x128 b shapeCasts_S128_S1x128)

/-- The column means from the per-tile partial sums: row 0 of every tile's eight-row record, summed over the tiles and divided by the node count. -/
def kmeanT (st : FVec F S160x128 .f32) : FVec F S128 .f32 :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S20x128_S128_d0 h_S_) : (⟨S20x128, .f32⟩ : BufTy).Contents (Elt F) → (⟨S_, .f32⟩ : BufTy).Contents (Elt F) → (⟨S128, .f32⟩ : BufTy).Contents (Elt F)) (shapeCast S20x128 (((extractStridedSlice S20x1x128 ![0, 0, 0] · slices_S20x8x128_S20x1x128_0_0_0) : (⟨S20x8x128, .f32⟩ : BufTy).Contents (Elt F) → (⟨S20x1x128, .f32⟩ : BufTy).Contents (Elt F)) (shapeCast S20x8x128 st shapeCasts_S160x128_S20x8x128)) shapeCasts_S20x1x128_S20x128) (constant S_ .f32 0x00000000#32)) ((broadcastInDim S128 ![] bcast_S_S128 : (⟨S_, .f32⟩ : BufTy).Contents (Elt F) → (⟨S128, .f32⟩ : BufTy).Contents (Elt F)) (constant S_ .f32 0x47C35000#32)))

/-- The column variances from the per-tile partial sums of squares (row 1 of every record): their mean minus the squared mean, clamped at zero. -/
def kvarT (st : FVec F S160x128 .f32) : FVec F S128 .f32 :=
  ((maximumf : (⟨S128, .f32⟩ : BufTy).Contents (Elt F) → (⟨S128, .f32⟩ : BufTy).Contents (Elt F) → (⟨S128, .f32⟩ : BufTy).Contents (Elt F)) ((subf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S20x128_S128_d0 h_S_) : (⟨S20x128, .f32⟩ : BufTy).Contents (Elt F) → (⟨S_, .f32⟩ : BufTy).Contents (Elt F) → (⟨S128, .f32⟩ : BufTy).Contents (Elt F)) (shapeCast S20x128 (((extractStridedSlice S20x1x128 ![0, 1, 0] · slices_S20x8x128_S20x1x128_0_1_0) : (⟨S20x8x128, .f32⟩ : BufTy).Contents (Elt F) → (⟨S20x1x128, .f32⟩ : BufTy).Contents (Elt F)) (shapeCast S20x8x128 st shapeCasts_S160x128_S20x8x128)) shapeCasts_S20x1x128_S20x128) (constant S_ .f32 0x00000000#32)) ((broadcastInDim S128 ![] bcast_S_S128 : (⟨S_, .f32⟩ : BufTy).Contents (Elt F) → (⟨S128, .f32⟩ : BufTy).Contents (Elt F)) (constant S_ .f32 0x47C35000#32))) ((mulf : (⟨S128, .f32⟩ : BufTy).Contents (Elt F) → (⟨S128, .f32⟩ : BufTy).Contents (Elt F) → (⟨S128, .f32⟩ : BufTy).Contents (Elt F)) (kmeanT st) (kmeanT st))) ((broadcastInDim S128 ![] bcast_S_S128 : (⟨S_, .f32⟩ : BufTy).Contents (Elt F) → (⟨S128, .f32⟩ : BufTy).Contents (Elt F)) (constant S_ .f32 0x00000000#32)))

/-- A 64-vector as a one-row matrix. -/
def rowU (b : FVec F S64 .f32) : FVec F S1x64 .f32 :=
  (shapeCast S1x64 b shapeCasts_S64_S1x64)

/-- The column means from the per-tile partial sums (64 columns). -/
def kmeanU (st : FVec F S160x64 .f32) : FVec F S64 .f32 :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S20x64_S64_d0 h_S_) : (⟨S20x64, .f32⟩ : BufTy).Contents (Elt F) → (⟨S_, .f32⟩ : BufTy).Contents (Elt F) → (⟨S64, .f32⟩ : BufTy).Contents (Elt F)) (shapeCast S20x64 (((extractStridedSlice S20x1x64 ![0, 0, 0] · slices_S20x8x64_S20x1x64_0_0_0) : (⟨S20x8x64, .f32⟩ : BufTy).Contents (Elt F) → (⟨S20x1x64, .f32⟩ : BufTy).Contents (Elt F)) (shapeCast S20x8x64 st shapeCasts_S160x64_S20x8x64)) shapeCasts_S20x1x64_S20x64) (constant S_ .f32 0x00000000#32)) ((broadcastInDim S64 ![] bcast_S_S64 : (⟨S_, .f32⟩ : BufTy).Contents (Elt F) → (⟨S64, .f32⟩ : BufTy).Contents (Elt F)) (constant S_ .f32 0x47C35000#32)))

/-- The column variances from the per-tile partial sums (64 columns). -/
def kvarU (st : FVec F S160x64 .f32) : FVec F S64 .f32 :=
  ((maximumf : (⟨S64, .f32⟩ : BufTy).Contents (Elt F) → (⟨S64, .f32⟩ : BufTy).Contents (Elt F) → (⟨S64, .f32⟩ : BufTy).Contents (Elt F)) ((subf : (⟨S64, .f32⟩ : BufTy).Contents (Elt F) → (⟨S64, .f32⟩ : BufTy).Contents (Elt F) → (⟨S64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S20x64_S64_d0 h_S_) : (⟨S20x64, .f32⟩ : BufTy).Contents (Elt F) → (⟨S_, .f32⟩ : BufTy).Contents (Elt F) → (⟨S64, .f32⟩ : BufTy).Contents (Elt F)) (shapeCast S20x64 (((extractStridedSlice S20x1x64 ![0, 1, 0] · slices_S20x8x64_S20x1x64_0_1_0) : (⟨S20x8x64, .f32⟩ : BufTy).Contents (Elt F) → (⟨S20x1x64, .f32⟩ : BufTy).Contents (Elt F)) (shapeCast S20x8x64 st shapeCasts_S160x64_S20x8x64)) shapeCasts_S20x1x64_S20x64) (constant S_ .f32 0x00000000#32)) ((broadcastInDim S64 ![] bcast_S_S64 : (⟨S_, .f32⟩ : BufTy).Contents (Elt F) → (⟨S64, .f32⟩ : BufTy).Contents (Elt F)) (constant S_ .f32 0x47C35000#32))) ((mulf : (⟨S64, .f32⟩ : BufTy).Contents (Elt F) → (⟨S64, .f32⟩ : BufTy).Contents (Elt F) → (⟨S64, .f32⟩ : BufTy).Contents (Elt F)) (kmeanU st) (kmeanU st))) ((broadcastInDim S64 ![] bcast_S_S64 : (⟨S_, .f32⟩ : BufTy).Contents (Elt F) → (⟨S64, .f32⟩ : BufTy).Contents (Elt F)) (constant S_ .f32 0x00000000#32)))

/-- The zero bias row of the output layer. -/
def zrowU  : FVec F S1x64 .f32 :=
  (shapeCast S1x64 ((broadcastInDim S64 ![] bcast_S_S64 : (⟨S_, .f32⟩ : BufTy).Contents (Elt F) → (⟨S64, .f32⟩ : BufTy).Contents (Elt F)) (constant S_ .f32 0x00000000#32)) shapeCasts_S64_S1x64)

end Cert.KernelIdeal.KT

end
-- ==== Proof.KChunksA.lean ====
/- A stretch of the kernel program's host operations, cut where a named value is complete: each piece, run from any
   contents, leaves its value at the named function of the values it reads — the same functions as the reference's,
   since the two programs spell these operations alike — and leaves every reference it does not write alone. -/
import proofs.«167710_j39049842655736_2_alg».proof.Proof.Terms
import proofs.«167710_j39049842655736_2_alg».proof.Proof.KTerms
import proofs.«167710_j39049842655736_2_alg».proof.Proof.Gen.KernelIdeal.Launch
import Idealize.ShloMosaic.Lib.StableHlo.Run

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Host operations 1 to 4 of this stretch, ending at main_v3. -/
def KA0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

abbrev WrKA0 : List (Ref sig .tc) := [ main_v0, main_v1, main_v2, main_v3 ]

theorem KA0_writes : (KA0 : List (HloOp τ sig (Elt F))).Forall fun op => op.writes ⊆ (WrKA0.map (Proc.devRef (τ := τ) .tc)).toFinset := by
  unfold KA0
  simp only [List.Forall, nullary_writes, unary_writes, binary_writes, ternary_writes, quaternary_writes, reshape_writes,
    Finset.singleton_subset_iff, List.mem_toFinset]
  repeat' apply And.intro
  all_goals exact List.mem_map_of_mem (by decide)

theorem keep_KA0 (S : Valuation τ sig (Elt F)) {r : Ref sig .tc} (h : r ∉ WrKA0) :
    after (KA0 (F := F)) S (no_index (Proc.devRef .tc r)) = S (Proc.devRef .tc r) :=
  after_of_writes_sub KA0 S KA0_writes h

set_option maxRecDepth 8192 in
theorem KA0_v1 (S : Valuation τ sig (Elt F)) : after (KA0 (F := F)) S (no_index (Proc.devRef .tc main_v1)) = Cert.ReferenceIdeal.T.srcT (S (Proc.devRef .tc main_arg1)) := by
  unfold KA0 Cert.ReferenceIdeal.T.srcT
  after_results_simp <;> rfl

set_option maxRecDepth 8192 in
theorem KA0_v3 (S : Valuation τ sig (Elt F)) : after (KA0 (F := F)) S (no_index (Proc.devRef .tc main_v3)) = Cert.ReferenceIdeal.T.dstT (S (Proc.devRef .tc main_arg1)) := by
  unfold KA0 Cert.ReferenceIdeal.T.dstT
  after_results_simp <;> rfl

/-- Host operations 5 to 39 of this stretch, ending at main_v28. -/
def KA1 : List (HloOp τ sig (Elt F)) :=
  [ StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.unary main_v3 main_v5 (broadcastInDim S600000x1 ![0] bcast_S600000_S600000x1_0 : (⟨S600000, .i32⟩ : BufTy).Contents (Elt F) → (⟨S600000x1, .i32⟩ : BufTy).Contents (Elt F)),
    StableHlo.ternary main_v4 main_v5 main_arg2 main_v6 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.binary main_v6 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_1 (constant S_ .f32 0x2B8CBCCC#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v6 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v8 : StableHlo.TRef sig ⟨S100000, .i1⟩) (.of main_v11 : StableHlo.TRef sig ⟨S100000, .f32⟩) (.of main_call0_v1 : StableHlo.TRef sig ⟨S100000, .f32⟩) (.of main_v12 : StableHlo.TRef sig ⟨S100000, .f32⟩) select,
    StableHlo.nullary main_c (constantI S_ 32 0#32),
    StableHlo.unary main_c main_v13 (broadcastInDim S600000 ![] bcast_S_S600000 : (⟨S_, .i32⟩ : BufTy).Contents (Elt F) → (⟨S600000, .i32⟩ : BufTy).Contents (Elt F)),
    StableHlo.binary main_v1 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 100000#32),
    StableHlo.unary main_c_3 main_v15 (broadcastInDim S600000 ![] bcast_S_S600000 : (⟨S_, .i32⟩ : BufTy).Contents (Elt F) → (⟨S600000, .i32⟩ : BufTy).Contents (Elt F)),
    StableHlo.binary main_v1 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_v1 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_v12 main_v18 main_v19 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v19 main_arg2 main_v20 (mulf : (⟨S600000, .f32⟩ : BufTy).Contents (Elt F) → (⟨S600000, .f32⟩ : BufTy).Contents (Elt F) → (⟨S600000, .f32⟩ : BufTy).Contents (Elt F)),
    StableHlo.nullary main_c_4 (constantI S_ 32 0#32),
    StableHlo.unary main_c_4 main_v21 (broadcastInDim S600000 ![] bcast_S_S600000 : (⟨S_, .i32⟩ : BufTy).Contents (Elt F) → (⟨S600000, .i32⟩ : BufTy).Contents (Elt F)),
    StableHlo.binary main_v3 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 100000#32),
    StableHlo.unary main_c_5 main_v23 (broadcastInDim S600000 ![] bcast_S_S600000 : (⟨S_, .i32⟩ : BufTy).Contents (Elt F) → (⟨S600000, .i32⟩ : BufTy).Contents (Elt F)),
    StableHlo.binary main_v3 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v12 main_v26 main_v27 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v20 main_v27 main_v28 (mulf : (⟨S600000, .f32⟩ : BufTy).Contents (Elt F) → (⟨S600000, .f32⟩ : BufTy).Contents (Elt F) → (⟨S600000, .f32⟩ : BufTy).Contents (Elt F)) ]

abbrev WrKA1 : List (Ref sig .tc) := [ main_cst, main_v4, main_v5, main_v6, main_cst_0, main_v7, main_v8, main_cst_1, main_v9, main_v10, main_v11, main_cst_2, main_call0_v0, main_call0_v1, main_v12, main_c, main_v13, main_v14, main_c_3, main_v15, main_v16, main_v17, main_v18, main_v19, main_v20, main_c_4, main_v21, main_v22, main_c_5, main_v23, main_v24, main_v25, main_v26, main_v27, main_v28 ]

theorem KA1_writes : (KA1 : List (HloOp τ sig (Elt F))).Forall fun op => op.writes ⊆ (WrKA1.map (Proc.devRef (τ := τ) .tc)).toFinset := by
  unfold KA1
  simp only [List.Forall, nullary_writes, unary_writes, binary_writes, ternary_writes, quaternary_writes, reshape_writes,
    Finset.singleton_subset_iff, List.mem_toFinset]
  repeat' apply And.intro
  all_goals exact List.mem_map_of_mem (by decide)

theorem keep_KA1 (S : Valuation τ sig (Elt F)) {r : Ref sig .tc} (h : r ∉ WrKA1) :
    after (KA1 (F := F)) S (no_index (Proc.devRef .tc r)) = S (Proc.devRef .tc r) :=
  after_of_writes_sub KA1 S KA1_writes h

set_option maxRecDepth 8192 in
theorem KA1_v28 (S : Valuation τ sig (Elt F)) : after (KA1 (F := F)) S (no_index (Proc.devRef .tc main_v28)) = Cert.ReferenceIdeal.T.normT (S (Proc.devRef .tc main_v1)) (S (Proc.devRef .tc main_v3)) (S (Proc.devRef .tc main_arg2)) := by
  unfold KA1 Cert.ReferenceIdeal.T.normT Cert.ReferenceIdeal.T.disT Cert.ReferenceIdeal.T.degT Cert.ReferenceIdeal.T.wrapT
  after_results_simp <;> rfl

/-- Host operations 40 to 55 of this stretch, ending at main_v41. -/
def KA2 : List (HloOp τ sig (Elt F)) :=
  [ StableHlo.unary main_v28 main_v29 (broadcastInDim S600000x1 ![0] bcast_S600000_S600000x1_0 : (⟨S600000, .f32⟩ : BufTy).Contents (Elt F) → (⟨S600000x1, .f32⟩ : BufTy).Contents (Elt F)),
    StableHlo.nullary main_c_6 (constantI S_ 32 0#32),
    StableHlo.unary main_c_6 main_v30 (broadcastInDim S600000 ![] bcast_S_S600000 : (⟨S_, .i32⟩ : BufTy).Contents (Elt F) → (⟨S600000, .i32⟩ : BufTy).Contents (Elt F)),
    StableHlo.binary main_v1 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 100000#32),
    StableHlo.unary main_c_7 main_v32 (broadcastInDim S600000 ![] bcast_S_S600000 : (⟨S_, .i32⟩ : BufTy).Contents (Elt F) → (⟨S600000, .i32⟩ : BufTy).Contents (Elt F)),
    StableHlo.binary main_v1 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_v1 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_arg0 main_v35 main_v36 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v29 main_v37 (broadcastInDim S600000x128 ![0, 1] bcast_S600000x1_S600000x128_0_1 : (⟨S600000x1, .f32⟩ : BufTy).Contents (Elt F) → (⟨S600000x128, .f32⟩ : BufTy).Contents (Elt F)),
    StableHlo.binary main_v37 main_v36 main_v38 (mulf : (⟨S600000x128, .f32⟩ : BufTy).Contents (Elt F) → (⟨S600000x128, .f32⟩ : BufTy).Contents (Elt F) → (⟨S600000x128, .f32⟩ : BufTy).Contents (Elt F)),
    StableHlo.nullary main_cst_8 (constant S_ .f32 0x00000000#32),
    StableHlo.unary main_cst_8 main_v39 (broadcastInDim S100000x128 ![] bcast_S_S100000x128 : (⟨S_, .f32⟩ : BufTy).Contents (Elt F) → (⟨S100000x128, .f32⟩ : BufTy).Contents (Elt F)),
    StableHlo.unary main_v3 main_v40 (broadcastInDim S600000x1 ![0] bcast_S600000_S600000x1_0 : (⟨S600000, .i32⟩ : BufTy).Contents (Elt F) → (⟨S600000x1, .i32⟩ : BufTy).Contents (Elt F)),
    StableHlo.ternary main_v39 main_v40 main_v38 main_v41 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKA2 : List (Ref sig .tc) := [ main_v29, main_c_6, main_v30, main_v31, main_c_7, main_v32, main_v33, main_v34, main_v35, main_v36, main_v37, main_v38, main_cst_8, main_v39, main_v40, main_v41 ]

theorem KA2_writes : (KA2 : List (HloOp τ sig (Elt F))).Forall fun op => op.writes ⊆ (WrKA2.map (Proc.devRef (τ := τ) .tc)).toFinset := by
  unfold KA2
  simp only [List.Forall, nullary_writes, unary_writes, binary_writes, ternary_writes, quaternary_writes, reshape_writes,
    Finset.singleton_subset_iff, List.mem_toFinset]
  repeat' apply And.intro
  all_goals exact List.mem_map_of_mem (by decide)

theorem keep_KA2 (S : Valuation τ sig (Elt F)) {r : Ref sig .tc} (h : r ∉ WrKA2) :
    after (KA2 (F := F)) S (no_index (Proc.devRef .tc r)) = S (Proc.devRef .tc r) :=
  after_of_writes_sub KA2 S KA2_writes h

set_option maxRecDepth 8192 in
theorem KA2_v41 (S : Valuation τ sig (Elt F)) : after (KA2 (F := F)) S (no_index (Proc.devRef .tc main_v41)) = Cert.ReferenceIdeal.T.hopT (S (Proc.devRef .tc main_v1)) (S (Proc.devRef .tc main_v3)) (S (Proc.devRef .tc main_v28)) (S (Proc.devRef .tc main_arg0)) := by
  unfold KA2 Cert.ReferenceIdeal.T.hopT Cert.ReferenceIdeal.T.wrapT
  after_results_simp <;> rfl

/-- Host operations 56 to 71 of this stretch, ending at main_v54. -/
def KA3 : List (HloOp τ sig (Elt F)) :=
  [ StableHlo.unary main_v28 main_v42 (broadcastInDim S600000x1 ![0] bcast_S600000_S600000x1_0 : (⟨S600000, .f32⟩ : BufTy).Contents (Elt F) → (⟨S600000x1, .f32⟩ : BufTy).Contents (Elt F)),
    StableHlo.nullary main_c_9 (constantI S_ 32 0#32),
    StableHlo.unary main_c_9 main_v43 (broadcastInDim S600000 ![] bcast_S_S600000 : (⟨S_, .i32⟩ : BufTy).Contents (Elt F) → (⟨S600000, .i32⟩ : BufTy).Contents (Elt F)),
    StableHlo.binary main_v1 main_v43 main_v44 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 100000#32),
    StableHlo.unary main_c_10 main_v45 (broadcastInDim S600000 ![] bcast_S_S600000 : (⟨S_, .i32⟩ : BufTy).Contents (Elt F) → (⟨S600000, .i32⟩ : BufTy).Contents (Elt F)),
    StableHlo.binary main_v1 main_v45 main_v46 (addi : (⟨S600000, .i32⟩ : BufTy).Contents (Elt F) → (⟨S600000, .i32⟩ : BufTy).Contents (Elt F) → (⟨S600000, .i32⟩ : BufTy).Contents (Elt F)),
    StableHlo.ternary main_v44 main_v46 main_v1 main_v47 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v47 main_v48 (broadcastInDim S600000x1 ![0] bcast_S600000_S600000x1_0 : (⟨S600000, .i32⟩ : BufTy).Contents (Elt F) → (⟨S600000x1, .i32⟩ : BufTy).Contents (Elt F)),
    StableHlo.binary main_v41 main_v48 main_v49 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v42 main_v50 (broadcastInDim S600000x128 ![0, 1] bcast_S600000x1_S600000x128_0_1 : (⟨S600000x1, .f32⟩ : BufTy).Contents (Elt F) → (⟨S600000x128, .f32⟩ : BufTy).Contents (Elt F)),
    StableHlo.binary main_v50 main_v49 main_v51 (mulf : (⟨S600000x128, .f32⟩ : BufTy).Contents (Elt F) → (⟨S600000x128, .f32⟩ : BufTy).Contents (Elt F) → (⟨S600000x128, .f32⟩ : BufTy).Contents (Elt F)),
    StableHlo.nullary main_cst_11 (constant S_ .f32 0x00000000#32),
    StableHlo.unary main_cst_11 main_v52 (broadcastInDim S100000x128 ![] bcast_S_S100000x128 : (⟨S_, .f32⟩ : BufTy).Contents (Elt F) → (⟨S100000x128, .f32⟩ : BufTy).Contents (Elt F)),
    StableHlo.unary main_v3 main_v53 (broadcastInDim S600000x1 ![0] bcast_S600000_S600000x1_0 : (⟨S600000, .i32⟩ : BufTy).Contents (Elt F) → (⟨S600000x1, .i32⟩ : BufTy).Contents (Elt F)),
    StableHlo.ternary main_v52 main_v53 main_v51 main_v54 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKA3 : List (Ref sig .tc) := [ main_v42, main_c_9, main_v43, main_v44, main_c_10, main_v45, main_v46, main_v47, main_v48, main_v49, main_v50, main_v51, main_cst_11, main_v52, main_v53, main_v54 ]

theorem KA3_writes : (KA3 : List (HloOp τ sig (Elt F))).Forall fun op => op.writes ⊆ (WrKA3.map (Proc.devRef (τ := τ) .tc)).toFinset := by
  unfold KA3
  simp only [List.Forall, nullary_writes, unary_writes, binary_writes, ternary_writes, quaternary_writes, reshape_writes,
    Finset.singleton_subset_iff, List.mem_toFinset]
  repeat' apply And.intro
  all_goals exact List.mem_map_of_mem (by decide)

theorem keep_KA3 (S : Valuation τ sig (Elt F)) {r : Ref sig .tc} (h : r ∉ WrKA3) :
    after (KA3 (F := F)) S (no_index (Proc.devRef .tc r)) = S (Proc.devRef .tc r) :=
  after_of_writes_sub KA3 S KA3_writes h

set_option maxRecDepth 8192 in
theorem KA3_v54 (S : Valuation τ sig (Elt F)) : after (KA3 (F := F)) S (no_index (Proc.devRef .tc main_v54)) = Cert.ReferenceIdeal.T.hopT (S (Proc.devRef .tc main_v1)) (S (Proc.devRef .tc main_v3)) (S (Proc.devRef .tc main_v28)) (S (Proc.devRef .tc main_v41)) := by
  unfold KA3 Cert.ReferenceIdeal.T.hopT Cert.ReferenceIdeal.T.wrapT
  after_results_simp <;> rfl

/-- Host operations 72 to 87 of this stretch, ending at main_v67. -/
def KA4 : List (HloOp τ sig (Elt F)) :=
  [ StableHlo.unary main_v28 main_v55 (broadcastInDim S600000x1 ![0] bcast_S600000_S600000x1_0 : (⟨S600000, .f32⟩ : BufTy).Contents (Elt F) → (⟨S600000x1, .f32⟩ : BufTy).Contents (Elt F)),
    StableHlo.nullary main_c_12 (constantI S_ 32 0#32),
    StableHlo.unary main_c_12 main_v56 (broadcastInDim S600000 ![] bcast_S_S600000 : (⟨S_, .i32⟩ : BufTy).Contents (Elt F) → (⟨S600000, .i32⟩ : BufTy).Contents (Elt F)),
    StableHlo.binary main_v1 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v58 (broadcastInDim S600000 ![] bcast_S_S600000 : (⟨S_, .i32⟩ : BufTy).Contents (Elt F) → (⟨S600000, .i32⟩ : BufTy).Contents (Elt F)),
    StableHlo.binary main_v1 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v1 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.binary main_v54 main_v61 main_v62 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v55 main_v63 (broadcastInDim S600000x128 ![0, 1] bcast_S600000x1_S600000x128_0_1 : (⟨S600000x1, .f32⟩ : BufTy).Contents (Elt F) → (⟨S600000x128, .f32⟩ : BufTy).Contents (Elt F)),
    StableHlo.binary main_v63 main_v62 main_v64 (mulf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v65 (broadcastInDim S100000x128 ![] bcast_S_S100000x128 : (⟨S_, .f32⟩ : BufTy).Contents (Elt F) → (⟨S100000x128, .f32⟩ : BufTy).Contents (Elt F)),
    StableHlo.unary main_v3 main_v66 (broadcastInDim S600000x1 ![0] bcast_S600000_S600000x1_0 : (⟨S600000, .i32⟩ : BufTy).Contents (Elt F) → (⟨S600000x1, .i32⟩ : BufTy).Contents (Elt F)),
    StableHlo.ternary main_v65 main_v66 main_v64 main_v67 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKA4 : List (Ref sig .tc) := [ main_v55, main_c_12, main_v56, main_v57, main_c_13, main_v58, main_v59, main_v60, main_v61, main_v62, main_v63, main_v64, main_cst_14, main_v65, main_v66, main_v67 ]

theorem KA4_writes : (KA4 : List (HloOp τ sig (Elt F))).Forall fun op => op.writes ⊆ (WrKA4.map (Proc.devRef (τ := τ) .tc)).toFinset := by
  unfold KA4
  simp only [List.Forall, nullary_writes, unary_writes, binary_writes, ternary_writes, quaternary_writes, reshape_writes,
    Finset.singleton_subset_iff, List.mem_toFinset]
  repeat' apply And.intro
  all_goals exact List.mem_map_of_mem (by decide)

theorem keep_KA4 (S : Valuation τ sig (Elt F)) {r : Ref sig .tc} (h : r ∉ WrKA4) :
    after (KA4 (F := F)) S (no_index (Proc.devRef .tc r)) = S (Proc.devRef .tc r) :=
  after_of_writes_sub KA4 S KA4_writes h

set_option maxRecDepth 8192 in
theorem KA4_v67 (S : Valuation τ sig (Elt F)) : after (KA4 (F := F)) S (no_index (Proc.devRef .tc main_v67)) = Cert.ReferenceIdeal.T.hopT (S (Proc.devRef .tc main_v1)) (S (Proc.devRef .tc main_v3)) (S (Proc.devRef .tc main_v28)) (S (Proc.devRef .tc main_v54)) := by
  unfold KA4 Cert.ReferenceIdeal.T.hopT Cert.ReferenceIdeal.T.wrapT
  after_results_simp <;> rfl

/-- Host operations 88 to 88 of this stretch, ending at main_v68. -/
def KA5 : List (HloOp τ sig (Elt F)) :=
  [ StableHlo.reshape main_arg4 main_v68 rfl shapeCasts_S128_S1x128 ]

abbrev WrKA5 : List (Ref sig .tc) := [ main_v68 ]

theorem KA5_writes : (KA5 : List (HloOp τ sig (Elt F))).Forall fun op => op.writes ⊆ (WrKA5.map (Proc.devRef (τ := τ) .tc)).toFinset := by
  unfold KA5
  simp only [List.Forall, nullary_writes, unary_writes, binary_writes, ternary_writes, quaternary_writes, reshape_writes,
    Finset.singleton_subset_iff, List.mem_toFinset]
  repeat' apply And.intro
  all_goals exact List.mem_map_of_mem (by decide)

theorem keep_KA5 (S : Valuation τ sig (Elt F)) {r : Ref sig .tc} (h : r ∉ WrKA5) :
    after (KA5 (F := F)) S (no_index (Proc.devRef .tc r)) = S (Proc.devRef .tc r) :=
  after_of_writes_sub KA5 S KA5_writes h

set_option maxRecDepth 8192 in
theorem KA5_v68 (S : Valuation τ sig (Elt F)) : after (KA5 (F := F)) S (no_index (Proc.devRef .tc main_v68)) = KT.rowT (S (Proc.devRef .tc main_arg4)) := by
  unfold KA5 KT.rowT
  after_results_simp <;> rfl

/-- The stretch is these pieces in order. -/
theorem split_A : (hostOps0 ++ (hostOps0_1 ++ (hostOps0_2)) : List (HloOp τ sig (Elt F))) = KA0 ++ (KA1 ++ (KA2 ++ (KA3 ++ (KA4 ++ (KA5))))) := rfl

end Cert.KernelIdeal.KRead

end
-- ==== Proof.KChunksB.lean ====
/- A stretch of the kernel program's host operations, cut where a named value is complete: each piece, run from any
   contents, leaves its value at the named function of the values it reads — the same functions as the reference's,
   since the two programs spell these operations alike — and leaves every reference it does not write alone. -/
import proofs.«167710_j39049842655736_2_alg».proof.Proof.Terms
import proofs.«167710_j39049842655736_2_alg».proof.Proof.KTerms
import proofs.«167710_j39049842655736_2_alg».proof.Proof.Gen.KernelIdeal.Launch
import Idealize.ShloMosaic.Lib.StableHlo.Run

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Host operations 1 to 24 of this stretch, ending at main_v88. -/
def KB0 : List (HloOp τ sig (Elt F)) :=
  [ StableHlo.reshape main_v69_1 main_v70 rfl shapeCasts_S160x128_S20x8x128,
    StableHlo.unary main_v70 main_v71 ((extractStridedSlice S20x1x128 ![0, 0, 0] · slices_S20x8x128_S20x1x128_0_0_0) : (⟨S20x8x128, .f32⟩ : BufTy).Contents (Elt F) → (⟨S20x1x128, .f32⟩ : BufTy).Contents (Elt F)),
    StableHlo.reshape main_v71 main_v72 rfl shapeCasts_S20x1x128_S20x128,
    StableHlo.nullary main_cst_15 (constant S_ .f32 0x00000000#32),
    StableHlo.binary main_v72 main_cst_15 main_v73 ((fun x v => Host.reduceAdd x v reducesTo_S20x128_S128_d0 h_S_) : (⟨S20x128, .f32⟩ : BufTy).Contents (Elt F) → (⟨S_, .f32⟩ : BufTy).Contents (Elt F) → (⟨S128, .f32⟩ : BufTy).Contents (Elt F)),
    StableHlo.unary main_v70 main_v74 ((extractStridedSlice S20x1x128 ![0, 1, 0] · slices_S20x8x128_S20x1x128_0_1_0) : (⟨S20x8x128, .f32⟩ : BufTy).Contents (Elt F) → (⟨S20x1x128, .f32⟩ : BufTy).Contents (Elt F)),
    StableHlo.reshape main_v74 main_v75 rfl shapeCasts_S20x1x128_S20x128,
    StableHlo.nullary main_cst_16 (constant S_ .f32 0x00000000#32),
    StableHlo.binary main_v75 main_cst_16 main_v76 ((fun x v => Host.reduceAdd x v reducesTo_S20x128_S128_d0 h_S_) : (⟨S20x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v77 (broadcastInDim S128 ![] bcast_S_S128 : (⟨S_, .f32⟩ : BufTy).Contents (Elt F) → (⟨S128, .f32⟩ : BufTy).Contents (Elt F)),
    StableHlo.binary main_v73 main_v77 main_v78 (Host.divf : (⟨S128, .f32⟩ : BufTy).Contents (Elt F) → (⟨S128, .f32⟩ : BufTy).Contents (Elt F) → (⟨S128, .f32⟩ : BufTy).Contents (Elt F)),
    StableHlo.nullary main_cst_18 (constant S_ .f32 0x47C35000#32),
    StableHlo.unary main_cst_18 main_v79 (broadcastInDim S128 ![] bcast_S_S128 : (⟨S_, .f32⟩ : BufTy).Contents (Elt F) → (⟨S128, .f32⟩ : BufTy).Contents (Elt F)),
    StableHlo.binary main_v76 main_v79 main_v80 (Host.divf : (⟨S128, .f32⟩ : BufTy).Contents (Elt F) → (⟨S128, .f32⟩ : BufTy).Contents (Elt F) → (⟨S128, .f32⟩ : BufTy).Contents (Elt F)),
    StableHlo.binary main_v78 main_v78 main_v81 (mulf : (⟨S128, .f32⟩ : BufTy).Contents (Elt F) → (⟨S128, .f32⟩ : BufTy).Contents (Elt F) → (⟨S128, .f32⟩ : BufTy).Contents (Elt F)),
    StableHlo.binary main_v80 main_v81 main_v82 (subf : (⟨S128, .f32⟩ : BufTy).Contents (Elt F) → (⟨S128, .f32⟩ : BufTy).Contents (Elt F) → (⟨S128, .f32⟩ : BufTy).Contents (Elt F)),
    StableHlo.nullary main_cst_19 (constant S_ .f32 0x00000000#32),
    StableHlo.unary main_cst_19 main_v83 (broadcastInDim S128 ![] bcast_S_S128 : (⟨S_, .f32⟩ : BufTy).Contents (Elt F) → (⟨S128, .f32⟩ : BufTy).Contents (Elt F)),
    StableHlo.binary main_v82 main_v83 main_v84 (maximumf : (⟨S128, .f32⟩ : BufTy).Contents (Elt F) → (⟨S128, .f32⟩ : BufTy).Contents (Elt F) → (⟨S128, .f32⟩ : BufTy).Contents (Elt F)),
    StableHlo.reshape main_v78 main_v85 rfl shapeCasts_S128_S1x128,
    StableHlo.reshape main_v84 main_v86 rfl shapeCasts_S128_S1x128,
    StableHlo.reshape main_arg5 main_v87 rfl shapeCasts_S128_S1x128,
    StableHlo.reshape main_arg6 main_v88 rfl shapeCasts_S128_S1x128 ]

abbrev WrKB0 : List (Ref sig .tc) := [ main_v70, main_v71, main_v72, main_cst_15, main_v73, main_v74, main_v75, main_cst_16, main_v76, main_cst_17, main_v77, main_v78, main_cst_18, main_v79, main_v80, main_v81, main_v82, main_cst_19, main_v83, main_v84, main_v85, main_v86, main_v87, main_v88 ]

theorem KB0_writes : (KB0 : List (HloOp τ sig (Elt F))).Forall fun op => op.writes ⊆ (WrKB0.map (Proc.devRef (τ := τ) .tc)).toFinset := by
  unfold KB0
  simp only [List.Forall, nullary_writes, unary_writes, binary_writes, ternary_writes, quaternary_writes, reshape_writes,
    Finset.singleton_subset_iff, List.mem_toFinset]
  repeat' apply And.intro
  all_goals exact List.mem_map_of_mem (by decide)

theorem keep_KB0 (S : Valuation τ sig (Elt F)) {r : Ref sig .tc} (h : r ∉ WrKB0) :
    after (KB0 (F := F)) S (no_index (Proc.devRef .tc r)) = S (Proc.devRef .tc r) :=
  after_of_writes_sub KB0 S KB0_writes h

set_option maxRecDepth 8192 in
theorem KB0_v85 (S : Valuation τ sig (Elt F)) : after (KB0 (F := F)) S (no_index (Proc.devRef .tc main_v85)) = KT.rowT (KT.kmeanT (S (Proc.devRef .tc main_v69_1))) := by
  unfold KB0 KT.rowT KT.kmeanT
  after_results_simp <;> rfl

set_option maxRecDepth 8192 in
theorem KB0_v86 (S : Valuation τ sig (Elt F)) : after (KB0 (F := F)) S (no_index (Proc.devRef .tc main_v86)) = KT.rowT (KT.kvarT (S (Proc.devRef .tc main_v69_1))) := by
  unfold KB0 KT.rowT KT.kvarT KT.kmeanT
  after_results_simp <;> rfl

set_option maxRecDepth 8192 in
theorem KB0_v87 (S : Valuation τ sig (Elt F)) : after (KB0 (F := F)) S (no_index (Proc.devRef .tc main_v87)) = KT.rowT (S (Proc.devRef .tc main_arg5)) := by
  unfold KB0 KT.rowT
  after_results_simp <;> rfl

set_option maxRecDepth 8192 in
theorem KB0_v88 (S : Valuation τ sig (Elt F)) : after (KB0 (F := F)) S (no_index (Proc.devRef .tc main_v88)) = KT.rowT (S (Proc.devRef .tc main_arg6)) := by
  unfold KB0 KT.rowT
  after_results_simp <;> rfl

/-- The stretch is these pieces in order. -/
theorem split_B : (hostOps1 : List (HloOp τ sig (Elt F))) = KB0 := rfl

end Cert.KernelIdeal.KRead

end
-- ==== Proof.KChunksC.lean ====
/- A stretch of the kernel program's host operations, cut where a named value is complete: each piece, run from any
   contents, leaves its value at the named function of the values it reads — the same functions as the reference's,
   since the two programs spell these operations alike — and leaves every reference it does not write alone. -/
import proofs.«167710_j39049842655736_2_alg».proof.Proof.Terms
import proofs.«167710_j39049842655736_2_alg».proof.Proof.KTerms
import proofs.«167710_j39049842655736_2_alg».proof.Proof.Gen.KernelIdeal.Launch
import Idealize.ShloMosaic.Lib.StableHlo.Run

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Host operations 1 to 16 of this stretch, ending at main_v102. -/
def KC0 : List (HloOp τ sig (Elt F)) :=
  [ StableHlo.unary main_v28 main_v90 (broadcastInDim S600000x1 ![0] bcast_S600000_S600000x1_0 : (⟨S600000, .f32⟩ : BufTy).Contents (Elt F) → (⟨S600000x1, .f32⟩ : BufTy).Contents (Elt F)),
    StableHlo.nullary main_c_20 (constantI S_ 32 0#32),
    StableHlo.unary main_c_20 main_v91 (broadcastInDim S600000 ![] bcast_S_S600000 : (⟨S_, .i32⟩ : BufTy).Contents (Elt F) → (⟨S600000, .i32⟩ : BufTy).Contents (Elt F)),
    StableHlo.binary main_v1 main_v91 main_v92 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 100000#32),
    StableHlo.unary main_c_21 main_v93 (broadcastInDim S600000 ![] bcast_S_S600000 : (⟨S_, .i32⟩ : BufTy).Contents (Elt F) → (⟨S600000, .i32⟩ : BufTy).Contents (Elt F)),
    StableHlo.binary main_v1 main_v93 main_v94 (addi : (⟨S600000, .i32⟩ : BufTy).Contents (Elt F) → (⟨S600000, .i32⟩ : BufTy).Contents (Elt F) → (⟨S600000, .i32⟩ : BufTy).Contents (Elt F)),
    StableHlo.ternary main_v92 main_v94 main_v1 main_v95 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v95 main_v96 (broadcastInDim S600000x1 ![0] bcast_S600000_S600000x1_0 : (⟨S600000, .i32⟩ : BufTy).Contents (Elt F) → (⟨S600000x1, .i32⟩ : BufTy).Contents (Elt F)),
    StableHlo.binary main_v89 main_v96 main_v97 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v90 main_v98 (broadcastInDim S600000x128 ![0, 1] bcast_S600000x1_S600000x128_0_1 : (⟨S600000x1, .f32⟩ : BufTy).Contents (Elt F) → (⟨S600000x128, .f32⟩ : BufTy).Contents (Elt F)),
    StableHlo.binary main_v98 main_v97 main_v99 (mulf : (⟨S600000x128, .f32⟩ : BufTy).Contents (Elt F) → (⟨S600000x128, .f32⟩ : BufTy).Contents (Elt F) → (⟨S600000x128, .f32⟩ : BufTy).Contents (Elt F)),
    StableHlo.nullary main_cst_22 (constant S_ .f32 0x00000000#32),
    StableHlo.unary main_cst_22 main_v100 (broadcastInDim S100000x128 ![] bcast_S_S100000x128 : (⟨S_, .f32⟩ : BufTy).Contents (Elt F) → (⟨S100000x128, .f32⟩ : BufTy).Contents (Elt F)),
    StableHlo.unary main_v3 main_v101 (broadcastInDim S600000x1 ![0] bcast_S600000_S600000x1_0 : (⟨S600000, .i32⟩ : BufTy).Contents (Elt F) → (⟨S600000x1, .i32⟩ : BufTy).Contents (Elt F)),
    StableHlo.ternary main_v100 main_v101 main_v99 main_v102 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKC0 : List (Ref sig .tc) := [ main_v90, main_c_20, main_v91, main_v92, main_c_21, main_v93, main_v94, main_v95, main_v96, main_v97, main_v98, main_v99, main_cst_22, main_v100, main_v101, main_v102 ]

theorem KC0_writes : (KC0 : List (HloOp τ sig (Elt F))).Forall fun op => op.writes ⊆ (WrKC0.map (Proc.devRef (τ := τ) .tc)).toFinset := by
  unfold KC0
  simp only [List.Forall, nullary_writes, unary_writes, binary_writes, ternary_writes, quaternary_writes, reshape_writes,
    Finset.singleton_subset_iff, List.mem_toFinset]
  repeat' apply And.intro
  all_goals exact List.mem_map_of_mem (by decide)

theorem keep_KC0 (S : Valuation τ sig (Elt F)) {r : Ref sig .tc} (h : r ∉ WrKC0) :
    after (KC0 (F := F)) S (no_index (Proc.devRef .tc r)) = S (Proc.devRef .tc r) :=
  after_of_writes_sub KC0 S KC0_writes h

set_option maxRecDepth 8192 in
theorem KC0_v102 (S : Valuation τ sig (Elt F)) : after (KC0 (F := F)) S (no_index (Proc.devRef .tc main_v102)) = Cert.ReferenceIdeal.T.hopT (S (Proc.devRef .tc main_v1)) (S (Proc.devRef .tc main_v3)) (S (Proc.devRef .tc main_v28)) (S (Proc.devRef .tc main_v89)) := by
  unfold KC0 Cert.ReferenceIdeal.T.hopT Cert.ReferenceIdeal.T.wrapT
  after_results_simp <;> rfl

/-- Host operations 17 to 32 of this stretch, ending at main_v115. -/
def KC1 : List (HloOp τ sig (Elt F)) :=
  [ StableHlo.unary main_v28 main_v103 (broadcastInDim S600000x1 ![0] bcast_S600000_S600000x1_0 : (⟨S600000, .f32⟩ : BufTy).Contents (Elt F) → (⟨S600000x1, .f32⟩ : BufTy).Contents (Elt F)),
    StableHlo.nullary main_c_23 (constantI S_ 32 0#32),
    StableHlo.unary main_c_23 main_v104 (broadcastInDim S600000 ![] bcast_S_S600000 : (⟨S_, .i32⟩ : BufTy).Contents (Elt F) → (⟨S600000, .i32⟩ : BufTy).Contents (Elt F)),
    StableHlo.binary main_v1 main_v104 main_v105 (cmpi .slt : (⟨S600000, .i32⟩ : BufTy).Contents (Elt F) → (⟨S600000, .i32⟩ : BufTy).Contents (Elt F) → (⟨S600000, .i1⟩ : BufTy).Contents (Elt F)),
    StableHlo.nullary main_c_24 (constantI S_ 32 100000#32),
    StableHlo.unary main_c_24 main_v106 (broadcastInDim S600000 ![] bcast_S_S600000 : (⟨S_, .i32⟩ : BufTy).Contents (Elt F) → (⟨S600000, .i32⟩ : BufTy).Contents (Elt F)),
    StableHlo.binary main_v1 main_v106 main_v107 (addi : (⟨S600000, .i32⟩ : BufTy).Contents (Elt F) → (⟨S600000, .i32⟩ : BufTy).Contents (Elt F) → (⟨S600000, .i32⟩ : BufTy).Contents (Elt F)),
    StableHlo.ternary main_v105 main_v107 main_v1 main_v108 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v108 main_v109 (broadcastInDim S600000x1 ![0] bcast_S600000_S600000x1_0 : (⟨S600000, .i32⟩ : BufTy).Contents (Elt F) → (⟨S600000x1, .i32⟩ : BufTy).Contents (Elt F)),
    StableHlo.binary main_v102 main_v109 main_v110 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v103 main_v111 (broadcastInDim S600000x128 ![0, 1] bcast_S600000x1_S600000x128_0_1 : (⟨S600000x1, .f32⟩ : BufTy).Contents (Elt F) → (⟨S600000x128, .f32⟩ : BufTy).Contents (Elt F)),
    StableHlo.binary main_v111 main_v110 main_v112 (mulf : (⟨S600000x128, .f32⟩ : BufTy).Contents (Elt F) → (⟨S600000x128, .f32⟩ : BufTy).Contents (Elt F) → (⟨S600000x128, .f32⟩ : BufTy).Contents (Elt F)),
    StableHlo.nullary main_cst_25 (constant S_ .f32 0x00000000#32),
    StableHlo.unary main_cst_25 main_v113 (broadcastInDim S100000x128 ![] bcast_S_S100000x128 : (⟨S_, .f32⟩ : BufTy).Contents (Elt F) → (⟨S100000x128, .f32⟩ : BufTy).Contents (Elt F)),
    StableHlo.unary main_v3 main_v114 (broadcastInDim S600000x1 ![0] bcast_S600000_S600000x1_0 : (⟨S600000, .i32⟩ : BufTy).Contents (Elt F) → (⟨S600000x1, .i32⟩ : BufTy).Contents (Elt F)),
    StableHlo.ternary main_v113 main_v114 main_v112 main_v115 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKC1 : List (Ref sig .tc) := [ main_v103, main_c_23, main_v104, main_v105, main_c_24, main_v106, main_v107, main_v108, main_v109, main_v110, main_v111, main_v112, main_cst_25, main_v113, main_v114, main_v115 ]

theorem KC1_writes : (KC1 : List (HloOp τ sig (Elt F))).Forall fun op => op.writes ⊆ (WrKC1.map (Proc.devRef (τ := τ) .tc)).toFinset := by
  unfold KC1
  simp only [List.Forall, nullary_writes, unary_writes, binary_writes, ternary_writes, quaternary_writes, reshape_writes,
    Finset.singleton_subset_iff, List.mem_toFinset]
  repeat' apply And.intro
  all_goals exact List.mem_map_of_mem (by decide)

theorem keep_KC1 (S : Valuation τ sig (Elt F)) {r : Ref sig .tc} (h : r ∉ WrKC1) :
    after (KC1 (F := F)) S (no_index (Proc.devRef .tc r)) = S (Proc.devRef .tc r) :=
  after_of_writes_sub KC1 S KC1_writes h

set_option maxRecDepth 8192 in
theorem KC1_v115 (S : Valuation τ sig (Elt F)) : after (KC1 (F := F)) S (no_index (Proc.devRef .tc main_v115)) = Cert.ReferenceIdeal.T.hopT (S (Proc.devRef .tc main_v1)) (S (Proc.devRef .tc main_v3)) (S (Proc.devRef .tc main_v28)) (S (Proc.devRef .tc main_v102)) := by
  unfold KC1 Cert.ReferenceIdeal.T.hopT Cert.ReferenceIdeal.T.wrapT
  after_results_simp <;> rfl

/-- Host operations 33 to 48 of this stretch, ending at main_v128. -/
def KC2 : List (HloOp τ sig (Elt F)) :=
  [ StableHlo.unary main_v28 main_v116 (broadcastInDim S600000x1 ![0] bcast_S600000_S600000x1_0 : (⟨S600000, .f32⟩ : BufTy).Contents (Elt F) → (⟨S600000x1, .f32⟩ : BufTy).Contents (Elt F)),
    StableHlo.nullary main_c_26 (constantI S_ 32 0#32),
    StableHlo.unary main_c_26 main_v117 (broadcastInDim S600000 ![] bcast_S_S600000 : (⟨S_, .i32⟩ : BufTy).Contents (Elt F) → (⟨S600000, .i32⟩ : BufTy).Contents (Elt F)),
    StableHlo.binary main_v1 main_v117 main_v118 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 100000#32),
    StableHlo.unary main_c_27 main_v119 (broadcastInDim S600000 ![] bcast_S_S600000 : (⟨S_, .i32⟩ : BufTy).Contents (Elt F) → (⟨S600000, .i32⟩ : BufTy).Contents (Elt F)),
    StableHlo.binary main_v1 main_v119 main_v120 (addi : (⟨S600000, .i32⟩ : BufTy).Contents (Elt F) → (⟨S600000, .i32⟩ : BufTy).Contents (Elt F) → (⟨S600000, .i32⟩ : BufTy).Contents (Elt F)),
    StableHlo.ternary main_v118 main_v120 main_v1 main_v121 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v121 main_v122 (broadcastInDim S600000x1 ![0] bcast_S600000_S600000x1_0 : (⟨S600000, .i32⟩ : BufTy).Contents (Elt F) → (⟨S600000x1, .i32⟩ : BufTy).Contents (Elt F)),
    StableHlo.binary main_v115 main_v122 main_v123 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v116 main_v124 (broadcastInDim S600000x128 ![0, 1] bcast_S600000x1_S600000x128_0_1 : (⟨S600000x1, .f32⟩ : BufTy).Contents (Elt F) → (⟨S600000x128, .f32⟩ : BufTy).Contents (Elt F)),
    StableHlo.binary main_v124 main_v123 main_v125 (mulf : (⟨S600000x128, .f32⟩ : BufTy).Contents (Elt F) → (⟨S600000x128, .f32⟩ : BufTy).Contents (Elt F) → (⟨S600000x128, .f32⟩ : BufTy).Contents (Elt F)),
    StableHlo.nullary main_cst_28 (constant S_ .f32 0x00000000#32),
    StableHlo.unary main_cst_28 main_v126 (broadcastInDim S100000x128 ![] bcast_S_S100000x128 : (⟨S_, .f32⟩ : BufTy).Contents (Elt F) → (⟨S100000x128, .f32⟩ : BufTy).Contents (Elt F)),
    StableHlo.unary main_v3 main_v127 (broadcastInDim S600000x1 ![0] bcast_S600000_S600000x1_0 : (⟨S600000, .i32⟩ : BufTy).Contents (Elt F) → (⟨S600000x1, .i32⟩ : BufTy).Contents (Elt F)),
    StableHlo.ternary main_v126 main_v127 main_v125 main_v128 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKC2 : List (Ref sig .tc) := [ main_v116, main_c_26, main_v117, main_v118, main_c_27, main_v119, main_v120, main_v121, main_v122, main_v123, main_v124, main_v125, main_cst_28, main_v126, main_v127, main_v128 ]

theorem KC2_writes : (KC2 : List (HloOp τ sig (Elt F))).Forall fun op => op.writes ⊆ (WrKC2.map (Proc.devRef (τ := τ) .tc)).toFinset := by
  unfold KC2
  simp only [List.Forall, nullary_writes, unary_writes, binary_writes, ternary_writes, quaternary_writes, reshape_writes,
    Finset.singleton_subset_iff, List.mem_toFinset]
  repeat' apply And.intro
  all_goals exact List.mem_map_of_mem (by decide)

theorem keep_KC2 (S : Valuation τ sig (Elt F)) {r : Ref sig .tc} (h : r ∉ WrKC2) :
    after (KC2 (F := F)) S (no_index (Proc.devRef .tc r)) = S (Proc.devRef .tc r) :=
  after_of_writes_sub KC2 S KC2_writes h

set_option maxRecDepth 8192 in
theorem KC2_v128 (S : Valuation τ sig (Elt F)) : after (KC2 (F := F)) S (no_index (Proc.devRef .tc main_v128)) = Cert.ReferenceIdeal.T.hopT (S (Proc.devRef .tc main_v1)) (S (Proc.devRef .tc main_v3)) (S (Proc.devRef .tc main_v28)) (S (Proc.devRef .tc main_v115)) := by
  unfold KC2 Cert.ReferenceIdeal.T.hopT Cert.ReferenceIdeal.T.wrapT
  after_results_simp <;> rfl

/-- Host operations 49 to 49 of this stretch, ending at main_v129. -/
def KC3 : List (HloOp τ sig (Elt F)) :=
  [ StableHlo.reshape main_arg8 main_v129 rfl shapeCasts_S128_S1x128 ]

abbrev WrKC3 : List (Ref sig .tc) := [ main_v129 ]

theorem KC3_writes : (KC3 : List (HloOp τ sig (Elt F))).Forall fun op => op.writes ⊆ (WrKC3.map (Proc.devRef (τ := τ) .tc)).toFinset := by
  unfold KC3
  simp only [List.Forall, nullary_writes, unary_writes, binary_writes, ternary_writes, quaternary_writes, reshape_writes,
    Finset.singleton_subset_iff, List.mem_toFinset]
  repeat' apply And.intro
  all_goals exact List.mem_map_of_mem (by decide)

theorem keep_KC3 (S : Valuation τ sig (Elt F)) {r : Ref sig .tc} (h : r ∉ WrKC3) :
    after (KC3 (F := F)) S (no_index (Proc.devRef .tc r)) = S (Proc.devRef .tc r) :=
  after_of_writes_sub KC3 S KC3_writes h

set_option maxRecDepth 8192 in
theorem KC3_v129 (S : Valuation τ sig (Elt F)) : after (KC3 (F := F)) S (no_index (Proc.devRef .tc main_v129)) = KT.rowT (S (Proc.devRef .tc main_arg8)) := by
  unfold KC3 KT.rowT
  after_results_simp <;> rfl

/-- The stretch is these pieces in order. -/
theorem split_C : (hostOps2 : List (HloOp τ sig (Elt F))) = KC0 ++ (KC1 ++ (KC2 ++ (KC3))) := rfl

end Cert.KernelIdeal.KRead

end
-- ==== Proof.KChunksD.lean ====
/- A stretch of the kernel program's host operations, cut where a named value is complete: each piece, run from any
   contents, leaves its value at the named function of the values it reads — the same functions as the reference's,
   since the two programs spell these operations alike — and leaves every reference it does not write alone. -/
import proofs.«167710_j39049842655736_2_alg».proof.Proof.Terms
import proofs.«167710_j39049842655736_2_alg».proof.Proof.KTerms
import proofs.«167710_j39049842655736_2_alg».proof.Proof.Gen.KernelIdeal.Launch
import Idealize.ShloMosaic.Lib.StableHlo.Run

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Host operations 1 to 24 of this stretch, ending at main_v149. -/
def KD0 : List (HloOp τ sig (Elt F)) :=
  [ StableHlo.reshape main_v130_1 main_v131 rfl shapeCasts_S160x128_S20x8x128,
    StableHlo.unary main_v131 main_v132 ((extractStridedSlice S20x1x128 ![0, 0, 0] · slices_S20x8x128_S20x1x128_0_0_0) : (⟨S20x8x128, .f32⟩ : BufTy).Contents (Elt F) → (⟨S20x1x128, .f32⟩ : BufTy).Contents (Elt F)),
    StableHlo.reshape main_v132 main_v133 rfl shapeCasts_S20x1x128_S20x128,
    StableHlo.nullary main_cst_29 (constant S_ .f32 0x00000000#32),
    StableHlo.binary main_v133 main_cst_29 main_v134 ((fun x v => Host.reduceAdd x v reducesTo_S20x128_S128_d0 h_S_) : (⟨S20x128, .f32⟩ : BufTy).Contents (Elt F) → (⟨S_, .f32⟩ : BufTy).Contents (Elt F) → (⟨S128, .f32⟩ : BufTy).Contents (Elt F)),
    StableHlo.unary main_v131 main_v135 ((extractStridedSlice S20x1x128 ![0, 1, 0] · slices_S20x8x128_S20x1x128_0_1_0) : (⟨S20x8x128, .f32⟩ : BufTy).Contents (Elt F) → (⟨S20x1x128, .f32⟩ : BufTy).Contents (Elt F)),
    StableHlo.reshape main_v135 main_v136 rfl shapeCasts_S20x1x128_S20x128,
    StableHlo.nullary main_cst_30 (constant S_ .f32 0x00000000#32),
    StableHlo.binary main_v136 main_cst_30 main_v137 ((fun x v => Host.reduceAdd x v reducesTo_S20x128_S128_d0 h_S_) : (⟨S20x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v138 (broadcastInDim S128 ![] bcast_S_S128 : (⟨S_, .f32⟩ : BufTy).Contents (Elt F) → (⟨S128, .f32⟩ : BufTy).Contents (Elt F)),
    StableHlo.binary main_v134 main_v138 main_v139 (Host.divf : (⟨S128, .f32⟩ : BufTy).Contents (Elt F) → (⟨S128, .f32⟩ : BufTy).Contents (Elt F) → (⟨S128, .f32⟩ : BufTy).Contents (Elt F)),
    StableHlo.nullary main_cst_32 (constant S_ .f32 0x47C35000#32),
    StableHlo.unary main_cst_32 main_v140 (broadcastInDim S128 ![] bcast_S_S128 : (⟨S_, .f32⟩ : BufTy).Contents (Elt F) → (⟨S128, .f32⟩ : BufTy).Contents (Elt F)),
    StableHlo.binary main_v137 main_v140 main_v141 (Host.divf : (⟨S128, .f32⟩ : BufTy).Contents (Elt F) → (⟨S128, .f32⟩ : BufTy).Contents (Elt F) → (⟨S128, .f32⟩ : BufTy).Contents (Elt F)),
    StableHlo.binary main_v139 main_v139 main_v142 (mulf : (⟨S128, .f32⟩ : BufTy).Contents (Elt F) → (⟨S128, .f32⟩ : BufTy).Contents (Elt F) → (⟨S128, .f32⟩ : BufTy).Contents (Elt F)),
    StableHlo.binary main_v141 main_v142 main_v143 (subf : (⟨S128, .f32⟩ : BufTy).Contents (Elt F) → (⟨S128, .f32⟩ : BufTy).Contents (Elt F) → (⟨S128, .f32⟩ : BufTy).Contents (Elt F)),
    StableHlo.nullary main_cst_33 (constant S_ .f32 0x00000000#32),
    StableHlo.unary main_cst_33 main_v144 (broadcastInDim S128 ![] bcast_S_S128 : (⟨S_, .f32⟩ : BufTy).Contents (Elt F) → (⟨S128, .f32⟩ : BufTy).Contents (Elt F)),
    StableHlo.binary main_v143 main_v144 main_v145 (maximumf : (⟨S128, .f32⟩ : BufTy).Contents (Elt F) → (⟨S128, .f32⟩ : BufTy).Contents (Elt F) → (⟨S128, .f32⟩ : BufTy).Contents (Elt F)),
    StableHlo.reshape main_v139 main_v146 rfl shapeCasts_S128_S1x128,
    StableHlo.reshape main_v145 main_v147 rfl shapeCasts_S128_S1x128,
    StableHlo.reshape main_arg9 main_v148 rfl shapeCasts_S128_S1x128,
    StableHlo.reshape main_arg10 main_v149 rfl shapeCasts_S128_S1x128 ]

abbrev WrKD0 : List (Ref sig .tc) := [ main_v131, main_v132, main_v133, main_cst_29, main_v134, main_v135, main_v136, main_cst_30, main_v137, main_cst_31, main_v138, main_v139, main_cst_32, main_v140, main_v141, main_v142, main_v143, main_cst_33, main_v144, main_v145, main_v146, main_v147, main_v148, main_v149 ]

theorem KD0_writes : (KD0 : List (HloOp τ sig (Elt F))).Forall fun op => op.writes ⊆ (WrKD0.map (Proc.devRef (τ := τ) .tc)).toFinset := by
  unfold KD0
  simp only [List.Forall, nullary_writes, unary_writes, binary_writes, ternary_writes, quaternary_writes, reshape_writes,
    Finset.singleton_subset_iff, List.mem_toFinset]
  repeat' apply And.intro
  all_goals exact List.mem_map_of_mem (by decide)

theorem keep_KD0 (S : Valuation τ sig (Elt F)) {r : Ref sig .tc} (h : r ∉ WrKD0) :
    after (KD0 (F := F)) S (no_index (Proc.devRef .tc r)) = S (Proc.devRef .tc r) :=
  after_of_writes_sub KD0 S KD0_writes h

set_option maxRecDepth 8192 in
theorem KD0_v146 (S : Valuation τ sig (Elt F)) : after (KD0 (F := F)) S (no_index (Proc.devRef .tc main_v146)) = KT.rowT (KT.kmeanT (S (Proc.devRef .tc main_v130_1))) := by
  unfold KD0 KT.rowT KT.kmeanT
  after_results_simp <;> rfl

set_option maxRecDepth 8192 in
theorem KD0_v147 (S : Valuation τ sig (Elt F)) : after (KD0 (F := F)) S (no_index (Proc.devRef .tc main_v147)) = KT.rowT (KT.kvarT (S (Proc.devRef .tc main_v130_1))) := by
  unfold KD0 KT.rowT KT.kvarT KT.kmeanT
  after_results_simp <;> rfl

set_option maxRecDepth 8192 in
theorem KD0_v148 (S : Valuation τ sig (Elt F)) : after (KD0 (F := F)) S (no_index (Proc.devRef .tc main_v148)) = KT.rowT (S (Proc.devRef .tc main_arg9)) := by
  unfold KD0 KT.rowT
  after_results_simp <;> rfl

set_option maxRecDepth 8192 in
theorem KD0_v149 (S : Valuation τ sig (Elt F)) : after (KD0 (F := F)) S (no_index (Proc.devRef .tc main_v149)) = KT.rowT (S (Proc.devRef .tc main_arg10)) := by
  unfold KD0 KT.rowT
  after_results_simp <;> rfl

/-- The stretch is these pieces in order. -/
theorem split_D : (hostOps3 : List (HloOp τ sig (Elt F))) = KD0 := rfl

end Cert.KernelIdeal.KRead

end
-- ==== Proof.KChunksE.lean ====
/- A stretch of the kernel program's host operations, cut where a named value is complete: each piece, run from any
   contents, leaves its value at the named function of the values it reads — the same functions as the reference's,
   since the two programs spell these operations alike — and leaves every reference it does not write alone. -/
import proofs.«167710_j39049842655736_2_alg».proof.Proof.Terms
import proofs.«167710_j39049842655736_2_alg».proof.Proof.KTerms
import proofs.«167710_j39049842655736_2_alg».proof.Proof.Gen.KernelIdeal.Launch
import Idealize.ShloMosaic.Lib.StableHlo.Run

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Host operations 1 to 16 of this stretch, ending at main_v163. -/
def KE0 : List (HloOp τ sig (Elt F)) :=
  [ StableHlo.unary main_v28 main_v151 (broadcastInDim S600000x1 ![0] bcast_S600000_S600000x1_0 : (⟨S600000, .f32⟩ : BufTy).Contents (Elt F) → (⟨S600000x1, .f32⟩ : BufTy).Contents (Elt F)),
    StableHlo.nullary main_c_34 (constantI S_ 32 0#32),
    StableHlo.unary main_c_34 main_v152 (broadcastInDim S600000 ![] bcast_S_S600000 : (⟨S_, .i32⟩ : BufTy).Contents (Elt F) → (⟨S600000, .i32⟩ : BufTy).Contents (Elt F)),
    StableHlo.binary main_v1 main_v152 main_v153 (cmpi .slt : (⟨S600000, .i32⟩ : BufTy).Contents (Elt F) → (⟨S600000, .i32⟩ : BufTy).Contents (Elt F) → (⟨S600000, .i1⟩ : BufTy).Contents (Elt F)),
    StableHlo.nullary main_c_35 (constantI S_ 32 100000#32),
    StableHlo.unary main_c_35 main_v154 (broadcastInDim S600000 ![] bcast_S_S600000 : (⟨S_, .i32⟩ : BufTy).Contents (Elt F) → (⟨S600000, .i32⟩ : BufTy).Contents (Elt F)),
    StableHlo.binary main_v1 main_v154 main_v155 (addi : (⟨S600000, .i32⟩ : BufTy).Contents (Elt F) → (⟨S600000, .i32⟩ : BufTy).Contents (Elt F) → (⟨S600000, .i32⟩ : BufTy).Contents (Elt F)),
    StableHlo.ternary main_v153 main_v155 main_v1 main_v156 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v156 main_v157 (broadcastInDim S600000x1 ![0] bcast_S600000_S600000x1_0 : (⟨S600000, .i32⟩ : BufTy).Contents (Elt F) → (⟨S600000x1, .i32⟩ : BufTy).Contents (Elt F)),
    StableHlo.binary main_v150 main_v157 main_v158 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v151 main_v159 (broadcastInDim S600000x128 ![0, 1] bcast_S600000x1_S600000x128_0_1 : (⟨S600000x1, .f32⟩ : BufTy).Contents (Elt F) → (⟨S600000x128, .f32⟩ : BufTy).Contents (Elt F)),
    StableHlo.binary main_v159 main_v158 main_v160 (mulf : (⟨S600000x128, .f32⟩ : BufTy).Contents (Elt F) → (⟨S600000x128, .f32⟩ : BufTy).Contents (Elt F) → (⟨S600000x128, .f32⟩ : BufTy).Contents (Elt F)),
    StableHlo.nullary main_cst_36 (constant S_ .f32 0x00000000#32),
    StableHlo.unary main_cst_36 main_v161 (broadcastInDim S100000x128 ![] bcast_S_S100000x128 : (⟨S_, .f32⟩ : BufTy).Contents (Elt F) → (⟨S100000x128, .f32⟩ : BufTy).Contents (Elt F)),
    StableHlo.unary main_v3 main_v162 (broadcastInDim S600000x1 ![0] bcast_S600000_S600000x1_0 : (⟨S600000, .i32⟩ : BufTy).Contents (Elt F) → (⟨S600000x1, .i32⟩ : BufTy).Contents (Elt F)),
    StableHlo.ternary main_v161 main_v162 main_v160 main_v163 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKE0 : List (Ref sig .tc) := [ main_v151, main_c_34, main_v152, main_v153, main_c_35, main_v154, main_v155, main_v156, main_v157, main_v158, main_v159, main_v160, main_cst_36, main_v161, main_v162, main_v163 ]

theorem KE0_writes : (KE0 : List (HloOp τ sig (Elt F))).Forall fun op => op.writes ⊆ (WrKE0.map (Proc.devRef (τ := τ) .tc)).toFinset := by
  unfold KE0
  simp only [List.Forall, nullary_writes, unary_writes, binary_writes, ternary_writes, quaternary_writes, reshape_writes,
    Finset.singleton_subset_iff, List.mem_toFinset]
  repeat' apply And.intro
  all_goals exact List.mem_map_of_mem (by decide)

theorem keep_KE0 (S : Valuation τ sig (Elt F)) {r : Ref sig .tc} (h : r ∉ WrKE0) :
    after (KE0 (F := F)) S (no_index (Proc.devRef .tc r)) = S (Proc.devRef .tc r) :=
  after_of_writes_sub KE0 S KE0_writes h

set_option maxRecDepth 8192 in
theorem KE0_v163 (S : Valuation τ sig (Elt F)) : after (KE0 (F := F)) S (no_index (Proc.devRef .tc main_v163)) = Cert.ReferenceIdeal.T.hopT (S (Proc.devRef .tc main_v1)) (S (Proc.devRef .tc main_v3)) (S (Proc.devRef .tc main_v28)) (S (Proc.devRef .tc main_v150)) := by
  unfold KE0 Cert.ReferenceIdeal.T.hopT Cert.ReferenceIdeal.T.wrapT
  after_results_simp <;> rfl

/-- Host operations 17 to 32 of this stretch, ending at main_v176. -/
def KE1 : List (HloOp τ sig (Elt F)) :=
  [ StableHlo.unary main_v28 main_v164 (broadcastInDim S600000x1 ![0] bcast_S600000_S600000x1_0 : (⟨S600000, .f32⟩ : BufTy).Contents (Elt F) → (⟨S600000x1, .f32⟩ : BufTy).Contents (Elt F)),
    StableHlo.nullary main_c_37 (constantI S_ 32 0#32),
    StableHlo.unary main_c_37 main_v165 (broadcastInDim S600000 ![] bcast_S_S600000 : (⟨S_, .i32⟩ : BufTy).Contents (Elt F) → (⟨S600000, .i32⟩ : BufTy).Contents (Elt F)),
    StableHlo.binary main_v1 main_v165 main_v166 (cmpi .slt : (⟨S600000, .i32⟩ : BufTy).Contents (Elt F) → (⟨S600000, .i32⟩ : BufTy).Contents (Elt F) → (⟨S600000, .i1⟩ : BufTy).Contents (Elt F)),
    StableHlo.nullary main_c_38 (constantI S_ 32 100000#32),
    StableHlo.unary main_c_38 main_v167 (broadcastInDim S600000 ![] bcast_S_S600000 : (⟨S_, .i32⟩ : BufTy).Contents (Elt F) → (⟨S600000, .i32⟩ : BufTy).Contents (Elt F)),
    StableHlo.binary main_v1 main_v167 main_v168 (addi : (⟨S600000, .i32⟩ : BufTy).Contents (Elt F) → (⟨S600000, .i32⟩ : BufTy).Contents (Elt F) → (⟨S600000, .i32⟩ : BufTy).Contents (Elt F)),
    StableHlo.ternary main_v166 main_v168 main_v1 main_v169 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v169 main_v170 (broadcastInDim S600000x1 ![0] bcast_S600000_S600000x1_0 : (⟨S600000, .i32⟩ : BufTy).Contents (Elt F) → (⟨S600000x1, .i32⟩ : BufTy).Contents (Elt F)),
    StableHlo.binary main_v163 main_v170 main_v171 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v164 main_v172 (broadcastInDim S600000x128 ![0, 1] bcast_S600000x1_S600000x128_0_1 : (⟨S600000x1, .f32⟩ : BufTy).Contents (Elt F) → (⟨S600000x128, .f32⟩ : BufTy).Contents (Elt F)),
    StableHlo.binary main_v172 main_v171 main_v173 (mulf : (⟨S600000x128, .f32⟩ : BufTy).Contents (Elt F) → (⟨S600000x128, .f32⟩ : BufTy).Contents (Elt F) → (⟨S600000x128, .f32⟩ : BufTy).Contents (Elt F)),
    StableHlo.nullary main_cst_39 (constant S_ .f32 0x00000000#32),
    StableHlo.unary main_cst_39 main_v174 (broadcastInDim S100000x128 ![] bcast_S_S100000x128 : (⟨S_, .f32⟩ : BufTy).Contents (Elt F) → (⟨S100000x128, .f32⟩ : BufTy).Contents (Elt F)),
    StableHlo.unary main_v3 main_v175 (broadcastInDim S600000x1 ![0] bcast_S600000_S600000x1_0 : (⟨S600000, .i32⟩ : BufTy).Contents (Elt F) → (⟨S600000x1, .i32⟩ : BufTy).Contents (Elt F)),
    StableHlo.ternary main_v174 main_v175 main_v173 main_v176 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKE1 : List (Ref sig .tc) := [ main_v164, main_c_37, main_v165, main_v166, main_c_38, main_v167, main_v168, main_v169, main_v170, main_v171, main_v172, main_v173, main_cst_39, main_v174, main_v175, main_v176 ]

theorem KE1_writes : (KE1 : List (HloOp τ sig (Elt F))).Forall fun op => op.writes ⊆ (WrKE1.map (Proc.devRef (τ := τ) .tc)).toFinset := by
  unfold KE1
  simp only [List.Forall, nullary_writes, unary_writes, binary_writes, ternary_writes, quaternary_writes, reshape_writes,
    Finset.singleton_subset_iff, List.mem_toFinset]
  repeat' apply And.intro
  all_goals exact List.mem_map_of_mem (by decide)

theorem keep_KE1 (S : Valuation τ sig (Elt F)) {r : Ref sig .tc} (h : r ∉ WrKE1) :
    after (KE1 (F := F)) S (no_index (Proc.devRef .tc r)) = S (Proc.devRef .tc r) :=
  after_of_writes_sub KE1 S KE1_writes h

set_option maxRecDepth 8192 in
theorem KE1_v176 (S : Valuation τ sig (Elt F)) : after (KE1 (F := F)) S (no_index (Proc.devRef .tc main_v176)) = Cert.ReferenceIdeal.T.hopT (S (Proc.devRef .tc main_v1)) (S (Proc.devRef .tc main_v3)) (S (Proc.devRef .tc main_v28)) (S (Proc.devRef .tc main_v163)) := by
  unfold KE1 Cert.ReferenceIdeal.T.hopT Cert.ReferenceIdeal.T.wrapT
  after_results_simp <;> rfl

/-- Host operations 33 to 48 of this stretch, ending at main_v189. -/
def KE2 : List (HloOp τ sig (Elt F)) :=
  [ StableHlo.unary main_v28 main_v177 (broadcastInDim S600000x1 ![0] bcast_S600000_S600000x1_0 : (⟨S600000, .f32⟩ : BufTy).Contents (Elt F) → (⟨S600000x1, .f32⟩ : BufTy).Contents (Elt F)),
    StableHlo.nullary main_c_40 (constantI S_ 32 0#32),
    StableHlo.unary main_c_40 main_v178 (broadcastInDim S600000 ![] bcast_S_S600000 : (⟨S_, .i32⟩ : BufTy).Contents (Elt F) → (⟨S600000, .i32⟩ : BufTy).Contents (Elt F)),
    StableHlo.binary main_v1 main_v178 main_v179 (cmpi .slt : (⟨S600000, .i32⟩ : BufTy).Contents (Elt F) → (⟨S600000, .i32⟩ : BufTy).Contents (Elt F) → (⟨S600000, .i1⟩ : BufTy).Contents (Elt F)),
    StableHlo.nullary main_c_41 (constantI S_ 32 100000#32),
    StableHlo.unary main_c_41 main_v180 (broadcastInDim S600000 ![] bcast_S_S600000 : (⟨S_, .i32⟩ : BufTy).Contents (Elt F) → (⟨S600000, .i32⟩ : BufTy).Contents (Elt F)),
    StableHlo.binary main_v1 main_v180 main_v181 (addi : (⟨S600000, .i32⟩ : BufTy).Contents (Elt F) → (⟨S600000, .i32⟩ : BufTy).Contents (Elt F) → (⟨S600000, .i32⟩ : BufTy).Contents (Elt F)),
    StableHlo.ternary main_v179 main_v181 main_v1 main_v182 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v182 main_v183 (broadcastInDim S600000x1 ![0] bcast_S600000_S600000x1_0 : (⟨S600000, .i32⟩ : BufTy).Contents (Elt F) → (⟨S600000x1, .i32⟩ : BufTy).Contents (Elt F)),
    StableHlo.binary main_v176 main_v183 main_v184 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.unary main_v177 main_v185 (broadcastInDim S600000x128 ![0, 1] bcast_S600000x1_S600000x128_0_1 : (⟨S600000x1, .f32⟩ : BufTy).Contents (Elt F) → (⟨S600000x128, .f32⟩ : BufTy).Contents (Elt F)),
    StableHlo.binary main_v185 main_v184 main_v186 (mulf : (⟨S600000x128, .f32⟩ : BufTy).Contents (Elt F) → (⟨S600000x128, .f32⟩ : BufTy).Contents (Elt F) → (⟨S600000x128, .f32⟩ : BufTy).Contents (Elt F)),
    StableHlo.nullary main_cst_42 (constant S_ .f32 0x00000000#32),
    StableHlo.unary main_cst_42 main_v187 (broadcastInDim S100000x128 ![] bcast_S_S100000x128 : (⟨S_, .f32⟩ : BufTy).Contents (Elt F) → (⟨S100000x128, .f32⟩ : BufTy).Contents (Elt F)),
    StableHlo.unary main_v3 main_v188 (broadcastInDim S600000x1 ![0] bcast_S600000_S600000x1_0 : (⟨S600000, .i32⟩ : BufTy).Contents (Elt F) → (⟨S600000x1, .i32⟩ : BufTy).Contents (Elt F)),
    StableHlo.ternary main_v187 main_v188 main_v186 main_v189 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

abbrev WrKE2 : List (Ref sig .tc) := [ main_v177, main_c_40, main_v178, main_v179, main_c_41, main_v180, main_v181, main_v182, main_v183, main_v184, main_v185, main_v186, main_cst_42, main_v187, main_v188, main_v189 ]

theorem KE2_writes : (KE2 : List (HloOp τ sig (Elt F))).Forall fun op => op.writes ⊆ (WrKE2.map (Proc.devRef (τ := τ) .tc)).toFinset := by
  unfold KE2
  simp only [List.Forall, nullary_writes, unary_writes, binary_writes, ternary_writes, quaternary_writes, reshape_writes,
    Finset.singleton_subset_iff, List.mem_toFinset]
  repeat' apply And.intro
  all_goals exact List.mem_map_of_mem (by decide)

theorem keep_KE2 (S : Valuation τ sig (Elt F)) {r : Ref sig .tc} (h : r ∉ WrKE2) :
    after (KE2 (F := F)) S (no_index (Proc.devRef .tc r)) = S (Proc.devRef .tc r) :=
  after_of_writes_sub KE2 S KE2_writes h

set_option maxRecDepth 8192 in
theorem KE2_v189 (S : Valuation τ sig (Elt F)) : after (KE2 (F := F)) S (no_index (Proc.devRef .tc main_v189)) = Cert.ReferenceIdeal.T.hopT (S (Proc.devRef .tc main_v1)) (S (Proc.devRef .tc main_v3)) (S (Proc.devRef .tc main_v28)) (S (Proc.devRef .tc main_v176)) := by
  unfold KE2 Cert.ReferenceIdeal.T.hopT Cert.ReferenceIdeal.T.wrapT
  after_results_simp <;> rfl

/-- Host operations 49 to 51 of this stretch, ending at main_v191. -/
def KE3 : List (HloOp τ sig (Elt F)) :=
  [ StableHlo.nullary main_cst_43 (constant S_ .f32 0x00000000#32),
    StableHlo.unary main_cst_43 main_v190 (broadcastInDim S64 ![] bcast_S_S64 : (⟨S_, .f32⟩ : BufTy).Contents (Elt F) → (⟨S64, .f32⟩ : BufTy).Contents (Elt F)),
    StableHlo.reshape main_v190 main_v191 rfl shapeCasts_S64_S1x64 ]

abbrev WrKE3 : List (Ref sig .tc) := [ main_cst_43, main_v190, main_v191 ]

theorem KE3_writes : (KE3 : List (HloOp τ sig (Elt F))).Forall fun op => op.writes ⊆ (WrKE3.map (Proc.devRef (τ := τ) .tc)).toFinset := by
  unfold KE3
  simp only [List.Forall, nullary_writes, unary_writes, binary_writes, ternary_writes, quaternary_writes, reshape_writes,
    Finset.singleton_subset_iff, List.mem_toFinset]
  repeat' apply And.intro
  all_goals exact List.mem_map_of_mem (by decide)

theorem keep_KE3 (S : Valuation τ sig (Elt F)) {r : Ref sig .tc} (h : r ∉ WrKE3) :
    after (KE3 (F := F)) S (no_index (Proc.devRef .tc r)) = S (Proc.devRef .tc r) :=
  after_of_writes_sub KE3 S KE3_writes h

set_option maxRecDepth 8192 in
theorem KE3_v191 (S : Valuation τ sig (Elt F)) : after (KE3 (F := F)) S (no_index (Proc.devRef .tc main_v191)) = KT.zrowU := by
  unfold KE3 KT.zrowU
  after_results_simp <;> rfl

/-- The stretch is these pieces in order. -/
theorem split_E : (hostOps4 : List (HloOp τ sig (Elt F))) = KE0 ++ (KE1 ++ (KE2 ++ (KE3))) := rfl

end Cert.KernelIdeal.KRead

end
-- ==== Proof.KChunksF.lean ====
/- A stretch of the kernel program's host operations, cut where a named value is complete: each piece, run from any
   contents, leaves its value at the named function of the values it reads — the same functions as the reference's,
   since the two programs spell these operations alike — and leaves every reference it does not write alone. -/
import proofs.«167710_j39049842655736_2_alg».proof.Proof.Terms
import proofs.«167710_j39049842655736_2_alg».proof.Proof.KTerms
import proofs.«167710_j39049842655736_2_alg».proof.Proof.Gen.KernelIdeal.Launch
import Idealize.ShloMosaic.Lib.StableHlo.Run

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Host operations 1 to 24 of this stretch, ending at main_v211. -/
def KF0 : List (HloOp τ sig (Elt F)) :=
  [ StableHlo.reshape main_v192_1 main_v193 rfl shapeCasts_S160x64_S20x8x64,
    StableHlo.unary main_v193 main_v194 ((extractStridedSlice S20x1x64 ![0, 0, 0] · slices_S20x8x64_S20x1x64_0_0_0) : (⟨S20x8x64, .f32⟩ : BufTy).Contents (Elt F) → (⟨S20x1x64, .f32⟩ : BufTy).Contents (Elt F)),
    StableHlo.reshape main_v194 main_v195 rfl shapeCasts_S20x1x64_S20x64,
    StableHlo.nullary main_cst_44 (constant S_ .f32 0x00000000#32),
    StableHlo.binary main_v195 main_cst_44 main_v196 ((fun x v => Host.reduceAdd x v reducesTo_S20x64_S64_d0 h_S_) : (⟨S20x64, .f32⟩ : BufTy).Contents (Elt F) → (⟨S_, .f32⟩ : BufTy).Contents (Elt F) → (⟨S64, .f32⟩ : BufTy).Contents (Elt F)),
    StableHlo.unary main_v193 main_v197 ((extractStridedSlice S20x1x64 ![0, 1, 0] · slices_S20x8x64_S20x1x64_0_1_0) : (⟨S20x8x64, .f32⟩ : BufTy).Contents (Elt F) → (⟨S20x1x64, .f32⟩ : BufTy).Contents (Elt F)),
    StableHlo.reshape main_v197 main_v198 rfl shapeCasts_S20x1x64_S20x64,
    StableHlo.nullary main_cst_45 (constant S_ .f32 0x00000000#32),
    StableHlo.binary main_v198 main_cst_45 main_v199 ((fun x v => Host.reduceAdd x v reducesTo_S20x64_S64_d0 h_S_) : (⟨S20x64, .f32⟩ : BufTy).Contents (Elt F) → (⟨S_, .f32⟩ : BufTy).Contents (Elt F) → (⟨S64, .f32⟩ : BufTy).Contents (Elt F)),
    StableHlo.nullary main_cst_46 (constant S_ .f32 0x47C35000#32),
    StableHlo.unary main_cst_46 main_v200 (broadcastInDim S64 ![] bcast_S_S64 : (⟨S_, .f32⟩ : BufTy).Contents (Elt F) → (⟨S64, .f32⟩ : BufTy).Contents (Elt F)),
    StableHlo.binary main_v196 main_v200 main_v201 (Host.divf : (⟨S64, .f32⟩ : BufTy).Contents (Elt F) → (⟨S64, .f32⟩ : BufTy).Contents (Elt F) → (⟨S64, .f32⟩ : BufTy).Contents (Elt F)),
    StableHlo.nullary main_cst_47 (constant S_ .f32 0x47C35000#32),
    StableHlo.unary main_cst_47 main_v202 (broadcastInDim S64 ![] bcast_S_S64 : (⟨S_, .f32⟩ : BufTy).Contents (Elt F) → (⟨S64, .f32⟩ : BufTy).Contents (Elt F)),
    StableHlo.binary main_v199 main_v202 main_v203 (Host.divf : (⟨S64, .f32⟩ : BufTy).Contents (Elt F) → (⟨S64, .f32⟩ : BufTy).Contents (Elt F) → (⟨S64, .f32⟩ : BufTy).Contents (Elt F)),
    StableHlo.binary main_v201 main_v201 main_v204 (mulf : (⟨S64, .f32⟩ : BufTy).Contents (Elt F) → (⟨S64, .f32⟩ : BufTy).Contents (Elt F) → (⟨S64, .f32⟩ : BufTy).Contents (Elt F)),
    StableHlo.binary main_v203 main_v204 main_v205 (subf : (⟨S64, .f32⟩ : BufTy).Contents (Elt F) → (⟨S64, .f32⟩ : BufTy).Contents (Elt F) → (⟨S64, .f32⟩ : BufTy).Contents (Elt F)),
    StableHlo.nullary main_cst_48 (constant S_ .f32 0x00000000#32),
    StableHlo.unary main_cst_48 main_v206 (broadcastInDim S64 ![] bcast_S_S64 : (⟨S_, .f32⟩ : BufTy).Contents (Elt F) → (⟨S64, .f32⟩ : BufTy).Contents (Elt F)),
    StableHlo.binary main_v205 main_v206 main_v207 (maximumf : (⟨S64, .f32⟩ : BufTy).Contents (Elt F) → (⟨S64, .f32⟩ : BufTy).Contents (Elt F) → (⟨S64, .f32⟩ : BufTy).Contents (Elt F)),
    StableHlo.reshape main_v201 main_v208 rfl shapeCasts_S64_S1x64,
    StableHlo.reshape main_v207 main_v209 rfl shapeCasts_S64_S1x64,
    StableHlo.reshape main_arg12 main_v210 rfl shapeCasts_S64_S1x64,
    StableHlo.reshape main_arg13 main_v211 rfl shapeCasts_S64_S1x64 ]

abbrev WrKF0 : List (Ref sig .tc) := [ main_v193, main_v194, main_v195, main_cst_44, main_v196, main_v197, main_v198, main_cst_45, main_v199, main_cst_46, main_v200, main_v201, main_cst_47, main_v202, main_v203, main_v204, main_v205, main_cst_48, main_v206, main_v207, main_v208, main_v209, main_v210, main_v211 ]

theorem KF0_writes : (KF0 : List (HloOp τ sig (Elt F))).Forall fun op => op.writes ⊆ (WrKF0.map (Proc.devRef (τ := τ) .tc)).toFinset := by
  unfold KF0
  simp only [List.Forall, nullary_writes, unary_writes, binary_writes, ternary_writes, quaternary_writes, reshape_writes,
    Finset.singleton_subset_iff, List.mem_toFinset]
  repeat' apply And.intro
  all_goals exact List.mem_map_of_mem (by decide)

theorem keep_KF0 (S : Valuation τ sig (Elt F)) {r : Ref sig .tc} (h : r ∉ WrKF0) :
    after (KF0 (F := F)) S (no_index (Proc.devRef .tc r)) = S (Proc.devRef .tc r) :=
  after_of_writes_sub KF0 S KF0_writes h

set_option maxRecDepth 8192 in
theorem KF0_v208 (S : Valuation τ sig (Elt F)) : after (KF0 (F := F)) S (no_index (Proc.devRef .tc main_v208)) = KT.rowU (KT.kmeanU (S (Proc.devRef .tc main_v192_1))) := by
  unfold KF0 KT.rowU KT.kmeanU
  after_results_simp <;> rfl

set_option maxRecDepth 8192 in
theorem KF0_v209 (S : Valuation τ sig (Elt F)) : after (KF0 (F := F)) S (no_index (Proc.devRef .tc main_v209)) = KT.rowU (KT.kvarU (S (Proc.devRef .tc main_v192_1))) := by
  unfold KF0 KT.rowU KT.kvarU KT.kmeanU
  after_results_simp <;> rfl

set_option maxRecDepth 8192 in
theorem KF0_v210 (S : Valuation τ sig (Elt F)) : after (KF0 (F := F)) S (no_index (Proc.devRef .tc main_v210)) = KT.rowU (S (Proc.devRef .tc main_arg12)) := by
  unfold KF0 KT.rowU
  after_results_simp <;> rfl

set_option maxRecDepth 8192 in
theorem KF0_v211 (S : Valuation τ sig (Elt F)) : after (KF0 (F := F)) S (no_index (Proc.devRef .tc main_v211)) = KT.rowU (S (Proc.devRef .tc main_arg13)) := by
  unfold KF0 KT.rowU
  after_results_simp <;> rfl

/-- The stretch is these pieces in order. -/
theorem split_F : (hostOps5 : List (HloOp τ sig (Elt F))) = KF0 := rfl

end Cert.KernelIdeal.KRead

end
-- ==== Proof.KStretch.lean ====
/- The kernel program's six stretches of host operations, each read as a whole: run from any contents, a stretch leaves
   each of its named values at the composition of the named functions of the contents it started from, and leaves
   what it does not write alone. -/
import proofs.«167710_j39049842655736_2_alg».proof.Proof.AfterLib
import proofs.«167710_j39049842655736_2_alg».proof.Proof.KChunksA
import proofs.«167710_j39049842655736_2_alg».proof.Proof.KChunksB
import proofs.«167710_j39049842655736_2_alg».proof.Proof.KChunksC
import proofs.«167710_j39049842655736_2_alg».proof.Proof.KChunksD
import proofs.«167710_j39049842655736_2_alg».proof.Proof.KChunksE
import proofs.«167710_j39049842655736_2_alg».proof.Proof.KChunksF

noncomputable section

namespace Cert.KernelIdeal.KRead

open Cert.KernelIdeal Cert.KernelIdeal.Gen Idealize.ShloMosaic Idealize.ShloMosaic.TcCoe Idealize.SL.Sem Idealize.ShloMosaic.StableHlo

variable {F : FTy → Type} [FloatOps F]

/-- Stretch A run from any contents is its pieces run in order. -/
theorem eq_A (S : Valuation τ sig (Elt F)) : after (hostOps0_2 (F := F)) (after (hostOps0_1 (F := F)) (after (hostOps0 (F := F)) (S))) = after (KA5 (F := F)) (after (KA4 (F := F)) (after (KA3 (F := F)) (after (KA2 (F := F)) (after (KA1 (F := F)) (after (KA0 (F := F)) (S)))))) := by
  rw [← Cert.AfterLib.after_append, ← Cert.AfterLib.after_append, split_A]
  simp only [Cert.AfterLib.after_append]

set_option maxRecDepth 8192 in
theorem sA_v1 (S : Valuation τ sig (Elt F)) : after (hostOps0_2 (F := F)) (after (hostOps0_1 (F := F)) (after (hostOps0 (F := F)) (S))) (Proc.devRef .tc main_v1) = Cert.ReferenceIdeal.T.srcT (S (Proc.devRef .tc main_arg1)) := by
  rw [eq_A]
  simp (disch := decide) only [KA0_v1, KA0_v3, KA1_v28, KA2_v41, KA3_v54, KA4_v67, KA5_v68, keep_KA0, keep_KA1, keep_KA2, keep_KA3, keep_KA4, keep_KA5]

set_option maxRecDepth 8192 in
theorem sA_v3 (S : Valuation τ sig (Elt F)) : after (hostOps0_2 (F := F)) (after (hostOps0_1 (F := F)) (after (hostOps0 (F := F)) (S))) (Proc.devRef .tc main_v3) = Cert.ReferenceIdeal.T.dstT (S (Proc.devRef .tc main_arg1)) := by
  rw [eq_A]
  simp (disch := decide) only [KA0_v1, KA0_v3, KA1_v28, KA2_v41, KA3_v54, KA4_v67, KA5_v68, keep_KA0, keep_KA1, keep_KA2, keep_KA3, keep_KA4, keep_KA5]

set_option maxRecDepth 8192 in
theorem sA_v28 (S : Valuation τ sig (Elt F)) : after (hostOps0_2 (F := F)) (after (hostOps0_1 (F := F)) (after (hostOps0 (F := F)) (S))) (Proc.devRef .tc main_v28) = Cert.ReferenceIdeal.T.normT (Cert.ReferenceIdeal.T.srcT (S (Proc.devRef .tc main_arg1))) (Cert.ReferenceIdeal.T.dstT (S (Proc.devRef .tc main_arg1))) (S (Proc.devRef .tc main_arg2)) := by
  rw [eq_A]
  simp (disch := decide) only [KA0_v1, KA0_v3, KA1_v28, KA2_v41, KA3_v54, KA4_v67, KA5_v68, keep_KA0, keep_KA1, keep_KA2, keep_KA3, keep_KA4, keep_KA5]

set_option maxRecDepth 8192 in
theorem sA_v41 (S : Valuation τ sig (Elt F)) : after (hostOps0_2 (F := F)) (after (hostOps0_1 (F := F)) (after (hostOps0 (F := F)) (S))) (Proc.devRef .tc main_v41) = Cert.ReferenceIdeal.T.hopT (Cert.ReferenceIdeal.T.srcT (S (Proc.devRef .tc main_arg1))) (Cert.ReferenceIdeal.T.dstT (S (Proc.devRef .tc main_arg1))) (Cert.ReferenceIdeal.T.normT (Cert.ReferenceIdeal.T.srcT (S (Proc.devRef .tc main_arg1))) (Cert.ReferenceIdeal.T.dstT (S (Proc.devRef .tc main_arg1))) (S (Proc.devRef .tc main_arg2))) ((S (Proc.devRef .tc main_arg0))) := by
  rw [eq_A]
  simp (disch := decide) only [KA0_v1, KA0_v3, KA1_v28, KA2_v41, KA3_v54, KA4_v67, KA5_v68, keep_KA0, keep_KA1, keep_KA2, keep_KA3, keep_KA4, keep_KA5]

set_option maxRecDepth 8192 in
theorem sA_v54 (S : Valuation τ sig (Elt F)) : after (hostOps0_2 (F := F)) (after (hostOps0_1 (F := F)) (after (hostOps0 (F := F)) (S))) (Proc.devRef .tc main_v54) = Cert.ReferenceIdeal.T.hopT (Cert.ReferenceIdeal.T.srcT (S (Proc.devRef .tc main_arg1))) (Cert.ReferenceIdeal.T.dstT (S (Proc.devRef .tc main_arg1))) (Cert.ReferenceIdeal.T.normT (Cert.ReferenceIdeal.T.srcT (S (Proc.devRef .tc main_arg1))) (Cert.ReferenceIdeal.T.dstT (S (Proc.devRef .tc main_arg1))) (S (Proc.devRef .tc main_arg2))) (Cert.ReferenceIdeal.T.hopT (Cert.ReferenceIdeal.T.srcT (S (Proc.devRef .tc main_arg1))) (Cert.ReferenceIdeal.T.dstT (S (Proc.devRef .tc main_arg1))) (Cert.ReferenceIdeal.T.normT (Cert.ReferenceIdeal.T.srcT (S (Proc.devRef .tc main_arg1))) (Cert.ReferenceIdeal.T.dstT (S (Proc.devRef .tc main_arg1))) (S (Proc.devRef .tc main_arg2))) ((S (Proc.devRef .tc main_arg0)))) := by
  rw [eq_A]
  simp (disch := decide) only [KA0_v1, KA0_v3, KA1_v28, KA2_v41, KA3_v54, KA4_v67, KA5_v68, keep_KA0, keep_KA1, keep_KA2, keep_KA3, keep_KA4, keep_KA5]

set_option maxRecDepth 8192 in
theorem sA_v67 (S : Valuation τ sig (Elt F)) : after (hostOps0_2 (F := F)) (after (hostOps0_1 (F := F)) (after (hostOps0 (F := F)) (S))) (Proc.devRef .tc main_v67) = Cert.ReferenceIdeal.T.hopT (Cert.ReferenceIdeal.T.srcT (S (Proc.devRef .tc main_arg1))) (Cert.ReferenceIdeal.T.dstT (S (Proc.devRef .tc main_arg1))) (Cert.ReferenceIdeal.T.normT (Cert.ReferenceIdeal.T.srcT (S (Proc.devRef .tc main_arg1))) (Cert.ReferenceIdeal.T.dstT (S (Proc.devRef .tc main_arg1))) (S (Proc.devRef .tc main_arg2))) (Cert.ReferenceIdeal.T.hopT (Cert.ReferenceIdeal.T.srcT (S (Proc.devRef .tc main_arg1))) (Cert.ReferenceIdeal.T.dstT (S (Proc.devRef .tc main_arg1))) (Cert.ReferenceIdeal.T.normT (Cert.ReferenceIdeal.T.srcT (S (Proc.devRef .tc main_arg1))) (Cert.ReferenceIdeal.T.dstT (S (Proc.devRef .tc main_arg1))) (S (Proc.devRef .tc main_arg2))) (Cert.ReferenceIdeal.T.hopT (Cert.ReferenceIdeal.T.srcT (S (Proc.devRef .tc main_arg1))) (Cert.ReferenceIdeal.T.dstT (S (Proc.devRef .tc main_arg1))) (Cert.ReferenceIdeal.T.normT (Cert.ReferenceIdeal.T.srcT (S (Proc.devRef .tc main_arg1))) (Cert.ReferenceIdeal.T.dstT (S (Proc.devRef .tc main_arg1))) (S (Proc.devRef .tc main_arg2))) ((S (Proc.devRef .tc main_arg0))))) := by
  rw [eq_A]
  simp (disch := decide) only [KA0_v1, KA0_v3, KA1_v28, KA2_v41, KA3_v54, KA4_v67, KA5_v68, keep_KA0, keep_KA1, keep_KA2, keep_KA3, keep_KA4, keep_KA5]

set_option maxRecDepth 8192 in
theorem sA_v68 (S : Valuation τ sig (Elt F)) : after (hostOps0_2 (F := F)) (after (hostOps0_1 (F := F)) (after (hostOps0 (F := F)) (S))) (Proc.devRef .tc main_v68) = KT.rowT (S (Proc.devRef .tc main_arg4)) := by
  rw [eq_A]
  simp (disch := decide) only [KA0_v1, KA0_v3, KA1_v28, KA2_v41, KA3_v54, KA4_v67, KA5_v68, keep_KA0, keep_KA1, keep_KA2, keep_KA3, keep_KA4, keep_KA5]

/-- A reference the stretch does not write keeps its contents. -/
theorem sA_keep (S : Valuation τ sig (Elt F)) {r : Ref sig .tc} (h0 : r ∉ WrKA0) (h1 : r ∉ WrKA1) (h2 : r ∉ WrKA2) (h3 : r ∉ WrKA3) (h4 : r ∉ WrKA4) (h5 : r ∉ WrKA5) :
    after (hostOps0_2 (F := F)) (after (hostOps0_1 (F := F)) (after (hostOps0 (F := F)) (S))) (Proc.devRef .tc r) = S (Proc.devRef .tc r) := by
  rw [eq_A, keep_KA5 _ h5, keep_KA4 _ h4, keep_KA3 _ h3, keep_KA2 _ h2, keep_KA1 _ h1, keep_KA0 _ h0]

/-- Stretch B run from any contents is its pieces run in order. -/
theorem eq_B (S : Valuation τ sig (Elt F)) : after (hostOps1 (F := F)) (S) = after (KB0 (F := F)) (S) := by
  rw [split_B]

set_option maxRecDepth 8192 in
theorem sB_v85 (S : Valuation τ sig (Elt F)) : after (hostOps1 (F := F)) (S) (Proc.devRef .tc main_v85) = KT.rowT (KT.kmeanT (S (Proc.devRef .tc main_v69_1))) := by
  rw [eq_B]
  simp (disch := decide) only [KB0_v85, KB0_v86, KB0_v87, KB0_v88, keep_KB0]

set_option maxRecDepth 8192 in
theorem sB_v86 (S : Valuation τ sig (Elt F)) : after (hostOps1 (F := F)) (S) (Proc.devRef .tc main_v86) = KT.rowT (KT.kvarT (S (Proc.devRef .tc main_v69_1))) := by
  rw [eq_B]
  simp (disch := decide) only [KB0_v85, KB0_v86, KB0_v87, KB0_v88, keep_KB0]

set_option maxRecDepth 8192 in
theorem sB_v87 (S : Valuation τ sig (Elt F)) : after (hostOps1 (F := F)) (S) (Proc.devRef .tc main_v87) = KT.rowT (S (Proc.devRef .tc main_arg5)) := by
  rw [eq_B]
  simp (disch := decide) only [KB0_v85, KB0_v86, KB0_v87, KB0_v88, keep_KB0]

set_option maxRecDepth 8192 in
theorem sB_v88 (S : Valuation τ sig (Elt F)) : after (hostOps1 (F := F)) (S) (Proc.devRef .tc main_v88) = KT.rowT (S (Proc.devRef .tc main_arg6)) := by
  rw [eq_B]
  simp (disch := decide) only [KB0_v85, KB0_v86, KB0_v87, KB0_v88, keep_KB0]

/-- A reference the stretch does not write keeps its contents. -/
theorem sB_keep (S : Valuation τ sig (Elt F)) {r : Ref sig .tc} (h0 : r ∉ WrKB0) :
    after (hostOps1 (F := F)) (S) (Proc.devRef .tc r) = S (Proc.devRef .tc r) := by
  rw [eq_B, keep_KB0 _ h0]

/-- Stretch C run from any contents is its pieces run in order. -/
theorem eq_C (S : Valuation τ sig (Elt F)) : after (hostOps2 (F := F)) (S) = after (KC3 (F := F)) (after (KC2 (F := F)) (after (KC1 (F := F)) (after (KC0 (F := F)) (S)))) := by
  rw [split_C]
  simp only [Cert.AfterLib.after_append]

set_option maxRecDepth 8192 in
theorem sC_v102 (S : Valuation τ sig (Elt F)) : after (hostOps2 (F := F)) (S) (Proc.devRef .tc main_v102) = Cert.ReferenceIdeal.T.hopT (S (Proc.devRef .tc main_v1)) (S (Proc.devRef .tc main_v3)) (S (Proc.devRef .tc main_v28)) ((S (Proc.devRef .tc main_v89))) := by
  rw [eq_C]
  simp (disch := decide) only [KC0_v102, KC1_v115, KC2_v128, KC3_v129, keep_KC0, keep_KC1, keep_KC2, keep_KC3]

set_option maxRecDepth 8192 in
theorem sC_v115 (S : Valuation τ sig (Elt F)) : after (hostOps2 (F := F)) (S) (Proc.devRef .tc main_v115) = Cert.ReferenceIdeal.T.hopT (S (Proc.devRef .tc main_v1)) (S (Proc.devRef .tc main_v3)) (S (Proc.devRef .tc main_v28)) (Cert.ReferenceIdeal.T.hopT (S (Proc.devRef .tc main_v1)) (S (Proc.devRef .tc main_v3)) (S (Proc.devRef .tc main_v28)) ((S (Proc.devRef .tc main_v89)))) := by
  rw [eq_C]
  simp (disch := decide) only [KC0_v102, KC1_v115, KC2_v128, KC3_v129, keep_KC0, keep_KC1, keep_KC2, keep_KC3]

set_option maxRecDepth 8192 in
theorem sC_v128 (S : Valuation τ sig (Elt F)) : after (hostOps2 (F := F)) (S) (Proc.devRef .tc main_v128) = Cert.ReferenceIdeal.T.hopT (S (Proc.devRef .tc main_v1)) (S (Proc.devRef .tc main_v3)) (S (Proc.devRef .tc main_v28)) (Cert.ReferenceIdeal.T.hopT (S (Proc.devRef .tc main_v1)) (S (Proc.devRef .tc main_v3)) (S (Proc.devRef .tc main_v28)) (Cert.ReferenceIdeal.T.hopT (S (Proc.devRef .tc main_v1)) (S (Proc.devRef .tc main_v3)) (S (Proc.devRef .tc main_v28)) ((S (Proc.devRef .tc main_v89))))) := by
  rw [eq_C]
  simp (disch := decide) only [KC0_v102, KC1_v115, KC2_v128, KC3_v129, keep_KC0, keep_KC1, keep_KC2, keep_KC3]

set_option maxRecDepth 8192 in
theorem sC_v129 (S : Valuation τ sig (Elt F)) : after (hostOps2 (F := F)) (S) (Proc.devRef .tc main_v129) = KT.rowT (S (Proc.devRef .tc main_arg8)) := by
  rw [eq_C]
  simp (disch := decide) only [KC0_v102, KC1_v115, KC2_v128, KC3_v129, keep_KC0, keep_KC1, keep_KC2, keep_KC3]

/-- A reference the stretch does not write keeps its contents. -/
theorem sC_keep (S : Valuation τ sig (Elt F)) {r : Ref sig .tc} (h0 : r ∉ WrKC0) (h1 : r ∉ WrKC1) (h2 : r ∉ WrKC2) (h3 : r ∉ WrKC3) :
    after (hostOps2 (F := F)) (S) (Proc.devRef .tc r) = S (Proc.devRef .tc r) := by
  rw [eq_C, keep_KC3 _ h3, keep_KC2 _ h2, keep_KC1 _ h1, keep_KC0 _ h0]

/-- Stretch D run from any contents is its pieces run in order. -/
theorem eq_D (S : Valuation τ sig (Elt F)) : after (hostOps3 (F := F)) (S) = after (KD0 (F := F)) (S) := by
  rw [split_D]

set_option maxRecDepth 8192 in
theorem sD_v146 (S : Valuation τ sig (Elt F)) : after (hostOps3 (F := F)) (S) (Proc.devRef .tc main_v146) = KT.rowT (KT.kmeanT (S (Proc.devRef .tc main_v130_1))) := by
  rw [eq_D]
  simp (disch := decide) only [KD0_v146, KD0_v147, KD0_v148, KD0_v149, keep_KD0]

set_option maxRecDepth 8192 in
theorem sD_v147 (S : Valuation τ sig (Elt F)) : after (hostOps3 (F := F)) (S) (Proc.devRef .tc main_v147) = KT.rowT (KT.kvarT (S (Proc.devRef .tc main_v130_1))) := by
  rw [eq_D]
  simp (disch := decide) only [KD0_v146, KD0_v147, KD0_v148, KD0_v149, keep_KD0]

set_option maxRecDepth 8192 in
theorem sD_v148 (S : Valuation τ sig (Elt F)) : after (hostOps3 (F := F)) (S) (Proc.devRef .tc main_v148) = KT.rowT (S (Proc.devRef .tc main_arg9)) := by
  rw [eq_D]
  simp (disch := decide) only [KD0_v146, KD0_v147, KD0_v148, KD0_v149, keep_KD0]

set_option maxRecDepth 8192 in
theorem sD_v149 (S : Valuation τ sig (Elt F)) : after (hostOps3 (F := F)) (S) (Proc.devRef .tc main_v149) = KT.rowT (S (Proc.devRef .tc main_arg10)) := by
  rw [eq_D]
  simp (disch := decide) only [KD0_v146, KD0_v147, KD0_v148, KD0_v149, keep_KD0]

/-- A reference the stretch does not write keeps its contents. -/
theorem sD_keep (S : Valuation τ sig (Elt F)) {r : Ref sig .tc} (h0 : r ∉ WrKD0) :
    after (hostOps3 (F := F)) (S) (Proc.devRef .tc r) = S (Proc.devRef .tc r) := by
  rw [eq_D, keep_KD0 _ h0]

/-- Stretch E run from any contents is its pieces run in order. -/
theorem eq_E (S : Valuation τ sig (Elt F)) : after (hostOps4 (F := F)) (S) = after (KE3 (F := F)) (after (KE2 (F := F)) (after (KE1 (F := F)) (after (KE0 (F := F)) (S)))) := by
  rw [split_E]
  simp only [Cert.AfterLib.after_append]

set_option maxRecDepth 8192 in
theorem sE_v163 (S : Valuation τ sig (Elt F)) : after (hostOps4 (F := F)) (S) (Proc.devRef .tc main_v163) = Cert.ReferenceIdeal.T.hopT (S (Proc.devRef .tc main_v1)) (S (Proc.devRef .tc main_v3)) (S (Proc.devRef .tc main_v28)) ((S (Proc.devRef .tc main_v150))) := by
  rw [eq_E]
  simp (disch := decide) only [KE0_v163, KE1_v176, KE2_v189, KE3_v191, keep_KE0, keep_KE1, keep_KE2, keep_KE3]

set_option maxRecDepth 8192 in
theorem sE_v176 (S : Valuation τ sig (Elt F)) : after (hostOps4 (F := F)) (S) (Proc.devRef .tc main_v176) = Cert.ReferenceIdeal.T.hopT (S (Proc.devRef .tc main_v1)) (S (Proc.devRef .tc main_v3)) (S (Proc.devRef .tc main_v28)) (Cert.ReferenceIdeal.T.hopT (S (Proc.devRef .tc main_v1)) (S (Proc.devRef .tc main_v3)) (S (Proc.devRef .tc main_v28)) ((S (Proc.devRef .tc main_v150)))) := by
  rw [eq_E]
  simp (disch := decide) only [KE0_v163, KE1_v176, KE2_v189, KE3_v191, keep_KE0, keep_KE1, keep_KE2, keep_KE3]

set_option maxRecDepth 8192 in
theorem sE_v189 (S : Valuation τ sig (Elt F)) : after (hostOps4 (F := F)) (S) (Proc.devRef .tc main_v189) = Cert.ReferenceIdeal.T.hopT (S (Proc.devRef .tc main_v1)) (S (Proc.devRef .tc main_v3)) (S (Proc.devRef .tc main_v28)) (Cert.ReferenceIdeal.T.hopT (S (Proc.devRef .tc main_v1)) (S (Proc.devRef .tc main_v3)) (S (Proc.devRef .tc main_v28)) (Cert.ReferenceIdeal.T.hopT (S (Proc.devRef .tc main_v1)) (S (Proc.devRef .tc main_v3)) (S (Proc.devRef .tc main_v28)) ((S (Proc.devRef .tc main_v150))))) := by
  rw [eq_E]
  simp (disch := decide) only [KE0_v163, KE1_v176, KE2_v189, KE3_v191, keep_KE0, keep_KE1, keep_KE2, keep_KE3]

set_option maxRecDepth 8192 in
theorem sE_v191 (S : Valuation τ sig (Elt F)) : after (hostOps4 (F := F)) (S) (Proc.devRef .tc main_v191) = KT.zrowU := by
  rw [eq_E]
  simp (disch := decide) only [KE0_v163, KE1_v176, KE2_v189, KE3_v191, keep_KE0, keep_KE1, keep_KE2, keep_KE3]

/-- A reference the stretch does not write keeps its contents. -/
theorem sE_keep (S : Valuation τ sig (Elt F)) {r : Ref sig .tc} (h0 : r ∉ WrKE0) (h1 : r ∉ WrKE1) (h2 : r ∉ WrKE2) (h3 : r ∉ WrKE3) :
    after (hostOps4 (F := F)) (S) (Proc.devRef .tc r) = S (Proc.devRef .tc r) := by
  rw [eq_E, keep_KE3 _ h3, keep_KE2 _ h2, keep_KE1 _ h1, keep_KE0 _ h0]

/-- Stretch F run from any contents is its pieces run in order. -/
theorem eq_F (S : Valuation τ sig (Elt F)) : after (hostOps5 (F := F)) (S) = after (KF0 (F := F)) (S) := by
  rw [split_F]

set_option maxRecDepth 8192 in
theorem sF_v208 (S : Valuation τ sig (Elt F)) : after (hostOps5 (F := F)) (S) (Proc.devRef .tc main_v208) = KT.rowU (KT.kmeanU (S (Proc.devRef .tc main_v192_1))) := by
  rw [eq_F]
  simp (disch := decide) only [KF0_v208, KF0_v209, KF0_v210, KF0_v211, keep_KF0]

set_option maxRecDepth 8192 in
theorem sF_v209 (S : Valuation τ sig (Elt F)) : after (hostOps5 (F := F)) (S) (Proc.devRef .tc main_v209) = KT.rowU (KT.kvarU (S (Proc.devRef .tc main_v192_1))) := by
  rw [eq_F]
  simp (disch := decide) only [KF0_v208, KF0_v209, KF0_v210, KF0_v211, keep_KF0]

set_option maxRecDepth 8192 in
theorem sF_v210 (S : Valuation τ sig (Elt F)) : after (hostOps5 (F := F)) (S) (Proc.devRef .tc main_v210) = KT.rowU (S (Proc.devRef .tc main_arg12)) := by
  rw [eq_F]
  simp (disch := decide) only [KF0_v208, KF0_v209, KF0_v210, KF0_v211, keep_KF0]

set_option maxRecDepth 8192 in
theorem sF_v211 (S : Valuation τ sig (Elt F)) : after (hostOps5 (F := F)) (S) (Proc.devRef .tc main_v211) = KT.rowU (S (Proc.devRef .tc main_arg13)) := by
  rw [eq_F]
  simp (disch := decide) only [KF0_v208, KF0_v209, KF0_v210, KF0_v211, keep_KF0]

/-- A reference the stretch does not write keeps its contents. -/
theorem sF_keep (S : Valuation τ sig (Elt F)) {r : Ref sig .tc} (h0 : r ∉ WrKF0) :
    after (hostOps5 (F := F)) (S) (Proc.devRef .tc r) = S (Proc.devRef .tc r) := by
  rw [eq_F, keep_KF0 _ h0]

end Cert.KernelIdeal.KRead

end
-- ==== Proof.Alg.lean ====
/- Extended-real algebra for a batch-normalised layer.
   An extended real is *real* when it is the image of a real number; sums, products, differences, maxima, quotients by
   a nonzero real and the reciprocal square root of a positive real keep that property. For real entries x_i
   (i over a finite type of n > 0 elements) with mean μ = (Σ x_i)/n, the mean of the squared deviations equals the mean
   of the squares minus μ², and is nonnegative — so clamping the latter at 0 changes nothing. The two branch forms of
   the leaky rectifier, split at y > 0 and at y ≥ 0, agree everywhere: they differ only at y = 0, where c·0 = 0. -/
import Idealize.ShloMosaic.PureOps.Ideal
import Mathlib.Tactic

noncomputable section

namespace Cert.Alg

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx; obtain ⟨b, rfl⟩ := hy; exact ⟨_, (coe_max a b).symm⟩

theorem IsReal.ite {p : Prop} [Decidable p] {x y : EReal} (hx : IsReal x) (hy : IsReal y) : IsReal (if p then x else y) := by
  split <;> assumption

/-- The coercion of a finite sum of reals is the sum of the coercions. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.div_coe {x : EReal} (hx : IsReal x) {y : ℝ} (hy : y ≠ 0) : IsReal (Ideal.div x (y : EReal)) := by
  rw [Ideal.div_coe hy]; exact hx.mul ⟨_, rfl⟩

theorem isReal_rsqrt {r : ℝ} (hr : 0 < r) : IsReal (Ideal.rsqrt (r : EReal)) := by
  rw [Ideal.rsqrt_coe, if_neg (not_lt.mpr hr.le), if_neg hr.ne']; exact ⟨_, rfl⟩

/-- Over the reals: the mean of the squared deviations from the mean is the mean of the squares minus the squared mean. -/
theorem var_real {ι : Type*} [Fintype ι] (r : ι → ℝ) (n : ℝ) (hn : n ≠ 0) (hcard : (Fintype.card ι : ℝ) = n) :
    (∑ i, (r i - (∑ j, r j) * (1 / n)) * (r i - (∑ j, r j) * (1 / n))) * (1 / n)
      = (∑ i, r i * r i) * (1 / n) - ((∑ j, r j) * (1 / n)) * ((∑ j, r j) * (1 / n)) := by
  set S := ∑ j, r j with hS
  have h1 : ∀ i, (r i - S * (1 / n)) * (r i - S * (1 / n)) = r i * r i - 2 * (S * (1 / n)) * r i + (S * (1 / n)) * (S * (1 / n)) :=
    fun i => by ring
  simp only [h1, Finset.sum_add_distrib, Finset.sum_sub_distrib, ← Finset.mul_sum, Finset.sum_const, Finset.card_univ,
    nsmul_eq_mul, hcard, ← hS]
  field_simp
  ring

/-- The batch statistics of real entries: the clamped mean of squares minus squared mean is the mean of squared
    deviations. Sums are written with the leading zero the programs' reductions start from. -/
theorem bn_var {ι : Type*} [Fintype ι] (x : ι → EReal) (hx : ∀ i, IsReal (x i)) (n : ℝ) (hn : 0 < n)
    (hcard : (Fintype.card ι : ℝ) = n) :
    max (Ideal.div (0 + ∑ i, x i * x i) (n : EReal)
          - Ideal.div (0 + ∑ i, x i) (n : EReal) * Ideal.div (0 + ∑ i, x i) (n : EReal)) 0
      = Ideal.div (0 + ∑ i, (x i - Ideal.div (0 + ∑ j, x j) (n : EReal)) * (x i - Ideal.div (0 + ∑ j, x j) (n : EReal))) (n : EReal) := by
  choose r hr using hx
  have hx' : x = fun i => (r i : EReal) := funext hr
  subst hx'
  simp only [zero_add, Ideal.div_coe hn.ne', ← EReal.coe_mul, ← coe_sum, ← EReal.coe_sub]
  rw [← var_real r n hn.ne' hcard, ← EReal.coe_zero, ← coe_max]
  congr 1
  refine max_eq_left ?_
  refine mul_nonneg (Finset.sum_nonneg fun i _ => mul_self_nonneg _) ?_
  positivity

/-- The variance of real entries is a nonnegative real. -/
theorem bn_var_real {ι : Type*} [Fintype ι] (x : ι → EReal) (hx : ∀ i, IsReal (x i)) (n : ℝ) (hn : 0 < n) :
    ∃ v : ℝ, 0 ≤ v ∧ Ideal.div (0 + ∑ i, (x i - Ideal.div (0 + ∑ j, x j) (n : EReal)) * (x i - Ideal.div (0 + ∑ j, x j) (n : EReal))) (n : EReal) = (v : EReal) := by
  choose r hr using hx
  have hx' : x = fun i => (r i : EReal) := funext hr
  subst hx'
  simp only [zero_add, Ideal.div_coe hn.ne', ← EReal.coe_mul, ← coe_sum, ← EReal.coe_sub]
  refine ⟨_, ?_, rfl⟩
  refine mul_nonneg (Finset.sum_nonneg fun i _ => mul_self_nonneg _) ?_
  positivity

/-- The rectifier's two branch forms agree: at y = 0 both give 0. -/
theorem lrelu_branch (c y : EReal) : (if 0 < y then y else c * y) = (if 0 ≤ y then y else c * y) := by
  by_cases h : 0 < y
  · rw [if_pos h, if_pos h.le]
  · rw [if_neg h]
    by_cases h' : 0 ≤ y
    · have : y = 0 := le_antisymm (not_lt.mp h) h'
      subst this; rw [if_pos le_rfl, mul_zero]
    · rw [if_neg h']

end Cert.Alg

end
-- ==== Proof.KSpec.lean ====
/- Scalar and whole-array forms of the normalise-and-rectify step, in the two spellings the programs use for the
   rectifier's branch (at y > 0 in the kernel, at y ≥ 0 in the reference): the same function. -/
import proofs.«167710_j39049842655736_2_alg».proof.Proof.Alg
import Idealize.ShloMosaic.PureOps.Ideal.Laws
import Idealize.ShloMosaic.Lib.ValueIdx

noncomputable section

namespace Cert.KSpec

open Idealize.ShloMosaic

/-- The variance offset, the rectifier's slope and the zero, as the programs' literals denote them. -/
abbrev eps : EReal := Ideal.ofBits .f32 0x3727C5AC#32
abbrev slope : EReal := Ideal.ofBits .f32 0x3C23D70A#32
abbrev zero32 : EReal := Ideal.ofBits .f32 0x00000000#32

/-- Centre, scale by the inverse root of the offset variance and by g, shift by be. -/
def affS (x mu vr g be : EReal) : EReal := (x - mu) * Ideal.rsqrt (vr + eps) * g + be

/-- The rectifier branching at y > 0. -/
def lreluGt (y : EReal) : EReal := Scalar.select (Ideal.cmp .ogt y zero32) y (slope * y)

/-- The rectifier branching at y ≥ 0. -/
def lreluGe (y : EReal) : EReal := Scalar.select (Ideal.cmp .oge y zero32) y (slope * y)

/-- The two branch forms agree: they differ only at y = 0, where both give 0. -/
theorem lreluGt_eq (y : EReal) : lreluGt y = lreluGe y := by
  unfold lreluGt lreluGe Scalar.select Ideal.cmp
  have hz : zero32 = 0 := Ideal.ofBits_zero_f32
  rw [hz]
  have h := Cert.Alg.lrelu_branch slope y
  by_cases h1 : (0 : EReal) < y
  · have h2 : (0 : EReal) ≤ y := h1.le
    simp [h1, h2]
  · by_cases h2 : (0 : EReal) ≤ y
    · have : y = 0 := le_antisymm (not_lt.mp h1) h2
      subst this; simp
    · simp [h1, h2]

/-- The kernel's normalise-and-rectify on a whole array, its four parameters one-row matrices. -/
def actA {D : Nat} (o : (⟨2, ![100000, D]⟩ : Shape).Idx → EReal) (mu vr g be : (⟨2, ![1, D]⟩ : Shape).Idx → EReal) :
    (⟨2, ![100000, D]⟩ : Shape).Idx → EReal :=
  fun i => lreluGt (affS (o i) (mu (ValueIdx.ix2 0 (i 1))) (vr (ValueIdx.ix2 0 (i 1))) (g (ValueIdx.ix2 0 (i 1))) (be (ValueIdx.ix2 0 (i 1))))

/-- The layer's linear map on whole arrays, as the kernel sums it: from zero, the features' product with weight matrix 0,
    then the three propagations' products with matrices 1, 2, 3 added in turn, then the bias row. -/
def linA {D : Nat} (x h1 h2 h3 : (⟨2, ![100000, 128]⟩ : Shape).Idx → EReal) (W : (⟨3, ![4, 128, D]⟩ : Shape).Idx → EReal)
    (b : (⟨2, ![1, D]⟩ : Shape).Idx → EReal) : (⟨2, ![100000, D]⟩ : Shape).Idx → EReal :=
  fun i => ((((zero32 + ∑ κ : Fin 128, x (ValueIdx.ix2 (i 0) κ) * W (ValueIdx.ix3 0 κ (i 1)))
      + ∑ κ : Fin 128, h1 (ValueIdx.ix2 (i 0) κ) * W (ValueIdx.ix3 1 κ (i 1)))
      + ∑ κ : Fin 128, h2 (ValueIdx.ix2 (i 0) κ) * W (ValueIdx.ix3 2 κ (i 1)))
      + ∑ κ : Fin 128, h3 (ValueIdx.ix2 (i 0) κ) * W (ValueIdx.ix3 3 κ (i 1)))
    + b (ValueIdx.ix2 0 (i 1))

/-- Row 5000·t + r of a 100000-row array, for a tile t < 20 and a row r < 5000 of it. -/
def tileRow (t : Fin 20) (r : Fin 5000) : Fin 100000 := ⟨t.val * 5000 + r.val, by have := t.isLt; have := r.isLt; omega⟩

/-- The tile of a row of the 160-row statistics array: eight rows per tile. -/
def tileOf (s : Fin 160) : Fin 20 := ⟨s.val / 8, by have := s.isLt; omega⟩

/-- The per-tile statistics the linear kernel leaves: of each tile's eight rows, row 0 the column sums over the tile's
    5000 nodes, row 1 the column sums of squares, the rest zero. -/
def statA {D : Nat} (o : (⟨2, ![100000, D]⟩ : Shape).Idx → EReal) : (⟨2, ![160, D]⟩ : Shape).Idx → EReal :=
  fun i => if (i 0).val % 8 = 0 then ∑ r : Fin 5000, o (ValueIdx.ix2 (tileRow (tileOf (i 0)) r) (i 1))
    else if (i 0).val % 8 = 1 then ∑ r : Fin 5000, o (ValueIdx.ix2 (tileRow (tileOf (i 0)) r) (i 1)) * o (ValueIdx.ix2 (tileRow (tileOf (i 0)) r) (i 1))
    else zero32

end Cert.KSpec

end
-- ==== Proof.DotLib.lean ====
/- A plain matrix product's contraction sum, with its one contracted axis named: for M×K times K×N the operand indices at
   output (p, q) and contraction position κ are (p, κ) and (κ, q), so the sum over the contraction index is the sum over
   κ of l (p, κ) · r (κ, q). -/
import Idealize.ShloMosaic.PureOps.Ideal.Laws
import Idealize.ShloMosaic.Lib.ValueIdx

noncomputable section

namespace Cert.DotLib

open Idealize.ShloMosaic Idealize.ShloMosaic.ValueIdx

theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ κ : Fin K, l (ix2 p κ) * r (ix2 κ q) := by
  refine (Equiv.sum_comp (contrEquiv1 (DotDims.plain M K N) K rfl rfl).symm _).symm.trans ?_
  refine Finset.sum_congr rfl fun κ _ => ?_
  have hk : (((contrEquiv1 (DotDims.plain M K N) K rfl rfl).symm κ) ⟨0, Nat.zero_lt_one⟩ : ℕ) = κ.val :=
    contrEquiv1_symm_val (DotDims.plain M K N) K rfl rfl κ
  have hl : (DotDims.plain M K N).lhsIdx (ix2 p q) ((contrEquiv1 (DotDims.plain M K N) K rfl rfl).symm κ) = ix2 p κ := by
    funext a; apply Fin.ext
    match a with
    | ⟨0, _⟩ => rfl
    | ⟨1, _⟩ => exact hk
  have hr : (DotDims.plain M K N).rhsIdx (ix2 p q) ((contrEquiv1 (DotDims.plain M K N) K rfl rfl).symm κ) = ix2 κ q := by
    funext a; apply Fin.ext
    match a with
    | ⟨0, _⟩ => exact hk
    | ⟨1, _⟩ => rfl
  rw [hl, hr]

end Cert.DotLib

end
-- ==== Proof.KReg0.lean ====
/- The first linear region: twenty row blocks of 5000 nodes; at each the body multiplies the block of the features and of
   their three propagations by the four weight matrices, sums the products from zero, adds the bias row and stores the
   block; it also stores, in an eight-row record per block, the block's column sums (row 0), its column sums of squares
   (row 1) and zeros. So the first result array is the linear map of the arrays the region finds, index by index, and the
   second holds each block's column statistics of it. -/
import proofs.«167710_j39049842655736_2_alg».proof.Proof.KSpec
import proofs.«167710_j39049842655736_2_alg».proof.Proof.DotLib
import proofs.«167710_j39049842655736_2_alg».proof.Proof.Gen.KernelIdeal.Frame
import Idealize.ShloMosaic.Lib.Pipeline.Value
import Idealize.ShloMosaic.Lib.ValueLayout
import Idealize.ShloMosaic.Lib.Tactic

set_option maxRecDepth 16384

noncomputable section

namespace Cert.KernelIdeal.Reg0

open Cert.KernelIdeal Cert.KernelIdeal.Gen Cert.KSpec
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-- The four weight matrices as rectangles of the weight block. -/
abbrev rW0 : Rect S4x128x128 := Rect.unit (s := S4x128x128) ![0, 0, 0] S1x128x128.size inb_S4x128x128_S1x128x128_0_0_0
abbrev rW1 : Rect S4x128x128 := Rect.unit (s := S4x128x128) ![1, 0, 0] S1x128x128.size inb_S4x128x128_S1x128x128_1_0_0
abbrev rW2 : Rect S4x128x128 := Rect.unit (s := S4x128x128) ![2, 0, 0] S1x128x128.size inb_S4x128x128_S1x128x128_2_0_0
abbrev rW3 : Rect S4x128x128 := Rect.unit (s := S4x128x128) ![3, 0, 0] S1x128x128.size inb_S4x128x128_S1x128x128_3_0_0
/-- The statistics record's three pieces: row 0, row 1, rows 2 to 7. -/
abbrev rS0 : Rect S8x128 := Rect.unit (s := S8x128) ![0, 0] S1x128.size inb_S8x128_S1x128_0_0
abbrev rS1 : Rect S8x128 := Rect.unit (s := S8x128) ![1, 0] S1x128.size inb_S8x128_S1x128_1_0
abbrev rS2 : Rect S8x128 := Rect.unit (s := S8x128) ![2, 0] S6x128.size inb_S8x128_S6x128_2_0

section Pieces
variable {F : FTy → Type} [FloatOps F]

/-- What the body leaves in the first output's buffer: the bias added to the four-term sum of the blocks it loaded. -/
theorem out6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S4x128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole)
    (x0 : Vec F S5000x128 .f32) (x1 : Vec F S5000x128 .f32) (x2 : Vec F S5000x128 .f32) (x3 : Vec F S5000x128 .f32) (x4 : Vec F S4x128x128 .f32) (x5 : Vec F S1x128 .f32) :
    out0_A_6 c i arg1 harg1 arg2 harg2 arg3 harg3 arg4 harg4 arg5 harg5 arg6 harg6 arg7 harg7 arg8 harg8 x0 x1 x2 x3 x4 x5 = k0_pay1 (k0_pay5 x0 (View.ld x4 rW0) x1 (View.ld x4 rW1) x2 (View.ld x4 rW2) x3 (View.ld x4 rW3)) x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S5000x128) hz, View.ld_unit_zero (S := S1x128) hz]

/-- What the body leaves in the second output's buffer: its three stores, the last first. -/
theorem out7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S4x128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole)
    (x0 : Vec F S5000x128 .f32) (x1 : Vec F S5000x128 .f32) (x2 : Vec F S5000x128 .f32) (x3 : Vec F S5000x128 .f32) (x4 : Vec F S4x128x128 .f32) (x5 : Vec F S1x128 .f32) :
    out0_A_7 c i arg1 harg1 arg2 harg2 arg3 harg3 arg4 harg4 arg5 harg5 arg6 harg6 arg7 harg7 arg8 harg8 x0 x1 x2 x3 x4 x5 = View.canon [⟨rS2, k0_pay4⟩, ⟨rS1, k0_pay3 (k0_pay5 x0 (View.ld x4 rW0) x1 (View.ld x4 rW1) x2 (View.ld x4 rW2) x3 (View.ld x4 rW3)) x5⟩, ⟨rS0, k0_pay2 (k0_pay5 x0 (View.ld x4 rW0) x1 (View.ld x4 rW1) x2 (View.ld x4 rW2) x3 (View.ld x4 rW3)) x5⟩] := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg1.read_unread, harg2.read_unread, harg3.read_unread, harg4.read_unread, harg5.read_unread, harg6.read_unread,
    View.ld_unit_zero (S := S5000x128) hz, View.ld_unit_zero (S := S1x128) hz]

end Pieces

set_option maxHeartbeats 1000000 in
/-- Row 0 of the record is under the first store only, row 1 under the second only. -/
theorem canon_row0 (P2 : S6x128.Idx → EReal) (P1 P0 : S1x128.Idx → EReal) (q : Fin 128) :
    View.canon [(⟨rS2, P2⟩ : View.Piece (Elt Ideal) S8x128 .f32), ⟨rS1, P1⟩, ⟨rS0, P0⟩] (ix2 0 q) = P0 (ix2 0 q) := by
  have n2 : (ix2 (0 : Fin 8) q : S8x128.Idx) ∉ rS2.set := by
    rw [Rect.mem_set_unit]
    intro h
    have h0 : (2 : ℕ) ≤ 0 := (h 0).1
    omega
  have n1 : (ix2 (0 : Fin 8) q : S8x128.Idx) ∉ rS1.set := by
    rw [Rect.mem_set_unit]
    intro h
    have h0 : (1 : ℕ) ≤ 0 := (h 0).1
    omega
  rw [View.canon_cons_of_not_mem (⟨rS2, P2⟩ : View.Piece (Elt Ideal) S8x128 .f32) _ n2,
    View.canon_cons_of_not_mem (⟨rS1, P1⟩ : View.Piece (Elt Ideal) S8x128 .f32) _ n1]
  have e : (ix2 (0 : Fin 8) q : S8x128.Idx) = rS0.emb (ix2 (0 : Fin 1) q) := by
    funext a; apply Fin.ext
    match a with
    | ⟨0, _⟩ => show (0 : ℕ) = 0 + 1 * 0; rfl
    | ⟨1, _⟩ => show q.val = 0 + 1 * q.val; omega
  rw [e, View.canon_cons_emb]

set_option maxHeartbeats 1000000 in
theorem canon_row1 (P2 : S6x128.Idx → EReal) (P1 P0 : S1x128.Idx → EReal) (q : Fin 128) :
    View.canon [(⟨rS2, P2⟩ : View.Piece (Elt Ideal) S8x128 .f32), ⟨rS1, P1⟩, ⟨rS0, P0⟩] (ix2 1 q) = P1 (ix2 0 q) := by
  have n2 : (ix2 (1 : Fin 8) q : S8x128.Idx) ∉ rS2.set := by
    rw [Rect.mem_set_unit]
    intro h
    have h0 : (2 : ℕ) ≤ 1 := (h 0).1
    omega
  rw [View.canon_cons_of_not_mem (⟨rS2, P2⟩ : View.Piece (Elt Ideal) S8x128 .f32) _ n2]
  have e : (ix2 (1 : Fin 8) q : S8x128.Idx) = rS1.emb (ix2 (0 : Fin 1) q) := by
    funext a; apply Fin.ext
    match a with
    | ⟨0, _⟩ => show (1 : ℕ) = 1 + 1 * 0; rfl
    | ⟨1, _⟩ => show q.val = 0 + 1 * q.val; omega
  rw [e, View.canon_cons_emb]

set_option maxHeartbeats 1000000 in
/-- Rows 2 to 7 are under the third store: zero. -/
theorem canon_rowz (P2 : S6x128.Idx → EReal) (P1 P0 : S1x128.Idx → EReal) (r : Fin 6) (q : Fin 128) :
    View.canon [(⟨rS2, P2⟩ : View.Piece (Elt Ideal) S8x128 .f32), ⟨rS1, P1⟩, ⟨rS0, P0⟩] (ix2 ⟨r.val + 2, by omega⟩ q) = P2 (ix2 r q) := by
  have e : (ix2 (⟨r.val + 2, by omega⟩ : Fin 8) q : S8x128.Idx) = rS2.emb (ix2 r q) := by
    funext a; apply Fin.ext
    match a with
    | ⟨0, _⟩ => show r.val + 2 = 2 + 1 * r.val; omega
    | ⟨1, _⟩ => show q.val = 0 + 1 * q.val; omega
  rw [e, View.canon_cons_emb]

/-- One weight matrix read out of the weight block. -/
theorem ldW0 (x4 : Vec Ideal S4x128x128 .f32) (κ q : Fin 128) :
    View.ld (Val := Elt Ideal) x4 rW0 (ix3 0 κ q) = x4 (ix3 0 κ q) := by
  show x4 _ = x4 _
  congr 1; funext a; apply Fin.ext
  match a with
  | ⟨0, _⟩ => show 0 + 1 * 0 = 0; rfl
  | ⟨1, _⟩ => show 0 + 1 * κ.val = κ.val; omega
  | ⟨2, _⟩ => show 0 + 1 * q.val = q.val; omega
theorem ldW1 (x4 : Vec Ideal S4x128x128 .f32) (κ q : Fin 128) :
    View.ld (Val := Elt Ideal) x4 rW1 (ix3 0 κ q) = x4 (ix3 1 κ q) := by
  show x4 _ = x4 _
  congr 1; funext a; apply Fin.ext
  match a with
  | ⟨0, _⟩ => show 1 + 1 * 0 = 1; rfl
  | ⟨1, _⟩ => show 0 + 1 * κ.val = κ.val; omega
  | ⟨2, _⟩ => show 0 + 1 * q.val = q.val; omega
theorem ldW2 (x4 : Vec Ideal S4x128x128 .f32) (κ q : Fin 128) :
    View.ld (Val := Elt Ideal) x4 rW2 (ix3 0 κ q) = x4 (ix3 2 κ q) := by
  show x4 _ = x4 _
  congr 1; funext a; apply Fin.ext
  match a with
  | ⟨0, _⟩ => show 2 + 1 * 0 = 2; rfl
  | ⟨1, _⟩ => show 0 + 1 * κ.val = κ.val; omega
  | ⟨2, _⟩ => show 0 + 1 * q.val = q.val; omega
theorem ldW3 (x4 : Vec Ideal S4x128x128 .f32) (κ q : Fin 128) :
    View.ld (Val := Elt Ideal) x4 rW3 (ix3 0 κ q) = x4 (ix3 3 κ q) := by
  show x4 _ = x4 _
  congr 1; funext a; apply Fin.ext
  match a with
  | ⟨0, _⟩ => show 3 + 1 * 0 = 3; rfl
  | ⟨1, _⟩ => show 0 + 1 * κ.val = κ.val; omega
  | ⟨2, _⟩ => show 0 + 1 * q.val = q.val; omega

/-- One product term of the body at an index: the block's row times the weight matrix's column. -/
theorem mm_apply (x : FVec Ideal S5000x128 .f32) (w : FVec Ideal S1x128x128 .f32) (p : Fin 5000) (q : Fin 128) :
    matmul dot_S5000x128_S128x128_S5000x128_1_0_0_1_n_n none (truncf .bf16 x bitsLt_bf16_f32)
        (truncf .bf16 (shapeCast S128x128 w shapeCasts_S1x128x128_S128x128) bitsLt_bf16_f32) (constant S5000x128 .f32 0x00000000#32) (ix2 p q)
      = ∑ κ : Fin 128, x (ix2 p κ) * w (ix3 0 κ q) := by
  refine (Ideal.matmul_constant_zero_apply (DotDims.plain 5000 128 128) none _ _ (ix2 p q)).trans ?_
  refine (Cert.DotLib.plain_sum 5000 128 128 _ _ p q).trans ?_
  refine Finset.sum_congr rfl fun κ _ => ?_
  show x (ix2 p κ) * shapeCast S128x128 w shapeCasts_S1x128x128_S128x128 (ix2 κ q) = _
  rw [shapeCast_1ab_ab_apply]

/-- The four-term sum at an index of the block. -/
theorem pay5_apply (v1 v8 v16 v24 : FVec Ideal S5000x128 .f32) (v3 v11 v19 v27 : FVec Ideal S1x128x128 .f32) (p : Fin 5000) (q : Fin 128) :
    k0_pay5 (F := Ideal) v1 v3 v8 v11 v16 v19 v24 v27 (ix2 p q)
      = (((zero32 + ∑ κ : Fin 128, v1 (ix2 p κ) * v3 (ix3 0 κ q)) + ∑ κ : Fin 128, v8 (ix2 p κ) * v11 (ix3 0 κ q))
          + ∑ κ : Fin 128, v16 (ix2 p κ) * v19 (ix3 0 κ q)) + ∑ κ : Fin 128, v24 (ix2 p κ) * v27 (ix3 0 κ q) := by
  unfold k0_pay5
  simp only [shapeCast_self, addf_apply, broadcast_apply, mm_apply]
  rfl

/-- The bias add at an index of the block. -/
theorem pay1_apply (v31 : FVec Ideal S5000x128 .f32) (v32 : FVec Ideal S1x128 .f32) (p : Fin 5000) (q : Fin 128) :
    k0_pay1 (F := Ideal) v31 v32 (ix2 p q) = v31 (ix2 p q) + v32 (ix2 0 q) := by
  unfold k0_pay1
  simp only [shapeCast_self, addf_apply, broadcastTo_1b_ab_apply]

/-- The column sums of the block. -/
theorem pay2_apply (v31 : FVec Ideal S5000x128 .f32) (v32 : FVec Ideal S1x128 .f32) (q : Fin 128) :
    k0_pay2 (F := Ideal) v31 v32 (ix2 0 q) = ∑ r : Fin 5000, k0_pay1 (F := Ideal) v31 v32 (ix2 r q) := by
  unfold k0_pay2
  refine (shapeCast_a_1a_apply _ _ 0 q).trans ?_
  refine (Ideal.multiReduction_add_single (k0_pay1 (F := Ideal) v31 v32) 0x00000000#32 reduces_S5000x128_S128 (.inl rfl) rfl (ix1 q)).trans ?_
  exact Finset.sum_congr rfl fun r _ => congrArg _ (by
    funext a; apply Fin.ext
    match a with
    | ⟨0, _⟩ => rfl
    | ⟨1, _⟩ => rfl)

/-- The column sums of squares of the block. -/
theorem pay3_apply (v31 : FVec Ideal S5000x128 .f32) (v32 : FVec Ideal S1x128 .f32) (q : Fin 128) :
    k0_pay3 (F := Ideal) v31 v32 (ix2 0 q)
      = ∑ r : Fin 5000, k0_pay1 (F := Ideal) v31 v32 (ix2 r q) * k0_pay1 (F := Ideal) v31 v32 (ix2 r q) := by
  unfold k0_pay3
  refine (shapeCast_a_1a_apply _ _ 0 q).trans ?_
  refine (Ideal.multiReduction_add_single (mulf (k0_pay1 (F := Ideal) v31 v32) (k0_pay1 (F := Ideal) v31 v32)) 0x00000000#32 reduces_S5000x128_S128 (.inl rfl) rfl (ix1 q)).trans ?_
  exact Finset.sum_congr rfl fun r _ => congrArg (fun j => k0_pay1 (F := Ideal) v31 v32 j * k0_pay1 (F := Ideal) v31 v32 j) (by
    funext a; apply Fin.ext
    match a with
    | ⟨0, _⟩ => rfl
    | ⟨1, _⟩ => rfl)

/-- The zero rows. -/
theorem pay4_apply (j : S6x128.Idx) : k0_pay4 (F := Ideal) j = zero32 := rfl

variable (V : (c : Dev nD) → (b : Ref sig .tc) → Buf (Elt Ideal) ((c : Thread nD τ).loc b))

/-- The printed index maps, decided over the grid: the four feature windows and the two results move together down the
    rows; the weights and the bias stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of block t is row 5000·t + p of the array. -/
def gRow (t : Fin cfg0.N) (p : Fin 5000) : Fin 100000 :=
  ⟨t.val * 5000 + p.val, by have hN : cfg0.N = 20 := N_0; have := t.isLt; have := p.isLt; omega⟩

set_option maxHeartbeats 4000000 in
/-- The body's biased sum at row p, column q of block t is the linear map of the arrays the region finds, at row 5000·t + p. -/
theorem blk_lin (c : Dev nD) (t : Fin cfg0.N) (p : Fin 5000) (q : Fin 128) :
    k0_pay1 (F := Ideal) (k0_pay5 (F := Ideal) (iblk0 V c 0 t) (View.ld (Val := Elt Ideal) (iblk0 V c 4 t) rW0) (iblk0 V c 1 t) (View.ld (Val := Elt Ideal) (iblk0 V c 4 t) rW1) (iblk0 V c 2 t) (View.ld (Val := Elt Ideal) (iblk0 V c 4 t) rW2) (iblk0 V c 3 t) (View.ld (Val := Elt Ideal) (iblk0 V c 4 t) rW3)) (iblk0 V c 5 t) (ix2 p q)
      = linA (D := 128) (V c main_arg0) (V c main_v41) (V c main_v54) (V c main_v67) (V c main_arg3) (V c main_v68) (ix2 (gRow t p) q) := by
  obtain ⟨e00, e01, e10, e11, e20, e21, e30, e31, e40, e41, e42, e50, e51, -, -, -, -⟩ := idx_facts t
  have hr0 : ∀ κ : Fin 128, iblk0 V c 0 t (ix2 p κ) = V c main_arg0 (ix2 (gRow t p) κ) := fun κ => by
    show V c main_arg0 (((cfg0.win 0).blk t).view.emb (ix2 p κ)) = _
    congr 1; funext a; apply Fin.ext
    match a with
    | ⟨0, _⟩ => show win0_0.index t (0 : Fin 2) * 5000 + 1 * p.val = t.val * 5000 + p.val; omega
    | ⟨1, _⟩ => show win0_0.index t (1 : Fin 2) * 128 + 1 * κ.val = κ.val; omega
  have hr1 : ∀ κ : Fin 128, iblk0 V c 1 t (ix2 p κ) = V c main_v41 (ix2 (gRow t p) κ) := fun κ => by
    show V c main_v41 (((cfg0.win 1).blk t).view.emb (ix2 p κ)) = _
    congr 1; funext a; apply Fin.ext
    match a with
    | ⟨0, _⟩ => show win0_1.index t (0 : Fin 2) * 5000 + 1 * p.val = t.val * 5000 + p.val; omega
    | ⟨1, _⟩ => show win0_1.index t (1 : Fin 2) * 128 + 1 * κ.val = κ.val; omega
  have hr2 : ∀ κ : Fin 128, iblk0 V c 2 t (ix2 p κ) = V c main_v54 (ix2 (gRow t p) κ) := fun κ => by
    show V c main_v54 (((cfg0.win 2).blk t).view.emb (ix2 p κ)) = _
    congr 1; funext a; apply Fin.ext
    match a with
    | ⟨0, _⟩ => show win0_2.index t (0 : Fin 2) * 5000 + 1 * p.val = t.val * 5000 + p.val; omega
    | ⟨1, _⟩ => show win0_2.index t (1 : Fin 2) * 128 + 1 * κ.val = κ.val; omega
  have hr3 : ∀ κ : Fin 128, iblk0 V c 3 t (ix2 p κ) = V c main_v67 (ix2 (gRow t p) κ) := fun κ => by
    show V c main_v67 (((cfg0.win 3).blk t).view.emb (ix2 p κ)) = _
    congr 1; funext a; apply Fin.ext
    match a with
    | ⟨0, _⟩ => show win0_3.index t (0 : Fin 2) * 5000 + 1 * p.val = t.val * 5000 + p.val; omega
    | ⟨1, _⟩ => show win0_3.index t (1 : Fin 2) * 128 + 1 * κ.val = κ.val; omega
  have hW : ∀ (k : Fin 4) (κ q' : Fin 128), iblk0 V c 4 t (ix3 k κ q') = V c main_arg3 (ix3 k κ q') := fun k κ q' => by
    show V c main_arg3 (((cfg0.win 4).blk t).view.emb (ix3 k κ q')) = _
    congr 1; funext a; apply Fin.ext
    match a with
    | ⟨0, _⟩ => show win0_4.index t (0 : Fin 3) * 4 + 1 * k.val = k.val; omega
    | ⟨1, _⟩ => show win0_4.index t (1 : Fin 3) * 128 + 1 * κ.val = κ.val; omega
    | ⟨2, _⟩ => show win0_4.index t (2 : Fin 3) * 128 + 1 * q'.val = q'.val; omega
  have hb : iblk0 V c 5 t (ix2 0 q) = V c main_v68 (ix2 0 q) := by
    show V c main_v68 (((cfg0.win 5).blk t).view.emb (ix2 0 q)) = _
    congr 1; funext a; apply Fin.ext
    match a with
    | ⟨0, _⟩ => show win0_5.index t (0 : Fin 2) * 1 + 1 * 0 = 0; omega
    | ⟨1, _⟩ => show win0_5.index t (1 : Fin 2) * 128 + 1 * q.val = q.val; omega
  refine (pay1_apply _ _ p q).trans ?_
  refine (congrArg (fun z => z + iblk0 V c 5 t (ix2 0 q)) (pay5_apply _ _ _ _ _ _ _ _ p q)).trans ?_
  have hl0 : ∀ κ : Fin 128, View.ld (Val := Elt Ideal) (iblk0 V c 4 t) rW0 (ix3 0 κ q) = V c main_arg3 (ix3 0 κ q) :=
    fun κ => (ldW0 (iblk0 V c 4 t) κ q).trans (hW 0 κ q)
  have hl1 : ∀ κ : Fin 128, View.ld (Val := Elt Ideal) (iblk0 V c 4 t) rW1 (ix3 0 κ q) = V c main_arg3 (ix3 1 κ q) :=
    fun κ => (ldW1 (iblk0 V c 4 t) κ q).trans (hW 1 κ q)
  have hl2 : ∀ κ : Fin 128, View.ld (Val := Elt Ideal) (iblk0 V c 4 t) rW2 (ix3 0 κ q) = V c main_arg3 (ix3 2 κ q) :=
    fun κ => (ldW2 (iblk0 V c 4 t) κ q).trans (hW 2 κ q)
  have hl3 : ∀ κ : Fin 128, View.ld (Val := Elt Ideal) (iblk0 V c 4 t) rW3 (ix3 0 κ q) = V c main_arg3 (ix3 3 κ q) :=
    fun κ => (ldW3 (iblk0 V c 4 t) κ q).trans (hW 3 κ q)
  simp only [hr0, hr1, hr2, hr3, hl0, hl1, hl2, hl3, hb]
  rfl

set_option maxHeartbeats 4000000 in
/-- What point t writes back to the first result is block t of the linear map of the arrays the region finds. -/
theorem flushed6_eq (c : Dev nD) (t : Fin cfg0.N) :
    (dat0 V c).flushed 6 t = ((cfg0.win 6).blk t).view.read (Elt Ideal) (linA (D := 128) (V c main_arg0) (V c main_v41) (V c main_v54) (V c main_v67) (V c main_arg3) (V c main_v68)) := by
  show (cfg0.win 6).cut (grid0.coords t) ((dat0 V c).after 6 t) = _
  rw [after0_6]
  unfold outsAt0
  dsimp only
  rw [out6_eq]
  obtain ⟨-, -, -, -, -, -, -, -, -, -, -, -, -, e60, e61, -, -⟩ := idx_facts t
  funext j
  obtain ⟨p, q, rfl⟩ : ∃ (p : Fin 5000) (q : Fin 128), j = ix2 p q := ⟨j 0, j 1, eq_ix2 j⟩
  refine (blk_lin V c t p q).trans ?_
  show linA (D := 128) (V c main_arg0) (V c main_v41) (V c main_v54) (V c main_v67) (V c main_arg3) (V c main_v68) (ix2 (gRow t p) q) = linA (D := 128) (V c main_arg0) (V c main_v41) (V c main_v54) (V c main_v67) (V c main_arg3) (V c main_v68) (((cfg0.win 6).blk t).view.emb (ix2 p q))
  congr 1; funext a; apply Fin.ext
  match a with
  | ⟨0, _⟩ => show t.val * 5000 + p.val = win0_6.index t (0 : Fin 2) * 5000 + 1 * p.val; omega
  | ⟨1, _⟩ => show q.val = win0_6.index t (1 : Fin 2) * 128 + 1 * q.val; omega

theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v69_0).slice (win0_6.rect t)).set ↔ _
  rw [View.set_slice_whole, Rect.mem_set_unit]
  exact Iff.rfl

theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, -, -, -, -, e60, e61, -, -⟩ := idx_facts ⟨(i 0).val / 5000, hlt⟩
  refine ⟨⟨(i 0).val / 5000, hlt⟩, flush0_6 _, ?_⟩
  rw [mem_blk6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e60]; dsimp only; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e61]; omega

/-- The first result array after the region: the linear map of the arrays it found. -/
theorem final6 (c : Dev nD) :
    (dat0 V c).arrAt 6 cfg0.N = linA (D := 128) (V c main_arg0) (V c main_v41) (V c main_v54) (V c main_v67) (V c main_arg3) (V c main_v68) :=
  (dat0 V c).arrAt_eq_of_cover 6 _ (fun t _ => flushed6_eq V c t) cover6

set_option maxHeartbeats 8000000 in
/-- What point t writes back to the second result is block t of the per-tile statistics of the linear map. -/
theorem flushed7_eq (c : Dev nD) (t : Fin cfg0.N) :
    (dat0 V c).flushed 7 t = ((cfg0.win 7).blk t).view.read (Elt Ideal) (statA (D := 128) (linA (D := 128) (V c main_arg0) (V c main_v41) (V c main_v54) (V c main_v67) (V c main_arg3) (V c main_v68))) := by
  show (cfg0.win 7).cut (grid0.coords t) ((dat0 V c).after 7 t) = _
  rw [after0_7]
  unfold outsAt0
  dsimp only
  rw [out7_eq]
  obtain ⟨-, -, -, -, -, -, -, -, -, -, -, -, -, -, -, e70, e71⟩ := idx_facts t
  have hN : cfg0.N = 20 := N_0
  have htl : t.val < 20 := hN ▸ t.isLt
  funext j
  obtain ⟨r8, q, rfl⟩ : ∃ (r8 : Fin 8) (q : Fin 128), j = ix2 r8 q := ⟨j 0, j 1, eq_ix2 j⟩
  have hr8 : r8.val < 8 := r8.isLt
  have hemb : ((cfg0.win 7).blk t).view.emb (ix2 r8 q) = (ix2 (⟨t.val * 8 + r8.val, by omega⟩ : Fin 160) q : S160x128.Idx) := by
    funext a; apply Fin.ext
    match a with
    | ⟨0, _⟩ => show win0_7.index t (0 : Fin 2) * 8 + 1 * r8.val = t.val * 8 + r8.val; omega
    | ⟨1, _⟩ => show win0_7.index t (1 : Fin 2) * 128 + 1 * q.val = q.val; omega
  show View.canon (Val := Elt Ideal) (s := S8x128) (e := .f32) _ (ix2 r8 q) = statA (D := 128) (linA (D := 128) (V c main_arg0) (V c main_v41) (V c main_v54) (V c main_v67) (V c main_arg3) (V c main_v68)) (((cfg0.win 7).blk t).view.emb (ix2 r8 q))
  rw [hemb]
  have hsum : ∀ r : Fin 5000, k0_pay1 (F := Ideal) (k0_pay5 (F := Ideal) (iblk0 V c 0 t) (View.ld (Val := Elt Ideal) (iblk0 V c 4 t) rW0) (iblk0 V c 1 t) (View.ld (Val := Elt Ideal) (iblk0 V c 4 t) rW1) (iblk0 V c 2 t) (View.ld (Val := Elt Ideal) (iblk0 V c 4 t) rW2) (iblk0 V c 3 t) (View.ld (Val := Elt Ideal) (iblk0 V c 4 t) rW3)) (iblk0 V c 5 t) (ix2 r q)
      = linA (D := 128) (V c main_arg0) (V c main_v41) (V c main_v54) (V c main_v67) (V c main_arg3) (V c main_v68) (ix2 (tileRow (tileOf (⟨t.val * 8 + r8.val, by omega⟩ : Fin 160)) r) q) := fun r =>
    (blk_lin V c t r q).trans (congrArg (fun n => linA (D := 128) (V c main_arg0) (V c main_v41) (V c main_v54) (V c main_v67) (V c main_arg3) (V c main_v68) (ix2 n q))
      (Fin.ext (by show t.val * 5000 + r.val = (t.val * 8 + r8.val) / 8 * 5000 + r.val; omega)))
  unfold statA
  dsimp only
  rcases r8 with ⟨r, hr⟩
  match r, hr with
  | 0, _ =>
    rw [if_pos (by show (t.val * 8 + 0) % 8 = 0; omega)]
    refine (canon_row0 _ _ _ q).trans ?_
    refine (pay2_apply _ _ q).trans ?_
    exact Finset.sum_congr rfl fun r' _ => hsum r'
  | 1, _ =>
    rw [if_neg (by show ¬ (t.val * 8 + 1) % 8 = 0; omega), if_pos (by show (t.val * 8 + 1) % 8 = 1; omega)]
    refine (canon_row1 _ _ _ q).trans ?_
    refine (pay3_apply _ _ q).trans ?_
    exact Finset.sum_congr rfl fun r' _ => congrArg₂ (fun (a b : EReal) => a * b) (hsum r') (hsum r')
  | r + 2, hr' =>
    rw [if_neg (by show ¬ (t.val * 8 + (r + 2)) % 8 = 0; omega), if_neg (by show ¬ (t.val * 8 + (r + 2)) % 8 = 1; omega)]
    exact (canon_rowz _ _ _ ⟨r, by omega⟩ q).trans (pay4_apply _)

theorem mem_blk7 (t : Fin cfg0.N) (i : S160x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v69_1).slice (win0_7.rect t)).set ↔ _
  rw [View.set_slice_whole, Rect.mem_set_unit]
  exact Iff.rfl

theorem cover7 (i : S160x128.Idx) : ∃ t : Fin cfg0.N, (cfg0.win 7).flush t = true ∧ i ∈ ((cfg0.win 7).blk t).view.set := by
  have hi0 : (i 0).val < 160 := (i 0).isLt
  have hi1 : (i 1).val < 128 := (i 1).isLt
  have hN : cfg0.N = 20 := N_0
  have hlt : (i 0).val / 8 < cfg0.N := by rw [hN]; omega
  obtain ⟨-, -, -, -, -, -, -, -, -, -, -, -, -, -, -, e70, e71⟩ := idx_facts ⟨(i 0).val / 8, hlt⟩
  refine ⟨⟨(i 0).val / 8, hlt⟩, flush0_7 _, ?_⟩
  rw [mem_blk7]
  intro a
  match a with
  | ⟨0, _⟩ =>
    show win0_7.index ⟨(i 0).val / 8, hlt⟩ (0 : Fin 2) * 8 ≤ (i 0).val ∧ (i 0).val < win0_7.index ⟨(i 0).val / 8, hlt⟩ (0 : Fin 2) * 8 + 8
    rw [e70]; dsimp only; omega
  | ⟨1, _⟩ =>
    show win0_7.index ⟨(i 0).val / 8, hlt⟩ (1 : Fin 2) * 128 ≤ (i 1).val ∧ (i 1).val < win0_7.index ⟨(i 0).val / 8, hlt⟩ (1 : Fin 2) * 128 + 128
    rw [e71]; omega

/-- The second result array after the region: the per-tile statistics of the linear map of the arrays it found. -/
theorem final7 (c : Dev nD) :
    (dat0 V c).arrAt 7 cfg0.N = statA (D := 128) (linA (D := 128) (V c main_arg0) (V c main_v41) (V c main_v54) (V c main_v67) (V c main_arg3) (V c main_v68)) :=
  (dat0 V c).arrAt_eq_of_cover 7 _ (fun t _ => flushed7_eq V c t) cover7

end Cert.KernelIdeal.Reg0

end
-- ==== Proof.KReg1.lean ====
/- The first normalise-and-rectify region: twenty row blocks of 5000 nodes; at each the body reads its block of the layer
   output and the four parameter rows whole, and stores one pointwise expression of them. So the result array is that
   expression of the arrays the region finds, index by index: block t holds rows 5000·t … 5000·t + 4999, and the twenty
   blocks cover the array. -/
import proofs.«167710_j39049842655736_2_alg».proof.Proof.KSpec
import proofs.«167710_j39049842655736_2_alg».proof.Proof.Gen.KernelIdeal.Frame
import Idealize.ShloMosaic.Lib.Pipeline.Value
import Idealize.ShloMosaic.Lib.ValueLayout

set_option maxRecDepth 16384

noncomputable section

namespace Cert.KernelIdeal.Reg1

open Cert.KernelIdeal Cert.KernelIdeal.Gen Cert.KSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an index of the block: the scalar expression of the block's entry and the rows' entries in
    its column. -/
theorem rsqrt_apply {s : Shape} (v : FVec Ideal s .f32) (i : s.Idx) : rsqrt v i = Ideal.rsqrt (v i) := rfl

theorem pay_apply (x0 : FVec Ideal S5000x128 .f32) (vr mu g be : FVec Ideal S1x128 .f32) (p : Fin 5000) (q : Fin 128) :
    k1_pay1 (F := Ideal) x0 vr mu g be (ix2 p q) = lreluGt (affS (x0 (ix2 p q)) (mu (ix2 0 q)) (vr (ix2 0 q)) (g (ix2 0 q)) (be (ix2 0 q))) := by
  unfold k1_pay1 lreluGt affS
  simp only [shapeCast_self, select_apply, cmpf_apply, addf_apply, mulf_apply, subf_apply, broadcast_apply,
    broadcastTo_1b_ab_apply, rsqrt_apply]
  rfl

/-- The printed index maps, decided over the grid: the layer output's window and the result's move together down the rows,
    and the four parameter rows stay put. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 2000000 in
/-- What point t writes back is block t of the whole-array expression of the arrays the region finds. -/
theorem flushed_eq (c : Dev nD) (t : Fin cfg1.N) :
    (dat1 V c).flushed 5 t = ((cfg1.win 5).blk t).view.read (Elt Ideal)
      (actA (D := 128) (V c main_v69_0) (V c main_v85) (V c main_v86) (V c main_v87) (V c main_v88)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (pay_apply _ _ _ _ _ p q).trans ?_
  show lreluGt (affS (V c main_v69_0 (((cfg1.win 0).blk t).view.emb (ix2 p q))) (V c main_v85 (((cfg1.win 1).blk t).view.emb (ix2 0 q)))
      (V c main_v86 (((cfg1.win 2).blk t).view.emb (ix2 0 q))) (V c main_v87 (((cfg1.win 3).blk t).view.emb (ix2 0 q)))
      (V c main_v88 (((cfg1.win 4).blk t).view.emb (ix2 0 q))))
    = lreluGt (affS (V c main_v69_0 (((cfg1.win 5).blk t).view.emb (ix2 p q)))
      (V c main_v85 (ix2 0 ((((cfg1.win 5).blk t).view.emb (ix2 p q)) 1))) (V c main_v86 (ix2 0 ((((cfg1.win 5).blk t).view.emb (ix2 p q)) 1)))
      (V c main_v87 (ix2 0 ((((cfg1.win 5).blk t).view.emb (ix2 p q)) 1))) (V c main_v88 (ix2 0 ((((cfg1.win 5).blk t).view.emb (ix2 p q)) 1))))
  have h0 : ((cfg1.win 0).blk t).view.emb (ix2 p q) = ((cfg1.win 5).blk t).view.emb (ix2 p q) := by
    funext a; apply Fin.ext
    match a with
    | ⟨0, _⟩ => show win1_0.index t (0 : Fin 2) * 5000 + 1 * (p).val = win1_5.index t (0 : Fin 2) * 5000 + 1 * p.val; omega
    | ⟨1, _⟩ => show win1_0.index t (1 : Fin 2) * 128 + 1 * q.val = win1_5.index t (1 : Fin 2) * 128 + 1 * q.val; omega
  have h1 : ((cfg1.win 1).blk t).view.emb (ix2 0 q) = ix2 0 ((((cfg1.win 5).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_5.index t (1 : Fin 2) * 128 + 1 * q.val; omega
  have h2 : ((cfg1.win 2).blk t).view.emb (ix2 0 q) = ix2 0 ((((cfg1.win 5).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_5.index t (1 : Fin 2) * 128 + 1 * q.val; omega
  have h3 : ((cfg1.win 3).blk t).view.emb (ix2 0 q) = ix2 0 ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (ix2 0 q) = ix2 0 ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  rw [h0, h1, h2, h3, h4]
  rfl

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v89).slice (win1_5.rect t)).set ↔ _
  rw [View.set_slice_whole, Rect.mem_set_unit]
  exact Iff.rfl

/-- Every row is in some block: row r is in block r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, e50, e51⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]; dsimp only; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e51]; omega

/-- The result array after the region: the normalise-and-rectify expression of the arrays it found. -/
theorem final (c : Dev nD) :
    (dat1 V c).arrAt 5 cfg1.N = actA (D := 128) (V c main_v69_0) (V c main_v85) (V c main_v86) (V c main_v87) (V c main_v88) :=
  (dat1 V c).arrAt_eq_of_cover 5 _ (fun t _ => flushed_eq V c t) cover

end Cert.KernelIdeal.Reg1

end
-- ==== Proof.KReg2.lean ====
/- The second linear region: twenty row blocks of 5000 nodes; at each the body multiplies the block of the features and of
   their three propagations by the four weight matrices, sums the products from zero, adds the bias row and stores the
   block; it also stores, in an eight-row record per block, the block's column sums (row 0), its column sums of squares
   (row 1) and zeros. So the first result array is the linear map of the arrays the region finds, index by index, and the
   second holds each block's column statistics of it. -/
import proofs.«167710_j39049842655736_2_alg».proof.Proof.KSpec
import proofs.«167710_j39049842655736_2_alg».proof.Proof.DotLib
import proofs.«167710_j39049842655736_2_alg».proof.Proof.Gen.KernelIdeal.Frame
import Idealize.ShloMosaic.Lib.Pipeline.Value
import Idealize.ShloMosaic.Lib.ValueLayout
import Idealize.ShloMosaic.Lib.Tactic

set_option maxRecDepth 16384

noncomputable section

namespace Cert.KernelIdeal.Reg2

open Cert.KernelIdeal Cert.KernelIdeal.Gen Cert.KSpec
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-- The four weight matrices as rectangles of the weight block. -/
abbrev rW0 : Rect S4x128x128 := Rect.unit (s := S4x128x128) ![0, 0, 0] S1x128x128.size inb_S4x128x128_S1x128x128_0_0_0
abbrev rW1 : Rect S4x128x128 := Rect.unit (s := S4x128x128) ![1, 0, 0] S1x128x128.size inb_S4x128x128_S1x128x128_1_0_0
abbrev rW2 : Rect S4x128x128 := Rect.unit (s := S4x128x128) ![2, 0, 0] S1x128x128.size inb_S4x128x128_S1x128x128_2_0_0
abbrev rW3 : Rect S4x128x128 := Rect.unit (s := S4x128x128) ![3, 0, 0] S1x128x128.size inb_S4x128x128_S1x128x128_3_0_0
/-- The statistics record's three pieces: row 0, row 1, rows 2 to 7. -/
abbrev rS0 : Rect S8x128 := Rect.unit (s := S8x128) ![0, 0] S1x128.size inb_S8x128_S1x128_0_0
abbrev rS1 : Rect S8x128 := Rect.unit (s := S8x128) ![1, 0] S1x128.size inb_S8x128_S1x128_1_0
abbrev rS2 : Rect S8x128 := Rect.unit (s := S8x128) ![2, 0] S6x128.size inb_S8x128_S6x128_2_0

section Pieces
variable {F : FTy → Type} [FloatOps F]

/-- What the body leaves in the first output's buffer: the bias added to the four-term sum of the blocks it loaded. -/
theorem out6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S4x128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole)
    (x0 : Vec F S5000x128 .f32) (x1 : Vec F S5000x128 .f32) (x2 : Vec F S5000x128 .f32) (x3 : Vec F S5000x128 .f32) (x4 : Vec F S4x128x128 .f32) (x5 : Vec F S1x128 .f32) :
    out2_A_6 c i arg1 harg1 arg2 harg2 arg3 harg3 arg4 harg4 arg5 harg5 arg6 harg6 arg7 harg7 arg8 harg8 x0 x1 x2 x3 x4 x5 = k2_pay1 (k2_pay5 x0 (View.ld x4 rW0) x1 (View.ld x4 rW1) x2 (View.ld x4 rW2) x3 (View.ld x4 rW3)) x5 := by
  unfold out2_A_6
  rw [View.read_writes_eq_canon _ _ _ (cover2_A_6 c i arg1 harg1 arg2 harg2 arg3 harg3 arg4 harg4 arg5 harg5 arg6 harg6 arg7 harg7 arg8 harg8 x0 x1 x2 x3 x4 x5)]
  unfold kernelRun2_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S5000x128) hz, View.ld_unit_zero (S := S1x128) hz]

/-- What the body leaves in the second output's buffer: its three stores, the last first. -/
theorem out7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S4x128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S8x128 .f32) (harg8 : arg8.IsWhole)
    (x0 : Vec F S5000x128 .f32) (x1 : Vec F S5000x128 .f32) (x2 : Vec F S5000x128 .f32) (x3 : Vec F S5000x128 .f32) (x4 : Vec F S4x128x128 .f32) (x5 : Vec F S1x128 .f32) :
    out2_A_7 c i arg1 harg1 arg2 harg2 arg3 harg3 arg4 harg4 arg5 harg5 arg6 harg6 arg7 harg7 arg8 harg8 x0 x1 x2 x3 x4 x5 = View.canon [⟨rS2, k2_pay4⟩, ⟨rS1, k2_pay3 (k2_pay5 x0 (View.ld x4 rW0) x1 (View.ld x4 rW1) x2 (View.ld x4 rW2) x3 (View.ld x4 rW3)) x5⟩, ⟨rS0, k2_pay2 (k2_pay5 x0 (View.ld x4 rW0) x1 (View.ld x4 rW1) x2 (View.ld x4 rW2) x3 (View.ld x4 rW3)) x5⟩] := by
  unfold out2_A_7
  rw [View.read_writes_eq_canon _ _ _ (cover2_A_7 c i arg1 harg1 arg2 harg2 arg3 harg3 arg4 harg4 arg5 harg5 arg6 harg6 arg7 harg7 arg8 harg8 x0 x1 x2 x3 x4 x5)]
  unfold kernelRun2_A
  dsimp only
  sl_unfold_words
  simp only [View.readAt_eq_ld, harg1.read_unread, harg2.read_unread, harg3.read_unread, harg4.read_unread, harg5.read_unread, harg6.read_unread,
    View.ld_unit_zero (S := S5000x128) hz, View.ld_unit_zero (S := S1x128) hz]

end Pieces

set_option maxHeartbeats 1000000 in
/-- Row 0 of the record is under the first store only, row 1 under the second only. -/
theorem canon_row0 (P2 : S6x128.Idx → EReal) (P1 P0 : S1x128.Idx → EReal) (q : Fin 128) :
    View.canon [(⟨rS2, P2⟩ : View.Piece (Elt Ideal) S8x128 .f32), ⟨rS1, P1⟩, ⟨rS0, P0⟩] (ix2 0 q) = P0 (ix2 0 q) := by
  have n2 : (ix2 (0 : Fin 8) q : S8x128.Idx) ∉ rS2.set := by
    rw [Rect.mem_set_unit]
    intro h
    have h0 : (2 : ℕ) ≤ 0 := (h 0).1
    omega
  have n1 : (ix2 (0 : Fin 8) q : S8x128.Idx) ∉ rS1.set := by
    rw [Rect.mem_set_unit]
    intro h
    have h0 : (1 : ℕ) ≤ 0 := (h 0).1
    omega
  rw [View.canon_cons_of_not_mem (⟨rS2, P2⟩ : View.Piece (Elt Ideal) S8x128 .f32) _ n2,
    View.canon_cons_of_not_mem (⟨rS1, P1⟩ : View.Piece (Elt Ideal) S8x128 .f32) _ n1]
  have e : (ix2 (0 : Fin 8) q : S8x128.Idx) = rS0.emb (ix2 (0 : Fin 1) q) := by
    funext a; apply Fin.ext
    match a with
    | ⟨0, _⟩ => show (0 : ℕ) = 0 + 1 * 0; rfl
    | ⟨1, _⟩ => show q.val = 0 + 1 * q.val; omega
  rw [e, View.canon_cons_emb]

set_option maxHeartbeats 1000000 in
theorem canon_row1 (P2 : S6x128.Idx → EReal) (P1 P0 : S1x128.Idx → EReal) (q : Fin 128) :
    View.canon [(⟨rS2, P2⟩ : View.Piece (Elt Ideal) S8x128 .f32), ⟨rS1, P1⟩, ⟨rS0, P0⟩] (ix2 1 q) = P1 (ix2 0 q) := by
  have n2 : (ix2 (1 : Fin 8) q : S8x128.Idx) ∉ rS2.set := by
    rw [Rect.mem_set_unit]
    intro h
    have h0 : (2 : ℕ) ≤ 1 := (h 0).1
    omega
  rw [View.canon_cons_of_not_mem (⟨rS2, P2⟩ : View.Piece (Elt Ideal) S8x128 .f32) _ n2]
  have e : (ix2 (1 : Fin 8) q : S8x128.Idx) = rS1.emb (ix2 (0 : Fin 1) q) := by
    funext a; apply Fin.ext
    match a with
    | ⟨0, _⟩ => show (1 : ℕ) = 1 + 1 * 0; rfl
    | ⟨1, _⟩ => show q.val = 0 + 1 * q.val; omega
  rw [e, View.canon_cons_emb]

set_option maxHeartbeats 1000000 in
/-- Rows 2 to 7 are under the third store: zero. -/
theorem canon_rowz (P2 : S6x128.Idx → EReal) (P1 P0 : S1x128.Idx → EReal) (r : Fin 6) (q : Fin 128) :
    View.canon [(⟨rS2, P2⟩ : View.Piece (Elt Ideal) S8x128 .f32), ⟨rS1, P1⟩, ⟨rS0, P0⟩] (ix2 ⟨r.val + 2, by omega⟩ q) = P2 (ix2 r q) := by
  have e : (ix2 (⟨r.val + 2, by omega⟩ : Fin 8) q : S8x128.Idx) = rS2.emb (ix2 r q) := by
    funext a; apply Fin.ext
    match a with
    | ⟨0, _⟩ => show r.val + 2 = 2 + 1 * r.val; omega
    | ⟨1, _⟩ => show q.val = 0 + 1 * q.val; omega
  rw [e, View.canon_cons_emb]

/-- One weight matrix read out of the weight block. -/
theorem ldW0 (x4 : Vec Ideal S4x128x128 .f32) (κ : Fin 128) (q : Fin 128) :
    View.ld (Val := Elt Ideal) x4 rW0 (ix3 0 κ q) = x4 (ix3 0 κ q) := by
  show x4 _ = x4 _
  congr 1; funext a; apply Fin.ext
  match a with
  | ⟨0, _⟩ => show 0 + 1 * 0 = 0; rfl
  | ⟨1, _⟩ => show 0 + 1 * κ.val = κ.val; omega
  | ⟨2, _⟩ => show 0 + 1 * q.val = q.val; omega
theorem ldW1 (x4 : Vec Ideal S4x128x128 .f32) (κ : Fin 128) (q : Fin 128) :
    View.ld (Val := Elt Ideal) x4 rW1 (ix3 0 κ q) = x4 (ix3 1 κ q) := by
  show x4 _ = x4 _
  congr 1; funext a; apply Fin.ext
  match a with
  | ⟨0, _⟩ => show 1 + 1 * 0 = 1; rfl
  | ⟨1, _⟩ => show 0 + 1 * κ.val = κ.val; omega
  | ⟨2, _⟩ => show 0 + 1 * q.val = q.val; omega
theorem ldW2 (x4 : Vec Ideal S4x128x128 .f32) (κ : Fin 128) (q : Fin 128) :
    View.ld (Val := Elt Ideal) x4 rW2 (ix3 0 κ q) = x4 (ix3 2 κ q) := by
  show x4 _ = x4 _
  congr 1; funext a; apply Fin.ext
  match a with
  | ⟨0, _⟩ => show 2 + 1 * 0 = 2; rfl
  | ⟨1, _⟩ => show 0 + 1 * κ.val = κ.val; omega
  | ⟨2, _⟩ => show 0 + 1 * q.val = q.val; omega
theorem ldW3 (x4 : Vec Ideal S4x128x128 .f32) (κ : Fin 128) (q : Fin 128) :
    View.ld (Val := Elt Ideal) x4 rW3 (ix3 0 κ q) = x4 (ix3 3 κ q) := by
  show x4 _ = x4 _
  congr 1; funext a; apply Fin.ext
  match a with
  | ⟨0, _⟩ => show 3 + 1 * 0 = 3; rfl
  | ⟨1, _⟩ => show 0 + 1 * κ.val = κ.val; omega
  | ⟨2, _⟩ => show 0 + 1 * q.val = q.val; omega

/-- One product term of the body at an index: the block's row times the weight matrix's column. -/
theorem mm_apply (x : FVec Ideal S5000x128 .f32) (w : FVec Ideal S1x128x128 .f32) (p : Fin 5000) (q : Fin 128) :
    matmul dot_S5000x128_S128x128_S5000x128_1_0_0_1_n_n none (truncf .bf16 x bitsLt_bf16_f32)
        (truncf .bf16 (shapeCast S128x128 w shapeCasts_S1x128x128_S128x128) bitsLt_bf16_f32) (constant S5000x128 .f32 0x00000000#32) (ix2 p q)
      = ∑ κ : Fin 128, x (ix2 p κ) * w (ix3 0 κ q) := by
  refine (Ideal.matmul_constant_zero_apply (DotDims.plain 5000 128 128) none _ _ (ix2 p q)).trans ?_
  refine (Cert.DotLib.plain_sum 5000 128 128 _ _ p q).trans ?_
  refine Finset.sum_congr rfl fun κ _ => ?_
  show x (ix2 p κ) * shapeCast S128x128 w shapeCasts_S1x128x128_S128x128 (ix2 κ q) = _
  rw [shapeCast_1ab_ab_apply]

/-- The four-term sum at an index of the block. -/
theorem pay5_apply (v1 v8 v16 v24 : FVec Ideal S5000x128 .f32) (v3 v11 v19 v27 : FVec Ideal S1x128x128 .f32) (p : Fin 5000) (q : Fin 128) :
    k2_pay5 (F := Ideal) v1 v3 v8 v11 v16 v19 v24 v27 (ix2 p q)
      = (((zero32 + ∑ κ : Fin 128, v1 (ix2 p κ) * v3 (ix3 0 κ q)) + ∑ κ : Fin 128, v8 (ix2 p κ) * v11 (ix3 0 κ q))
          + ∑ κ : Fin 128, v16 (ix2 p κ) * v19 (ix3 0 κ q)) + ∑ κ : Fin 128, v24 (ix2 p κ) * v27 (ix3 0 κ q) := by
  unfold k2_pay5
  simp only [shapeCast_self, addf_apply, broadcast_apply, mm_apply]
  rfl

/-- The bias add at an index of the block. -/
theorem pay1_apply (v31 : FVec Ideal S5000x128 .f32) (v32 : FVec Ideal S1x128 .f32) (p : Fin 5000) (q : Fin 128) :
    k2_pay1 (F := Ideal) v31 v32 (ix2 p q) = v31 (ix2 p q) + v32 (ix2 0 q) := by
  unfold k2_pay1
  simp only [shapeCast_self, addf_apply, broadcastTo_1b_ab_apply]

/-- The column sums of the block. -/
theorem pay2_apply (v31 : FVec Ideal S5000x128 .f32) (v32 : FVec Ideal S1x128 .f32) (q : Fin 128) :
    k2_pay2 (F := Ideal) v31 v32 (ix2 0 q) = ∑ r : Fin 5000, k2_pay1 (F := Ideal) v31 v32 (ix2 r q) := by
  unfold k2_pay2
  refine (shapeCast_a_1a_apply _ _ 0 q).trans ?_
  refine (Ideal.multiReduction_add_single (k2_pay1 (F := Ideal) v31 v32) 0x00000000#32 reduces_S5000x128_S128 (.inl rfl) rfl (ix1 q)).trans ?_
  exact Finset.sum_congr rfl fun r _ => congrArg _ (by
    funext a; apply Fin.ext
    match a with
    | ⟨0, _⟩ => rfl
    | ⟨1, _⟩ => rfl)

/-- The column sums of squares of the block. -/
theorem pay3_apply (v31 : FVec Ideal S5000x128 .f32) (v32 : FVec Ideal S1x128 .f32) (q : Fin 128) :
    k2_pay3 (F := Ideal) v31 v32 (ix2 0 q)
      = ∑ r : Fin 5000, k2_pay1 (F := Ideal) v31 v32 (ix2 r q) * k2_pay1 (F := Ideal) v31 v32 (ix2 r q) := by
  unfold k2_pay3
  refine (shapeCast_a_1a_apply _ _ 0 q).trans ?_
  refine (Ideal.multiReduction_add_single (mulf (k2_pay1 (F := Ideal) v31 v32) (k2_pay1 (F := Ideal) v31 v32)) 0x00000000#32 reduces_S5000x128_S128 (.inl rfl) rfl (ix1 q)).trans ?_
  exact Finset.sum_congr rfl fun r _ => congrArg (fun j => k2_pay1 (F := Ideal) v31 v32 j * k2_pay1 (F := Ideal) v31 v32 j) (by
    funext a; apply Fin.ext
    match a with
    | ⟨0, _⟩ => rfl
    | ⟨1, _⟩ => rfl)

/-- The zero rows. -/
theorem pay4_apply (j : S6x128.Idx) : k2_pay4 (F := Ideal) j = zero32 := rfl

variable (V : (c : Dev nD) → (b : Ref sig .tc) → Buf (Elt Ideal) ((c : Thread nD τ).loc b))

/-- The printed index maps, decided over the grid: the four feature windows and the two results move together down the
    rows; the weights and the bias stay put. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = 0 ∧ win2_4.index t (1 : Fin 3) = 0 ∧ win2_4.index t (2 : Fin 3) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row p of block t is row 5000·t + p of the array. -/
def gRow (t : Fin cfg2.N) (p : Fin 5000) : Fin 100000 :=
  ⟨t.val * 5000 + p.val, by have hN : cfg2.N = 20 := N_2; have := t.isLt; have := p.isLt; omega⟩

set_option maxHeartbeats 4000000 in
/-- The body's biased sum at row p, column q of block t is the linear map of the arrays the region finds, at row 5000·t + p. -/
theorem blk_lin (c : Dev nD) (t : Fin cfg2.N) (p : Fin 5000) (q : Fin 128) :
    k2_pay1 (F := Ideal) (k2_pay5 (F := Ideal) (iblk2 V c 0 t) (View.ld (Val := Elt Ideal) (iblk2 V c 4 t) rW0) (iblk2 V c 1 t) (View.ld (Val := Elt Ideal) (iblk2 V c 4 t) rW1) (iblk2 V c 2 t) (View.ld (Val := Elt Ideal) (iblk2 V c 4 t) rW2) (iblk2 V c 3 t) (View.ld (Val := Elt Ideal) (iblk2 V c 4 t) rW3)) (iblk2 V c 5 t) (ix2 p q)
      = linA (D := 128) (V c main_v89) (V c main_v102) (V c main_v115) (V c main_v128) (V c main_arg7) (V c main_v129) (ix2 (gRow t p) q) := by
  obtain ⟨e00, e01, e10, e11, e20, e21, e30, e31, e40, e41, e42, e50, e51, -, -, -, -⟩ := idx_facts t
  have hr0 : ∀ κ : Fin 128, iblk2 V c 0 t (ix2 p κ) = V c main_v89 (ix2 (gRow t p) κ) := fun κ => by
    show V c main_v89 (((cfg2.win 0).blk t).view.emb (ix2 p κ)) = _
    congr 1; funext a; apply Fin.ext
    match a with
    | ⟨0, _⟩ => show win2_0.index t (0 : Fin 2) * 5000 + 1 * p.val = t.val * 5000 + p.val; omega
    | ⟨1, _⟩ => show win2_0.index t (1 : Fin 2) * 128 + 1 * κ.val = κ.val; omega
  have hr1 : ∀ κ : Fin 128, iblk2 V c 1 t (ix2 p κ) = V c main_v102 (ix2 (gRow t p) κ) := fun κ => by
    show V c main_v102 (((cfg2.win 1).blk t).view.emb (ix2 p κ)) = _
    congr 1; funext a; apply Fin.ext
    match a with
    | ⟨0, _⟩ => show win2_1.index t (0 : Fin 2) * 5000 + 1 * p.val = t.val * 5000 + p.val; omega
    | ⟨1, _⟩ => show win2_1.index t (1 : Fin 2) * 128 + 1 * κ.val = κ.val; omega
  have hr2 : ∀ κ : Fin 128, iblk2 V c 2 t (ix2 p κ) = V c main_v115 (ix2 (gRow t p) κ) := fun κ => by
    show V c main_v115 (((cfg2.win 2).blk t).view.emb (ix2 p κ)) = _
    congr 1; funext a; apply Fin.ext
    match a with
    | ⟨0, _⟩ => show win2_2.index t (0 : Fin 2) * 5000 + 1 * p.val = t.val * 5000 + p.val; omega
    | ⟨1, _⟩ => show win2_2.index t (1 : Fin 2) * 128 + 1 * κ.val = κ.val; omega
  have hr3 : ∀ κ : Fin 128, iblk2 V c 3 t (ix2 p κ) = V c main_v128 (ix2 (gRow t p) κ) := fun κ => by
    show V c main_v128 (((cfg2.win 3).blk t).view.emb (ix2 p κ)) = _
    congr 1; funext a; apply Fin.ext
    match a with
    | ⟨0, _⟩ => show win2_3.index t (0 : Fin 2) * 5000 + 1 * p.val = t.val * 5000 + p.val; omega
    | ⟨1, _⟩ => show win2_3.index t (1 : Fin 2) * 128 + 1 * κ.val = κ.val; omega
  have hW : ∀ (k : Fin 4) (κ : Fin 128) (q' : Fin 128), iblk2 V c 4 t (ix3 k κ q') = V c main_arg7 (ix3 k κ q') := fun k κ q' => by
    show V c main_arg7 (((cfg2.win 4).blk t).view.emb (ix3 k κ q')) = _
    congr 1; funext a; apply Fin.ext
    match a with
    | ⟨0, _⟩ => show win2_4.index t (0 : Fin 3) * 4 + 1 * k.val = k.val; omega
    | ⟨1, _⟩ => show win2_4.index t (1 : Fin 3) * 128 + 1 * κ.val = κ.val; omega
    | ⟨2, _⟩ => show win2_4.index t (2 : Fin 3) * 128 + 1 * q'.val = q'.val; omega
  have hb : iblk2 V c 5 t (ix2 0 q) = V c main_v129 (ix2 0 q) := by
    show V c main_v129 (((cfg2.win 5).blk t).view.emb (ix2 0 q)) = _
    congr 1; funext a; apply Fin.ext
    match a with
    | ⟨0, _⟩ => show win2_5.index t (0 : Fin 2) * 1 + 1 * 0 = 0; omega
    | ⟨1, _⟩ => show win2_5.index t (1 : Fin 2) * 128 + 1 * q.val = q.val; omega
  refine (pay1_apply _ _ p q).trans ?_
  refine (congrArg (fun z => z + iblk2 V c 5 t (ix2 0 q)) (pay5_apply _ _ _ _ _ _ _ _ p q)).trans ?_
  have hl0 : ∀ κ : Fin 128, View.ld (Val := Elt Ideal) (iblk2 V c 4 t) rW0 (ix3 0 κ q) = V c main_arg7 (ix3 0 κ q) :=
    fun κ => (ldW0 (iblk2 V c 4 t) κ q).trans (hW 0 κ q)
  have hl1 : ∀ κ : Fin 128, View.ld (Val := Elt Ideal) (iblk2 V c 4 t) rW1 (ix3 0 κ q) = V c main_arg7 (ix3 1 κ q) :=
    fun κ => (ldW1 (iblk2 V c 4 t) κ q).trans (hW 1 κ q)
  have hl2 : ∀ κ : Fin 128, View.ld (Val := Elt Ideal) (iblk2 V c 4 t) rW2 (ix3 0 κ q) = V c main_arg7 (ix3 2 κ q) :=
    fun κ => (ldW2 (iblk2 V c 4 t) κ q).trans (hW 2 κ q)
  have hl3 : ∀ κ : Fin 128, View.ld (Val := Elt Ideal) (iblk2 V c 4 t) rW3 (ix3 0 κ q) = V c main_arg7 (ix3 3 κ q) :=
    fun κ => (ldW3 (iblk2 V c 4 t) κ q).trans (hW 3 κ q)
  simp only [hr0, hr1, hr2, hr3, hl0, hl1, hl2, hl3, hb]
  rfl

set_option maxHeartbeats 4000000 in
/-- What point t writes back to the first result is block t of the linear map of the arrays the region finds. -/
theorem flushed6_eq (c : Dev nD) (t : Fin cfg2.N) :
    (dat2 V c).flushed 6 t = ((cfg2.win 6).blk t).view.read (Elt Ideal) (linA (D := 128) (V c main_v89) (V c main_v102) (V c main_v115) (V c main_v128) (V c main_arg7) (V c main_v129)) := by
  show (cfg2.win 6).cut (grid2.coords t) ((dat2 V c).after 6 t) = _
  rw [after2_6]
  unfold outsAt2
  dsimp only
  rw [out6_eq]
  obtain ⟨-, -, -, -, -, -, -, -, -, -, -, -, -, e60, e61, -, -⟩ := idx_facts t
  funext j
  obtain ⟨p, q, rfl⟩ : ∃ (p : Fin 5000) (q : Fin 128), j = ix2 p q := ⟨j 0, j 1, eq_ix2 j⟩
  refine (blk_lin V c t p q).trans ?_
  show linA (D := 128) (V c main_v89) (V c main_v102) (V c main_v115) (V c main_v128) (V c main_arg7) (V c main_v129) (ix2 (gRow t p) q) = linA (D := 128) (V c main_v89) (V c main_v102) (V c main_v115) (V c main_v128) (V c main_arg7) (V c main_v129) (((cfg2.win 6).blk t).view.emb (ix2 p q))
  congr 1; funext a; apply Fin.ext
  match a with
  | ⟨0, _⟩ => show t.val * 5000 + p.val = win2_6.index t (0 : Fin 2) * 5000 + 1 * p.val; omega
  | ⟨1, _⟩ => show q.val = win2_6.index t (1 : Fin 2) * 128 + 1 * q.val; omega

theorem mem_blk6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v130_0).slice (win2_6.rect t)).set ↔ _
  rw [View.set_slice_whole, Rect.mem_set_unit]
  exact Iff.rfl

theorem cover6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, -, -, -, -, -, -, -, e60, e61, -, -⟩ := idx_facts ⟨(i 0).val / 5000, hlt⟩
  refine ⟨⟨(i 0).val / 5000, hlt⟩, flush2_6 _, ?_⟩
  rw [mem_blk6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e60]; dsimp only; omega
  | ⟨1, _⟩ =>
    show win2_6.index ⟨(i 0).val / 5000, hlt⟩ (1 : Fin 2) * 128 ≤ (i 1).val ∧ (i 1).val < win2_6.index ⟨(i 0).val / 5000, hlt⟩ (1 : Fin 2) * 128 + 128
    rw [e61]; omega

/-- The first result array after the region: the linear map of the arrays it found. -/
theorem final6 (c : Dev nD) :
    (dat2 V c).arrAt 6 cfg2.N = linA (D := 128) (V c main_v89) (V c main_v102) (V c main_v115) (V c main_v128) (V c main_arg7) (V c main_v129) :=
  (dat2 V c).arrAt_eq_of_cover 6 _ (fun t _ => flushed6_eq V c t) cover6

set_option maxHeartbeats 8000000 in
/-- What point t writes back to the second result is block t of the per-tile statistics of the linear map. -/
theorem flushed7_eq (c : Dev nD) (t : Fin cfg2.N) :
    (dat2 V c).flushed 7 t = ((cfg2.win 7).blk t).view.read (Elt Ideal) (statA (D := 128) (linA (D := 128) (V c main_v89) (V c main_v102) (V c main_v115) (V c main_v128) (V c main_arg7) (V c main_v129))) := by
  show (cfg2.win 7).cut (grid2.coords t) ((dat2 V c).after 7 t) = _
  rw [after2_7]
  unfold outsAt2
  dsimp only
  rw [out7_eq]
  obtain ⟨-, -, -, -, -, -, -, -, -, -, -, -, -, -, -, e70, e71⟩ := idx_facts t
  have hN : cfg2.N = 20 := N_2
  have htl : t.val < 20 := hN ▸ t.isLt
  funext j
  obtain ⟨r8, q, rfl⟩ : ∃ (r8 : Fin 8) (q : Fin 128), j = ix2 r8 q := ⟨j 0, j 1, eq_ix2 j⟩
  have hr8 : r8.val < 8 := r8.isLt
  have hemb : ((cfg2.win 7).blk t).view.emb (ix2 r8 q) = (ix2 (⟨t.val * 8 + r8.val, by omega⟩ : Fin 160) q : S160x128.Idx) := by
    funext a; apply Fin.ext
    match a with
    | ⟨0, _⟩ => show win2_7.index t (0 : Fin 2) * 8 + 1 * r8.val = t.val * 8 + r8.val; omega
    | ⟨1, _⟩ => show win2_7.index t (1 : Fin 2) * 128 + 1 * q.val = q.val; omega
  show View.canon (Val := Elt Ideal) (s := S8x128) (e := .f32) _ (ix2 r8 q) = statA (D := 128) (linA (D := 128) (V c main_v89) (V c main_v102) (V c main_v115) (V c main_v128) (V c main_arg7) (V c main_v129)) (((cfg2.win 7).blk t).view.emb (ix2 r8 q))
  rw [hemb]
  have hsum : ∀ r : Fin 5000, k2_pay1 (F := Ideal) (k2_pay5 (F := Ideal) (iblk2 V c 0 t) (View.ld (Val := Elt Ideal) (iblk2 V c 4 t) rW0) (iblk2 V c 1 t) (View.ld (Val := Elt Ideal) (iblk2 V c 4 t) rW1) (iblk2 V c 2 t) (View.ld (Val := Elt Ideal) (iblk2 V c 4 t) rW2) (iblk2 V c 3 t) (View.ld (Val := Elt Ideal) (iblk2 V c 4 t) rW3)) (iblk2 V c 5 t) (ix2 r q)
      = linA (D := 128) (V c main_v89) (V c main_v102) (V c main_v115) (V c main_v128) (V c main_arg7) (V c main_v129) (ix2 (tileRow (tileOf (⟨t.val * 8 + r8.val, by omega⟩ : Fin 160)) r) q) := fun r =>
    (blk_lin V c t r q).trans (congrArg (fun n => linA (D := 128) (V c main_v89) (V c main_v102) (V c main_v115) (V c main_v128) (V c main_arg7) (V c main_v129) (ix2 n q))
      (Fin.ext (by show t.val * 5000 + r.val = (t.val * 8 + r8.val) / 8 * 5000 + r.val; omega)))
  unfold statA
  dsimp only
  rcases r8 with ⟨r, hr⟩
  match r, hr with
  | 0, _ =>
    rw [if_pos (by show (t.val * 8 + 0) % 8 = 0; omega)]
    refine (canon_row0 _ _ _ q).trans ?_
    refine (pay2_apply _ _ q).trans ?_
    exact Finset.sum_congr rfl fun r' _ => hsum r'
  | 1, _ =>
    rw [if_neg (by show ¬ (t.val * 8 + 1) % 8 = 0; omega), if_pos (by show (t.val * 8 + 1) % 8 = 1; omega)]
    refine (canon_row1 _ _ _ q).trans ?_
    refine (pay3_apply _ _ q).trans ?_
    exact Finset.sum_congr rfl fun r' _ => congrArg₂ (fun (a b : EReal) => a * b) (hsum r') (hsum r')
  | r + 2, hr' =>
    rw [if_neg (by show ¬ (t.val * 8 + (r + 2)) % 8 = 0; omega), if_neg (by show ¬ (t.val * 8 + (r + 2)) % 8 = 1; omega)]
    exact (canon_rowz _ _ _ ⟨r, by omega⟩ q).trans (pay4_apply _)

theorem mem_blk7 (t : Fin cfg2.N) (i : S160x128.Idx) :
    i ∈ ((cfg2.win 7).blk t).view.set ↔ ∀ a : Fin 2, win2_7.index t a * S8x128.size a ≤ (i a).val ∧ (i a).val < win2_7.index t a * S8x128.size a + S8x128.size a := by
  show i ∈ ((View.whole main_v130_1).slice (win2_7.rect t)).set ↔ _
  rw [View.set_slice_whole, Rect.mem_set_unit]
  exact Iff.rfl

theorem cover7 (i : S160x128.Idx) : ∃ t : Fin cfg2.N, (cfg2.win 7).flush t = true ∧ i ∈ ((cfg2.win 7).blk t).view.set := by
  have hi0 : (i 0).val < 160 := (i 0).isLt
  have hi1 : (i 1).val < 128 := (i 1).isLt
  have hN : cfg2.N = 20 := N_2
  have hlt : (i 0).val / 8 < cfg2.N := by rw [hN]; omega
  obtain ⟨-, -, -, -, -, -, -, -, -, -, -, -, -, -, -, e70, e71⟩ := idx_facts ⟨(i 0).val / 8, hlt⟩
  refine ⟨⟨(i 0).val / 8, hlt⟩, flush2_7 _, ?_⟩
  rw [mem_blk7]
  intro a
  match a with
  | ⟨0, _⟩ =>
    show win2_7.index ⟨(i 0).val / 8, hlt⟩ (0 : Fin 2) * 8 ≤ (i 0).val ∧ (i 0).val < win2_7.index ⟨(i 0).val / 8, hlt⟩ (0 : Fin 2) * 8 + 8
    rw [e70]; dsimp only; omega
  | ⟨1, _⟩ =>
    show win2_7.index ⟨(i 0).val / 8, hlt⟩ (1 : Fin 2) * 128 ≤ (i 1).val ∧ (i 1).val < win2_7.index ⟨(i 0).val / 8, hlt⟩ (1 : Fin 2) * 128 + 128
    rw [e71]; omega

/-- The second result array after the region: the per-tile statistics of the linear map of the arrays it found. -/
theorem final7 (c : Dev nD) :
    (dat2 V c).arrAt 7 cfg2.N = statA (D := 128) (linA (D := 128) (V c main_v89) (V c main_v102) (V c main_v115) (V c main_v128) (V c main_arg7) (V c main_v129)) :=
  (dat2 V c).arrAt_eq_of_cover 7 _ (fun t _ => flushed7_eq V c t) cover7

end Cert.KernelIdeal.Reg2

end
-- ==== Proof.KReg3.lean ====
/- The second normalise-and-rectify region: twenty row blocks of 5000 nodes; at each the body reads its block of the layer
   output and the four parameter rows whole, and stores one pointwise expression of them. So the result array is that
   expression of the arrays the region finds, index by index: block t holds rows 5000·t … 5000·t + 4999, and the twenty
   blocks cover the array. -/
import proofs.«167710_j39049842655736_2_alg».proof.Proof.KSpec
import proofs.«167710_j39049842655736_2_alg».proof.Proof.Gen.KernelIdeal.Frame
import Idealize.ShloMosaic.Lib.Pipeline.Value
import Idealize.ShloMosaic.Lib.ValueLayout

set_option maxRecDepth 16384

noncomputable section

namespace Cert.KernelIdeal.Reg3

open Cert.KernelIdeal Cert.KernelIdeal.Gen Cert.KSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an index of the block: the scalar expression of the block's entry and the rows' entries in
    its column. -/
theorem rsqrt_apply {s : Shape} (v : FVec Ideal s .f32) (i : s.Idx) : rsqrt v i = Ideal.rsqrt (v i) := rfl

theorem pay_apply (x0 : FVec Ideal S5000x128 .f32) (vr mu g be : FVec Ideal S1x128 .f32) (p : Fin 5000) (q : Fin 128) :
    k3_pay1 (F := Ideal) x0 vr mu g be (ix2 p q) = lreluGt (affS (x0 (ix2 p q)) (mu (ix2 0 q)) (vr (ix2 0 q)) (g (ix2 0 q)) (be (ix2 0 q))) := by
  unfold k3_pay1 lreluGt affS
  simp only [shapeCast_self, select_apply, cmpf_apply, addf_apply, mulf_apply, subf_apply, broadcast_apply,
    broadcastTo_1b_ab_apply, rsqrt_apply]
  rfl

/-- The printed index maps, decided over the grid: the layer output's window and the result's move together down the rows,
    and the four parameter rows stay put. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 2000000 in
/-- What point t writes back is block t of the whole-array expression of the arrays the region finds. -/
theorem flushed_eq (c : Dev nD) (t : Fin cfg3.N) :
    (dat3 V c).flushed 5 t = ((cfg3.win 5).blk t).view.read (Elt Ideal)
      (actA (D := 128) (V c main_v130_0) (V c main_v146) (V c main_v147) (V c main_v148) (V c main_v149)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (pay_apply _ _ _ _ _ p q).trans ?_
  show lreluGt (affS (V c main_v130_0 (((cfg3.win 0).blk t).view.emb (ix2 p q))) (V c main_v146 (((cfg3.win 1).blk t).view.emb (ix2 0 q)))
      (V c main_v147 (((cfg3.win 2).blk t).view.emb (ix2 0 q))) (V c main_v148 (((cfg3.win 3).blk t).view.emb (ix2 0 q)))
      (V c main_v149 (((cfg3.win 4).blk t).view.emb (ix2 0 q))))
    = lreluGt (affS (V c main_v130_0 (((cfg3.win 5).blk t).view.emb (ix2 p q)))
      (V c main_v146 (ix2 0 ((((cfg3.win 5).blk t).view.emb (ix2 p q)) 1))) (V c main_v147 (ix2 0 ((((cfg3.win 5).blk t).view.emb (ix2 p q)) 1)))
      (V c main_v148 (ix2 0 ((((cfg3.win 5).blk t).view.emb (ix2 p q)) 1))) (V c main_v149 (ix2 0 ((((cfg3.win 5).blk t).view.emb (ix2 p q)) 1))))
  have h0 : ((cfg3.win 0).blk t).view.emb (ix2 p q) = ((cfg3.win 5).blk t).view.emb (ix2 p q) := by
    funext a; apply Fin.ext
    match a with
    | ⟨0, _⟩ => show win3_0.index t (0 : Fin 2) * 5000 + 1 * (p).val = win3_5.index t (0 : Fin 2) * 5000 + 1 * p.val; omega
    | ⟨1, _⟩ => show win3_0.index t (1 : Fin 2) * 128 + 1 * q.val = win3_5.index t (1 : Fin 2) * 128 + 1 * q.val; omega
  have h1 : ((cfg3.win 1).blk t).view.emb (ix2 0 q) = ix2 0 ((((cfg3.win 5).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_5.index t (1 : Fin 2) * 128 + 1 * q.val; omega
  have h2 : ((cfg3.win 2).blk t).view.emb (ix2 0 q) = ix2 0 ((((cfg3.win 5).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega
  have h3 : ((cfg3.win 3).blk t).view.emb (ix2 0 q) = ix2 0 ((((cfg3.win 5).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  have h4 : ((cfg3.win 4).blk t).view.emb (ix2 0 q) = ix2 0 ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  rw [h0, h1, h2, h3, h4]
  rfl

/-- An index of the array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v150).slice (win3_5.rect t)).set ↔ _
  rw [View.set_slice_whole, Rect.mem_set_unit]
  exact Iff.rfl

/-- Every row is in some block: row r is in block r / 5000. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨-, -, -, -, -, -, -, -, -, -, e50, e51⟩ := idx_facts ⟨(i 0).val / 5000, hlt⟩
  refine ⟨⟨(i 0).val / 5000, hlt⟩, flush3_5 _, ?_⟩
  rw [mem_blk]
  intro a
  match a with
  | ⟨0, _⟩ =>
    show win3_5.index ⟨(i 0).val / 5000, hlt⟩ (0 : Fin 2) * 5000 ≤ (i 0).val ∧ (i 0).val < win3_5.index ⟨(i 0).val / 5000, hlt⟩ (0 : Fin 2) * 5000 + 5000
    rw [e50]; dsimp only; omega
  | ⟨1, _⟩ =>
    show win3_5.index ⟨(i 0).val / 5000, hlt⟩ (1 : Fin 2) * 128 ≤ (i 1).val ∧ (i 1).val < win3_5.index ⟨(i 0).val / 5000, hlt⟩ (1 : Fin 2) * 128 + 128
    rw [e51]; omega

/-- The result array after the region: the normalise-and-rectify expression of the arrays it found. -/
theorem final (c : Dev nD) :
    (dat3 V c).arrAt 5 cfg3.N = actA (D := 128) (V c main_v130_0) (V c main_v146) (V c main_v147) (V c main_v148) (V c main_v149) :=
  (dat3 V c).arrAt_eq_of_cover 5 _ (fun t _ => flushed_eq V c t) cover

end Cert.KernelIdeal.Reg3

end
-- ==== Proof.KReg4.lean ====
/- The third linear region: twenty row blocks of 5000 nodes; at each the body multiplies the block of the features and of
   their three propagations by the four weight matrices, sums the products from zero, adds the bias row and stores the
   block; it also stores, in an eight-row record per block, the block's column sums (row 0), its column sums of squares
   (row 1) and zeros. So the first result array is the linear map of the arrays the region finds, index by index, and the
   second holds each block's column statistics of it. -/
import proofs.«167710_j39049842655736_2_alg».proof.Proof.KSpec
import proofs.«167710_j39049842655736_2_alg».proof.Proof.DotLib
import proofs.«167710_j39049842655736_2_alg».proof.Proof.Gen.KernelIdeal.Frame
import Idealize.ShloMosaic.Lib.Pipeline.Value
import Idealize.ShloMosaic.Lib.ValueLayout
import Idealize.ShloMosaic.Lib.Tactic

set_option maxRecDepth 16384

noncomputable section

namespace Cert.KernelIdeal.Reg4

open Cert.KernelIdeal Cert.KernelIdeal.Gen Cert.KSpec
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-- The four weight matrices as rectangles of the weight block. -/
abbrev rW0 : Rect S4x128x64 := Rect.unit (s := S4x128x64) ![0, 0, 0] S1x128x64.size inb_S4x128x64_S1x128x64_0_0_0
abbrev rW1 : Rect S4x128x64 := Rect.unit (s := S4x128x64) ![1, 0, 0] S1x128x64.size inb_S4x128x64_S1x128x64_1_0_0
abbrev rW2 : Rect S4x128x64 := Rect.unit (s := S4x128x64) ![2, 0, 0] S1x128x64.size inb_S4x128x64_S1x128x64_2_0_0
abbrev rW3 : Rect S4x128x64 := Rect.unit (s := S4x128x64) ![3, 0, 0] S1x128x64.size inb_S4x128x64_S1x128x64_3_0_0
/-- The statistics record's three pieces: row 0, row 1, rows 2 to 7. -/
abbrev rS0 : Rect S8x64 := Rect.unit (s := S8x64) ![0, 0] S1x64.size inb_S8x64_S1x64_0_0
abbrev rS1 : Rect S8x64 := Rect.unit (s := S8x64) ![1, 0] S1x64.size inb_S8x64_S1x64_1_0
abbrev rS2 : Rect S8x64 := Rect.unit (s := S8x64) ![2, 0] S6x64.size inb_S8x64_S6x64_2_0

section Pieces
variable {F : FTy → Type} [FloatOps F]

/-- What the body leaves in the first output's buffer: the bias added to the four-term sum of the blocks it loaded. -/
theorem out6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S4x128x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S8x64 .f32) (harg8 : arg8.IsWhole)
    (x0 : Vec F S5000x128 .f32) (x1 : Vec F S5000x128 .f32) (x2 : Vec F S5000x128 .f32) (x3 : Vec F S5000x128 .f32) (x4 : Vec F S4x128x64 .f32) (x5 : Vec F S1x64 .f32) :
    out4_A_6 c i arg1 harg1 arg2 harg2 arg3 harg3 arg4 harg4 arg5 harg5 arg6 harg6 arg7 harg7 arg8 harg8 x0 x1 x2 x3 x4 x5 = k4_pay1 (k4_pay5 x0 (View.ld x4 rW0) x1 (View.ld x4 rW1) x2 (View.ld x4 rW2) x3 (View.ld x4 rW3)) x5 := by
  unfold out4_A_6
  rw [View.read_writes_eq_canon _ _ _ (cover4_A_6 c i arg1 harg1 arg2 harg2 arg3 harg3 arg4 harg4 arg5 harg5 arg6 harg6 arg7 harg7 arg8 harg8 x0 x1 x2 x3 x4 x5)]
  unfold kernelRun4_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S5000x128) hz, View.ld_unit_zero (S := S1x64) hz]

/-- What the body leaves in the second output's buffer: its three stores, the last first. -/
theorem out7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S4x128x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S8x64 .f32) (harg8 : arg8.IsWhole)
    (x0 : Vec F S5000x128 .f32) (x1 : Vec F S5000x128 .f32) (x2 : Vec F S5000x128 .f32) (x3 : Vec F S5000x128 .f32) (x4 : Vec F S4x128x64 .f32) (x5 : Vec F S1x64 .f32) :
    out4_A_7 c i arg1 harg1 arg2 harg2 arg3 harg3 arg4 harg4 arg5 harg5 arg6 harg6 arg7 harg7 arg8 harg8 x0 x1 x2 x3 x4 x5 = View.canon [⟨rS2, k4_pay4⟩, ⟨rS1, k4_pay3 (k4_pay5 x0 (View.ld x4 rW0) x1 (View.ld x4 rW1) x2 (View.ld x4 rW2) x3 (View.ld x4 rW3)) x5⟩, ⟨rS0, k4_pay2 (k4_pay5 x0 (View.ld x4 rW0) x1 (View.ld x4 rW1) x2 (View.ld x4 rW2) x3 (View.ld x4 rW3)) x5⟩] := by
  unfold out4_A_7
  rw [View.read_writes_eq_canon _ _ _ (cover4_A_7 c i arg1 harg1 arg2 harg2 arg3 harg3 arg4 harg4 arg5 harg5 arg6 harg6 arg7 harg7 arg8 harg8 x0 x1 x2 x3 x4 x5)]
  unfold kernelRun4_A
  dsimp only
  sl_unfold_words
  simp only [View.readAt_eq_ld, harg1.read_unread, harg2.read_unread, harg3.read_unread, harg4.read_unread, harg5.read_unread, harg6.read_unread,
    View.ld_unit_zero (S := S5000x128) hz, View.ld_unit_zero (S := S1x64) hz]

end Pieces

set_option maxHeartbeats 1000000 in
/-- Row 0 of the record is under the first store only, row 1 under the second only. -/
theorem canon_row0 (P2 : S6x64.Idx → EReal) (P1 P0 : S1x64.Idx → EReal) (q : Fin 64) :
    View.canon [(⟨rS2, P2⟩ : View.Piece (Elt Ideal) S8x64 .f32), ⟨rS1, P1⟩, ⟨rS0, P0⟩] (ix2 0 q) = P0 (ix2 0 q) := by
  have n2 : (ix2 (0 : Fin 8) q : S8x64.Idx) ∉ rS2.set := by
    rw [Rect.mem_set_unit]
    intro h
    have h0 : (2 : ℕ) ≤ 0 := (h 0).1
    omega
  have n1 : (ix2 (0 : Fin 8) q : S8x64.Idx) ∉ rS1.set := by
    rw [Rect.mem_set_unit]
    intro h
    have h0 : (1 : ℕ) ≤ 0 := (h 0).1
    omega
  rw [View.canon_cons_of_not_mem (⟨rS2, P2⟩ : View.Piece (Elt Ideal) S8x64 .f32) _ n2,
    View.canon_cons_of_not_mem (⟨rS1, P1⟩ : View.Piece (Elt Ideal) S8x64 .f32) _ n1]
  have e : (ix2 (0 : Fin 8) q : S8x64.Idx) = rS0.emb (ix2 (0 : Fin 1) q) := by
    funext a; apply Fin.ext
    match a with
    | ⟨0, _⟩ => show (0 : ℕ) = 0 + 1 * 0; rfl
    | ⟨1, _⟩ => show q.val = 0 + 1 * q.val; omega
  rw [e, View.canon_cons_emb]

set_option maxHeartbeats 1000000 in
theorem canon_row1 (P2 : S6x64.Idx → EReal) (P1 P0 : S1x64.Idx → EReal) (q : Fin 64) :
    View.canon [(⟨rS2, P2⟩ : View.Piece (Elt Ideal) S8x64 .f32), ⟨rS1, P1⟩, ⟨rS0, P0⟩] (ix2 1 q) = P1 (ix2 0 q) := by
  have n2 : (ix2 (1 : Fin 8) q : S8x64.Idx) ∉ rS2.set := by
    rw [Rect.mem_set_unit]
    intro h
    have h0 : (2 : ℕ) ≤ 1 := (h 0).1
    omega
  rw [View.canon_cons_of_not_mem (⟨rS2, P2⟩ : View.Piece (Elt Ideal) S8x64 .f32) _ n2]
  have e : (ix2 (1 : Fin 8) q : S8x64.Idx) = rS1.emb (ix2 (0 : Fin 1) q) := by
    funext a; apply Fin.ext
    match a with
    | ⟨0, _⟩ => show (1 : ℕ) = 1 + 1 * 0; rfl
    | ⟨1, _⟩ => show q.val = 0 + 1 * q.val; omega
  rw [e, View.canon_cons_emb]

set_option maxHeartbeats 1000000 in
/-- Rows 2 to 7 are under the third store: zero. -/
theorem canon_rowz (P2 : S6x64.Idx → EReal) (P1 P0 : S1x64.Idx → EReal) (r : Fin 6) (q : Fin 64) :
    View.canon [(⟨rS2, P2⟩ : View.Piece (Elt Ideal) S8x64 .f32), ⟨rS1, P1⟩, ⟨rS0, P0⟩] (ix2 ⟨r.val + 2, by omega⟩ q) = P2 (ix2 r q) := by
  have e : (ix2 (⟨r.val + 2, by omega⟩ : Fin 8) q : S8x64.Idx) = rS2.emb (ix2 r q) := by
    funext a; apply Fin.ext
    match a with
    | ⟨0, _⟩ => show r.val + 2 = 2 + 1 * r.val; omega
    | ⟨1, _⟩ => show q.val = 0 + 1 * q.val; omega
  rw [e, View.canon_cons_emb]

/-- One weight matrix read out of the weight block. -/
theorem ldW0 (x4 : Vec Ideal S4x128x64 .f32) (κ : Fin 128) (q : Fin 64) :
    View.ld (Val := Elt Ideal) x4 rW0 (ix3 0 κ q) = x4 (ix3 0 κ q) := by
  show x4 _ = x4 _
  congr 1; funext a; apply Fin.ext
  match a with
  | ⟨0, _⟩ => show 0 + 1 * 0 = 0; rfl
  | ⟨1, _⟩ => show 0 + 1 * κ.val = κ.val; omega
  | ⟨2, _⟩ => show 0 + 1 * q.val = q.val; omega
theorem ldW1 (x4 : Vec Ideal S4x128x64 .f32) (κ : Fin 128) (q : Fin 64) :
    View.ld (Val := Elt Ideal) x4 rW1 (ix3 0 κ q) = x4 (ix3 1 κ q) := by
  show x4 _ = x4 _
  congr 1; funext a; apply Fin.ext
  match a with
  | ⟨0, _⟩ => show 1 + 1 * 0 = 1; rfl
  | ⟨1, _⟩ => show 0 + 1 * κ.val = κ.val; omega
  | ⟨2, _⟩ => show 0 + 1 * q.val = q.val; omega
theorem ldW2 (x4 : Vec Ideal S4x128x64 .f32) (κ : Fin 128) (q : Fin 64) :
    View.ld (Val := Elt Ideal) x4 rW2 (ix3 0 κ q) = x4 (ix3 2 κ q) := by
  show x4 _ = x4 _
  congr 1; funext a; apply Fin.ext
  match a with
  | ⟨0, _⟩ => show 2 + 1 * 0 = 2; rfl
  | ⟨1, _⟩ => show 0 + 1 * κ.val = κ.val; omega
  | ⟨2, _⟩ => show 0 + 1 * q.val = q.val; omega
theorem ldW3 (x4 : Vec Ideal S4x128x64 .f32) (κ : Fin 128) (q : Fin 64) :
    View.ld (Val := Elt Ideal) x4 rW3 (ix3 0 κ q) = x4 (ix3 3 κ q) := by
  show x4 _ = x4 _
  congr 1; funext a; apply Fin.ext
  match a with
  | ⟨0, _⟩ => show 3 + 1 * 0 = 3; rfl
  | ⟨1, _⟩ => show 0 + 1 * κ.val = κ.val; omega
  | ⟨2, _⟩ => show 0 + 1 * q.val = q.val; omega

/-- One product term of the body at an index: the block's row times the weight matrix's column. -/
theorem mm_apply (x : FVec Ideal S5000x128 .f32) (w : FVec Ideal S1x128x64 .f32) (p : Fin 5000) (q : Fin 64) :
    matmul dot_S5000x128_S128x64_S5000x64_1_0_0_1_n_n none (truncf .bf16 x bitsLt_bf16_f32)
        (truncf .bf16 (shapeCast S128x64 w shapeCasts_S1x128x64_S128x64) bitsLt_bf16_f32) (constant S5000x64 .f32 0x00000000#32) (ix2 p q)
      = ∑ κ : Fin 128, x (ix2 p κ) * w (ix3 0 κ q) := by
  refine (Ideal.matmul_constant_zero_apply (DotDims.plain 5000 128 64) none _ _ (ix2 p q)).trans ?_
  refine (Cert.DotLib.plain_sum 5000 128 64 _ _ p q).trans ?_
  refine Finset.sum_congr rfl fun κ _ => ?_
  show x (ix2 p κ) * shapeCast S128x64 w shapeCasts_S1x128x64_S128x64 (ix2 κ q) = _
  rw [shapeCast_1ab_ab_apply]

/-- The four-term sum at an index of the block. -/
theorem pay5_apply (v1 v8 v16 v24 : FVec Ideal S5000x128 .f32) (v3 v11 v19 v27 : FVec Ideal S1x128x64 .f32) (p : Fin 5000) (q : Fin 64) :
    k4_pay5 (F := Ideal) v1 v3 v8 v11 v16 v19 v24 v27 (ix2 p q)
      = (((zero32 + ∑ κ : Fin 128, v1 (ix2 p κ) * v3 (ix3 0 κ q)) + ∑ κ : Fin 128, v8 (ix2 p κ) * v11 (ix3 0 κ q))
          + ∑ κ : Fin 128, v16 (ix2 p κ) * v19 (ix3 0 κ q)) + ∑ κ : Fin 128, v24 (ix2 p κ) * v27 (ix3 0 κ q) := by
  unfold k4_pay5
  simp only [shapeCast_self, addf_apply, broadcast_apply, mm_apply]
  rfl

/-- The bias add at an index of the block. -/
theorem pay1_apply (v31 : FVec Ideal S5000x64 .f32) (v32 : FVec Ideal S1x64 .f32) (p : Fin 5000) (q : Fin 64) :
    k4_pay1 (F := Ideal) v31 v32 (ix2 p q) = v31 (ix2 p q) + v32 (ix2 0 q) := by
  unfold k4_pay1
  simp only [shapeCast_self, addf_apply, broadcastTo_1b_ab_apply]

/-- The column sums of the block. -/
theorem pay2_apply (v31 : FVec Ideal S5000x64 .f32) (v32 : FVec Ideal S1x64 .f32) (q : Fin 64) :
    k4_pay2 (F := Ideal) v31 v32 (ix2 0 q) = ∑ r : Fin 5000, k4_pay1 (F := Ideal) v31 v32 (ix2 r q) := by
  unfold k4_pay2
  refine (shapeCast_a_1a_apply _ _ 0 q).trans ?_
  refine (Ideal.multiReduction_add_single (k4_pay1 (F := Ideal) v31 v32) 0x00000000#32 reduces_S5000x64_S64 (.inl rfl) rfl (ix1 q)).trans ?_
  exact Finset.sum_congr rfl fun r _ => congrArg _ (by
    funext a; apply Fin.ext
    match a with
    | ⟨0, _⟩ => rfl
    | ⟨1, _⟩ => rfl)

/-- The column sums of squares of the block. -/
theorem pay3_apply (v31 : FVec Ideal S5000x64 .f32) (v32 : FVec Ideal S1x64 .f32) (q : Fin 64) :
    k4_pay3 (F := Ideal) v31 v32 (ix2 0 q)
      = ∑ r : Fin 5000, k4_pay1 (F := Ideal) v31 v32 (ix2 r q) * k4_pay1 (F := Ideal) v31 v32 (ix2 r q) := by
  unfold k4_pay3
  refine (shapeCast_a_1a_apply _ _ 0 q).trans ?_
  refine (Ideal.multiReduction_add_single (mulf (k4_pay1 (F := Ideal) v31 v32) (k4_pay1 (F := Ideal) v31 v32)) 0x00000000#32 reduces_S5000x64_S64 (.inl rfl) rfl (ix1 q)).trans ?_
  exact Finset.sum_congr rfl fun r _ => congrArg (fun j => k4_pay1 (F := Ideal) v31 v32 j * k4_pay1 (F := Ideal) v31 v32 j) (by
    funext a; apply Fin.ext
    match a with
    | ⟨0, _⟩ => rfl
    | ⟨1, _⟩ => rfl)

/-- The zero rows. -/
theorem pay4_apply (j : S6x64.Idx) : k4_pay4 (F := Ideal) j = zero32 := rfl

variable (V : (c : Dev nD) → (b : Ref sig .tc) → Buf (Elt Ideal) ((c : Thread nD τ).loc b))

/-- The printed index maps, decided over the grid: the four feature windows and the two results move together down the
    rows; the weights and the bias stay put. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 3) = 0 ∧ win4_4.index t (1 : Fin 3) = 0 ∧ win4_4.index t (2 : Fin 3) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-- Row p of block t is row 5000·t + p of the array. -/
def gRow (t : Fin cfg4.N) (p : Fin 5000) : Fin 100000 :=
  ⟨t.val * 5000 + p.val, by have hN : cfg4.N = 20 := N_4; have := t.isLt; have := p.isLt; omega⟩

set_option maxHeartbeats 4000000 in
/-- The body's biased sum at row p, column q of block t is the linear map of the arrays the region finds, at row 5000·t + p. -/
theorem blk_lin (c : Dev nD) (t : Fin cfg4.N) (p : Fin 5000) (q : Fin 64) :
    k4_pay1 (F := Ideal) (k4_pay5 (F := Ideal) (iblk4 V c 0 t) (View.ld (Val := Elt Ideal) (iblk4 V c 4 t) rW0) (iblk4 V c 1 t) (View.ld (Val := Elt Ideal) (iblk4 V c 4 t) rW1) (iblk4 V c 2 t) (View.ld (Val := Elt Ideal) (iblk4 V c 4 t) rW2) (iblk4 V c 3 t) (View.ld (Val := Elt Ideal) (iblk4 V c 4 t) rW3)) (iblk4 V c 5 t) (ix2 p q)
      = linA (D := 64) (V c main_v150) (V c main_v163) (V c main_v176) (V c main_v189) (V c main_arg11) (V c main_v191) (ix2 (gRow t p) q) := by
  obtain ⟨e00, e01, e10, e11, e20, e21, e30, e31, e40, e41, e42, e50, e51, -, -, -, -⟩ := idx_facts t
  have hr0 : ∀ κ : Fin 128, iblk4 V c 0 t (ix2 p κ) = V c main_v150 (ix2 (gRow t p) κ) := fun κ => by
    show V c main_v150 (((cfg4.win 0).blk t).view.emb (ix2 p κ)) = _
    congr 1; funext a; apply Fin.ext
    match a with
    | ⟨0, _⟩ => show win4_0.index t (0 : Fin 2) * 5000 + 1 * p.val = t.val * 5000 + p.val; omega
    | ⟨1, _⟩ => show win4_0.index t (1 : Fin 2) * 128 + 1 * κ.val = κ.val; omega
  have hr1 : ∀ κ : Fin 128, iblk4 V c 1 t (ix2 p κ) = V c main_v163 (ix2 (gRow t p) κ) := fun κ => by
    show V c main_v163 (((cfg4.win 1).blk t).view.emb (ix2 p κ)) = _
    congr 1; funext a; apply Fin.ext
    match a with
    | ⟨0, _⟩ => show win4_1.index t (0 : Fin 2) * 5000 + 1 * p.val = t.val * 5000 + p.val; omega
    | ⟨1, _⟩ => show win4_1.index t (1 : Fin 2) * 128 + 1 * κ.val = κ.val; omega
  have hr2 : ∀ κ : Fin 128, iblk4 V c 2 t (ix2 p κ) = V c main_v176 (ix2 (gRow t p) κ) := fun κ => by
    show V c main_v176 (((cfg4.win 2).blk t).view.emb (ix2 p κ)) = _
    congr 1; funext a; apply Fin.ext
    match a with
    | ⟨0, _⟩ => show win4_2.index t (0 : Fin 2) * 5000 + 1 * p.val = t.val * 5000 + p.val; omega
    | ⟨1, _⟩ => show win4_2.index t (1 : Fin 2) * 128 + 1 * κ.val = κ.val; omega
  have hr3 : ∀ κ : Fin 128, iblk4 V c 3 t (ix2 p κ) = V c main_v189 (ix2 (gRow t p) κ) := fun κ => by
    show V c main_v189 (((cfg4.win 3).blk t).view.emb (ix2 p κ)) = _
    congr 1; funext a; apply Fin.ext
    match a with
    | ⟨0, _⟩ => show win4_3.index t (0 : Fin 2) * 5000 + 1 * p.val = t.val * 5000 + p.val; omega
    | ⟨1, _⟩ => show win4_3.index t (1 : Fin 2) * 128 + 1 * κ.val = κ.val; omega
  have hW : ∀ (k : Fin 4) (κ : Fin 128) (q' : Fin 64), iblk4 V c 4 t (ix3 k κ q') = V c main_arg11 (ix3 k κ q') := fun k κ q' => by
    show V c main_arg11 (((cfg4.win 4).blk t).view.emb (ix3 k κ q')) = _
    congr 1; funext a; apply Fin.ext
    match a with
    | ⟨0, _⟩ => show win4_4.index t (0 : Fin 3) * 4 + 1 * k.val = k.val; omega
    | ⟨1, _⟩ => show win4_4.index t (1 : Fin 3) * 128 + 1 * κ.val = κ.val; omega
    | ⟨2, _⟩ => show win4_4.index t (2 : Fin 3) * 64 + 1 * q'.val = q'.val; omega
  have hb : iblk4 V c 5 t (ix2 0 q) = V c main_v191 (ix2 0 q) := by
    show V c main_v191 (((cfg4.win 5).blk t).view.emb (ix2 0 q)) = _
    congr 1; funext a; apply Fin.ext
    match a with
    | ⟨0, _⟩ => show win4_5.index t (0 : Fin 2) * 1 + 1 * 0 = 0; omega
    | ⟨1, _⟩ => show win4_5.index t (1 : Fin 2) * 64 + 1 * q.val = q.val; omega
  refine (pay1_apply _ _ p q).trans ?_
  refine (congrArg (fun z => z + iblk4 V c 5 t (ix2 0 q)) (pay5_apply _ _ _ _ _ _ _ _ p q)).trans ?_
  have hl0 : ∀ κ : Fin 128, View.ld (Val := Elt Ideal) (iblk4 V c 4 t) rW0 (ix3 0 κ q) = V c main_arg11 (ix3 0 κ q) :=
    fun κ => (ldW0 (iblk4 V c 4 t) κ q).trans (hW 0 κ q)
  have hl1 : ∀ κ : Fin 128, View.ld (Val := Elt Ideal) (iblk4 V c 4 t) rW1 (ix3 0 κ q) = V c main_arg11 (ix3 1 κ q) :=
    fun κ => (ldW1 (iblk4 V c 4 t) κ q).trans (hW 1 κ q)
  have hl2 : ∀ κ : Fin 128, View.ld (Val := Elt Ideal) (iblk4 V c 4 t) rW2 (ix3 0 κ q) = V c main_arg11 (ix3 2 κ q) :=
    fun κ => (ldW2 (iblk4 V c 4 t) κ q).trans (hW 2 κ q)
  have hl3 : ∀ κ : Fin 128, View.ld (Val := Elt Ideal) (iblk4 V c 4 t) rW3 (ix3 0 κ q) = V c main_arg11 (ix3 3 κ q) :=
    fun κ => (ldW3 (iblk4 V c 4 t) κ q).trans (hW 3 κ q)
  simp only [hr0, hr1, hr2, hr3, hl0, hl1, hl2, hl3, hb]
  rfl

set_option maxHeartbeats 4000000 in
/-- What point t writes back to the first result is block t of the linear map of the arrays the region finds. -/
theorem flushed6_eq (c : Dev nD) (t : Fin cfg4.N) :
    (dat4 V c).flushed 6 t = ((cfg4.win 6).blk t).view.read (Elt Ideal) (linA (D := 64) (V c main_v150) (V c main_v163) (V c main_v176) (V c main_v189) (V c main_arg11) (V c main_v191)) := by
  show (cfg4.win 6).cut (grid4.coords t) ((dat4 V c).after 6 t) = _
  rw [after4_6]
  unfold outsAt4
  dsimp only
  rw [out6_eq]
  obtain ⟨-, -, -, -, -, -, -, -, -, -, -, -, -, e60, e61, -, -⟩ := idx_facts t
  funext j
  obtain ⟨p, q, rfl⟩ : ∃ (p : Fin 5000) (q : Fin 64), j = ix2 p q := ⟨j 0, j 1, eq_ix2 j⟩
  refine (blk_lin V c t p q).trans ?_
  show linA (D := 64) (V c main_v150) (V c main_v163) (V c main_v176) (V c main_v189) (V c main_arg11) (V c main_v191) (ix2 (gRow t p) q) = linA (D := 64) (V c main_v150) (V c main_v163) (V c main_v176) (V c main_v189) (V c main_arg11) (V c main_v191) (((cfg4.win 6).blk t).view.emb (ix2 p q))
  congr 1; funext a; apply Fin.ext
  match a with
  | ⟨0, _⟩ => show t.val * 5000 + p.val = win4_6.index t (0 : Fin 2) * 5000 + 1 * p.val; omega
  | ⟨1, _⟩ => show q.val = win4_6.index t (1 : Fin 2) * 64 + 1 * q.val; omega

theorem mem_blk6 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v192_0).slice (win4_6.rect t)).set ↔ _
  rw [View.set_slice_whole, Rect.mem_set_unit]
  exact Iff.rfl

theorem cover6 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 20 := N_4
  have hlt : (i 0).val / 5000 < cfg4.N := by rw [hN]; omega
  obtain ⟨-, -, -, -, -, -, -, -, -, -, -, -, -, e60, e61, -, -⟩ := idx_facts ⟨(i 0).val / 5000, hlt⟩
  refine ⟨⟨(i 0).val / 5000, hlt⟩, flush4_6 _, ?_⟩
  rw [mem_blk6]
  intro a
  match a with
  | ⟨0, _⟩ =>
    show win4_6.index ⟨(i 0).val / 5000, hlt⟩ (0 : Fin 2) * 5000 ≤ (i 0).val ∧ (i 0).val < win4_6.index ⟨(i 0).val / 5000, hlt⟩ (0 : Fin 2) * 5000 + 5000
    rw [e60]; dsimp only; omega
  | ⟨1, _⟩ =>
    show win4_6.index ⟨(i 0).val / 5000, hlt⟩ (1 : Fin 2) * 64 ≤ (i 1).val ∧ (i 1).val < win4_6.index ⟨(i 0).val / 5000, hlt⟩ (1 : Fin 2) * 64 + 64
    rw [e61]; omega

/-- The first result array after the region: the linear map of the arrays it found. -/
theorem final6 (c : Dev nD) :
    (dat4 V c).arrAt 6 cfg4.N = linA (D := 64) (V c main_v150) (V c main_v163) (V c main_v176) (V c main_v189) (V c main_arg11) (V c main_v191) :=
  (dat4 V c).arrAt_eq_of_cover 6 _ (fun t _ => flushed6_eq V c t) cover6

set_option maxHeartbeats 8000000 in
/-- What point t writes back to the second result is block t of the per-tile statistics of the linear map. -/
theorem flushed7_eq (c : Dev nD) (t : Fin cfg4.N) :
    (dat4 V c).flushed 7 t = ((cfg4.win 7).blk t).view.read (Elt Ideal) (statA (D := 64) (linA (D := 64) (V c main_v150) (V c main_v163) (V c main_v176) (V c main_v189) (V c main_arg11) (V c main_v191))) := by
  show (cfg4.win 7).cut (grid4.coords t) ((dat4 V c).after 7 t) = _
  rw [after4_7]
  unfold outsAt4
  dsimp only
  rw [out7_eq]
  obtain ⟨-, -, -, -, -, -, -, -, -, -, -, -, -, -, -, e70, e71⟩ := idx_facts t
  have hN : cfg4.N = 20 := N_4
  have htl : t.val < 20 := hN ▸ t.isLt
  funext j
  obtain ⟨r8, q, rfl⟩ : ∃ (r8 : Fin 8) (q : Fin 64), j = ix2 r8 q := ⟨j 0, j 1, eq_ix2 j⟩
  have hr8 : r8.val < 8 := r8.isLt
  have hemb : ((cfg4.win 7).blk t).view.emb (ix2 r8 q) = (ix2 (⟨t.val * 8 + r8.val, by omega⟩ : Fin 160) q : S160x64.Idx) := by
    funext a; apply Fin.ext
    match a with
    | ⟨0, _⟩ => show win4_7.index t (0 : Fin 2) * 8 + 1 * r8.val = t.val * 8 + r8.val; omega
    | ⟨1, _⟩ => show win4_7.index t (1 : Fin 2) * 64 + 1 * q.val = q.val; omega
  show View.canon (Val := Elt Ideal) (s := S8x64) (e := .f32) _ (ix2 r8 q) = statA (D := 64) (linA (D := 64) (V c main_v150) (V c main_v163) (V c main_v176) (V c main_v189) (V c main_arg11) (V c main_v191)) (((cfg4.win 7).blk t).view.emb (ix2 r8 q))
  rw [hemb]
  have hsum : ∀ r : Fin 5000, k4_pay1 (F := Ideal) (k4_pay5 (F := Ideal) (iblk4 V c 0 t) (View.ld (Val := Elt Ideal) (iblk4 V c 4 t) rW0) (iblk4 V c 1 t) (View.ld (Val := Elt Ideal) (iblk4 V c 4 t) rW1) (iblk4 V c 2 t) (View.ld (Val := Elt Ideal) (iblk4 V c 4 t) rW2) (iblk4 V c 3 t) (View.ld (Val := Elt Ideal) (iblk4 V c 4 t) rW3)) (iblk4 V c 5 t) (ix2 r q)
      = linA (D := 64) (V c main_v150) (V c main_v163) (V c main_v176) (V c main_v189) (V c main_arg11) (V c main_v191) (ix2 (tileRow (tileOf (⟨t.val * 8 + r8.val, by omega⟩ : Fin 160)) r) q) := fun r =>
    (blk_lin V c t r q).trans (congrArg (fun n => linA (D := 64) (V c main_v150) (V c main_v163) (V c main_v176) (V c main_v189) (V c main_arg11) (V c main_v191) (ix2 n q))
      (Fin.ext (by show t.val * 5000 + r.val = (t.val * 8 + r8.val) / 8 * 5000 + r.val; omega)))
  unfold statA
  dsimp only
  rcases r8 with ⟨r, hr⟩
  match r, hr with
  | 0, _ =>
    rw [if_pos (by show (t.val * 8 + 0) % 8 = 0; omega)]
    refine (canon_row0 _ _ _ q).trans ?_
    refine (pay2_apply _ _ q).trans ?_
    exact Finset.sum_congr rfl fun r' _ => hsum r'
  | 1, _ =>
    rw [if_neg (by show ¬ (t.val * 8 + 1) % 8 = 0; omega), if_pos (by show (t.val * 8 + 1) % 8 = 1; omega)]
    refine (canon_row1 _ _ _ q).trans ?_
    refine (pay3_apply _ _ q).trans ?_
    exact Finset.sum_congr rfl fun r' _ => congrArg₂ (fun (a b : EReal) => a * b) (hsum r') (hsum r')
  | r + 2, hr' =>
    rw [if_neg (by show ¬ (t.val * 8 + (r + 2)) % 8 = 0; omega), if_neg (by show ¬ (t.val * 8 + (r + 2)) % 8 = 1; omega)]
    exact (canon_rowz _ _ _ ⟨r, by omega⟩ q).trans (pay4_apply _)

theorem mem_blk7 (t : Fin cfg4.N) (i : S160x64.Idx) :
    i ∈ ((cfg4.win 7).blk t).view.set ↔ ∀ a : Fin 2, win4_7.index t a * S8x64.size a ≤ (i a).val ∧ (i a).val < win4_7.index t a * S8x64.size a + S8x64.size a := by
  show i ∈ ((View.whole main_v192_1).slice (win4_7.rect t)).set ↔ _
  rw [View.set_slice_whole, Rect.mem_set_unit]
  exact Iff.rfl

theorem cover7 (i : S160x64.Idx) : ∃ t : Fin cfg4.N, (cfg4.win 7).flush t = true ∧ i ∈ ((cfg4.win 7).blk t).view.set := by
  have hi0 : (i 0).val < 160 := (i 0).isLt
  have hi1 : (i 1).val < 64 := (i 1).isLt
  have hN : cfg4.N = 20 := N_4
  have hlt : (i 0).val / 8 < cfg4.N := by rw [hN]; omega
  obtain ⟨-, -, -, -, -, -, -, -, -, -, -, -, -, -, -, e70, e71⟩ := idx_facts ⟨(i 0).val / 8, hlt⟩
  refine ⟨⟨(i 0).val / 8, hlt⟩, flush4_7 _, ?_⟩
  rw [mem_blk7]
  intro a
  match a with
  | ⟨0, _⟩ =>
    show win4_7.index ⟨(i 0).val / 8, hlt⟩ (0 : Fin 2) * 8 ≤ (i 0).val ∧ (i 0).val < win4_7.index ⟨(i 0).val / 8, hlt⟩ (0 : Fin 2) * 8 + 8
    rw [e70]; dsimp only; omega
  | ⟨1, _⟩ =>
    show win4_7.index ⟨(i 0).val / 8, hlt⟩ (1 : Fin 2) * 64 ≤ (i 1).val ∧ (i 1).val < win4_7.index ⟨(i 0).val / 8, hlt⟩ (1 : Fin 2) * 64 + 64
    rw [e71]; omega

/-- The second result array after the region: the per-tile statistics of the linear map of the arrays it found. -/
theorem final7 (c : Dev nD) :
    (dat4 V c).arrAt 7 cfg4.N = statA (D := 64) (linA (D := 64) (V c main_v150) (V c main_v163) (V c main_v176) (V c main_v189) (V c main_arg11) (V c main_v191)) :=
  (dat4 V c).arrAt_eq_of_cover 7 _ (fun t _ => flushed7_eq V c t) cover7

end Cert.KernelIdeal.Reg4

end
-- ==== Proof.KReg5.lean ====
/- The third normalise-and-rectify region: twenty row blocks of 5000 nodes; at each the body reads its block of the layer
   output and the four parameter rows whole, and stores one pointwise expression of them. So the result array is that
   expression of the arrays the region finds, index by index: block t holds rows 5000·t … 5000·t + 4999, and the twenty
   blocks cover the array. -/
import proofs.«167710_j39049842655736_2_alg».proof.Proof.KSpec
import proofs.«167710_j39049842655736_2_alg».proof.Proof.Gen.KernelIdeal.Frame
import Idealize.ShloMosaic.Lib.Pipeline.Value
import Idealize.ShloMosaic.Lib.ValueLayout

set_option maxRecDepth 16384

noncomputable section

namespace Cert.KernelIdeal.Reg5

open Cert.KernelIdeal Cert.KernelIdeal.Gen Cert.KSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an index of the block: the scalar expression of the block's entry and the rows' entries in
    its column. -/
theorem rsqrt_apply {s : Shape} (v : FVec Ideal s .f32) (i : s.Idx) : rsqrt v i = Ideal.rsqrt (v i) := rfl

theorem pay_apply (x0 : FVec Ideal S5000x64 .f32) (vr mu g be : FVec Ideal S1x64 .f32) (p : Fin 5000) (q : Fin 64) :
    k5_pay1 (F := Ideal) x0 vr mu g be (ix2 p q) = lreluGt (affS (x0 (ix2 p q)) (mu (ix2 0 q)) (vr (ix2 0 q)) (g (ix2 0 q)) (be (ix2 0 q))) := by
  unfold k5_pay1 lreluGt affS
  simp only [shapeCast_self, select_apply, cmpf_apply, addf_apply, mulf_apply, subf_apply, broadcast_apply,
    broadcastTo_1b_ab_apply, rsqrt_apply]
  rfl

/-- The printed index maps, decided over the grid: the layer output's window and the result's move together down the rows,
    and the four parameter rows stay put. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 2000000 in
/-- What point t writes back is block t of the whole-array expression of the arrays the region finds. -/
theorem flushed_eq (c : Dev nD) (t : Fin cfg5.N) :
    (dat5 V c).flushed 5 t = ((cfg5.win 5).blk t).view.read (Elt Ideal)
      (actA (D := 64) (V c main_v192_0) (V c main_v208) (V c main_v209) (V c main_v210) (V c main_v211)) := by
  show (cfg5.win 5).cut (grid5.coords t) ((dat5 V c).after 5 t) = _
  rw [after5_5]
  unfold out5_5
  rw [View.canon_unit_zero hz]
  simp only [View.ld_unit_zero (S := S5000x64) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  refine (pay_apply _ _ _ _ _ p q).trans ?_
  show lreluGt (affS (V c main_v192_0 (((cfg5.win 0).blk t).view.emb (ix2 p q))) (V c main_v208 (((cfg5.win 1).blk t).view.emb (ix2 0 q)))
      (V c main_v209 (((cfg5.win 2).blk t).view.emb (ix2 0 q))) (V c main_v210 (((cfg5.win 3).blk t).view.emb (ix2 0 q)))
      (V c main_v211 (((cfg5.win 4).blk t).view.emb (ix2 0 q))))
    = lreluGt (affS (V c main_v192_0 (((cfg5.win 5).blk t).view.emb (ix2 p q)))
      (V c main_v208 (ix2 0 ((((cfg5.win 5).blk t).view.emb (ix2 p q)) 1))) (V c main_v209 (ix2 0 ((((cfg5.win 5).blk t).view.emb (ix2 p q)) 1)))
      (V c main_v210 (ix2 0 ((((cfg5.win 5).blk t).view.emb (ix2 p q)) 1))) (V c main_v211 (ix2 0 ((((cfg5.win 5).blk t).view.emb (ix2 p q)) 1))))
  have h0 : ((cfg5.win 0).blk t).view.emb (ix2 p q) = ((cfg5.win 5).blk t).view.emb (ix2 p q) := by
    funext a; apply Fin.ext
    match a with
    | ⟨0, _⟩ => show win5_0.index t (0 : Fin 2) * 5000 + 1 * (p).val = win5_5.index t (0 : Fin 2) * 5000 + 1 * p.val; omega
    | ⟨1, _⟩ => show win5_0.index t (1 : Fin 2) * 64 + 1 * q.val = win5_5.index t (1 : Fin 2) * 64 + 1 * q.val; omega
  have h1 : ((cfg5.win 1).blk t).view.emb (ix2 0 q) = ix2 0 ((((cfg5.win 5).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_5.index t (1 : Fin 2) * 64 + 1 * q.val; omega
  have h2 : ((cfg5.win 2).blk t).view.emb (ix2 0 q) = ix2 0 ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 64 + 1 * q.val = win5_5.index t (1 : Fin 2) * 64 + 1 * q.val; omega
  have h3 : ((cfg5.win 3).blk t).view.emb (ix2 0 q) = ix2 0 ((((cfg5.win 5).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 64 + 1 * q.val = win5_5.index t (1 : Fin 2) * 64 + 1 * q.val; omega
  have h4 : ((cfg5.win 4).blk t).view.emb (ix2 0 q) = ix2 0 ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 64 + 1 * q.val = win5_5.index t (1 : Fin 2) * 64 + 1 * q.val; omega
  rw [h0, h1, h2, h3, h4]
  rfl

/-- An index of the array is in point t's block iff each coordinate is in the block's range on its axis. -/
theorem mem_blk (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v212).slice (win5_5.rect t)).set ↔ _
  rw [View.set_slice_whole, Rect.mem_set_unit]
  exact Iff.rfl

/-- Every row is in some block: row r is in block r / 5000. -/
theorem cover (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  have hlt : (i 0).val / 5000 < cfg5.N := by rw [hN]; omega
  obtain ⟨-, -, -, -, -, -, -, -, -, -, e50, e51⟩ := idx_facts ⟨(i 0).val / 5000, hlt⟩
  refine ⟨⟨(i 0).val / 5000, hlt⟩, flush5_5 _, ?_⟩
  rw [mem_blk]
  intro a
  match a with
  | ⟨0, _⟩ =>
    show win5_5.index ⟨(i 0).val / 5000, hlt⟩ (0 : Fin 2) * 5000 ≤ (i 0).val ∧ (i 0).val < win5_5.index ⟨(i 0).val / 5000, hlt⟩ (0 : Fin 2) * 5000 + 5000
    rw [e50]; dsimp only; omega
  | ⟨1, _⟩ =>
    show win5_5.index ⟨(i 0).val / 5000, hlt⟩ (1 : Fin 2) * 64 ≤ (i 1).val ∧ (i 1).val < win5_5.index ⟨(i 0).val / 5000, hlt⟩ (1 : Fin 2) * 64 + 64
    rw [e51]; omega

/-- The result array after the region: the normalise-and-rectify expression of the arrays it found. -/
theorem final (c : Dev nD) :
    (dat5 V c).arrAt 5 cfg5.N = actA (D := 64) (V c main_v192_0) (V c main_v208) (V c main_v209) (V c main_v210) (V c main_v211) :=
  (dat5 V c).arrAt_eq_of_cover 5 _ (fun t _ => flushed_eq V c t) cover

end Cert.KernelIdeal.Reg5

end
-- ==== Proof.KOut.lean ====
/- The kernel program as a composition of array functions: a layer is the block-wise linear map of the features and their
   three propagations, the batch statistics finished from the per-tile sums, and the normalise-and-rectify step; the
   network is three layers. -/
import proofs.«167710_j39049842655736_2_alg».proof.Proof.Terms
import proofs.«167710_j39049842655736_2_alg».proof.Proof.KTerms
import proofs.«167710_j39049842655736_2_alg».proof.Proof.KSpec

noncomputable section

namespace Cert.KOut

open Idealize.ShloMosaic

/-- A hidden layer's linear map. -/
def linK (src dst : IVec Cert.ReferenceIdeal.S600000 32) (nrm : FVec Ideal Cert.ReferenceIdeal.S600000 .f32) (x : FVec Ideal Cert.ReferenceIdeal.S100000x128 .f32)
    (W : FVec Ideal Cert.ReferenceIdeal.S4x128x128 .f32) (b : FVec Ideal Cert.ReferenceIdeal.S128 .f32) : FVec Ideal Cert.ReferenceIdeal.S100000x128 .f32 :=
  Cert.KSpec.linA (D := 128) x (Cert.ReferenceIdeal.T.hopT src dst nrm x) (Cert.ReferenceIdeal.T.hopT src dst nrm (Cert.ReferenceIdeal.T.hopT src dst nrm x)) (Cert.ReferenceIdeal.T.hopT src dst nrm (Cert.ReferenceIdeal.T.hopT src dst nrm (Cert.ReferenceIdeal.T.hopT src dst nrm x))) W (Cert.KernelIdeal.KT.rowT (F := Ideal) b)

/-- A hidden layer. -/
def layerK (src dst : IVec Cert.ReferenceIdeal.S600000 32) (nrm : FVec Ideal Cert.ReferenceIdeal.S600000 .f32) (x : FVec Ideal Cert.ReferenceIdeal.S100000x128 .f32)
    (W : FVec Ideal Cert.ReferenceIdeal.S4x128x128 .f32) (b g be : FVec Ideal Cert.ReferenceIdeal.S128 .f32) : FVec Ideal Cert.ReferenceIdeal.S100000x128 .f32 :=
  Cert.KSpec.actA (D := 128) (linK src dst nrm x W b)
    (Cert.KernelIdeal.KT.rowT (F := Ideal) (Cert.KernelIdeal.KT.kmeanT (F := Ideal) (Cert.KSpec.statA (D := 128) (linK src dst nrm x W b))))
    (Cert.KernelIdeal.KT.rowT (F := Ideal) (Cert.KernelIdeal.KT.kvarT (F := Ideal) (Cert.KSpec.statA (D := 128) (linK src dst nrm x W b)))) (Cert.KernelIdeal.KT.rowT (F := Ideal) g) (Cert.KernelIdeal.KT.rowT (F := Ideal) be)

/-- The output layer's linear map: 64 columns and a zero bias row. -/
def linK' (src dst : IVec Cert.ReferenceIdeal.S600000 32) (nrm : FVec Ideal Cert.ReferenceIdeal.S600000 .f32) (x : FVec Ideal Cert.ReferenceIdeal.S100000x128 .f32)
    (W : FVec Ideal Cert.ReferenceIdeal.S4x128x64 .f32) : FVec Ideal Cert.ReferenceIdeal.S100000x64 .f32 :=
  Cert.KSpec.linA (D := 64) x (Cert.ReferenceIdeal.T.hopT src dst nrm x) (Cert.ReferenceIdeal.T.hopT src dst nrm (Cert.ReferenceIdeal.T.hopT src dst nrm x)) (Cert.ReferenceIdeal.T.hopT src dst nrm (Cert.ReferenceIdeal.T.hopT src dst nrm (Cert.ReferenceIdeal.T.hopT src dst nrm x))) W (Cert.KernelIdeal.KT.zrowU (F := Ideal))

/-- The output layer. -/
def layerK' (src dst : IVec Cert.ReferenceIdeal.S600000 32) (nrm : FVec Ideal Cert.ReferenceIdeal.S600000 .f32) (x : FVec Ideal Cert.ReferenceIdeal.S100000x128 .f32)
    (W : FVec Ideal Cert.ReferenceIdeal.S4x128x64 .f32) (g be : FVec Ideal Cert.ReferenceIdeal.S64 .f32) : FVec Ideal Cert.ReferenceIdeal.S100000x64 .f32 :=
  Cert.KSpec.actA (D := 64) (linK' src dst nrm x W)
    (Cert.KernelIdeal.KT.rowU (F := Ideal) (Cert.KernelIdeal.KT.kmeanU (F := Ideal) (Cert.KSpec.statA (D := 64) (linK' src dst nrm x W))))
    (Cert.KernelIdeal.KT.rowU (F := Ideal) (Cert.KernelIdeal.KT.kvarU (F := Ideal) (Cert.KSpec.statA (D := 64) (linK' src dst nrm x W)))) (Cert.KernelIdeal.KT.rowU (F := Ideal) g) (Cert.KernelIdeal.KT.rowU (F := Ideal) be)

/-- The whole network on its fourteen arguments. -/
def kerOut (a0 : FVec Ideal Cert.ReferenceIdeal.S100000x128 .f32) (a1 : IVec Cert.ReferenceIdeal.S2x600000 32) (a2 : FVec Ideal Cert.ReferenceIdeal.S600000 .f32)
    (a3 : FVec Ideal Cert.ReferenceIdeal.S4x128x128 .f32) (a4 a5 a6 : FVec Ideal Cert.ReferenceIdeal.S128 .f32) (a7 : FVec Ideal Cert.ReferenceIdeal.S4x128x128 .f32)
    (a8 a9 a10 : FVec Ideal Cert.ReferenceIdeal.S128 .f32) (a11 : FVec Ideal Cert.ReferenceIdeal.S4x128x64 .f32) (a12 a13 : FVec Ideal Cert.ReferenceIdeal.S64 .f32) :
    FVec Ideal Cert.ReferenceIdeal.S100000x64 .f32 :=
  layerK' (Cert.ReferenceIdeal.T.srcT a1) (Cert.ReferenceIdeal.T.dstT a1) (Cert.ReferenceIdeal.T.normT (Cert.ReferenceIdeal.T.srcT a1) (Cert.ReferenceIdeal.T.dstT a1) a2)
    (layerK (Cert.ReferenceIdeal.T.srcT a1) (Cert.ReferenceIdeal.T.dstT a1) (Cert.ReferenceIdeal.T.normT (Cert.ReferenceIdeal.T.srcT a1) (Cert.ReferenceIdeal.T.dstT a1) a2)
      (layerK (Cert.ReferenceIdeal.T.srcT a1) (Cert.ReferenceIdeal.T.dstT a1) (Cert.ReferenceIdeal.T.normT (Cert.ReferenceIdeal.T.srcT a1) (Cert.ReferenceIdeal.T.dstT a1) a2) a0 a3 a4 a5 a6) a7 a8 a9 a10)
    a11 a12 a13

end Cert.KOut

end
-- ==== Proof.KChain.lean ====
/- The idealized kernel's result as the kernel network function of its arguments: boundary by boundary through @main's
   fourteen segments, each named buffer holds the value the corresponding piece of the network computes — a host stretch
   by its read operations, a region by its result arrays — and what a segment does not write passes through it. -/
import proofs.«167710_j39049842655736_2_alg».proof.Proof.KRun
import proofs.«167710_j39049842655736_2_alg».proof.Proof.KStretch
import proofs.«167710_j39049842655736_2_alg».proof.Proof.KReg0
import proofs.«167710_j39049842655736_2_alg».proof.Proof.KReg1
import proofs.«167710_j39049842655736_2_alg».proof.Proof.KReg2
import proofs.«167710_j39049842655736_2_alg».proof.Proof.KReg3
import proofs.«167710_j39049842655736_2_alg».proof.Proof.KReg4
import proofs.«167710_j39049842655736_2_alg».proof.Proof.KReg5
import proofs.«167710_j39049842655736_2_alg».proof.Proof.KOut

set_option maxRecDepth 16384
set_option maxHeartbeats 2000000

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem w3_v1 : W3 m ρ c (Proc.devRef .tc main_v1) = (Cert.ReferenceIdeal.T.srcT (m ((c : Thread nD τ).loc main_arg1))) :=
  KRead.sA_v1 (W0 m ρ c)

theorem w3_v3 : W3 m ρ c (Proc.devRef .tc main_v3) = (Cert.ReferenceIdeal.T.dstT (m ((c : Thread nD τ).loc main_arg1))) :=
  KRead.sA_v3 (W0 m ρ c)

theorem w3_v28 : W3 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  KRead.sA_v28 (W0 m ρ c)

theorem w3_v41 : W3 m ρ c (Proc.devRef .tc main_v41) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0))) :=
  KRead.sA_v41 (W0 m ρ c)

theorem w3_v54 : W3 m ρ c (Proc.devRef .tc main_v54) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)))) :=
  KRead.sA_v54 (W0 m ρ c)

theorem w3_v67 : W3 m ρ c (Proc.devRef .tc main_v67) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0))))) :=
  KRead.sA_v67 (W0 m ρ c)

theorem w3_v68 : W3 m ρ c (Proc.devRef .tc main_v68) = Cert.KernelIdeal.KT.rowT (F := Ideal) (m ((c : Thread nD τ).loc main_arg4)) :=
  KRead.sA_v68 (W0 m ρ c)

theorem w3_arg0 : W3 m ρ c (Proc.devRef .tc main_arg0) = m ((c : Thread nD τ).loc main_arg0) :=
  KRead.sA_keep (W0 m ρ c) (by decide) (by decide) (by decide) (by decide) (by decide) (by decide)

theorem w3_arg3 : W3 m ρ c (Proc.devRef .tc main_arg3) = m ((c : Thread nD τ).loc main_arg3) :=
  KRead.sA_keep (W0 m ρ c) (by decide) (by decide) (by decide) (by decide) (by decide) (by decide)

theorem w3_arg5 : W3 m ρ c (Proc.devRef .tc main_arg5) = m ((c : Thread nD τ).loc main_arg5) :=
  KRead.sA_keep (W0 m ρ c) (by decide) (by decide) (by decide) (by decide) (by decide) (by decide)

theorem w3_arg6 : W3 m ρ c (Proc.devRef .tc main_arg6) = m ((c : Thread nD τ).loc main_arg6) :=
  KRead.sA_keep (W0 m ρ c) (by decide) (by decide) (by decide) (by decide) (by decide) (by decide)

theorem w3_arg7 : W3 m ρ c (Proc.devRef .tc main_arg7) = m ((c : Thread nD τ).loc main_arg7) :=
  KRead.sA_keep (W0 m ρ c) (by decide) (by decide) (by decide) (by decide) (by decide) (by decide)

theorem w3_arg8 : W3 m ρ c (Proc.devRef .tc main_arg8) = m ((c : Thread nD τ).loc main_arg8) :=
  KRead.sA_keep (W0 m ρ c) (by decide) (by decide) (by decide) (by decide) (by decide) (by decide)

theorem w3_arg9 : W3 m ρ c (Proc.devRef .tc main_arg9) = m ((c : Thread nD τ).loc main_arg9) :=
  KRead.sA_keep (W0 m ρ c) (by decide) (by decide) (by decide) (by decide) (by decide) (by decide)

theorem w3_arg10 : W3 m ρ c (Proc.devRef .tc main_arg10) = m ((c : Thread nD τ).loc main_arg10) :=
  KRead.sA_keep (W0 m ρ c) (by decide) (by decide) (by decide) (by decide) (by decide) (by decide)

theorem w3_arg11 : W3 m ρ c (Proc.devRef .tc main_arg11) = m ((c : Thread nD τ).loc main_arg11) :=
  KRead.sA_keep (W0 m ρ c) (by decide) (by decide) (by decide) (by decide) (by decide) (by decide)

theorem w3_arg12 : W3 m ρ c (Proc.devRef .tc main_arg12) = m ((c : Thread nD τ).loc main_arg12) :=
  KRead.sA_keep (W0 m ρ c) (by decide) (by decide) (by decide) (by decide) (by decide) (by decide)

theorem w3_arg13 : W3 m ρ c (Proc.devRef .tc main_arg13) = m ((c : Thread nD τ).loc main_arg13) :=
  KRead.sA_keep (W0 m ρ c) (by decide) (by decide) (by decide) (by decide) (by decide) (by decide)

theorem w4_v1 : W4 m ρ c (Proc.devRef .tc main_v1) = (Cert.ReferenceIdeal.T.srcT (m ((c : Thread nD τ).loc main_arg1))) :=
  (W4_of_ne m ρ c main_v1 (by decide)).trans (w3_v1 m ρ c)

theorem w4_v3 : W4 m ρ c (Proc.devRef .tc main_v3) = (Cert.ReferenceIdeal.T.dstT (m ((c : Thread nD τ).loc main_arg1))) :=
  (W4_of_ne m ρ c main_v3 (by decide)).trans (w3_v3 m ρ c)

theorem w4_v28 : W4 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (W4_of_ne m ρ c main_v28 (by decide)).trans (w3_v28 m ρ c)

theorem w4_arg5 : W4 m ρ c (Proc.devRef .tc main_arg5) = m ((c : Thread nD τ).loc main_arg5) :=
  (W4_of_ne m ρ c main_arg5 (by decide)).trans (w3_arg5 m ρ c)

theorem w4_arg6 : W4 m ρ c (Proc.devRef .tc main_arg6) = m ((c : Thread nD τ).loc main_arg6) :=
  (W4_of_ne m ρ c main_arg6 (by decide)).trans (w3_arg6 m ρ c)

theorem w4_arg8 : W4 m ρ c (Proc.devRef .tc main_arg8) = m ((c : Thread nD τ).loc main_arg8) :=
  (W4_of_ne m ρ c main_arg8 (by decide)).trans (w3_arg8 m ρ c)

theorem w4_arg7 : W4 m ρ c (Proc.devRef .tc main_arg7) = m ((c : Thread nD τ).loc main_arg7) :=
  (W4_of_ne m ρ c main_arg7 (by decide)).trans (w3_arg7 m ρ c)

theorem w4_arg9 : W4 m ρ c (Proc.devRef .tc main_arg9) = m ((c : Thread nD τ).loc main_arg9) :=
  (W4_of_ne m ρ c main_arg9 (by decide)).trans (w3_arg9 m ρ c)

theorem w4_arg10 : W4 m ρ c (Proc.devRef .tc main_arg10) = m ((c : Thread nD τ).loc main_arg10) :=
  (W4_of_ne m ρ c main_arg10 (by decide)).trans (w3_arg10 m ρ c)

theorem w4_arg11 : W4 m ρ c (Proc.devRef .tc main_arg11) = m ((c : Thread nD τ).loc main_arg11) :=
  (W4_of_ne m ρ c main_arg11 (by decide)).trans (w3_arg11 m ρ c)

theorem w4_arg12 : W4 m ρ c (Proc.devRef .tc main_arg12) = m ((c : Thread nD τ).loc main_arg12) :=
  (W4_of_ne m ρ c main_arg12 (by decide)).trans (w3_arg12 m ρ c)

theorem w4_arg13 : W4 m ρ c (Proc.devRef .tc main_arg13) = m ((c : Thread nD τ).loc main_arg13) :=
  (W4_of_ne m ρ c main_arg13 (by decide)).trans (w3_arg13 m ρ c)

theorem lin1_eq : Cert.KSpec.linA (D := 128) (V3 m ρ c main_arg0) (V3 m ρ c main_v41) (V3 m ρ c main_v54) (V3 m ρ c main_v67) (V3 m ρ c main_arg3) (V3 m ρ c main_v68) = (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4))) := by
  unfold Cert.KOut.linK
  rw [show V3 m ρ c main_arg0 = _ from w3_arg0 m ρ c,
      show V3 m ρ c main_v41 = _ from w3_v41 m ρ c,
      show V3 m ρ c main_v54 = _ from w3_v54 m ρ c,
      show V3 m ρ c main_v67 = _ from w3_v67 m ρ c,
      show V3 m ρ c main_arg3 = _ from w3_arg3 m ρ c,
      show V3 m ρ c main_v68 = _ from w3_v68 m ρ c]

theorem w4_o : W4 m ρ c (Proc.devRef .tc main_v69_0) = (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4))) :=
  (W4_arr m ρ c 6).trans ((Reg0.final6 (V3 m ρ) c).trans (lin1_eq m ρ c))

theorem w4_s : W4 m ρ c (Proc.devRef .tc main_v69_1) = (Cert.KSpec.statA (D := 128) (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)))) :=
  (W4_arr m ρ c 7).trans ((Reg0.final7 (V3 m ρ) c).trans (congrArg (Cert.KSpec.statA (D := 128)) (lin1_eq m ρ c)))

theorem w5_v1 : W5 m ρ c (Proc.devRef .tc main_v1) = (Cert.ReferenceIdeal.T.srcT (m ((c : Thread nD τ).loc main_arg1))) :=
  (KRead.sB_keep (W4 m ρ c) (by decide)).trans (w4_v1 m ρ c)

theorem w5_v3 : W5 m ρ c (Proc.devRef .tc main_v3) = (Cert.ReferenceIdeal.T.dstT (m ((c : Thread nD τ).loc main_arg1))) :=
  (KRead.sB_keep (W4 m ρ c) (by decide)).trans (w4_v3 m ρ c)

theorem w5_v28 : W5 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (KRead.sB_keep (W4 m ρ c) (by decide)).trans (w4_v28 m ρ c)

theorem w5_arg8 : W5 m ρ c (Proc.devRef .tc main_arg8) = m ((c : Thread nD τ).loc main_arg8) :=
  (KRead.sB_keep (W4 m ρ c) (by decide)).trans (w4_arg8 m ρ c)

theorem w5_arg7 : W5 m ρ c (Proc.devRef .tc main_arg7) = m ((c : Thread nD τ).loc main_arg7) :=
  (KRead.sB_keep (W4 m ρ c) (by decide)).trans (w4_arg7 m ρ c)

theorem w5_arg9 : W5 m ρ c (Proc.devRef .tc main_arg9) = m ((c : Thread nD τ).loc main_arg9) :=
  (KRead.sB_keep (W4 m ρ c) (by decide)).trans (w4_arg9 m ρ c)

theorem w5_arg10 : W5 m ρ c (Proc.devRef .tc main_arg10) = m ((c : Thread nD τ).loc main_arg10) :=
  (KRead.sB_keep (W4 m ρ c) (by decide)).trans (w4_arg10 m ρ c)

theorem w5_arg11 : W5 m ρ c (Proc.devRef .tc main_arg11) = m ((c : Thread nD τ).loc main_arg11) :=
  (KRead.sB_keep (W4 m ρ c) (by decide)).trans (w4_arg11 m ρ c)

theorem w5_arg12 : W5 m ρ c (Proc.devRef .tc main_arg12) = m ((c : Thread nD τ).loc main_arg12) :=
  (KRead.sB_keep (W4 m ρ c) (by decide)).trans (w4_arg12 m ρ c)

theorem w5_arg13 : W5 m ρ c (Proc.devRef .tc main_arg13) = m ((c : Thread nD τ).loc main_arg13) :=
  (KRead.sB_keep (W4 m ρ c) (by decide)).trans (w4_arg13 m ρ c)

theorem w5_v85 : W5 m ρ c (Proc.devRef .tc main_v85) = Cert.KernelIdeal.KT.rowT (F := Ideal) (Cert.KernelIdeal.KT.kmeanT (F := Ideal) (Cert.KSpec.statA (D := 128) (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4))))) :=
  (KRead.sB_v85 (W4 m ρ c)).trans (by rw [w4_s m ρ c])

theorem w5_v86 : W5 m ρ c (Proc.devRef .tc main_v86) = Cert.KernelIdeal.KT.rowT (F := Ideal) (Cert.KernelIdeal.KT.kvarT (F := Ideal) (Cert.KSpec.statA (D := 128) (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4))))) :=
  (KRead.sB_v86 (W4 m ρ c)).trans (by rw [w4_s m ρ c])

theorem w5_v87 : W5 m ρ c (Proc.devRef .tc main_v87) = Cert.KernelIdeal.KT.rowT (F := Ideal) (m ((c : Thread nD τ).loc main_arg5)) :=
  (KRead.sB_v87 (W4 m ρ c)).trans (by rw [w4_arg5 m ρ c])

theorem w5_v88 : W5 m ρ c (Proc.devRef .tc main_v88) = Cert.KernelIdeal.KT.rowT (F := Ideal) (m ((c : Thread nD τ).loc main_arg6)) :=
  (KRead.sB_v88 (W4 m ρ c)).trans (by rw [w4_arg6 m ρ c])

theorem w5_o : W5 m ρ c (Proc.devRef .tc main_v69_0) = (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4))) :=
  (KRead.sB_keep (W4 m ρ c) (by decide)).trans (w4_o m ρ c)

theorem w6_v1 : W6 m ρ c (Proc.devRef .tc main_v1) = (Cert.ReferenceIdeal.T.srcT (m ((c : Thread nD τ).loc main_arg1))) :=
  (W6_of_ne m ρ c main_v1 (by decide)).trans (w5_v1 m ρ c)

theorem w6_v3 : W6 m ρ c (Proc.devRef .tc main_v3) = (Cert.ReferenceIdeal.T.dstT (m ((c : Thread nD τ).loc main_arg1))) :=
  (W6_of_ne m ρ c main_v3 (by decide)).trans (w5_v3 m ρ c)

theorem w6_v28 : W6 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (W6_of_ne m ρ c main_v28 (by decide)).trans (w5_v28 m ρ c)

theorem w6_arg8 : W6 m ρ c (Proc.devRef .tc main_arg8) = m ((c : Thread nD τ).loc main_arg8) :=
  (W6_of_ne m ρ c main_arg8 (by decide)).trans (w5_arg8 m ρ c)

theorem w6_arg7 : W6 m ρ c (Proc.devRef .tc main_arg7) = m ((c : Thread nD τ).loc main_arg7) :=
  (W6_of_ne m ρ c main_arg7 (by decide)).trans (w5_arg7 m ρ c)

theorem w6_arg9 : W6 m ρ c (Proc.devRef .tc main_arg9) = m ((c : Thread nD τ).loc main_arg9) :=
  (W6_of_ne m ρ c main_arg9 (by decide)).trans (w5_arg9 m ρ c)

theorem w6_arg10 : W6 m ρ c (Proc.devRef .tc main_arg10) = m ((c : Thread nD τ).loc main_arg10) :=
  (W6_of_ne m ρ c main_arg10 (by decide)).trans (w5_arg10 m ρ c)

theorem w6_arg11 : W6 m ρ c (Proc.devRef .tc main_arg11) = m ((c : Thread nD τ).loc main_arg11) :=
  (W6_of_ne m ρ c main_arg11 (by decide)).trans (w5_arg11 m ρ c)

theorem w6_arg12 : W6 m ρ c (Proc.devRef .tc main_arg12) = m ((c : Thread nD τ).loc main_arg12) :=
  (W6_of_ne m ρ c main_arg12 (by decide)).trans (w5_arg12 m ρ c)

theorem w6_arg13 : W6 m ρ c (Proc.devRef .tc main_arg13) = m ((c : Thread nD τ).loc main_arg13) :=
  (W6_of_ne m ρ c main_arg13 (by decide)).trans (w5_arg13 m ρ c)

theorem w6_x : W6 m ρ c (Proc.devRef .tc main_v89) = (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) :=
  (W6_arr m ρ c 5).trans ((Reg1.final (V5 m ρ) c).trans (by
    unfold Cert.KOut.layerK
    rw [show V5 m ρ c main_v69_0 = _ from w5_o m ρ c,
      show V5 m ρ c main_v85 = _ from w5_v85 m ρ c,
      show V5 m ρ c main_v86 = _ from w5_v86 m ρ c,
      show V5 m ρ c main_v87 = _ from w5_v87 m ρ c,
      show V5 m ρ c main_v88 = _ from w5_v88 m ρ c]
    all_goals rfl))

theorem w7_v1 : W7 m ρ c (Proc.devRef .tc main_v1) = (Cert.ReferenceIdeal.T.srcT (m ((c : Thread nD τ).loc main_arg1))) :=
  (KRead.sC_keep (W6 m ρ c) (by decide) (by decide) (by decide) (by decide)).trans (w6_v1 m ρ c)

theorem w7_v3 : W7 m ρ c (Proc.devRef .tc main_v3) = (Cert.ReferenceIdeal.T.dstT (m ((c : Thread nD τ).loc main_arg1))) :=
  (KRead.sC_keep (W6 m ρ c) (by decide) (by decide) (by decide) (by decide)).trans (w6_v3 m ρ c)

theorem w7_v28 : W7 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (KRead.sC_keep (W6 m ρ c) (by decide) (by decide) (by decide) (by decide)).trans (w6_v28 m ρ c)

theorem w7_arg7 : W7 m ρ c (Proc.devRef .tc main_arg7) = m ((c : Thread nD τ).loc main_arg7) :=
  (KRead.sC_keep (W6 m ρ c) (by decide) (by decide) (by decide) (by decide)).trans (w6_arg7 m ρ c)

theorem w7_arg9 : W7 m ρ c (Proc.devRef .tc main_arg9) = m ((c : Thread nD τ).loc main_arg9) :=
  (KRead.sC_keep (W6 m ρ c) (by decide) (by decide) (by decide) (by decide)).trans (w6_arg9 m ρ c)

theorem w7_arg10 : W7 m ρ c (Proc.devRef .tc main_arg10) = m ((c : Thread nD τ).loc main_arg10) :=
  (KRead.sC_keep (W6 m ρ c) (by decide) (by decide) (by decide) (by decide)).trans (w6_arg10 m ρ c)

theorem w7_arg11 : W7 m ρ c (Proc.devRef .tc main_arg11) = m ((c : Thread nD τ).loc main_arg11) :=
  (KRead.sC_keep (W6 m ρ c) (by decide) (by decide) (by decide) (by decide)).trans (w6_arg11 m ρ c)

theorem w7_arg12 : W7 m ρ c (Proc.devRef .tc main_arg12) = m ((c : Thread nD τ).loc main_arg12) :=
  (KRead.sC_keep (W6 m ρ c) (by decide) (by decide) (by decide) (by decide)).trans (w6_arg12 m ρ c)

theorem w7_arg13 : W7 m ρ c (Proc.devRef .tc main_arg13) = m ((c : Thread nD τ).loc main_arg13) :=
  (KRead.sC_keep (W6 m ρ c) (by decide) (by decide) (by decide) (by decide)).trans (w6_arg13 m ρ c)

theorem w7_v102 : W7 m ρ c (Proc.devRef .tc main_v102) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)))) :=
  (KRead.sC_v102 (W6 m ρ c)).trans (by rw [w6_v1 m ρ c, w6_v3 m ρ c, w6_v28 m ρ c, w6_x m ρ c])

theorem w7_v115 : W7 m ρ c (Proc.devRef .tc main_v115) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))))) :=
  (KRead.sC_v115 (W6 m ρ c)).trans (by rw [w6_v1 m ρ c, w6_v3 m ρ c, w6_v28 m ρ c, w6_x m ρ c])

theorem w7_v128 : W7 m ρ c (Proc.devRef .tc main_v128) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)))))) :=
  (KRead.sC_v128 (W6 m ρ c)).trans (by rw [w6_v1 m ρ c, w6_v3 m ρ c, w6_v28 m ρ c, w6_x m ρ c])

theorem w7_v129 : W7 m ρ c (Proc.devRef .tc main_v129) = Cert.KernelIdeal.KT.rowT (F := Ideal) (m ((c : Thread nD τ).loc main_arg8)) :=
  (KRead.sC_v129 (W6 m ρ c)).trans (by rw [w6_arg8 m ρ c])

theorem w7_x : W7 m ρ c (Proc.devRef .tc main_v89) = (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) :=
  (KRead.sC_keep (W6 m ρ c) (by decide) (by decide) (by decide) (by decide)).trans (w6_x m ρ c)

theorem w8_v1 : W8 m ρ c (Proc.devRef .tc main_v1) = (Cert.ReferenceIdeal.T.srcT (m ((c : Thread nD τ).loc main_arg1))) :=
  (W8_of_ne m ρ c main_v1 (by decide)).trans (w7_v1 m ρ c)

theorem w8_v3 : W8 m ρ c (Proc.devRef .tc main_v3) = (Cert.ReferenceIdeal.T.dstT (m ((c : Thread nD τ).loc main_arg1))) :=
  (W8_of_ne m ρ c main_v3 (by decide)).trans (w7_v3 m ρ c)

theorem w8_v28 : W8 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (W8_of_ne m ρ c main_v28 (by decide)).trans (w7_v28 m ρ c)

theorem w8_arg9 : W8 m ρ c (Proc.devRef .tc main_arg9) = m ((c : Thread nD τ).loc main_arg9) :=
  (W8_of_ne m ρ c main_arg9 (by decide)).trans (w7_arg9 m ρ c)

theorem w8_arg10 : W8 m ρ c (Proc.devRef .tc main_arg10) = m ((c : Thread nD τ).loc main_arg10) :=
  (W8_of_ne m ρ c main_arg10 (by decide)).trans (w7_arg10 m ρ c)

theorem w8_arg11 : W8 m ρ c (Proc.devRef .tc main_arg11) = m ((c : Thread nD τ).loc main_arg11) :=
  (W8_of_ne m ρ c main_arg11 (by decide)).trans (w7_arg11 m ρ c)

theorem w8_arg12 : W8 m ρ c (Proc.devRef .tc main_arg12) = m ((c : Thread nD τ).loc main_arg12) :=
  (W8_of_ne m ρ c main_arg12 (by decide)).trans (w7_arg12 m ρ c)

theorem w8_arg13 : W8 m ρ c (Proc.devRef .tc main_arg13) = m ((c : Thread nD τ).loc main_arg13) :=
  (W8_of_ne m ρ c main_arg13 (by decide)).trans (w7_arg13 m ρ c)

theorem lin2_eq : Cert.KSpec.linA (D := 128) (V7 m ρ c main_v89) (V7 m ρ c main_v102) (V7 m ρ c main_v115) (V7 m ρ c main_v128) (V7 m ρ c main_arg7) (V7 m ρ c main_v129) = (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))) := by
  unfold Cert.KOut.linK
  rw [show V7 m ρ c main_v89 = _ from w7_x m ρ c,
      show V7 m ρ c main_v102 = _ from w7_v102 m ρ c,
      show V7 m ρ c main_v115 = _ from w7_v115 m ρ c,
      show V7 m ρ c main_v128 = _ from w7_v128 m ρ c,
      show V7 m ρ c main_arg7 = _ from w7_arg7 m ρ c,
      show V7 m ρ c main_v129 = _ from w7_v129 m ρ c]

theorem w8_o : W8 m ρ c (Proc.devRef .tc main_v130_0) = (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))) :=
  (W8_arr m ρ c 6).trans ((Reg2.final6 (V7 m ρ) c).trans (lin2_eq m ρ c))

theorem w8_s : W8 m ρ c (Proc.devRef .tc main_v130_1) = (Cert.KSpec.statA (D := 128) (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)))) :=
  (W8_arr m ρ c 7).trans ((Reg2.final7 (V7 m ρ) c).trans (congrArg (Cert.KSpec.statA (D := 128)) (lin2_eq m ρ c)))

theorem w9_v1 : W9 m ρ c (Proc.devRef .tc main_v1) = (Cert.ReferenceIdeal.T.srcT (m ((c : Thread nD τ).loc main_arg1))) :=
  (KRead.sD_keep (W8 m ρ c) (by decide)).trans (w8_v1 m ρ c)

theorem w9_v3 : W9 m ρ c (Proc.devRef .tc main_v3) = (Cert.ReferenceIdeal.T.dstT (m ((c : Thread nD τ).loc main_arg1))) :=
  (KRead.sD_keep (W8 m ρ c) (by decide)).trans (w8_v3 m ρ c)

theorem w9_v28 : W9 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (KRead.sD_keep (W8 m ρ c) (by decide)).trans (w8_v28 m ρ c)

theorem w9_arg11 : W9 m ρ c (Proc.devRef .tc main_arg11) = m ((c : Thread nD τ).loc main_arg11) :=
  (KRead.sD_keep (W8 m ρ c) (by decide)).trans (w8_arg11 m ρ c)

theorem w9_arg12 : W9 m ρ c (Proc.devRef .tc main_arg12) = m ((c : Thread nD τ).loc main_arg12) :=
  (KRead.sD_keep (W8 m ρ c) (by decide)).trans (w8_arg12 m ρ c)

theorem w9_arg13 : W9 m ρ c (Proc.devRef .tc main_arg13) = m ((c : Thread nD τ).loc main_arg13) :=
  (KRead.sD_keep (W8 m ρ c) (by decide)).trans (w8_arg13 m ρ c)

theorem w9_v146 : W9 m ρ c (Proc.devRef .tc main_v146) = Cert.KernelIdeal.KT.rowT (F := Ideal) (Cert.KernelIdeal.KT.kmeanT (F := Ideal) (Cert.KSpec.statA (D := 128) (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))))) :=
  (KRead.sD_v146 (W8 m ρ c)).trans (by rw [w8_s m ρ c])

theorem w9_v147 : W9 m ρ c (Proc.devRef .tc main_v147) = Cert.KernelIdeal.KT.rowT (F := Ideal) (Cert.KernelIdeal.KT.kvarT (F := Ideal) (Cert.KSpec.statA (D := 128) (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))))) :=
  (KRead.sD_v147 (W8 m ρ c)).trans (by rw [w8_s m ρ c])

theorem w9_v148 : W9 m ρ c (Proc.devRef .tc main_v148) = Cert.KernelIdeal.KT.rowT (F := Ideal) (m ((c : Thread nD τ).loc main_arg9)) :=
  (KRead.sD_v148 (W8 m ρ c)).trans (by rw [w8_arg9 m ρ c])

theorem w9_v149 : W9 m ρ c (Proc.devRef .tc main_v149) = Cert.KernelIdeal.KT.rowT (F := Ideal) (m ((c : Thread nD τ).loc main_arg10)) :=
  (KRead.sD_v149 (W8 m ρ c)).trans (by rw [w8_arg10 m ρ c])

theorem w9_o : W9 m ρ c (Proc.devRef .tc main_v130_0) = (Cert.KOut.linK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))) :=
  (KRead.sD_keep (W8 m ρ c) (by decide)).trans (w8_o m ρ c)

theorem w10_v1 : W10 m ρ c (Proc.devRef .tc main_v1) = (Cert.ReferenceIdeal.T.srcT (m ((c : Thread nD τ).loc main_arg1))) :=
  (W10_of_ne m ρ c main_v1 (by decide)).trans (w9_v1 m ρ c)

theorem w10_v3 : W10 m ρ c (Proc.devRef .tc main_v3) = (Cert.ReferenceIdeal.T.dstT (m ((c : Thread nD τ).loc main_arg1))) :=
  (W10_of_ne m ρ c main_v3 (by decide)).trans (w9_v3 m ρ c)

theorem w10_v28 : W10 m ρ c (Proc.devRef .tc main_v28) = (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) :=
  (W10_of_ne m ρ c main_v28 (by decide)).trans (w9_v28 m ρ c)

theorem w10_arg11 : W10 m ρ c (Proc.devRef .tc main_arg11) = m ((c : Thread nD τ).loc main_arg11) :=
  (W10_of_ne m ρ c main_arg11 (by decide)).trans (w9_arg11 m ρ c)

theorem w10_arg12 : W10 m ρ c (Proc.devRef .tc main_arg12) = m ((c : Thread nD τ).loc main_arg12) :=
  (W10_of_ne m ρ c main_arg12 (by decide)).trans (w9_arg12 m ρ c)

theorem w10_arg13 : W10 m ρ c (Proc.devRef .tc main_arg13) = m ((c : Thread nD τ).loc main_arg13) :=
  (W10_of_ne m ρ c main_arg13 (by decide)).trans (w9_arg13 m ρ c)

theorem w10_x : W10 m ρ c (Proc.devRef .tc main_v150) = (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) :=
  (W10_arr m ρ c 5).trans ((Reg3.final (V9 m ρ) c).trans (by
    unfold Cert.KOut.layerK
    rw [show V9 m ρ c main_v130_0 = _ from w9_o m ρ c,
      show V9 m ρ c main_v146 = _ from w9_v146 m ρ c,
      show V9 m ρ c main_v147 = _ from w9_v147 m ρ c,
      show V9 m ρ c main_v148 = _ from w9_v148 m ρ c,
      show V9 m ρ c main_v149 = _ from w9_v149 m ρ c]
    all_goals rfl))

theorem w11_arg11 : W11 m ρ c (Proc.devRef .tc main_arg11) = m ((c : Thread nD τ).loc main_arg11) :=
  (KRead.sE_keep (W10 m ρ c) (by decide) (by decide) (by decide) (by decide)).trans (w10_arg11 m ρ c)

theorem w11_arg12 : W11 m ρ c (Proc.devRef .tc main_arg12) = m ((c : Thread nD τ).loc main_arg12) :=
  (KRead.sE_keep (W10 m ρ c) (by decide) (by decide) (by decide) (by decide)).trans (w10_arg12 m ρ c)

theorem w11_arg13 : W11 m ρ c (Proc.devRef .tc main_arg13) = m ((c : Thread nD τ).loc main_arg13) :=
  (KRead.sE_keep (W10 m ρ c) (by decide) (by decide) (by decide) (by decide)).trans (w10_arg13 m ρ c)

theorem w11_v163 : W11 m ρ c (Proc.devRef .tc main_v163) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)))) :=
  (KRead.sE_v163 (W10 m ρ c)).trans (by rw [w10_v1 m ρ c, w10_v3 m ρ c, w10_v28 m ρ c, w10_x m ρ c])

theorem w11_v176 : W11 m ρ c (Proc.devRef .tc main_v176) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))))) :=
  (KRead.sE_v176 (W10 m ρ c)).trans (by rw [w10_v1 m ρ c, w10_v3 m ρ c, w10_v28 m ρ c, w10_x m ρ c])

theorem w11_v189 : W11 m ρ c (Proc.devRef .tc main_v189) = (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.ReferenceIdeal.T.hopT (F := Ideal) (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)))))) :=
  (KRead.sE_v189 (W10 m ρ c)).trans (by rw [w10_v1 m ρ c, w10_v3 m ρ c, w10_v28 m ρ c, w10_x m ρ c])

theorem w11_v191 : W11 m ρ c (Proc.devRef .tc main_v191) = Cert.KernelIdeal.KT.zrowU (F := Ideal) :=
  KRead.sE_v191 (W10 m ρ c)

theorem w11_x : W11 m ρ c (Proc.devRef .tc main_v150) = (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) :=
  (KRead.sE_keep (W10 m ρ c) (by decide) (by decide) (by decide) (by decide)).trans (w10_x m ρ c)

theorem w12_arg12 : W12 m ρ c (Proc.devRef .tc main_arg12) = m ((c : Thread nD τ).loc main_arg12) :=
  (W12_of_ne m ρ c main_arg12 (by decide)).trans (w11_arg12 m ρ c)

theorem w12_arg13 : W12 m ρ c (Proc.devRef .tc main_arg13) = m ((c : Thread nD τ).loc main_arg13) :=
  (W12_of_ne m ρ c main_arg13 (by decide)).trans (w11_arg13 m ρ c)

theorem lin3_eq : Cert.KSpec.linA (D := 64) (V11 m ρ c main_v150) (V11 m ρ c main_v163) (V11 m ρ c main_v176) (V11 m ρ c main_v189) (V11 m ρ c main_arg11) (V11 m ρ c main_v191) = (Cert.KOut.linK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11))) := by
  unfold Cert.KOut.linK'
  rw [show V11 m ρ c main_v150 = _ from w11_x m ρ c,
      show V11 m ρ c main_v163 = _ from w11_v163 m ρ c,
      show V11 m ρ c main_v176 = _ from w11_v176 m ρ c,
      show V11 m ρ c main_v189 = _ from w11_v189 m ρ c,
      show V11 m ρ c main_arg11 = _ from w11_arg11 m ρ c,
      show V11 m ρ c main_v191 = _ from w11_v191 m ρ c]

theorem w12_o : W12 m ρ c (Proc.devRef .tc main_v192_0) = (Cert.KOut.linK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11))) :=
  (W12_arr m ρ c 6).trans ((Reg4.final6 (V11 m ρ) c).trans (lin3_eq m ρ c))

theorem w12_s : W12 m ρ c (Proc.devRef .tc main_v192_1) = (Cert.KSpec.statA (D := 64) (Cert.KOut.linK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11)))) :=
  (W12_arr m ρ c 7).trans ((Reg4.final7 (V11 m ρ) c).trans (congrArg (Cert.KSpec.statA (D := 64)) (lin3_eq m ρ c)))

theorem w13_v208 : W13 m ρ c (Proc.devRef .tc main_v208) = Cert.KernelIdeal.KT.rowU (F := Ideal) (Cert.KernelIdeal.KT.kmeanU (F := Ideal) (Cert.KSpec.statA (D := 64) (Cert.KOut.linK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11))))) :=
  (KRead.sF_v208 (W12 m ρ c)).trans (by rw [w12_s m ρ c])

theorem w13_v209 : W13 m ρ c (Proc.devRef .tc main_v209) = Cert.KernelIdeal.KT.rowU (F := Ideal) (Cert.KernelIdeal.KT.kvarU (F := Ideal) (Cert.KSpec.statA (D := 64) (Cert.KOut.linK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11))))) :=
  (KRead.sF_v209 (W12 m ρ c)).trans (by rw [w12_s m ρ c])

theorem w13_v210 : W13 m ρ c (Proc.devRef .tc main_v210) = Cert.KernelIdeal.KT.rowU (F := Ideal) (m ((c : Thread nD τ).loc main_arg12)) :=
  (KRead.sF_v210 (W12 m ρ c)).trans (by rw [w12_arg12 m ρ c])

theorem w13_v211 : W13 m ρ c (Proc.devRef .tc main_v211) = Cert.KernelIdeal.KT.rowU (F := Ideal) (m ((c : Thread nD τ).loc main_arg13)) :=
  (KRead.sF_v211 (W12 m ρ c)).trans (by rw [w12_arg13 m ρ c])

theorem w13_o : W13 m ρ c (Proc.devRef .tc main_v192_0) = (Cert.KOut.linK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11))) :=
  (KRead.sF_keep (W12 m ρ c) (by decide)).trans (w12_o m ρ c)

theorem w14_x : W14 m ρ c (Proc.devRef .tc main_v212) = (Cert.KOut.layerK' (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (Cert.KOut.layerK (Cert.ReferenceIdeal.T.srcT (m ((c : Thread nD τ).loc main_arg1))) (Cert.ReferenceIdeal.T.dstT (m ((c : Thread nD τ).loc main_arg1))) (Cert.ReferenceIdeal.T.normT (F := Ideal) (Cert.ReferenceIdeal.T.srcT (m ((c : Thread nD τ).loc main_arg1))) (Cert.ReferenceIdeal.T.dstT (m ((c : Thread nD τ).loc main_arg1))) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13))) :=
  (W14_arr m ρ c 5).trans ((Reg5.final (V13 m ρ) c).trans (by
    unfold Cert.KOut.layerK'
    rw [show V13 m ρ c main_v192_0 = _ from w13_o m ρ c,
      show V13 m ρ c main_v208 = _ from w13_v208 m ρ c,
      show V13 m ρ c main_v209 = _ from w13_v209 m ρ c,
      show V13 m ρ c main_v210 = _ from w13_v210 m ρ c,
      show V13 m ρ c main_v211 = _ from w13_v211 m ρ c]
    all_goals rfl))

/-- The result buffer at the last boundary is the kernel network function of the argument arrays. -/
theorem out_eq : W14 m ρ c (Proc.devRef .tc main_v212) = Cert.KOut.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (w14_x m ρ c).trans (by unfold Cert.KOut.kerOut; rfl)

/-- Every weakly fair execution of the idealized kernel terminates with its result at the kernel network function of its
    arguments, and the arguments unchanged. -/
theorem run_value : θ_run defs (onTc (τ := τ) (main (F := Ideal))) ⟨m, fun _ => 0, ρ⟩ (fun r => ∀ c : Dev nD,
      r.2.mem ((c.tc : Thread nD τ).loc main_v212) = Cert.KOut.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (out_eq m ρ c), (h c).2⟩) (KRun.run_value m ρ)

end Cert.KernelIdeal.KChain

end
-- ==== Proof.RefIdx128.lean ====
/- The reference's named functions, and the kernel's statistics glue, read at an index (128 output columns): a matrix product
   as a sum over the contracted axis, a slice and a reshape as a re-indexing, a broadcast as a repeated row, a reduction as a
   sum over the reduced axis. -/
import proofs.«167710_j39049842655736_2_alg».proof.Proof.Terms
import proofs.«167710_j39049842655736_2_alg».proof.Proof.KTerms
import proofs.«167710_j39049842655736_2_alg».proof.Proof.KSpec
import proofs.«167710_j39049842655736_2_alg».proof.Proof.DotLib
import Idealize.ShloMosaic.Lib.Pipeline.Value
import Idealize.ShloMosaic.Lib.ValueLayout

set_option maxRecDepth 16384

noncomputable section

namespace Cert.RefIdx128

open Cert.ReferenceIdeal Cert.ReferenceIdeal.Gen Cert.KSpec
open Idealize.ShloMosaic Idealize.ShloMosaic.ValueIdx

/-- The node count's literal. -/
abbrev nodesLit : EReal := Ideal.ofBits .f32 0x47C35000#32

/-- The host's matrix product at an index. -/
theorem dot_apply (l : FVec Ideal S100000x128 .f32) (r : FVec Ideal S128x128 .f32) (i : Fin 100000) (q : Fin 128) :
    Host.dotGeneral (F := Ideal) dot_S100000x128_S128x128_S100000x128_1_0_0_1_n_n none l r (ix2 i q) = ∑ κ : Fin 128, l (ix2 i κ) * r (ix2 κ q) :=
  (Ideal.dotGeneral_apply (DotDims.plain 100000 128 128) none .single l r (ix2 i q)).trans (Cert.DotLib.plain_sum 100000 128 128 l r i q)

/-- Weight matrix 0 out of the stack of four. -/
theorem wsl0 (W : FVec Ideal S4x128x128 .f32) (κ : Fin 128) (q : Fin 128) :
    shapeCast S128x128 (extractStridedSlice S1x128x128 ![0, 0, 0] W slices_S4x128x128_S1x128x128_0_0_0) shapeCasts_S1x128x128_S128x128 (ix2 κ q) = W (ix3 0 κ q) :=
  (shapeCast_1ab_ab_apply _ _ κ q).trans (extractStridedSlice_apply _ W _ (ix3 0 κ q) (ix3 0 κ q) fun a => by
    match a with
    | ⟨0, _⟩ => show 0 = 0 + 0; rfl
    | ⟨1, _⟩ => show κ.val = 0 + κ.val; omega
    | ⟨2, _⟩ => show q.val = 0 + q.val; omega)

/-- Weight matrix 1 out of the stack of four. -/
theorem wsl1 (W : FVec Ideal S4x128x128 .f32) (κ : Fin 128) (q : Fin 128) :
    shapeCast S128x128 (extractStridedSlice S1x128x128 ![1, 0, 0] W slices_S4x128x128_S1x128x128_1_0_0) shapeCasts_S1x128x128_S128x128 (ix2 κ q) = W (ix3 1 κ q) :=
  (shapeCast_1ab_ab_apply _ _ κ q).trans (extractStridedSlice_apply _ W _ (ix3 0 κ q) (ix3 1 κ q) fun a => by
    match a with
    | ⟨0, _⟩ => show 1 = 1 + 0; rfl
    | ⟨1, _⟩ => show κ.val = 0 + κ.val; omega
    | ⟨2, _⟩ => show q.val = 0 + q.val; omega)

/-- Weight matrix 2 out of the stack of four. -/
theorem wsl2 (W : FVec Ideal S4x128x128 .f32) (κ : Fin 128) (q : Fin 128) :
    shapeCast S128x128 (extractStridedSlice S1x128x128 ![2, 0, 0] W slices_S4x128x128_S1x128x128_2_0_0) shapeCasts_S1x128x128_S128x128 (ix2 κ q) = W (ix3 2 κ q) :=
  (shapeCast_1ab_ab_apply _ _ κ q).trans (extractStridedSlice_apply _ W _ (ix3 0 κ q) (ix3 2 κ q) fun a => by
    match a with
    | ⟨0, _⟩ => show 2 = 2 + 0; rfl
    | ⟨1, _⟩ => show κ.val = 0 + κ.val; omega
    | ⟨2, _⟩ => show q.val = 0 + q.val; omega)

/-- Weight matrix 3 out of the stack of four. -/
theorem wsl3 (W : FVec Ideal S4x128x128 .f32) (κ : Fin 128) (q : Fin 128) :
    shapeCast S128x128 (extractStridedSlice S1x128x128 ![3, 0, 0] W slices_S4x128x128_S1x128x128_3_0_0) shapeCasts_S1x128x128_S128x128 (ix2 κ q) = W (ix3 3 κ q) :=
  (shapeCast_1ab_ab_apply _ _ κ q).trans (extractStridedSlice_apply _ W _ (ix3 0 κ q) (ix3 3 κ q) fun a => by
    match a with
    | ⟨0, _⟩ => show 3 = 3 + 0; rfl
    | ⟨1, _⟩ => show κ.val = 0 + κ.val; omega
    | ⟨2, _⟩ => show q.val = 0 + q.val; omega)

/-- The partial sums of the layer's linear map at an index. -/
theorem dot0_apply (x : FVec Ideal S100000x128 .f32) (W : FVec Ideal S4x128x128 .f32) (i : Fin 100000) (q : Fin 128) :
    Cert.ReferenceIdeal.T.dot0T x W (ix2 i q) = ∑ κ : Fin 128, x (ix2 i κ) * W (ix3 0 κ q) := by
  unfold Cert.ReferenceIdeal.T.dot0T
  refine (dot_apply _ _ i q).trans (Finset.sum_congr rfl fun κ _ => ?_)
  rw [wsl0]

theorem dotAdd1_apply (acc : FVec Ideal S100000x128 .f32) (h : FVec Ideal S100000x128 .f32) (W : FVec Ideal S4x128x128 .f32) (i : Fin 100000) (q : Fin 128) :
    Cert.ReferenceIdeal.T.dotAdd1T acc h W (ix2 i q) = acc (ix2 i q) + ∑ κ : Fin 128, h (ix2 i κ) * W (ix3 1 κ q) := by
  unfold Cert.ReferenceIdeal.T.dotAdd1T
  show acc (ix2 i q) + Host.dotGeneral (F := Ideal) dot_S100000x128_S128x128_S100000x128_1_0_0_1_n_n none h _ (ix2 i q) = _
  refine congrArg (acc (ix2 i q) + ·) ((dot_apply _ _ i q).trans (Finset.sum_congr rfl fun κ _ => ?_))
  rw [wsl1]

theorem dotAdd2_apply (acc : FVec Ideal S100000x128 .f32) (h : FVec Ideal S100000x128 .f32) (W : FVec Ideal S4x128x128 .f32) (i : Fin 100000) (q : Fin 128) :
    Cert.ReferenceIdeal.T.dotAdd2T acc h W (ix2 i q) = acc (ix2 i q) + ∑ κ : Fin 128, h (ix2 i κ) * W (ix3 2 κ q) := by
  unfold Cert.ReferenceIdeal.T.dotAdd2T
  show acc (ix2 i q) + Host.dotGeneral (F := Ideal) dot_S100000x128_S128x128_S100000x128_1_0_0_1_n_n none h _ (ix2 i q) = _
  refine congrArg (acc (ix2 i q) + ·) ((dot_apply _ _ i q).trans (Finset.sum_congr rfl fun κ _ => ?_))
  rw [wsl2]

/-- A vector broadcast down the rows, at an index. -/
theorem rowBcast_apply (b : FVec Ideal S128 .f32) (i : Fin 100000) (q : Fin 128) :
    broadcastInDim S100000x128 ![0, 1] bcast_S1x128_S100000x128_0_1 (broadcastInDim S1x128 ![1] bcast_S128_S1x128_1 b) (ix2 i q) = b (ix1 q) :=
  (broadcastInDim_apply _ _ _ (ix2 i q) (ix2 (0 : Fin 1) q) fun a => by
    match a with
    | ⟨0, _⟩ => rfl
    | ⟨1, _⟩ => rfl).trans (broadcastInDim_apply _ _ b (ix2 (0 : Fin 1) q) (ix1 q) fun a => by
    match a with
    | ⟨0, _⟩ => rfl)

theorem dotAdd3_apply (acc : FVec Ideal S100000x128 .f32) (h : FVec Ideal S100000x128 .f32) (W : FVec Ideal S4x128x128 .f32) (b : FVec Ideal S128 .f32) (i : Fin 100000) (q : Fin 128) :
    Cert.ReferenceIdeal.T.dotAdd3bT acc h W b (ix2 i q) = (acc (ix2 i q) + ∑ κ : Fin 128, h (ix2 i κ) * W (ix3 3 κ q)) + b (ix1 q) := by
  unfold Cert.ReferenceIdeal.T.dotAdd3bT
  show (acc (ix2 i q) + Host.dotGeneral (F := Ideal) dot_S100000x128_S128x128_S100000x128_1_0_0_1_n_n none h _ (ix2 i q)) + broadcastInDim S100000x128 ![0, 1] bcast_S1x128_S100000x128_0_1 (broadcastInDim S1x128 ![1] bcast_S128_S1x128_1 b) (ix2 i q) = _
  rw [rowBcast_apply]
  refine congrArg (· + b (ix1 q)) (congrArg (acc (ix2 i q) + ·) ((dot_apply _ _ i q).trans (Finset.sum_congr rfl fun κ _ => ?_)))
  rw [wsl3]

/-- A column sum over the nodes. -/
theorem colsum_apply (o : FVec Ideal S100000x128 .f32) (q : Fin 128) :
    Host.reduceAdd (F := Ideal) o (constant (F := Ideal) S_ .f32 0x00000000#32) reducesTo_S100000x128_S128_d0 h_S_ (ix1 q)
      = zero32 + ∑ i : Fin 100000, o (ix2 i q) :=
  (Ideal.hostReduceAdd_single reducesTo_S100000x128_S128_d0 (by decide) o _ (ix1 q)).trans
    (congrArg (zero32 + ·) (Finset.sum_congr rfl fun i _ => congrArg o (by
      funext a; apply Fin.ext
      match a with
      | ⟨0, _⟩ => rfl
      | ⟨1, _⟩ => rfl)))

/-- The column mean. -/
theorem mean_apply (o : FVec Ideal S100000x128 .f32) (q : Fin 128) :
    Cert.ReferenceIdeal.T.meanT o (ix1 q) = Ideal.div (zero32 + ∑ i : Fin 100000, o (ix2 i q)) nodesLit := by
  unfold Cert.ReferenceIdeal.T.meanT
  show Ideal.div (Host.reduceAdd (F := Ideal) o _ reducesTo_S100000x128_S128_d0 h_S_ (ix1 q)) nodesLit = _
  rw [colsum_apply]

/-- The column variance. -/
theorem var_apply (o : FVec Ideal S100000x128 .f32) (q : Fin 128) :
    Cert.ReferenceIdeal.T.varT o (ix1 q) = Ideal.div (zero32 + ∑ i : Fin 100000,
      (o (ix2 i q) - Cert.ReferenceIdeal.T.meanT o (ix1 q)) * (o (ix2 i q) - Cert.ReferenceIdeal.T.meanT o (ix1 q))) nodesLit := by
  unfold Cert.ReferenceIdeal.T.varT
  show Ideal.div (Host.reduceAdd (F := Ideal) _ _ reducesTo_S100000x128_S128_d0 h_S_ (ix1 q)) nodesLit = _
  rw [colsum_apply]
  refine congrArg (fun s => Ideal.div (zero32 + s) nodesLit) (Finset.sum_congr rfl fun i _ => ?_)
  show (o (ix2 i q) - broadcastInDim S100000x128 ![0, 1] bcast_S1x128_S100000x128_0_1 (broadcastInDim S1x128 ![1] bcast_S128_S1x128_1 (Cert.ReferenceIdeal.T.meanT o)) (ix2 i q))
      * (o (ix2 i q) - broadcastInDim S100000x128 ![0, 1] bcast_S1x128_S100000x128_0_1 (broadcastInDim S1x128 ![1] bcast_S128_S1x128_1 (Cert.ReferenceIdeal.T.meanT o)) (ix2 i q)) = _
  rw [rowBcast_apply]

/-- The affine normalisation at an index. -/
theorem affine_apply (o : FVec Ideal S100000x128 .f32) (mu vr g be : FVec Ideal S128 .f32) (i : Fin 100000) (q : Fin 128) :
    Cert.ReferenceIdeal.T.affineT o mu vr g be (ix2 i q) = affS (o (ix2 i q)) (mu (ix1 q)) (vr (ix1 q)) (g (ix1 q)) (be (ix1 q)) := by
  unfold Cert.ReferenceIdeal.T.affineT affS
  show ((o (ix2 i q) - broadcastInDim S100000x128 ![0, 1] bcast_S1x128_S100000x128_0_1 (broadcastInDim S1x128 ![1] bcast_S128_S1x128_1 mu) (ix2 i q))
      * broadcastInDim S100000x128 ![0, 1] bcast_S1x128_S100000x128_0_1 (broadcastInDim S1x128 ![1] bcast_S128_S1x128_1 (Host.rsqrt (F := Ideal) (addf vr (broadcastInDim S128 ![] bcast_S_S128 (constant (F := Ideal) S_ .f32 0x3727C5AC#32))))) (ix2 i q)
      * broadcastInDim S100000x128 ![0, 1] bcast_S1x128_S100000x128_0_1 (broadcastInDim S1x128 ![1] bcast_S128_S1x128_1 g) (ix2 i q))
      + broadcastInDim S100000x128 ![0, 1] bcast_S1x128_S100000x128_0_1 (broadcastInDim S1x128 ![1] bcast_S128_S1x128_1 be) (ix2 i q) = _
  rw [rowBcast_apply, rowBcast_apply, rowBcast_apply, rowBcast_apply]
  rfl

/-- The rectifier at an index. -/
theorem lrelu_apply (z : FVec Ideal S100000x128 .f32) (i : S100000x128.Idx) : Cert.ReferenceIdeal.T.lreluT z i = lreluGe (z i) := rfl

/-- A vector as a one-row matrix, at an index. -/
theorem row_apply (b : FVec Ideal Cert.KernelIdeal.S128 .f32) (q : Fin 128) : Cert.KernelIdeal.KT.rowT (F := Ideal) b (ix2 0 q) = b (ix1 q) :=
  shapeCast_a_1a_apply _ _ 0 q

/-- Row u of tile t's record in the statistics array. -/
theorem strow_apply (st : FVec Ideal Cert.KernelIdeal.S160x128 .f32) (u : Nat) (hu : u < 8) (h1 : Cert.KernelIdeal.S160x128.ShapeCasts Cert.KernelIdeal.S20x8x128)
    (h2 : Cert.KernelIdeal.S20x8x128.Slices ![0, u, 0] Cert.KernelIdeal.S20x1x128) (h3 : Cert.KernelIdeal.S20x1x128.ShapeCasts Cert.KernelIdeal.S20x128) (t : Fin 20) (q : Fin 128) :
    shapeCast Cert.KernelIdeal.S20x128 (extractStridedSlice Cert.KernelIdeal.S20x1x128 ![0, u, 0] (shapeCast Cert.KernelIdeal.S20x8x128 st h1) h2) h3 (ix2 t q)
      = st (ix2 (⟨t.val * 8 + u, by have := t.isLt; omega⟩ : Fin 160) q) :=
  (shapeCast_apply _ h3 (ix2 t q) (ix3 t (0 : Fin 1) q) (by
    rw [Shape.rowMajor_val_three, Shape.rowMajor_val_two]
    show (t.val * 1 + 0) * 128 + q.val = t.val * 128 + q.val; omega)).trans
  ((extractStridedSlice_apply _ _ h2 (ix3 t (0 : Fin 1) q) (ix3 t (⟨u, hu⟩ : Fin 8) q) fun a => by
    match a with
    | ⟨0, _⟩ => show t.val = 0 + t.val; omega
    | ⟨1, _⟩ => show u = u + 0; rfl
    | ⟨2, _⟩ => show q.val = 0 + q.val; omega).trans
  (shapeCast_apply st h1 (ix3 t (⟨u, hu⟩ : Fin 8) q) (ix2 (⟨t.val * 8 + u, by have := t.isLt; omega⟩ : Fin 160) q) (by
    rw [Shape.rowMajor_val_two, Shape.rowMajor_val_three]
    show (t.val * 8 + u) * 128 + q.val = (t.val * 8 + u) * 128 + q.val; rfl)))

/-- A column sum over the twenty tiles. -/
theorem tilesum_apply (x : FVec Ideal Cert.KernelIdeal.S20x128 .f32) (q : Fin 128) :
    Host.reduceAdd (F := Ideal) x (constant (F := Ideal) Cert.KernelIdeal.S_ .f32 0x00000000#32) Cert.KernelIdeal.Gen.reducesTo_S20x128_S128_d0 Cert.KernelIdeal.Gen.h_S_ (ix1 q)
      = zero32 + ∑ t : Fin 20, x (ix2 t q) :=
  (Ideal.hostReduceAdd_single Cert.KernelIdeal.Gen.reducesTo_S20x128_S128_d0 (by decide) x _ (ix1 q)).trans
    (congrArg (zero32 + ·) (Finset.sum_congr rfl fun t _ => congrArg x (by
      funext a; apply Fin.ext
      match a with
      | ⟨0, _⟩ => rfl
      | ⟨1, _⟩ => rfl)))

/-- The kernel's column mean from the per-tile sums. -/
theorem kmean_apply (st : FVec Ideal Cert.KernelIdeal.S160x128 .f32) (q : Fin 128) :
    Cert.KernelIdeal.KT.kmeanT (F := Ideal) st (ix1 q)
      = Ideal.div (zero32 + ∑ t : Fin 20, st (ix2 (⟨t.val * 8 + 0, by have := t.isLt; omega⟩ : Fin 160) q)) nodesLit := by
  unfold Cert.KernelIdeal.KT.kmeanT
  show Ideal.div (Host.reduceAdd (F := Ideal) _ _ Cert.KernelIdeal.Gen.reducesTo_S20x128_S128_d0 Cert.KernelIdeal.Gen.h_S_ (ix1 q)) nodesLit = _
  rw [tilesum_apply]
  exact congrArg (fun s => Ideal.div (zero32 + s) nodesLit) (Finset.sum_congr rfl fun t _ => strow_apply st 0 (by decide) _ _ _ t q)

/-- The kernel's column variance from the per-tile sums of squares. -/
theorem kvar_apply (st : FVec Ideal Cert.KernelIdeal.S160x128 .f32) (q : Fin 128) :
    Cert.KernelIdeal.KT.kvarT (F := Ideal) st (ix1 q)
      = max (Ideal.div (zero32 + ∑ t : Fin 20, st (ix2 (⟨t.val * 8 + 1, by have := t.isLt; omega⟩ : Fin 160) q)) nodesLit
          - Cert.KernelIdeal.KT.kmeanT (F := Ideal) st (ix1 q) * Cert.KernelIdeal.KT.kmeanT (F := Ideal) st (ix1 q)) zero32 := by
  unfold Cert.KernelIdeal.KT.kvarT
  show max (Ideal.div (Host.reduceAdd (F := Ideal) _ _ Cert.KernelIdeal.Gen.reducesTo_S20x128_S128_d0 Cert.KernelIdeal.Gen.h_S_ (ix1 q)) nodesLit - _ * _) zero32 = _
  rw [tilesum_apply]
  exact congrArg (fun s => max (Ideal.div (zero32 + s) nodesLit - _ * _) zero32) (Finset.sum_congr rfl fun t _ => strow_apply st 1 (by decide) _ _ _ t q)

end Cert.RefIdx128

end
-- ==== Proof.RefIdx64.lean ====
/- The reference's named functions, and the kernel's statistics glue, read at an index (64 output columns): a matrix product
   as a sum over the contracted axis, a slice and a reshape as a re-indexing, a broadcast as a repeated row, a reduction as a
   sum over the reduced axis. -/
import proofs.«167710_j39049842655736_2_alg».proof.Proof.Terms
import proofs.«167710_j39049842655736_2_alg».proof.Proof.KTerms
import proofs.«167710_j39049842655736_2_alg».proof.Proof.KSpec
import proofs.«167710_j39049842655736_2_alg».proof.Proof.DotLib
import Idealize.ShloMosaic.Lib.Pipeline.Value
import Idealize.ShloMosaic.Lib.ValueLayout

set_option maxRecDepth 16384

noncomputable section

namespace Cert.RefIdx64

open Cert.ReferenceIdeal Cert.ReferenceIdeal.Gen Cert.KSpec
open Idealize.ShloMosaic Idealize.ShloMosaic.ValueIdx

/-- The node count's literal. -/
abbrev nodesLit : EReal := Ideal.ofBits .f32 0x47C35000#32

/-- The host's matrix product at an index. -/
theorem dot_apply (l : FVec Ideal S100000x128 .f32) (r : FVec Ideal S128x64 .f32) (i : Fin 100000) (q : Fin 64) :
    Host.dotGeneral (F := Ideal) dot_S100000x128_S128x64_S100000x64_1_0_0_1_n_n none l r (ix2 i q) = ∑ κ : Fin 128, l (ix2 i κ) * r (ix2 κ q) :=
  (Ideal.dotGeneral_apply (DotDims.plain 100000 128 64) none .single l r (ix2 i q)).trans (Cert.DotLib.plain_sum 100000 128 64 l r i q)

/-- Weight matrix 0 out of the stack of four. -/
theorem wsl0 (W : FVec Ideal S4x128x64 .f32) (κ : Fin 128) (q : Fin 64) :
    shapeCast S128x64 (extractStridedSlice S1x128x64 ![0, 0, 0] W slices_S4x128x64_S1x128x64_0_0_0) shapeCasts_S1x128x64_S128x64 (ix2 κ q) = W (ix3 0 κ q) :=
  (shapeCast_1ab_ab_apply _ _ κ q).trans (extractStridedSlice_apply _ W _ (ix3 0 κ q) (ix3 0 κ q) fun a => by
    match a with
    | ⟨0, _⟩ => show 0 = 0 + 0; rfl
    | ⟨1, _⟩ => show κ.val = 0 + κ.val; omega
    | ⟨2, _⟩ => show q.val = 0 + q.val; omega)

/-- Weight matrix 1 out of the stack of four. -/
theorem wsl1 (W : FVec Ideal S4x128x64 .f32) (κ : Fin 128) (q : Fin 64) :
    shapeCast S128x64 (extractStridedSlice S1x128x64 ![1, 0, 0] W slices_S4x128x64_S1x128x64_1_0_0) shapeCasts_S1x128x64_S128x64 (ix2 κ q) = W (ix3 1 κ q) :=
  (shapeCast_1ab_ab_apply _ _ κ q).trans (extractStridedSlice_apply _ W _ (ix3 0 κ q) (ix3 1 κ q) fun a => by
    match a with
    | ⟨0, _⟩ => show 1 = 1 + 0; rfl
    | ⟨1, _⟩ => show κ.val = 0 + κ.val; omega
    | ⟨2, _⟩ => show q.val = 0 + q.val; omega)

/-- Weight matrix 2 out of the stack of four. -/
theorem wsl2 (W : FVec Ideal S4x128x64 .f32) (κ : Fin 128) (q : Fin 64) :
    shapeCast S128x64 (extractStridedSlice S1x128x64 ![2, 0, 0] W slices_S4x128x64_S1x128x64_2_0_0) shapeCasts_S1x128x64_S128x64 (ix2 κ q) = W (ix3 2 κ q) :=
  (shapeCast_1ab_ab_apply _ _ κ q).trans (extractStridedSlice_apply _ W _ (ix3 0 κ q) (ix3 2 κ q) fun a => by
    match a with
    | ⟨0, _⟩ => show 2 = 2 + 0; rfl
    | ⟨1, _⟩ => show κ.val = 0 + κ.val; omega
    | ⟨2, _⟩ => show q.val = 0 + q.val; omega)

/-- Weight matrix 3 out of the stack of four. -/
theorem wsl3 (W : FVec Ideal S4x128x64 .f32) (κ : Fin 128) (q : Fin 64) :
    shapeCast S128x64 (extractStridedSlice S1x128x64 ![3, 0, 0] W slices_S4x128x64_S1x128x64_3_0_0) shapeCasts_S1x128x64_S128x64 (ix2 κ q) = W (ix3 3 κ q) :=
  (shapeCast_1ab_ab_apply _ _ κ q).trans (extractStridedSlice_apply _ W _ (ix3 0 κ q) (ix3 3 κ q) fun a => by
    match a with
    | ⟨0, _⟩ => show 3 = 3 + 0; rfl
    | ⟨1, _⟩ => show κ.val = 0 + κ.val; omega
    | ⟨2, _⟩ => show q.val = 0 + q.val; omega)

/-- The partial sums of the layer's linear map at an index. -/
theorem dot0_apply (x : FVec Ideal S100000x128 .f32) (W : FVec Ideal S4x128x64 .f32) (i : Fin 100000) (q : Fin 64) :
    Cert.ReferenceIdeal.T.dot0U x W (ix2 i q) = ∑ κ : Fin 128, x (ix2 i κ) * W (ix3 0 κ q) := by
  unfold Cert.ReferenceIdeal.T.dot0U
  refine (dot_apply _ _ i q).trans (Finset.sum_congr rfl fun κ _ => ?_)
  rw [wsl0]

theorem dotAdd1_apply (acc : FVec Ideal S100000x64 .f32) (h : FVec Ideal S100000x128 .f32) (W : FVec Ideal S4x128x64 .f32) (i : Fin 100000) (q : Fin 64) :
    Cert.ReferenceIdeal.T.dotAdd1U acc h W (ix2 i q) = acc (ix2 i q) + ∑ κ : Fin 128, h (ix2 i κ) * W (ix3 1 κ q) := by
  unfold Cert.ReferenceIdeal.T.dotAdd1U
  show acc (ix2 i q) + Host.dotGeneral (F := Ideal) dot_S100000x128_S128x64_S100000x64_1_0_0_1_n_n none h _ (ix2 i q) = _
  refine congrArg (acc (ix2 i q) + ·) ((dot_apply _ _ i q).trans (Finset.sum_congr rfl fun κ _ => ?_))
  rw [wsl1]

theorem dotAdd2_apply (acc : FVec Ideal S100000x64 .f32) (h : FVec Ideal S100000x128 .f32) (W : FVec Ideal S4x128x64 .f32) (i : Fin 100000) (q : Fin 64) :
    Cert.ReferenceIdeal.T.dotAdd2U acc h W (ix2 i q) = acc (ix2 i q) + ∑ κ : Fin 128, h (ix2 i κ) * W (ix3 2 κ q) := by
  unfold Cert.ReferenceIdeal.T.dotAdd2U
  show acc (ix2 i q) + Host.dotGeneral (F := Ideal) dot_S100000x128_S128x64_S100000x64_1_0_0_1_n_n none h _ (ix2 i q) = _
  refine congrArg (acc (ix2 i q) + ·) ((dot_apply _ _ i q).trans (Finset.sum_congr rfl fun κ _ => ?_))
  rw [wsl2]

theorem dotAdd3_apply (acc : FVec Ideal S100000x64 .f32) (h : FVec Ideal S100000x128 .f32) (W : FVec Ideal S4x128x64 .f32) (i : Fin 100000) (q : Fin 64) :
    Cert.ReferenceIdeal.T.dotAdd3U acc h W (ix2 i q) = acc (ix2 i q) + ∑ κ : Fin 128, h (ix2 i κ) * W (ix3 3 κ q) := by
  unfold Cert.ReferenceIdeal.T.dotAdd3U
  show acc (ix2 i q) + Host.dotGeneral (F := Ideal) dot_S100000x128_S128x64_S100000x64_1_0_0_1_n_n none h _ (ix2 i q) = _
  refine congrArg (acc (ix2 i q) + ·) ((dot_apply _ _ i q).trans (Finset.sum_congr rfl fun κ _ => ?_))
  rw [wsl3]

/-- A vector broadcast down the rows, at an index. -/
theorem rowBcast_apply (b : FVec Ideal S64 .f32) (i : Fin 100000) (q : Fin 64) :
    broadcastInDim S100000x64 ![0, 1] bcast_S1x64_S100000x64_0_1 (broadcastInDim S1x64 ![1] bcast_S64_S1x64_1 b) (ix2 i q) = b (ix1 q) :=
  (broadcastInDim_apply _ _ _ (ix2 i q) (ix2 (0 : Fin 1) q) fun a => by
    match a with
    | ⟨0, _⟩ => rfl
    | ⟨1, _⟩ => rfl).trans (broadcastInDim_apply _ _ b (ix2 (0 : Fin 1) q) (ix1 q) fun a => by
    match a with
    | ⟨0, _⟩ => rfl)

/-- A column sum over the nodes. -/
theorem colsum_apply (o : FVec Ideal S100000x64 .f32) (q : Fin 64) :
    Host.reduceAdd (F := Ideal) o (constant (F := Ideal) S_ .f32 0x00000000#32) reducesTo_S100000x64_S64_d0 h_S_ (ix1 q)
      = zero32 + ∑ i : Fin 100000, o (ix2 i q) :=
  (Ideal.hostReduceAdd_single reducesTo_S100000x64_S64_d0 (by decide) o _ (ix1 q)).trans
    (congrArg (zero32 + ·) (Finset.sum_congr rfl fun i _ => congrArg o (by
      funext a; apply Fin.ext
      match a with
      | ⟨0, _⟩ => rfl
      | ⟨1, _⟩ => rfl)))

/-- The column mean. -/
theorem mean_apply (o : FVec Ideal S100000x64 .f32) (q : Fin 64) :
    Cert.ReferenceIdeal.T.meanU o (ix1 q) = Ideal.div (zero32 + ∑ i : Fin 100000, o (ix2 i q)) nodesLit := by
  unfold Cert.ReferenceIdeal.T.meanU
  show Ideal.div (Host.reduceAdd (F := Ideal) o _ reducesTo_S100000x64_S64_d0 h_S_ (ix1 q)) nodesLit = _
  rw [colsum_apply]

/-- The column variance. -/
theorem var_apply (o : FVec Ideal S100000x64 .f32) (q : Fin 64) :
    Cert.ReferenceIdeal.T.varU o (ix1 q) = Ideal.div (zero32 + ∑ i : Fin 100000,
      (o (ix2 i q) - Cert.ReferenceIdeal.T.meanU o (ix1 q)) * (o (ix2 i q) - Cert.ReferenceIdeal.T.meanU o (ix1 q))) nodesLit := by
  unfold Cert.ReferenceIdeal.T.varU
  show Ideal.div (Host.reduceAdd (F := Ideal) _ _ reducesTo_S100000x64_S64_d0 h_S_ (ix1 q)) nodesLit = _
  rw [colsum_apply]
  refine congrArg (fun s => Ideal.div (zero32 + s) nodesLit) (Finset.sum_congr rfl fun i _ => ?_)
  show (o (ix2 i q) - broadcastInDim S100000x64 ![0, 1] bcast_S1x64_S100000x64_0_1 (broadcastInDim S1x64 ![1] bcast_S64_S1x64_1 (Cert.ReferenceIdeal.T.meanU o)) (ix2 i q))
      * (o (ix2 i q) - broadcastInDim S100000x64 ![0, 1] bcast_S1x64_S100000x64_0_1 (broadcastInDim S1x64 ![1] bcast_S64_S1x64_1 (Cert.ReferenceIdeal.T.meanU o)) (ix2 i q)) = _
  rw [rowBcast_apply]

/-- The affine normalisation at an index. -/
theorem affine_apply (o : FVec Ideal S100000x64 .f32) (mu vr g be : FVec Ideal S64 .f32) (i : Fin 100000) (q : Fin 64) :
    Cert.ReferenceIdeal.T.affineU o mu vr g be (ix2 i q) = affS (o (ix2 i q)) (mu (ix1 q)) (vr (ix1 q)) (g (ix1 q)) (be (ix1 q)) := by
  unfold Cert.ReferenceIdeal.T.affineU affS
  show ((o (ix2 i q) - broadcastInDim S100000x64 ![0, 1] bcast_S1x64_S100000x64_0_1 (broadcastInDim S1x64 ![1] bcast_S64_S1x64_1 mu) (ix2 i q))
      * broadcastInDim S100000x64 ![0, 1] bcast_S1x64_S100000x64_0_1 (broadcastInDim S1x64 ![1] bcast_S64_S1x64_1 (Host.rsqrt (F := Ideal) (addf vr (broadcastInDim S64 ![] bcast_S_S64 (constant (F := Ideal) S_ .f32 0x3727C5AC#32))))) (ix2 i q)
      * broadcastInDim S100000x64 ![0, 1] bcast_S1x64_S100000x64_0_1 (broadcastInDim S1x64 ![1] bcast_S64_S1x64_1 g) (ix2 i q))
      + broadcastInDim S100000x64 ![0, 1] bcast_S1x64_S100000x64_0_1 (broadcastInDim S1x64 ![1] bcast_S64_S1x64_1 be) (ix2 i q) = _
  rw [rowBcast_apply, rowBcast_apply, rowBcast_apply, rowBcast_apply]
  rfl

/-- The rectifier at an index. -/
theorem lrelu_apply (z : FVec Ideal S100000x64 .f32) (i : S100000x64.Idx) : Cert.ReferenceIdeal.T.lreluU z i = lreluGe (z i) := rfl

/-- A vector as a one-row matrix, at an index. -/
theorem row_apply (b : FVec Ideal Cert.KernelIdeal.S64 .f32) (q : Fin 64) : Cert.KernelIdeal.KT.rowU (F := Ideal) b (ix2 0 q) = b (ix1 q) :=
  shapeCast_a_1a_apply _ _ 0 q

/-- Row u of tile t's record in the statistics array. -/
theorem strow_apply (st : FVec Ideal Cert.KernelIdeal.S160x64 .f32) (u : Nat) (hu : u < 8) (h1 : Cert.KernelIdeal.S160x64.ShapeCasts Cert.KernelIdeal.S20x8x64)
    (h2 : Cert.KernelIdeal.S20x8x64.Slices ![0, u, 0] Cert.KernelIdeal.S20x1x64) (h3 : Cert.KernelIdeal.S20x1x64.ShapeCasts Cert.KernelIdeal.S20x64) (t : Fin 20) (q : Fin 64) :
    shapeCast Cert.KernelIdeal.S20x64 (extractStridedSlice Cert.KernelIdeal.S20x1x64 ![0, u, 0] (shapeCast Cert.KernelIdeal.S20x8x64 st h1) h2) h3 (ix2 t q)
      = st (ix2 (⟨t.val * 8 + u, by have := t.isLt; omega⟩ : Fin 160) q) :=
  (shapeCast_apply _ h3 (ix2 t q) (ix3 t (0 : Fin 1) q) (by
    rw [Shape.rowMajor_val_three, Shape.rowMajor_val_two]
    show (t.val * 1 + 0) * 64 + q.val = t.val * 64 + q.val; omega)).trans
  ((extractStridedSlice_apply _ _ h2 (ix3 t (0 : Fin 1) q) (ix3 t (⟨u, hu⟩ : Fin 8) q) fun a => by
    match a with
    | ⟨0, _⟩ => show t.val = 0 + t.val; omega
    | ⟨1, _⟩ => show u = u + 0; rfl
    | ⟨2, _⟩ => show q.val = 0 + q.val; omega).trans
  (shapeCast_apply st h1 (ix3 t (⟨u, hu⟩ : Fin 8) q) (ix2 (⟨t.val * 8 + u, by have := t.isLt; omega⟩ : Fin 160) q) (by
    rw [Shape.rowMajor_val_two, Shape.rowMajor_val_three]
    show (t.val * 8 + u) * 64 + q.val = (t.val * 8 + u) * 64 + q.val; rfl)))

/-- A column sum over the twenty tiles. -/
theorem tilesum_apply (x : FVec Ideal Cert.KernelIdeal.S20x64 .f32) (q : Fin 64) :
    Host.reduceAdd (F := Ideal) x (constant (F := Ideal) Cert.KernelIdeal.S_ .f32 0x00000000#32) Cert.KernelIdeal.Gen.reducesTo_S20x64_S64_d0 Cert.KernelIdeal.Gen.h_S_ (ix1 q)
      = zero32 + ∑ t : Fin 20, x (ix2 t q) :=
  (Ideal.hostReduceAdd_single Cert.KernelIdeal.Gen.reducesTo_S20x64_S64_d0 (by decide) x _ (ix1 q)).trans
    (congrArg (zero32 + ·) (Finset.sum_congr rfl fun t _ => congrArg x (by
      funext a; apply Fin.ext
      match a with
      | ⟨0, _⟩ => rfl
      | ⟨1, _⟩ => rfl)))

/-- The kernel's column mean from the per-tile sums. -/
theorem kmean_apply (st : FVec Ideal Cert.KernelIdeal.S160x64 .f32) (q : Fin 64) :
    Cert.KernelIdeal.KT.kmeanU (F := Ideal) st (ix1 q)
      = Ideal.div (zero32 + ∑ t : Fin 20, st (ix2 (⟨t.val * 8 + 0, by have := t.isLt; omega⟩ : Fin 160) q)) nodesLit := by
  unfold Cert.KernelIdeal.KT.kmeanU
  show Ideal.div (Host.reduceAdd (F := Ideal) _ _ Cert.KernelIdeal.Gen.reducesTo_S20x64_S64_d0 Cert.KernelIdeal.Gen.h_S_ (ix1 q)) nodesLit = _
  rw [tilesum_apply]
  exact congrArg (fun s => Ideal.div (zero32 + s) nodesLit) (Finset.sum_congr rfl fun t _ => strow_apply st 0 (by decide) _ _ _ t q)

/-- The kernel's column variance from the per-tile sums of squares. -/
theorem kvar_apply (st : FVec Ideal Cert.KernelIdeal.S160x64 .f32) (q : Fin 64) :
    Cert.KernelIdeal.KT.kvarU (F := Ideal) st (ix1 q)
      = max (Ideal.div (zero32 + ∑ t : Fin 20, st (ix2 (⟨t.val * 8 + 1, by have := t.isLt; omega⟩ : Fin 160) q)) nodesLit
          - Cert.KernelIdeal.KT.kmeanU (F := Ideal) st (ix1 q) * Cert.KernelIdeal.KT.kmeanU (F := Ideal) st (ix1 q)) zero32 := by
  unfold Cert.KernelIdeal.KT.kvarU
  show max (Ideal.div (Host.reduceAdd (F := Ideal) _ _ Cert.KernelIdeal.Gen.reducesTo_S20x64_S64_d0 Cert.KernelIdeal.Gen.h_S_ (ix1 q)) nodesLit - _ * _) zero32 = _
  rw [tilesum_apply]
  exact congrArg (fun s => max (Ideal.div (zero32 + s) nodesLit - _ * _) zero32) (Finset.sum_congr rfl fun t _ => strow_apply st 1 (by decide) _ _ _ t q)

end Cert.RefIdx64

end
-- ==== Proof.RealLib.lean ====
/- Realness through the network's operations. An array is *real* when every entry is a real number. Re-indexing operations
   (broadcast, slice, reshape, gather) read entries of their operand; pointwise sums, differences and products, the
   accumulating scatter (an entry plus a finite sum of updates) and the matrix product (a finite sum of products from zero)
   keep realness. Also: a sum over the twenty tiles of the sums over each tile's 5000 rows is the sum over all rows. -/
import proofs.«167710_j39049842655736_2_alg».proof.Proof.Alg
import proofs.«167710_j39049842655736_2_alg».proof.Proof.KSpec
import Idealize.ShloMosaic.PureOps.Ideal.Laws
import Idealize.ShloMosaic.Lib.ValueIdx

noncomputable section

namespace Cert.RealLib

open Idealize.ShloMosaic Cert.Alg

/-- Every entry a real number. -/
def AllReal {s : Shape} (x : s.Idx → EReal) : Prop := ∀ i, IsReal (x i)

variable {s t u si : Shape}

theorem bcast {x : s.Idx → EReal} (h : AllReal x) (dims : Fin s.rank → Fin t.rank) (hb : s.BroadcastsInDim t dims) :
    AllReal (broadcastInDim t dims hb x) := fun _ => h _
theorem slice {x : s.Idx → EReal} (h : AllReal x) (off : Fin s.rank → Nat) (hs : s.Slices off t) :
    AllReal (extractStridedSlice t off x hs) := fun _ => h _
theorem cast {x : s.Idx → EReal} (h : AllReal x) (hc : s.ShapeCasts t) : AllReal (shapeCast t x hc) := fun _ => h _
theorem gather {w : Nat} {x : s.Idx → EReal} (h : AllReal x) (d : GatherDims s si t) (idx : IVec si w) :
    AllReal (Host.gather d x idx) := fun _ => h _
theorem mul {x y : FVec Ideal s .f32} (hx : AllReal x) (hy : AllReal y) : AllReal (mulf x y) := fun i => (hx i).mul (hy i)
theorem add {x y : FVec Ideal s .f32} (hx : AllReal x) (hy : AllReal y) : AllReal (addf x y) := fun i => (hx i).add (hy i)
theorem sub {x y : FVec Ideal s .f32} (hx : AllReal x) (hy : AllReal y) : AllReal (subf x y) := fun i => (hx i).sub (hy i)
theorem const {b : BitVec 32} (hb : IsReal (Ideal.ofBits .f32 b)) : AllReal (constant (F := Ideal) s .f32 b) := fun _ => hb
theorem zero32_real : IsReal (Ideal.ofBits .f32 0x00000000#32) := by rw [Ideal.ofBits_zero_f32]; exact isReal_zero

theorem scatterAdd {w : Nat} {x : FVec Ideal s .f32} {upd : FVec Ideal u .f32} (hx : AllReal x) (hu : AllReal upd)
    (d : ScatterDims s si u) (idx : IVec si w) : AllReal (Host.scatterAdd (F := Ideal) d x idx upd) := fun i => by
  show IsReal (x i + ∑ j ∈ Finset.univ.filter (fun j => d.resultIdx? j idx = some i), upd j)
  exact (hx i).add (IsReal.sum _ _ fun j _ => hu j)

theorem dot {sl sr so : Shape} {l : FVec Ideal sl .f32} {r : FVec Ideal sr .f32} (hl : AllReal l) (hr : AllReal r)
    (d : DotDims sl sr so) : AllReal (Host.dotGeneral (F := Ideal) d none l r) := fun j => by
  show IsReal ((0 : EReal) + ∑ k : d.contr.Idx, l (d.lhsIdx j k) * r (d.rhsIdx j k))
  exact isReal_zero.add (IsReal.sum _ _ fun k _ => (hl _).mul (hr _))

/-- Every entry a positive real. -/
def AllPos {s : Shape} (x : s.Idx → EReal) : Prop := ∀ i, ∃ r : ℝ, 0 < r ∧ x i = (r : EReal)

theorem constPos {b : BitVec 32} (h : ∃ r : ℝ, 0 < r ∧ Ideal.ofBits .f32 b = (r : EReal)) : AllPos (constant (F := Ideal) s .f32 b) := fun _ => h
theorem bcastPos {x : s.Idx → EReal} (h : AllPos x) (dims : Fin s.rank → Fin t.rank) (hb : s.BroadcastsInDim t dims) :
    AllPos (broadcastInDim t dims hb x) := fun _ => h _
theorem maxPos {x y : FVec Ideal s .f32} (hx : AllReal x) (hy : AllPos y) : AllPos (maximumf x y) := fun i => by
  obtain ⟨a, ea⟩ := hx i
  obtain ⟨b, hb, eb⟩ := hy i
  refine ⟨max a b, lt_of_lt_of_le hb (le_max_right a b), ?_⟩
  show max (x i) (y i) = _
  rw [ea, eb, ← Cert.Alg.coe_max]
theorem rsqrtPos {x : FVec Ideal s .f32} (hx : AllPos x) : AllReal (Host.rsqrt (F := Ideal) x) := fun i => by
  obtain ⟨r, hr, e⟩ := hx i
  show IsReal (Ideal.rsqrt (x i))
  rw [e]; exact isReal_rsqrt hr
theorem sel {c : IVec s 1} {x y : FVec Ideal s .f32} (hx : AllReal x) (hy : AllReal y) : AllReal (select c x y) := fun i => by
  show IsReal (Scalar.select (c i) (x i) (y i))
  unfold Scalar.select
  exact IsReal.ite (hx i) (hy i)

/-- The rows of a 100000-row array, tile by tile. -/
theorem sum_tiles (f : Fin 100000 → EReal) :
    ∑ t : Fin 20, ∑ r : Fin 5000, f (Cert.KSpec.tileRow t r) = ∑ i : Fin 100000, f i := by
  rw [← Fintype.sum_prod_type']
  refine Fintype.sum_equiv (finProdFinEquiv : Fin 20 × Fin 5000 ≃ Fin 100000) _ _ fun p => congrArg f (Fin.ext ?_)
  show p.1.val * 5000 + p.2.val = p.2.val + 5000 * p.1.val
  omega

end Cert.RealLib

end
-- ==== Proof.KSpecIdx.lean ====
/- The kernel's whole-array functions read at an index, and the statistics rows of a tile. -/
import proofs.«167710_j39049842655736_2_alg».proof.Proof.KSpec

noncomputable section

namespace Cert.KSpec

open Idealize.ShloMosaic Idealize.ShloMosaic.ValueIdx

theorem linA_apply {D : Nat} (x h1 h2 h3 : (⟨2, ![100000, 128]⟩ : Shape).Idx → EReal) (W : (⟨3, ![4, 128, D]⟩ : Shape).Idx → EReal)
    (b : (⟨2, ![1, D]⟩ : Shape).Idx → EReal) (i : Fin 100000) (q : Fin D) :
    linA x h1 h2 h3 W b (ix2 i q) = ((((zero32 + ∑ κ : Fin 128, x (ix2 i κ) * W (ix3 0 κ q))
      + ∑ κ : Fin 128, h1 (ix2 i κ) * W (ix3 1 κ q)) + ∑ κ : Fin 128, h2 (ix2 i κ) * W (ix3 2 κ q))
      + ∑ κ : Fin 128, h3 (ix2 i κ) * W (ix3 3 κ q)) + b (ix2 0 q) := rfl

theorem actA_apply {D : Nat} (o : (⟨2, ![100000, D]⟩ : Shape).Idx → EReal) (mu vr g be : (⟨2, ![1, D]⟩ : Shape).Idx → EReal)
    (i : Fin 100000) (q : Fin D) :
    actA o mu vr g be (ix2 i q) = lreluGt (affS (o (ix2 i q)) (mu (ix2 0 q)) (vr (ix2 0 q)) (g (ix2 0 q)) (be (ix2 0 q))) := rfl

/-- Row 0 of tile t's record: the tile's column sums. -/
theorem statA_row0 {D : Nat} (o : (⟨2, ![100000, D]⟩ : Shape).Idx → EReal) (t : Fin 20) (q : Fin D) :
    statA o (ix2 (⟨t.val * 8 + 0, by have := t.isLt; omega⟩ : Fin 160) q) = ∑ r : Fin 5000, o (ix2 (tileRow t r) q) := by
  unfold statA
  show (if (t.val * 8 + 0) % 8 = 0 then _ else _) = _
  rw [if_pos (by omega)]
  have ht : tileOf (⟨t.val * 8 + 0, by have := t.isLt; omega⟩ : Fin 160) = t := Fin.ext (by show (t.val * 8 + 0) / 8 = t.val; omega)
  show ∑ r : Fin 5000, o (ix2 (tileRow (tileOf (⟨t.val * 8 + 0, _⟩ : Fin 160)) r) q) = _
  rw [ht]

/-- Row 1 of tile t's record: the tile's column sums of squares. -/
theorem statA_row1 {D : Nat} (o : (⟨2, ![100000, D]⟩ : Shape).Idx → EReal) (t : Fin 20) (q : Fin D) :
    statA o (ix2 (⟨t.val * 8 + 1, by have := t.isLt; omega⟩ : Fin 160) q)
      = ∑ r : Fin 5000, o (ix2 (tileRow t r) q) * o (ix2 (tileRow t r) q) := by
  unfold statA
  show (if (t.val * 8 + 1) % 8 = 0 then _ else if (t.val * 8 + 1) % 8 = 1 then _ else _) = _
  rw [if_neg (by omega), if_pos (by omega)]
  have ht : tileOf (⟨t.val * 8 + 1, by have := t.isLt; omega⟩ : Fin 160) = t := Fin.ext (by show (t.val * 8 + 1) / 8 = t.val; omega)
  show ∑ r : Fin 5000, o (ix2 (tileRow (tileOf (⟨t.val * 8 + 1, _⟩ : Fin 160)) r) q) * o (ix2 (tileRow (tileOf (⟨t.val * 8 + 1, _⟩ : Fin 160)) r) q) = _
  rw [ht]

end Cert.KSpec

end
-- ==== Proof.Lit.lean ====
/- The float literals the two programs spell, as the extended reals their bit patterns denote: the node count 100000,
   and three small positive reals (the variance offset, the degree floor and the rectifier's slope), each the exact
   dyadic value of its pattern. -/
import Idealize.ShloMosaic.PureOps.Ideal
import Mathlib.Tactic

noncomputable section

namespace Cert.Lit

open Idealize.ShloMosaic

/-- The pattern of 1.0e5 denotes the real 100000. -/
theorem nodes : Ideal.ofBits .f32 0x47C35000#32 = ((100000 : ℝ) : EReal) := by
  simp [Ideal.ofBits, Ideal.ieee, -EReal.coe_mul]; norm_num

/-- The variance offset's pattern denotes a positive real. -/
theorem eps : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

/-- The degree floor's pattern denotes a positive real. -/
theorem floor : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul]

/-- The rectifier's slope pattern denotes a real. -/
theorem slope : ∃ r : ℝ, Ideal.ofBits .f32 0x3C23D70A#32 = (r : EReal) := by
  refine ⟨(10737418 : ℝ) * (2 : ℝ) ^ (-30 : ℤ), ?_⟩
  simp [Ideal.ofBits, Ideal.ieee, -EReal.coe_mul]

end Cert.Lit

end
-- ==== Proof.Bridge.lean ====
/- The two network functions agree layer by layer. In a layer the kernel and the reference apply the same propagations and
   the same four matrix products; the kernel starts its sum from zero, finishes the batch mean from per-tile sums and takes
   the variance as the clamped mean of squares minus the squared mean, and branches the rectifier at y > 0. On real entries
   all of these coincide with the reference's forms. -/
import proofs.«167710_j39049842655736_2_alg».proof.Proof.RefIdx128
import proofs.«167710_j39049842655736_2_alg».proof.Proof.RefIdx64
import proofs.«167710_j39049842655736_2_alg».proof.Proof.RealLib
import proofs.«167710_j39049842655736_2_alg».proof.Proof.KSpecIdx
import proofs.«167710_j39049842655736_2_alg».proof.Proof.KOut
import proofs.«167710_j39049842655736_2_alg».proof.Proof.Lit

set_option maxRecDepth 16384

noncomputable section

namespace Cert.Bridge

open Cert.ReferenceIdeal Cert.ReferenceIdeal.Gen Cert.KSpec Cert.Alg Cert.RealLib
open Idealize.ShloMosaic Idealize.ShloMosaic.ValueIdx

/-! ## A hidden layer (128 columns) -/

/-- The reference's linear map of the layer. -/
def linR128 (src dst : IVec S600000 32) (nrm : FVec Ideal S600000 .f32) (x : FVec Ideal S100000x128 .f32) (W : FVec Ideal S4x128x128 .f32) (b : FVec Ideal S128 .f32) : FVec Ideal S100000x128 .f32 :=
  Cert.ReferenceIdeal.T.dotAdd3bT (Cert.ReferenceIdeal.T.dotAdd2T (Cert.ReferenceIdeal.T.dotAdd1T (Cert.ReferenceIdeal.T.dot0T x W) (Cert.ReferenceIdeal.T.hopT src dst nrm x) W) (Cert.ReferenceIdeal.T.hopT src dst nrm (Cert.ReferenceIdeal.T.hopT src dst nrm x)) W) (Cert.ReferenceIdeal.T.hopT src dst nrm (Cert.ReferenceIdeal.T.hopT src dst nrm (Cert.ReferenceIdeal.T.hopT src dst nrm x))) W b

/-- The two linear maps agree: the kernel's starts its sum at zero; the terms are the same. -/
theorem lin_eq128 (src dst : IVec S600000 32) (nrm : FVec Ideal S600000 .f32) (x : FVec Ideal S100000x128 .f32) (W : FVec Ideal S4x128x128 .f32) (b : FVec Ideal S128 .f32) :
    Cert.KOut.linK src dst nrm x W b = linR128 src dst nrm x W b := by
  funext i
  obtain ⟨n, q, rfl⟩ : ∃ (n : Fin 100000) (q : Fin 128), i = ix2 n q := ⟨i 0, i 1, eq_ix2 i⟩
  unfold Cert.KOut.linK linR128
  rw [linA_apply, Cert.RefIdx128.dotAdd3_apply, Cert.RefIdx128.dotAdd2_apply, Cert.RefIdx128.dotAdd1_apply, Cert.RefIdx128.dot0_apply]
  rw [Cert.RefIdx128.row_apply, show zero32 = (0 : EReal) from Ideal.ofBits_zero_f32, zero_add]

/-- The kernel's mean, finished from the per-tile sums, is the mean over all nodes. -/
theorem kmean_eq128 (o : FVec Ideal S100000x128 .f32) (q : Fin 128) :
    Cert.KernelIdeal.KT.kmeanT (F := Ideal) (statA (D := 128) o) (ix1 q) = Cert.ReferenceIdeal.T.meanT o (ix1 q) := by
  rw [Cert.RefIdx128.kmean_apply, Cert.RefIdx128.mean_apply]
  refine congrArg (fun s => Ideal.div (zero32 + s) Cert.RefIdx128.nodesLit) ?_
  exact (Finset.sum_congr rfl fun t _ => statA_row0 o t q).trans (Cert.RealLib.sum_tiles fun i => o (ix2 i q))

/-- For real entries the kernel's variance — mean of squares minus squared mean, clamped at zero — is the mean of the squared
    deviations. -/
theorem kvar_eq128 (o : FVec Ideal S100000x128 .f32) (ho : AllReal o) (q : Fin 128) :
    Cert.KernelIdeal.KT.kvarT (F := Ideal) (statA (D := 128) o) (ix1 q) = Cert.ReferenceIdeal.T.varT o (ix1 q) := by
  rw [Cert.RefIdx128.kvar_apply, Cert.RefIdx128.var_apply, kmean_eq128, Cert.RefIdx128.mean_apply]
  have hs : (∑ t : Fin 20, statA (D := 128) o (ix2 (⟨t.val * 8 + 1, by have := t.isLt; omega⟩ : Fin 160) q))
      = ∑ i : Fin 100000, o (ix2 i q) * o (ix2 i q) :=
    (Finset.sum_congr rfl fun t _ => statA_row1 o t q).trans (Cert.RealLib.sum_tiles fun i => o (ix2 i q) * o (ix2 i q))
  rw [hs, show zero32 = (0 : EReal) from Ideal.ofBits_zero_f32, show Cert.RefIdx128.nodesLit = ((100000 : ℝ) : EReal) from Cert.Lit.nodes]
  exact Cert.Alg.bn_var (fun i : Fin 100000 => o (ix2 i q)) (fun i => ho _) 100000 (by norm_num) (by simp)

/-- The layers agree on real features. -/
theorem layer_eq128 (src dst : IVec S600000 32) (nrm : FVec Ideal S600000 .f32) (x : FVec Ideal S100000x128 .f32) (W : FVec Ideal S4x128x128 .f32) (b : FVec Ideal S128 .f32)
    (g be : FVec Ideal S128 .f32) (ho : AllReal (linR128 src dst nrm x W b)) :
    Cert.KOut.layerK src dst nrm x W b g be = Cert.ReferenceIdeal.T.layerT src dst nrm x W b g be := by
  unfold Cert.KOut.layerK Cert.ReferenceIdeal.T.layerT Cert.ReferenceIdeal.T.bnT
  rw [lin_eq128]
  show _ = Cert.ReferenceIdeal.T.lreluT (Cert.ReferenceIdeal.T.affineT (linR128 src dst nrm x W b) _ _ g be)
  funext i
  obtain ⟨n, q, rfl⟩ : ∃ (n : Fin 100000) (q : Fin 128), i = ix2 n q := ⟨i 0, i 1, eq_ix2 i⟩
  rw [actA_apply, Cert.RefIdx128.lrelu_apply, Cert.RefIdx128.affine_apply, Cert.RefIdx128.row_apply, Cert.RefIdx128.row_apply, Cert.RefIdx128.row_apply, Cert.RefIdx128.row_apply,
    kmean_eq128, kvar_eq128 _ ho, lreluGt_eq]
  rfl

/-! ## The output layer (64 columns) -/

/-- The reference's linear map of the layer. -/
def linR64 (src dst : IVec S600000 32) (nrm : FVec Ideal S600000 .f32) (x : FVec Ideal S100000x128 .f32) (W : FVec Ideal S4x128x64 .f32) : FVec Ideal S100000x64 .f32 :=
  Cert.ReferenceIdeal.T.dotAdd3U (Cert.ReferenceIdeal.T.dotAdd2U (Cert.ReferenceIdeal.T.dotAdd1U (Cert.ReferenceIdeal.T.dot0U x W) (Cert.ReferenceIdeal.T.hopT src dst nrm x) W) (Cert.ReferenceIdeal.T.hopT src dst nrm (Cert.ReferenceIdeal.T.hopT src dst nrm x)) W) (Cert.ReferenceIdeal.T.hopT src dst nrm (Cert.ReferenceIdeal.T.hopT src dst nrm (Cert.ReferenceIdeal.T.hopT src dst nrm x))) W

/-- The two linear maps agree: the kernel's starts its sum at zero and adds a zero bias row; the terms are the same. -/
theorem lin_eq64 (src dst : IVec S600000 32) (nrm : FVec Ideal S600000 .f32) (x : FVec Ideal S100000x128 .f32) (W : FVec Ideal S4x128x64 .f32) :
    Cert.KOut.linK' src dst nrm x W = linR64 src dst nrm x W := by
  funext i
  obtain ⟨n, q, rfl⟩ : ∃ (n : Fin 100000) (q : Fin 64), i = ix2 n q := ⟨i 0, i 1, eq_ix2 i⟩
  unfold Cert.KOut.linK' linR64
  rw [linA_apply, Cert.RefIdx64.dotAdd3_apply, Cert.RefIdx64.dotAdd2_apply, Cert.RefIdx64.dotAdd1_apply, Cert.RefIdx64.dot0_apply]
  have hz : Cert.KernelIdeal.KT.zrowU (F := Ideal) (ix2 0 q) = zero32 := by
    unfold Cert.KernelIdeal.KT.zrowU
    exact shapeCast_a_1a_apply _ _ 0 q
  rw [hz, show zero32 = (0 : EReal) from Ideal.ofBits_zero_f32, zero_add, add_zero]

/-- The kernel's mean, finished from the per-tile sums, is the mean over all nodes. -/
theorem kmean_eq64 (o : FVec Ideal S100000x64 .f32) (q : Fin 64) :
    Cert.KernelIdeal.KT.kmeanU (F := Ideal) (statA (D := 64) o) (ix1 q) = Cert.ReferenceIdeal.T.meanU o (ix1 q) := by
  rw [Cert.RefIdx64.kmean_apply, Cert.RefIdx64.mean_apply]
  refine congrArg (fun s => Ideal.div (zero32 + s) Cert.RefIdx64.nodesLit) ?_
  exact (Finset.sum_congr rfl fun t _ => statA_row0 o t q).trans (Cert.RealLib.sum_tiles fun i => o (ix2 i q))

/-- For real entries the kernel's variance — mean of squares minus squared mean, clamped at zero — is the mean of the squared
    deviations. -/
theorem kvar_eq64 (o : FVec Ideal S100000x64 .f32) (ho : AllReal o) (q : Fin 64) :
    Cert.KernelIdeal.KT.kvarU (F := Ideal) (statA (D := 64) o) (ix1 q) = Cert.ReferenceIdeal.T.varU o (ix1 q) := by
  rw [Cert.RefIdx64.kvar_apply, Cert.RefIdx64.var_apply, kmean_eq64, Cert.RefIdx64.mean_apply]
  have hs : (∑ t : Fin 20, statA (D := 64) o (ix2 (⟨t.val * 8 + 1, by have := t.isLt; omega⟩ : Fin 160) q))
      = ∑ i : Fin 100000, o (ix2 i q) * o (ix2 i q) :=
    (Finset.sum_congr rfl fun t _ => statA_row1 o t q).trans (Cert.RealLib.sum_tiles fun i => o (ix2 i q) * o (ix2 i q))
  rw [hs, show zero32 = (0 : EReal) from Ideal.ofBits_zero_f32, show Cert.RefIdx64.nodesLit = ((100000 : ℝ) : EReal) from Cert.Lit.nodes]
  exact Cert.Alg.bn_var (fun i : Fin 100000 => o (ix2 i q)) (fun i => ho _) 100000 (by norm_num) (by simp)

/-- The layers agree on real features. -/
theorem layer_eq64 (src dst : IVec S600000 32) (nrm : FVec Ideal S600000 .f32) (x : FVec Ideal S100000x128 .f32) (W : FVec Ideal S4x128x64 .f32)
    (g be : FVec Ideal S64 .f32) (ho : AllReal (linR64 src dst nrm x W)) :
    Cert.KOut.layerK' src dst nrm x W g be = Cert.ReferenceIdeal.T.layerU src dst nrm x W g be := by
  unfold Cert.KOut.layerK' Cert.ReferenceIdeal.T.layerU Cert.ReferenceIdeal.T.bnU
  rw [lin_eq64]
  show _ = Cert.ReferenceIdeal.T.lreluU (Cert.ReferenceIdeal.T.affineU (linR64 src dst nrm x W) _ _ g be)
  funext i
  obtain ⟨n, q, rfl⟩ : ∃ (n : Fin 100000) (q : Fin 64), i = ix2 n q := ⟨i 0, i 1, eq_ix2 i⟩
  rw [actA_apply, Cert.RefIdx64.lrelu_apply, Cert.RefIdx64.affine_apply, Cert.RefIdx64.row_apply, Cert.RefIdx64.row_apply, Cert.RefIdx64.row_apply, Cert.RefIdx64.row_apply,
    kmean_eq64, kvar_eq64 _ ho, lreluGt_eq]
  rfl

/-! ## Realness of the shared graph glue -/

/-- The weighted degrees of real edge weights are real. -/
theorem deg_real (dst : IVec S600000 32) {a2 : FVec Ideal S600000 .f32} (ha : AllReal a2) : AllReal (Cert.ReferenceIdeal.T.degT (F := Ideal) dst a2) := by
  unfold Cert.ReferenceIdeal.T.degT
  exact RealLib.scatterAdd (RealLib.bcast (RealLib.const RealLib.zero32_real) _ _) ha _ _

/-- The inverse-root degrees are real: the degree is floored at a positive literal before the root, and the other branch is zero. -/
theorem dis_real (dst : IVec S600000 32) {a2 : FVec Ideal S600000 .f32} (ha : AllReal a2) : AllReal (Cert.ReferenceIdeal.T.disT (F := Ideal) dst a2) := by
  have hd := deg_real dst ha
  unfold Cert.ReferenceIdeal.T.disT
  exact RealLib.sel (RealLib.rsqrtPos (RealLib.maxPos hd (RealLib.bcastPos (RealLib.constPos Cert.Lit.floor) _ _)))
    (RealLib.bcast (RealLib.const RealLib.zero32_real) _ _)

/-- The normalised edge weights are real. -/
theorem norm_real (src dst : IVec S600000 32) {a2 : FVec Ideal S600000 .f32} (ha : AllReal a2) : AllReal (Cert.ReferenceIdeal.T.normT (F := Ideal) src dst a2) := by
  have hd := dis_real dst ha
  unfold Cert.ReferenceIdeal.T.normT
  exact RealLib.mul (RealLib.mul (RealLib.gather hd _ _) ha) (RealLib.gather hd _ _)

/-- A propagation of real features with real coefficients is real. -/
theorem hop_real (src dst : IVec S600000 32) {nrm : FVec Ideal S600000 .f32} {h : FVec Ideal S100000x128 .f32} (hn : AllReal nrm) (hh : AllReal h) :
    AllReal (Cert.ReferenceIdeal.T.hopT (F := Ideal) src dst nrm h) := by
  unfold Cert.ReferenceIdeal.T.hopT
  exact RealLib.scatterAdd (RealLib.bcast (RealLib.const RealLib.zero32_real) _ _) (RealLib.mul (RealLib.bcast (RealLib.bcast hn _ _) _ _) (RealLib.gather hh _ _)) _ _

/-! ## Realness through a hidden layer -/

theorem dot0T_real128 {h : FVec Ideal S100000x128 .f32} {W : FVec Ideal S4x128x128 .f32} (hh : AllReal h) (hW : AllReal W) :
    AllReal (Cert.ReferenceIdeal.T.dot0T (F := Ideal) h W) := by
  unfold Cert.ReferenceIdeal.T.dot0T
  exact RealLib.dot hh (RealLib.cast (RealLib.slice hW _ _) _) _

theorem dotAdd1T_real128 {acc : FVec Ideal S100000x128 .f32} {h : FVec Ideal S100000x128 .f32} {W : FVec Ideal S4x128x128 .f32} (hacc : AllReal acc) (hh : AllReal h) (hW : AllReal W) :
    AllReal (Cert.ReferenceIdeal.T.dotAdd1T (F := Ideal) acc h W) := by
  unfold Cert.ReferenceIdeal.T.dotAdd1T
  exact RealLib.add hacc (RealLib.dot hh (RealLib.cast (RealLib.slice hW _ _) _) _)

theorem dotAdd2T_real128 {acc : FVec Ideal S100000x128 .f32} {h : FVec Ideal S100000x128 .f32} {W : FVec Ideal S4x128x128 .f32} (hacc : AllReal acc) (hh : AllReal h) (hW : AllReal W) :
    AllReal (Cert.ReferenceIdeal.T.dotAdd2T (F := Ideal) acc h W) := by
  unfold Cert.ReferenceIdeal.T.dotAdd2T
  exact RealLib.add hacc (RealLib.dot hh (RealLib.cast (RealLib.slice hW _ _) _) _)

theorem dotAdd3bT_real128 {acc : FVec Ideal S100000x128 .f32} {h : FVec Ideal S100000x128 .f32} {W : FVec Ideal S4x128x128 .f32} {b : FVec Ideal S128 .f32}
    (hacc : AllReal acc) (hh : AllReal h) (hW : AllReal W) (hb : AllReal b) : AllReal (Cert.ReferenceIdeal.T.dotAdd3bT (F := Ideal) acc h W b) := by
  unfold Cert.ReferenceIdeal.T.dotAdd3bT
  exact RealLib.add (RealLib.add hacc (RealLib.dot hh (RealLib.cast (RealLib.slice hW _ _) _) _)) (RealLib.bcast (RealLib.bcast hb _ _) _ _)

/-- The layer's linear map of real features is real. -/
theorem linR_real128 (src dst : IVec S600000 32) {nrm : FVec Ideal S600000 .f32} {x : FVec Ideal S100000x128 .f32} {W : FVec Ideal S4x128x128 .f32} {b : FVec Ideal S128 .f32}
    (hn : AllReal nrm) (hx : AllReal x) (hW : AllReal W) (hb : AllReal b) : AllReal (linR128 src dst nrm x W b) := by
  unfold linR128
  have h1 := hop_real src dst hn hx
  have h2 := hop_real src dst hn h1
  have h3 := hop_real src dst hn h2
  exact dotAdd3bT_real128 (dotAdd2T_real128 (dotAdd1T_real128 (dot0T_real128 hx hW) h1 hW) h2 hW) h3 hW hb

/-- The column mean of a real array is real. -/
theorem mean_real128 {o : FVec Ideal S100000x128 .f32} (ho : AllReal o) (q : Fin 128) : IsReal (Cert.ReferenceIdeal.T.meanT o (ix1 q)) := by
  rw [Cert.RefIdx128.mean_apply, show Cert.RefIdx128.nodesLit = ((100000 : ℝ) : EReal) from Cert.Lit.nodes]
  exact IsReal.div_coe (RealLib.zero32_real.add (IsReal.sum _ _ fun i _ => ho _)) (by norm_num)

/-- The column variance of a real array is a nonnegative real. -/
theorem var_nonneg128 {o : FVec Ideal S100000x128 .f32} (ho : AllReal o) (q : Fin 128) : ∃ v : ℝ, 0 ≤ v ∧ Cert.ReferenceIdeal.T.varT o (ix1 q) = (v : EReal) := by
  rw [Cert.RefIdx128.var_apply, Cert.RefIdx128.mean_apply, show zero32 = (0 : EReal) from Ideal.ofBits_zero_f32, show Cert.RefIdx128.nodesLit = ((100000 : ℝ) : EReal) from Cert.Lit.nodes]
  exact Cert.Alg.bn_var_real (fun i : Fin 100000 => o (ix2 i q)) (fun i => ho _) 100000 (by norm_num)

/-- A layer of real features and parameters is real. -/
theorem layer_real128 (src dst : IVec S600000 32) {nrm : FVec Ideal S600000 .f32} {x : FVec Ideal S100000x128 .f32} {W : FVec Ideal S4x128x128 .f32} {b : FVec Ideal S128 .f32}
    {g be : FVec Ideal S128 .f32} (hn : AllReal nrm) (hx : AllReal x) (hW : AllReal W) (hb : AllReal b) (hg : AllReal g) (hbe : AllReal be) :
    AllReal (Cert.ReferenceIdeal.T.layerT src dst nrm x W b g be) := by
  have ho := linR_real128 src dst hn hx hW hb
  intro i
  obtain ⟨n, q, rfl⟩ : ∃ (n : Fin 100000) (q : Fin 128), i = ix2 n q := ⟨i 0, i 1, eq_ix2 i⟩
  show IsReal (Cert.ReferenceIdeal.T.lreluT (Cert.ReferenceIdeal.T.affineT (linR128 src dst nrm x W b) (Cert.ReferenceIdeal.T.meanT (linR128 src dst nrm x W b)) (Cert.ReferenceIdeal.T.varT (linR128 src dst nrm x W b)) g be) (ix2 n q))
  rw [Cert.RefIdx128.lrelu_apply, Cert.RefIdx128.affine_apply]
  obtain ⟨v, hv, ev⟩ := var_nonneg128 ho q
  obtain ⟨e, he, ee⟩ := Cert.Lit.eps
  obtain ⟨sl, esl⟩ := Cert.Lit.slope
  have hy : IsReal (affS (linR128 src dst nrm x W b (ix2 n q)) (Cert.ReferenceIdeal.T.meanT (linR128 src dst nrm x W b) (ix1 q)) (Cert.ReferenceIdeal.T.varT (linR128 src dst nrm x W b) (ix1 q)) (g (ix1 q)) (be (ix1 q))) := by
    unfold affS
    rw [ev, show eps = (e : EReal) from ee, ← EReal.coe_add]
    exact ((((ho _).sub (mean_real128 ho q)).mul (isReal_rsqrt (by linarith))).mul (hg _)).add (hbe _)
  unfold lreluGe Scalar.select
  exact IsReal.ite hy ((show IsReal slope from ⟨sl, esl⟩).mul hy)

/-! ## Realness through the output layer -/

theorem dot0U_real64 {h : FVec Ideal S100000x128 .f32} {W : FVec Ideal S4x128x64 .f32} (hh : AllReal h) (hW : AllReal W) :
    AllReal (Cert.ReferenceIdeal.T.dot0U (F := Ideal) h W) := by
  unfold Cert.ReferenceIdeal.T.dot0U
  exact RealLib.dot hh (RealLib.cast (RealLib.slice hW _ _) _) _

theorem dotAdd1U_real64 {acc : FVec Ideal S100000x64 .f32} {h : FVec Ideal S100000x128 .f32} {W : FVec Ideal S4x128x64 .f32} (hacc : AllReal acc) (hh : AllReal h) (hW : AllReal W) :
    AllReal (Cert.ReferenceIdeal.T.dotAdd1U (F := Ideal) acc h W) := by
  unfold Cert.ReferenceIdeal.T.dotAdd1U
  exact RealLib.add hacc (RealLib.dot hh (RealLib.cast (RealLib.slice hW _ _) _) _)

theorem dotAdd2U_real64 {acc : FVec Ideal S100000x64 .f32} {h : FVec Ideal S100000x128 .f32} {W : FVec Ideal S4x128x64 .f32} (hacc : AllReal acc) (hh : AllReal h) (hW : AllReal W) :
    AllReal (Cert.ReferenceIdeal.T.dotAdd2U (F := Ideal) acc h W) := by
  unfold Cert.ReferenceIdeal.T.dotAdd2U
  exact RealLib.add hacc (RealLib.dot hh (RealLib.cast (RealLib.slice hW _ _) _) _)

theorem dotAdd3U_real64 {acc : FVec Ideal S100000x64 .f32} {h : FVec Ideal S100000x128 .f32} {W : FVec Ideal S4x128x64 .f32} (hacc : AllReal acc) (hh : AllReal h) (hW : AllReal W) :
    AllReal (Cert.ReferenceIdeal.T.dotAdd3U (F := Ideal) acc h W) := by
  unfold Cert.ReferenceIdeal.T.dotAdd3U
  exact RealLib.add hacc (RealLib.dot hh (RealLib.cast (RealLib.slice hW _ _) _) _)

/-- The layer's linear map of real features is real. -/
theorem linR_real64 (src dst : IVec S600000 32) {nrm : FVec Ideal S600000 .f32} {x : FVec Ideal S100000x128 .f32} {W : FVec Ideal S4x128x64 .f32}
    (hn : AllReal nrm) (hx : AllReal x) (hW : AllReal W) : AllReal (linR64 src dst nrm x W) := by
  unfold linR64
  have h1 := hop_real src dst hn hx
  have h2 := hop_real src dst hn h1
  have h3 := hop_real src dst hn h2
  exact dotAdd3U_real64 (dotAdd2U_real64 (dotAdd1U_real64 (dot0U_real64 hx hW) h1 hW) h2 hW) h3 hW

/-- The column mean of a real array is real. -/
theorem mean_real64 {o : FVec Ideal S100000x64 .f32} (ho : AllReal o) (q : Fin 64) : IsReal (Cert.ReferenceIdeal.T.meanU o (ix1 q)) := by
  rw [Cert.RefIdx64.mean_apply, show Cert.RefIdx64.nodesLit = ((100000 : ℝ) : EReal) from Cert.Lit.nodes]
  exact IsReal.div_coe (RealLib.zero32_real.add (IsReal.sum _ _ fun i _ => ho _)) (by norm_num)

/-- The column variance of a real array is a nonnegative real. -/
theorem var_nonneg64 {o : FVec Ideal S100000x64 .f32} (ho : AllReal o) (q : Fin 64) : ∃ v : ℝ, 0 ≤ v ∧ Cert.ReferenceIdeal.T.varU o (ix1 q) = (v : EReal) := by
  rw [Cert.RefIdx64.var_apply, Cert.RefIdx64.mean_apply, show zero32 = (0 : EReal) from Ideal.ofBits_zero_f32, show Cert.RefIdx64.nodesLit = ((100000 : ℝ) : EReal) from Cert.Lit.nodes]
  exact Cert.Alg.bn_var_real (fun i : Fin 100000 => o (ix2 i q)) (fun i => ho _) 100000 (by norm_num)

/-- A layer of real features and parameters is real. -/
theorem layer_real64 (src dst : IVec S600000 32) {nrm : FVec Ideal S600000 .f32} {x : FVec Ideal S100000x128 .f32} {W : FVec Ideal S4x128x64 .f32}
    {g be : FVec Ideal S64 .f32} (hn : AllReal nrm) (hx : AllReal x) (hW : AllReal W) (hg : AllReal g) (hbe : AllReal be) :
    AllReal (Cert.ReferenceIdeal.T.layerU src dst nrm x W g be) := by
  have ho := linR_real64 src dst hn hx hW
  intro i
  obtain ⟨n, q, rfl⟩ : ∃ (n : Fin 100000) (q : Fin 64), i = ix2 n q := ⟨i 0, i 1, eq_ix2 i⟩
  show IsReal (Cert.ReferenceIdeal.T.lreluU (Cert.ReferenceIdeal.T.affineU (linR64 src dst nrm x W) (Cert.ReferenceIdeal.T.meanU (linR64 src dst nrm x W)) (Cert.ReferenceIdeal.T.varU (linR64 src dst nrm x W)) g be) (ix2 n q))
  rw [Cert.RefIdx64.lrelu_apply, Cert.RefIdx64.affine_apply]
  obtain ⟨v, hv, ev⟩ := var_nonneg64 ho q
  obtain ⟨e, he, ee⟩ := Cert.Lit.eps
  obtain ⟨sl, esl⟩ := Cert.Lit.slope
  have hy : IsReal (affS (linR64 src dst nrm x W (ix2 n q)) (Cert.ReferenceIdeal.T.meanU (linR64 src dst nrm x W) (ix1 q)) (Cert.ReferenceIdeal.T.varU (linR64 src dst nrm x W) (ix1 q)) (g (ix1 q)) (be (ix1 q))) := by
    unfold affS
    rw [ev, show eps = (e : EReal) from ee, ← EReal.coe_add]
    exact ((((ho _).sub (mean_real64 ho q)).mul (isReal_rsqrt (by linarith))).mul (hg _)).add (hbe _)
  unfold lreluGe Scalar.select
  exact IsReal.ite hy ((show IsReal slope from ⟨sl, esl⟩).mul hy)

/-! ## The network -/

/-- On real arguments the kernel's network function is the reference's. -/
theorem kerOut_eq (a0 : FVec Ideal S100000x128 .f32) (a1 : IVec S2x600000 32) (a2 : FVec Ideal S600000 .f32) (a3 : FVec Ideal S4x128x128 .f32)
    (a4 a5 a6 : FVec Ideal S128 .f32) (a7 : FVec Ideal S4x128x128 .f32) (a8 a9 a10 : FVec Ideal S128 .f32) (a11 : FVec Ideal S4x128x64 .f32)
    (a12 a13 : FVec Ideal S64 .f32) (h0 : AllReal a0) (h2 : AllReal a2) (h3 : AllReal a3) (h4 : AllReal a4) (h5 : AllReal a5) (h6 : AllReal a6)
    (h7 : AllReal a7) (h8 : AllReal a8) (h9 : AllReal a9) (h10 : AllReal a10) (h11 : AllReal a11) (h12 : AllReal a12) (h13 : AllReal a13) :
    Cert.KOut.kerOut a0 a1 a2 a3 a4 a5 a6 a7 a8 a9 a10 a11 a12 a13 = Cert.ReferenceIdeal.T.refOut a0 a1 a2 a3 a4 a5 a6 a7 a8 a9 a10 a11 a12 a13 := by
  unfold Cert.KOut.kerOut Cert.ReferenceIdeal.T.refOut
  have hn := norm_real (Cert.ReferenceIdeal.T.srcT a1) (Cert.ReferenceIdeal.T.dstT a1) h2
  have hx1 := layer_real128 (Cert.ReferenceIdeal.T.srcT a1) (Cert.ReferenceIdeal.T.dstT a1) hn h0 h3 h4 h5 h6
  have hx2 := layer_real128 (Cert.ReferenceIdeal.T.srcT a1) (Cert.ReferenceIdeal.T.dstT a1) hn hx1 h7 h8 h9 h10
  rw [layer_eq128 _ _ _ a0 a3 a4 a5 a6 (linR_real128 _ _ hn h0 h3 h4),
    layer_eq128 _ _ _ _ a7 a8 a9 a10 (linR_real128 _ _ hn hx1 h7 h8),
    layer_eq64 _ _ _ _ a11 a12 a13 (linR_real64 _ _ hn hx2 h11)]

end Cert.Bridge

end
-- ==== Proof.FinPre.lean ====
/- From the precondition to realness. The precondition is thirteen flags and-ed together, one per float argument: every
   entry's absolute value is below +∞. An extended real whose absolute value is below +∞ is neither infinity: it is a real. -/
import proofs.«167710_j39049842655736_2_alg».proof.Proof.RealLib
import proofs.«167710_j39049842655736_2_alg».proof.Pre_finite_inputs
import proofs.«167710_j39049842655736_2_alg».proof.Proof.Gen.Pre_finite_inputs
import Idealize.ShloMosaic.Lib.ReduceAll
import Idealize.ShloMosaic.Lib.Affine

set_option maxRecDepth 16384

noncomputable section

namespace Cert.FinPre

open Cert.Pre_finite_inputs Cert.Pre_finite_inputs.Gen Cert.Alg Cert.RealLib
open Idealize.ShloMosaic Idealize.ShloMosaic.ValueIdx

instance : Subsingleton S_.Idx := ⟨fun a b => funext fun d => d.elim0⟩

/-- The pattern of +∞. -/
theorem inf_lit : Ideal.ofBits .f32 0x7F800000#32 = (⊤ : EReal) := by simp [Ideal.ofBits, Ideal.ieee]

/-- One flag: if every entry's absolute value is below +∞, every entry is a real. -/
theorem real_of_flag {s : Shape} {axes : List (Fin s.rank)} (x : FVec Ideal s .f32) (bc : S_.BroadcastsInDim s (![] : Fin 0 → Fin s.rank))
    (h : s.ReducesTo axes S_) (hu : 0 < S_.numel)
    (e : Host.reduce IntOp.andi (cmpf .olt (Host.absf x) (broadcastInDim s ![] bc (constant (F := Ideal) S_ .f32 0x7F800000#32)))
      (constantI S_ 1 1#1) h hu ix0 = 1#1) : AllReal x := fun i => by
  have hi := Host.reduce_andi_all _ _ h hu ix0 e i
  have h2 : Ideal.cmp .olt (max (x i) (-(x i))) (Ideal.ofBits .f32 0x7F800000#32) = 1#1 := hi
  rw [inf_lit] at h2
  unfold Ideal.cmp at h2
  have h3 : max (x i) (-(x i)) < ⊤ := by
    by_contra hc
    simp [hc] at h2
  have hlt : x i < ⊤ := lt_of_le_of_lt (le_max_left _ _) h3
  have hgt : -(x i) < ⊤ := lt_of_le_of_lt (le_max_right _ _) h3
  generalize x i = v at hlt hgt ⊢
  induction v using EReal.rec with
  | bot => simp at hgt
  | coe r => exact ⟨r, rfl⟩
  | top => simp at hlt

/-- The precondition gives realness of all thirteen float arguments. -/
theorem inputs_real (a0 : FVec Ideal S100000x128 .f32) (a1 : IVec S2x600000 32) (a2 : FVec Ideal S600000 .f32) (a3 : FVec Ideal S4x128x128 .f32)
    (a4 a5 a6 : FVec Ideal S128 .f32) (a7 : FVec Ideal S4x128x128 .f32) (a8 a9 a10 : FVec Ideal S128 .f32) (a11 : FVec Ideal S4x128x64 .f32)
    (a12 a13 : FVec Ideal S64 .f32) (h : fn (F := Ideal) a0 a1 a2 a3 a4 a5 a6 a7 a8 a9 a10 a11 a12 a13 = fun _ => 1#1) :
    AllReal a0 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 := by
  have e := congrFun h ix0
  dsimp only [fn, fn_part1, fn_part2, fn_part3] at e
  simp only [andi, IntOp.andi_eq_one] at e
  obtain ⟨⟨⟨⟨⟨⟨⟨⟨⟨⟨⟨⟨e0, e2⟩, e3⟩, e4⟩, e5⟩, e6⟩, e7⟩, e8⟩, e9⟩, e10⟩, e11⟩, e12⟩, e13⟩ := e
  exact ⟨real_of_flag a0 _ _ _ e0, real_of_flag a2 _ _ _ e2, real_of_flag a3 _ _ _ e3, real_of_flag a4 _ _ _ e4, real_of_flag a5 _ _ _ e5, real_of_flag a6 _ _ _ e6, real_of_flag a7 _ _ _ e7, real_of_flag a8 _ _ _ e8, real_of_flag a9 _ _ _ e9, real_of_flag a10 _ _ _ e10, real_of_flag a11 _ _ _ e11, real_of_flag a12 _ _ _ e12, real_of_flag a13 _ _ _ e13⟩

end Cert.FinPre

end
-- ==== Proof.lean ====
/- The certificate's five claims for a three-layer graph network: each layer is a four-term linear map of the features and
   their three propagations over the normalised graph, batch normalisation over the nodes, and a leaky rectifier.
   Frames: the two kernel programs' runs are the generated frame theorems; the reference is a straight line of host
   operations, which runs to the fold of its operations and writes none of its arguments.
   Preserves: the idealisation rewrote nothing.
   Algebraic: the idealized kernel's run ends with its result at the kernel network function of its arguments (the host
   stretches read operation by operation, the six kernel regions by their result arrays), the reference's at the reference
   network function; the arguments agree; under the precondition they are real, and on real arguments the two functions
   coincide: the kernel's block-wise sums are the reference's sums regrouped, and its variance — mean of squares minus
   squared mean, clamped at zero — is the mean of squared deviations. -/
import proofs.«167710_j39049842655736_2_alg».proof.Defs
import proofs.«167710_j39049842655736_2_alg».proof.Proof.Gen.Kernel
import proofs.«167710_j39049842655736_2_alg».proof.Proof.Gen.Kernel.Frame
import proofs.«167710_j39049842655736_2_alg».proof.Proof.Gen.KernelIdeal
import proofs.«167710_j39049842655736_2_alg».proof.Proof.Gen.KernelIdeal.Frame
import proofs.«167710_j39049842655736_2_alg».proof.Proof.Gen.ReferenceIdeal
import proofs.«167710_j39049842655736_2_alg».proof.Proof.Gen.Pre_finite_inputs
import proofs.«167710_j39049842655736_2_alg».proof.Proof.RefRun
import proofs.«167710_j39049842655736_2_alg».proof.Proof.RefRead
import proofs.«167710_j39049842655736_2_alg».proof.Proof.KChain
import proofs.«167710_j39049842655736_2_alg».proof.Proof.Bridge
import proofs.«167710_j39049842655736_2_alg».proof.Proof.FinPre
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

set_option maxHeartbeats 4000000 in
theorem algebraic : Cert.algebraic_KernelIdeal_ReferenceIdeal := by
  intro m ρ m' ρ' hpre hagree
  refine ⟨fun c => Cert.KOut.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.KChain.run_value m ρ, ?_⟩
  refine (θ_run Cert.ReferenceIdeal.defs _ _).mono (fun r h c => ⟨(h c).1.trans ?_, (h c).2⟩)
    (Cert.ReferenceIdeal.RefRead.run_value (F := Ideal) m' ρ')
  obtain ⟨e0, e1, e2, e3, e4, e5, e6, e7, e8, e9, e10, e11, e12, e13⟩ := hagree c
  rw [e0, e1, e2, e3, e4, e5, e6, e7, e8, e9, e10, e11, e12, e13]
  obtain ⟨h0, h2, h3, h4, h5, h6, h7, h8, h9, h10, h11, h12, h13⟩ := Cert.FinPre.inputs_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  exact (Cert.Bridge.kerOut_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) h0 h2 h3 h4 h5 h6 h7 h8 h9 h10 h11 h12 h13).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
